-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x600000 : Shape := ⟨2, ![2, 600000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256x128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S256x128 .f32) (main_arg11 : FVec F S256x128 .f32) (main_arg12 : FVec F S128 .f32) (main_arg13 : FVec F S256x128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S512x256 .f32) (main_arg7 : FVec F S256 .f32) (main_arg8 : FVec F S256x128 .f32) (main_arg9 : FVec F S128 .f32) (main_arg10 : FVec F S256x128 .f32) (main_arg11 : FVec F S256x128 .f32) (main_arg12 : FVec F S128 .f32) (main_arg13 : FVec F S256x128 .f32) (main_arg14 : FVec F S128x128 .f32) (main_arg15 : FVec F S128 .f32) (main_arg16 : FVec F S128 .f32) (main_arg17 : FVec F S128 .f32) (main_arg18 : FVec F S128x1 .f32) (main_arg19 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x512 .f32) (main_arg1 : FVec F S100000x512 .f32) (main_arg2 : IVec S2x600000 32) (main_arg3 : IVec S2x600000 32) (main_arg4 : FVec F S512x256 .f32) (main_arg5 : FVec F S256 .f32) (main_arg6 : FVec F S512x256 .f32) (main_arg7 : FVec F S256 .f32) (main_arg8 : FVec F S256x128 .f32) (main_arg9 : FVec F S128 .f32) (main_arg10 : FVec F S256x128 .f32) (main_arg11 : FVec F S256x128 .f32) (main_arg12 : FVec F S128 .f32) (main_arg13 : FVec F S256x128 .f32) (main_arg14 : FVec F S128x128 .f32) (main_arg15 : FVec F S128 .f32) (main_arg16 : FVec F S128 .f32) (main_arg17 : FVec F S128 .f32) (main_arg18 : FVec F S128x1 .f32) (main_arg19 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x512 : Shape := ⟨2, ![100000, 512]⟩
abbrev S2x600000 : Shape := ⟨2, ![2, 600000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S100000x256 : Shape := ⟨2, ![100000, 256]⟩
abbrev S1000x512 : Shape := ⟨2, ![1000, 512]⟩
abbrev S1000x1 : Shape := ⟨2, ![1000, 1]⟩
abbrev S1000x256 : Shape := ⟨2, ![1000, 256]⟩
abbrev S600000x256 : Shape := ⟨2, ![600000, 256]⟩
abbrev S1x256 : Shape := ⟨2, ![1, 256]⟩
abbrev S1x128 : Shape := ⟨2, ![1, 128]⟩
abbrev S1x1 : Shape := ⟨2, ![1, 1]⟩
abbrev S1000x128 : Shape := ⟨2, ![1000, 128]⟩
abbrev S1000 : Shape := ⟨1, ![1000]⟩
abbrev S200000 : Shape := ⟨1, ![200000]⟩

abbrev nBuf : Space → Nat
  | .hbm => 152
  | .vmem => 62
  | .smem => 0
  | _ => 0

abbrev hbmTy0_0 (i : Nat) : BufTy := match i % 128 with
  | 0 => ⟨S100000x512, .f32⟩
  | 1 => ⟨S100000x512, .f32⟩
  | 2 => ⟨S2x600000, .i32⟩
  | 3 => ⟨S2x600000, .i32⟩
  | 4 => ⟨S512x256, .f32⟩
  | 5 => ⟨S256, .f32⟩
  | 6 => ⟨S512x256, .f32⟩
  | 7 => ⟨S256, .f32⟩
  | 8 => ⟨S256x128, .f32⟩
  | 9 => ⟨S128, .f32⟩
  | 10 => ⟨S256x128, .f32⟩
  | 11 => ⟨S256x128, .f32⟩
  | 12 => ⟨S128, .f32⟩
  | 13 => ⟨S256x128, .f32⟩
  | 14 => ⟨S128x128, .f32⟩
  | 15 => ⟨S128, .f32⟩
  | 16 => ⟨S128, .f32⟩
  | 17 => ⟨S128, .f32⟩
  | 18 => ⟨S128x1, .f32⟩
  | 19 => ⟨S1, .f32⟩
  | 20 => ⟨S1x600000, .i32⟩
  | 21 => ⟨S600000, .i32⟩
  | 22 => ⟨S1x600000, .i32⟩
  | 23 => ⟨S600000, .i32⟩
  | 24 => ⟨S1x600000, .i32⟩
  | 25 => ⟨S600000, .i32⟩
  | 26 => ⟨S1x600000, .i32⟩
  | 27 => ⟨S600000, .i32⟩
  | 28 => ⟨S_, .f32⟩
  | 29 => ⟨S600000, .f32⟩
  | 30 => ⟨S_, .f32⟩
  | 31 => ⟨S100000, .f32⟩
  | 32 => ⟨S600000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S_, .f32⟩
  | 40 => ⟨S600000, .f32⟩
  | 41 => ⟨S_, .f32⟩
  | 42 => ⟨S100000, .f32⟩
  | 43 => ⟨S600000x1, .i32⟩
  | 44 => ⟨S100000, .f32⟩
  | 45 => ⟨S_, .f32⟩
  | 46 => ⟨S100000, .f32⟩
  | 47 => ⟨S100000, .f32⟩
  | 48 => ⟨S100000, .f32⟩
  | 49 => ⟨S100000x1, .f32⟩
  | 50 => ⟨S100000x256, .f32⟩
  | 51 => ⟨S100000x256, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x256, .f32⟩
  | 61 => ⟨S_, .f32⟩
  | 62 => ⟨S100000x256, .f32⟩
  | 63 => ⟨S600000x1, .i32⟩
  | 64 => ⟨S100000x256, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x256, .f32⟩
  | 74 => ⟨S_, .f32⟩
  | 75 => ⟨S100000x256, .f32⟩
  | 76 => ⟨S600000x1, .i32⟩
  | 77 => ⟨S100000x256, .f32⟩
  | 78 => ⟨S1x256, .f32⟩
  | 79 => ⟨S1x256, .f32⟩
  | 80 => ⟨S100000x256, .f32⟩
  | 81 => ⟨S100000x256, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x256, .f32⟩
  | 91 => ⟨S_, .f32⟩
  | 92 => ⟨S100000x256, .f32⟩
  | 93 => ⟨S600000x1, .i32⟩
  | 94 => ⟨S100000x256, .f32⟩
  | 95 => ⟨S_, .f32⟩
  | 96 => ⟨S600000, .f32⟩
  | 97 => ⟨S_, .f32⟩
  | 98 => ⟨S100000, .f32⟩
  | 99 => ⟨S600000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x256, .f32⟩
  | 106 => ⟨S100000x256, .f32⟩
  | 107 => ⟨S1x128, .f32⟩
  | 108 => ⟨S1x128, .f32⟩
  | 109 => ⟨S1x128, .f32⟩
  | 110 => ⟨S1x128, .f32⟩
  | 111 => ⟨S1x1, .f32⟩
  | 112 => ⟨S100000x1, .f32⟩
  | 113 => ⟨S100000, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x256, .f32⟩
  | 123 => ⟨S_, .f32⟩
  | 124 => ⟨S100000x256, .f32⟩
  | 125 => ⟨S600000x1, .i32⟩
  | 126 => ⟨S100000x256, .f32⟩
  | 127 => ⟨S_, .f32⟩
  | _ => ⟨S100000x512, .f32⟩

abbrev hbmTy0_1 (i : Nat) : BufTy := match i % 128 with
  | 0 => ⟨S600000, .f32⟩
  | 1 => ⟨S_, .f32⟩
  | 2 => ⟨S100000, .f32⟩
  | 3 => ⟨S600000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x256, .f32⟩
  | 10 => ⟨S100000x256, .f32⟩
  | 11 => ⟨S1x128, .f32⟩
  | 12 => ⟨S1x128, .f32⟩
  | 13 => ⟨S1x128, .f32⟩
  | 14 => ⟨S1x128, .f32⟩
  | 15 => ⟨S1x1, .f32⟩
  | 16 => ⟨S100000x1, .f32⟩
  | 17 => ⟨S100000, .f32⟩
  | 18 => ⟨S200000, .f32⟩
  | 19 => ⟨S_, .f32⟩
  | 20 => ⟨S_, .f32⟩
  | 21 => ⟨S_, .f32⟩
  | 22 => ⟨S_, .f32⟩
  | 23 => ⟨S1x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x512, .f32⟩
  | .local _ .vmem, ⟨8, _⟩ => ⟨S1000x512, .f32⟩
  | .local _ .vmem, ⟨9, _⟩ => ⟨S512x256, .f32⟩
  | .local _ .vmem, ⟨10, _⟩ => ⟨S1000x1, .f32⟩
  | .local _ .vmem, ⟨11, _⟩ => ⟨S1000x1, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x1, .f32⟩
  | .local _ .vmem, ⟨19, _⟩ => ⟨S1000x1, .f32⟩
  | .local _ .vmem, ⟨20, _⟩ => ⟨S1x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x1, .f32⟩
  | .local _ .vmem, ⟨26, _⟩ => ⟨S1000x1, .f32⟩
  | .local _ .vmem, ⟨27, _⟩ => ⟨S1x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1000x256, .f32⟩
  | .local _ .vmem, ⟨35, _⟩ => ⟨S1000x256, .f32⟩
  | .local _ .vmem, ⟨36, _⟩ => ⟨S256x128, .f32⟩
  | .local _ .vmem, ⟨37, _⟩ => ⟨S1x128, .f32⟩
  | .local _ .vmem, ⟨38, _⟩ => ⟨S256x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S128x1, .f32⟩
  | .local _ .vmem, ⟨44, _⟩ => ⟨S1x1, .f32⟩
  | .local _ .vmem, ⟨45, _⟩ => ⟨S1000x1, .f32⟩
  | .local _ .vmem, ⟨46, _⟩ => ⟨S1000x1, .f32⟩
  | .local _ .vmem, ⟨47, _⟩ => ⟨S1000x256, .f32⟩
  | .local _ .vmem, ⟨48, _⟩ => ⟨S1000x256, .f32⟩
  | .local _ .vmem, ⟨49, _⟩ => ⟨S1000x256, .f32⟩
  | .local _ .vmem, ⟨50, _⟩ => ⟨S1000x256, .f32⟩
  | .local _ .vmem, ⟨51, _⟩ => ⟨S256x128, .f32⟩
  | .local _ .vmem, ⟨52, _⟩ => ⟨S1x128, .f32⟩
  | .local _ .vmem, ⟨53, _⟩ => ⟨S256x128, .f32⟩
  | .local _ .vmem, ⟨54, _⟩ => ⟨S128x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S128x1, .f32⟩
  | .local _ .vmem, ⟨59, _⟩ => ⟨S1x1, .f32⟩
  | .local _ .vmem, ⟨60, _⟩ => ⟨S1000x1, .f32⟩
  | .local _ .vmem, ⟨61, _⟩ => ⟨S1000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48_0 : Ref sig .tc := ⟨.hbm, 80, rfl⟩
abbrev main_v48_1 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_16 : Ref sig .tc := ⟨.hbm, 114, rfl⟩
abbrev main_v75 : Ref sig .tc := ⟨.hbm, 115, rfl⟩
abbrev main_v76 : Ref sig .tc := ⟨.hbm, 116, rfl⟩
abbrev main_c_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_cst_20 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_stg11_0 : Ref sig .tc := ⟨.vmem, 45, rfl⟩
abbrev cc3_stg11_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg10_0 : Ref sig .tc := ⟨.vmem, 59, rfl⟩
abbrev cc4_stg11_0 : Ref sig .tc := ⟨.vmem, 60, rfl⟩
abbrev cc4_stg11_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem8_0 : DmaSem sig := 28
abbrev cc2_sem8_1 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem11_0 : DmaSem sig := 45
abbrev cc3_sem11_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem10_0 : DmaSem sig := 59
abbrev cc4_sem11_0 : DmaSem sig := 60
abbrev cc4_sem11_1 : DmaSem sig := 61

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1000x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S100000x256 : S_.BroadcastsInDim S100000x256 (![] : Fin 0 → Fin S100000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S100000x1_S100000x256_0_1 : S100000x1.BroadcastsInDim S100000x256 (![0, 1] : Fin 2 → Fin S100000x256.rank)
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  reduces_S1000x128_S1000 : S1000x128.Reduces [1] S1000
  shapeCasts_S1000_S1000x1 : S1000.ShapeCasts S1000x1
  broadcasts_S1000x1_S1000x128 : S1000x1.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  shapeCasts_S100000x1_S100000 : S100000x1.ShapeCasts S100000
  concatenates_S100000_S100000_S200000_d0 : Shape.Concatenates [S100000, S100000] S200000 0
  reducesTo_S200000_S_d0 : S200000.ReducesTo [0] S_
  h_S_ : 0 < S_.numel
  bcast_S_S1x1 : S_.BroadcastsInDim S1x1 (![] : Fin 0 → Fin S1x1.rank)
  scatter_S100000_S600000x1_S600000_n_0_0_1_wf : ScatterDims.WF S100000 S600000x1 S600000 [] [0] [0] 1
  dot_S1000x512_S512x256_S1000x256_1_0_0_1_n_n_wf : DotDims.WF S1000x512 S512x256 S1000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S100000x512.size a
  hwx1_0 : ∀ i : grid1.Coords, EltTy.bits .f32 = 32 ∨ (Rect.block (s := S100000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S100000x256.size a
  hwx1_3 : ∀ i : grid1.Coords, EltTy.bits .f32 = 32 ∨ (Rect.block (s := S100000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S100000x256.size a
  hwx2_0 : ∀ i : grid2.Coords, EltTy.bits .f32 = 32 ∨ (Rect.block (s := S100000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S100000x256.size a
  hwx2_1 : ∀ i : grid2.Coords, EltTy.bits .f32 = 32 ∨ (Rect.block (s := S100000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .f32 = 32 ∨ (Rect.block (s := S100000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S100000x256.size a
  hwx2_4 : ∀ i : grid2.Coords, EltTy.bits .f32 = 32 ∨ (Rect.block (s := S100000x256) S1000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S100000x256.size a
  hwx2_5 : ∀ i : grid2.Coords, EltTy.bits .f32 = 32 ∨ (Rect.block (s := S100000x256) S1000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x1.size a ≤ S100000x1.size a
  hwx2_6 : ∀ i : grid2.Coords, EltTy.bits .f32 = 32 ∨ (Rect.block (s := S100000x1) S1000x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x256.size a ≤ S100000x256.size a
  hwx2_8 : ∀ i : grid2.Coords, EltTy.bits .f32 = 32 ∨ (Rect.block (s := S100000x256) S1000x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S100000x256.size a
  hwx2_9 : ∀ i : grid2.Coords, EltTy.bits .f32 = 32 ∨ (Rect.block (s := S100000x256) S1000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S100000x256.size a
  hwx3_0 : ∀ i : grid3.Coords, EltTy.bits .f32 = 32 ∨ (Rect.block (s := S100000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S100000x256.size a
  hwx3_1 : ∀ i : grid3.Coords, EltTy.bits .f32 = 32 ∨ (Rect.block (s := S100000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x1.size a ≤ S128x1.size a
  hwx3_9 : ∀ i : grid3.Coords, EltTy.bits .f32 = 32 ∨ (Rect.block (s := S128x1) S128x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1000x1.size a ≤ S100000x1.size a
  hwx3_11 : ∀ i : grid3.Coords, EltTy.bits .f32 = 32 ∨ (Rect.block (s := S100000x1) S1000x1.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S100000x256.size a
  hwx4_0 : ∀ i : grid4.Coords, EltTy.bits .f32 = 32 ∨ (Rect.block (s := S100000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x256.size a ≤ S100000x256.size a
  hwx4_1 : ∀ i : grid4.Coords, EltTy.bits .f32 = 32 ∨ (Rect.block (s := S100000x256) S1000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x1.size a ≤ S128x1.size a
  hwx4_9 : ∀ i : grid4.Coords, EltTy.bits .f32 = 32 ∨ (Rect.block (s := S128x1) S128x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1000x1.size a ≤ S100000x1.size a
  hwx4_11 : ∀ i : grid4.Coords, EltTy.bits .f32 = 32 ∨ (Rect.block (s := S100000x1) S1000x1.size (cc4_transform_11 i) (hinb4_11 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v25) S1000x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48_0) S1000x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v48_1) S1000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v67) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_0) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v70) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v71) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg18) S128x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v72) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v73) S1000x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v93) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48_1) S1000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v96) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v97) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg18) S128x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v98) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v99) S1000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x600000 : Shape := ⟨2, ![2, 600000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000x256 : Shape := ⟨2, ![100000, 256]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x256 : Shape := ⟨2, ![700000, 256]⟩
abbrev S1x256 : Shape := ⟨2, ![1, 256]⟩
abbrev S600000x1 : Shape := ⟨2, ![600000, 1]⟩
abbrev S600000x256 : Shape := ⟨2, ![600000, 256]⟩
abbrev S100000x1 : Shape := ⟨2, ![100000, 1]⟩
abbrev S100000x128 : Shape := ⟨2, ![100000, 128]⟩
abbrev S1x128 : Shape := ⟨2, ![1, 128]⟩
abbrev S1x1 : Shape := ⟨2, ![1, 1]⟩
abbrev S200000 : Shape := ⟨1, ![200000]⟩

abbrev nBuf : Space → Nat
  | .hbm => 304
  | .vmem => 0
  | .smem => 0
  | _ => 0

abbrev hbmTy0_0 (i : Nat) : BufTy := match i % 128 with
  | 0 => ⟨S100000x512, .f32⟩
  | 1 => ⟨S100000x512, .f32⟩
  | 2 => ⟨S2x600000, .i32⟩
  | 3 => ⟨S2x600000, .i32⟩
  | 4 => ⟨S512x256, .f32⟩
  | 5 => ⟨S256, .f32⟩
  | 6 => ⟨S512x256, .f32⟩
  | 7 => ⟨S256, .f32⟩
  | 8 => ⟨S256x128, .f32⟩
  | 9 => ⟨S128, .f32⟩
  | 10 => ⟨S256x128, .f32⟩
  | 11 => ⟨S256x128, .f32⟩
  | 12 => ⟨S128, .f32⟩
  | 13 => ⟨S256x128, .f32⟩
  | 14 => ⟨S128x128, .f32⟩
  | 15 => ⟨S128, .f32⟩
  | 16 => ⟨S128, .f32⟩
  | 17 => ⟨S128, .f32⟩
  | 18 => ⟨S128x1, .f32⟩
  | 19 => ⟨S1, .f32⟩
  | 20 => ⟨S1x600000, .i32⟩
  | 21 => ⟨S600000, .i32⟩
  | 22 => ⟨S1x600000, .i32⟩
  | 23 => ⟨S600000, .i32⟩
  | 24 => ⟨S1x600000, .i32⟩
  | 25 => ⟨S600000, .i32⟩
  | 26 => ⟨S1x600000, .i32⟩
  | 27 => ⟨S600000, .i32⟩
  | 28 => ⟨S100000x256, .f32⟩
  | 29 => ⟨S100000, .i32⟩
  | 30 => ⟨S700000, .i32⟩
  | 31 => ⟨S700000, .i32⟩
  | 32 => ⟨S_, .f32⟩
  | 33 => ⟨S700000, .f32⟩
  | 34 => ⟨S_, .f32⟩
  | 35 => ⟨S100000, .f32⟩
  | 36 => ⟨S700000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000, .f32⟩
  | 67 => ⟨S700000, .f32⟩
  | 68 => ⟨S_, .i32⟩
  | 69 => ⟨S700000, .i32⟩
  | 70 => ⟨S700000, .i1⟩
  | 71 => ⟨S_, .i32⟩
  | 72 => ⟨S700000, .i32⟩
  | 73 => ⟨S700000, .i32⟩
  | 74 => ⟨S700000, .i32⟩
  | 75 => ⟨S700000x1, .i32⟩
  | 76 => ⟨S700000x256, .f32⟩
  | 77 => ⟨S700000x1, .f32⟩
  | 78 => ⟨S700000x256, .f32⟩
  | 79 => ⟨S700000x256, .f32⟩
  | 80 => ⟨S_, .f32⟩
  | 81 => ⟨S100000x256, .f32⟩
  | 82 => ⟨S700000x1, .i32⟩
  | 83 => ⟨S100000x256, .f32⟩
  | 84 => ⟨S1x256, .f32⟩
  | 85 => ⟨S100000x256, .f32⟩
  | 86 => ⟨S100000x256, .f32⟩
  | 87 => ⟨S_, .f32⟩
  | 88 => ⟨S100000x256, .f32⟩
  | 89 => ⟨S100000x256, .f32⟩
  | 90 => ⟨S100000x256, .f32⟩
  | 91 => ⟨S100000, .i32⟩
  | 92 => ⟨S700000, .i32⟩
  | 93 => ⟨S700000, .i32⟩
  | 94 => ⟨S_, .f32⟩
  | 95 => ⟨S700000, .f32⟩
  | 96 => ⟨S_, .f32⟩
  | 97 => ⟨S100000, .f32⟩
  | 98 => ⟨S700000x1, .i32⟩
  | 99 => ⟨S100000, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S100000, .f32⟩
  | 107 => ⟨S_, .f32⟩
  | 108 => ⟨S_, .f32⟩
  | 109 => ⟨S100000, .f32⟩
  | 110 => ⟨S100000, .f32⟩
  | 111 => ⟨S_, .i32⟩
  | 112 => ⟨S700000, .i32⟩
  | 113 => ⟨S700000, .i1⟩
  | 114 => ⟨S_, .i32⟩
  | 115 => ⟨S700000, .i32⟩
  | 116 => ⟨S700000, .i32⟩
  | 117 => ⟨S700000, .i32⟩
  | 118 => ⟨S700000x1, .i32⟩
  | 119 => ⟨S700000, .f32⟩
  | 120 => ⟨S_, .i32⟩
  | 121 => ⟨S700000, .i32⟩
  | 122 => ⟨S700000, .i1⟩
  | 123 => ⟨S_, .i32⟩
  | 124 => ⟨S700000, .i32⟩
  | 125 => ⟨S700000, .i32⟩
  | 126 => ⟨S700000, .i32⟩
  | 127 => ⟨S700000x1, .i32⟩
  | _ => ⟨S100000x512, .f32⟩

abbrev hbmTy0_1 (i : Nat) : BufTy := match i % 128 with
  | 0 => ⟨S700000, .f32⟩
  | 1 => ⟨S700000, .f32⟩
  | 2 => ⟨S_, .i32⟩
  | 3 => ⟨S700000, .i32⟩
  | 4 => ⟨S700000, .i1⟩
  | 5 => ⟨S_, .i32⟩
  | 6 => ⟨S700000, .i32⟩
  | 7 => ⟨S700000, .i32⟩
  | 8 => ⟨S700000, .i32⟩
  | 9 => ⟨S700000x1, .i32⟩
  | 10 => ⟨S700000x256, .f32⟩
  | 11 => ⟨S700000x1, .f32⟩
  | 12 => ⟨S700000x256, .f32⟩
  | 13 => ⟨S700000x256, .f32⟩
  | 14 => ⟨S_, .f32⟩
  | 15 => ⟨S100000x256, .f32⟩
  | 16 => ⟨S700000x1, .i32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S100000x256, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x256, .f32⟩
  | 34 => ⟨S_, .f32⟩
  | 35 => ⟨S100000x256, .f32⟩
  | 36 => ⟨S600000x1, .i32⟩
  | 37 => ⟨S100000x256, .f32⟩
  | 38 => ⟨S_, .f32⟩
  | 39 => ⟨S600000, .f32⟩
  | 40 => ⟨S_, .f32⟩
  | 41 => ⟨S100000, .f32⟩
  | 42 => ⟨S600000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x256, .f32⟩
  | 49 => ⟨S100000x256, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S_, .f32⟩
  | 81 => ⟨S100000x1, .f32⟩
  | 82 => ⟨S100000x1, .f32⟩
  | 83 => ⟨S100000x1, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S100000x1, .f32⟩
  | 93 => ⟨S1x1, .f32⟩
  | 94 => ⟨S100000x1, .f32⟩
  | 95 => ⟨S100000x1, .f32⟩
  | 96 => ⟨S100000, .f32⟩
  | 97 => ⟨S100000x256, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x256, .f32⟩
  | 107 => ⟨S_, .f32⟩
  | 108 => ⟨S100000x256, .f32⟩
  | 109 => ⟨S600000x1, .i32⟩
  | 110 => ⟨S100000x256, .f32⟩
  | 111 => ⟨S_, .f32⟩
  | 112 => ⟨S600000, .f32⟩
  | 113 => ⟨S_, .f32⟩
  | 114 => ⟨S100000, .f32⟩
  | 115 => ⟨S600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x256, .f32⟩
  | 122 => ⟨S100000x256, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x512, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S_, .f32⟩
  | 26 => ⟨S100000x1, .f32⟩
  | 27 => ⟨S100000x1, .f32⟩
  | 28 => ⟨S100000x1, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S100000x1, .f32⟩
  | 38 => ⟨S1x1, .f32⟩
  | 39 => ⟨S100000x1, .f32⟩
  | 40 => ⟨S100000x1, .f32⟩
  | 41 => ⟨S100000, .f32⟩
  | 42 => ⟨S200000, .f32⟩
  | 43 => ⟨S_, .f32⟩
  | 44 => ⟨S_, .f32⟩
  | 45 => ⟨S_, .f32⟩
  | 46 => ⟨S_, .f32⟩
  | 47 => ⟨S1x1, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v21 : Ref sig .tc := ⟨.hbm, 48, rfl⟩
abbrev main_c : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_call2_v0 : Ref sig .tc := ⟨.hbm, 108, rfl⟩
abbrev main_call2_v1 : Ref sig .tc := ⟨.hbm, 109, rfl⟩
abbrev main_v67 : Ref sig .tc := ⟨.hbm, 110, rfl⟩
abbrev main_c_15 : Ref sig .tc := ⟨.hbm, 111, rfl⟩
abbrev main_v68 : Ref sig .tc := ⟨.hbm, 112, rfl⟩
abbrev main_v69 : Ref sig .tc := ⟨.hbm, 113, rfl⟩
abbrev main_c_16 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_c_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_c_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_21 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_call3_cst : Ref sig .tc := ⟨.hbm, 149, rfl⟩
abbrev main_call3_v0 : Ref sig .tc := ⟨.hbm, 150, rfl⟩
abbrev main_v99 : Ref sig .tc := ⟨.hbm, 151, rfl⟩
abbrev main_v100 : Ref sig .tc := ⟨.hbm, 152, rfl⟩
abbrev main_c_22 : Ref sig .tc := ⟨.hbm, 153, rfl⟩
abbrev main_v101 : Ref sig .tc := ⟨.hbm, 154, rfl⟩
abbrev main_v102 : Ref sig .tc := ⟨.hbm, 155, rfl⟩
abbrev main_c_23 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_24 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_25 : Ref sig .tc := ⟨.hbm, 166, rfl⟩
abbrev main_v111 : Ref sig .tc := ⟨.hbm, 167, rfl⟩
abbrev main_cst_26 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_27 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call4_cst : Ref sig .tc := ⟨.hbm, 184, rfl⟩
abbrev main_call4_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_28 : Ref sig .tc := ⟨.hbm, 191, rfl⟩
abbrev main_v131 : Ref sig .tc := ⟨.hbm, 192, rfl⟩
abbrev main_v132 : Ref sig .tc := ⟨.hbm, 193, rfl⟩
abbrev main_cst_29 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_30 : Ref sig .tc := ⟨.hbm, 200, rfl⟩
abbrev main_v138 : Ref sig .tc := ⟨.hbm, 201, rfl⟩
abbrev main_v139 : Ref sig .tc := ⟨.hbm, 202, rfl⟩
abbrev main_cst_31 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_32 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_c_33 : Ref sig .tc := ⟨.hbm, 226, rfl⟩
abbrev main_v161 : Ref sig .tc := ⟨.hbm, 227, rfl⟩
abbrev main_v162 : Ref sig .tc := ⟨.hbm, 228, rfl⟩
abbrev main_c_34 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_35 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_36 : Ref sig .tc := ⟨.hbm, 239, rfl⟩
abbrev main_v171 : Ref sig .tc := ⟨.hbm, 240, rfl⟩
abbrev main_cst_37 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_38 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_call5_cst : Ref sig .tc := ⟨.hbm, 257, rfl⟩
abbrev main_call5_v0 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_cst_39 : Ref sig .tc := ⟨.hbm, 264, rfl⟩
abbrev main_v191 : Ref sig .tc := ⟨.hbm, 265, rfl⟩
abbrev main_v192 : Ref sig .tc := ⟨.hbm, 266, rfl⟩
abbrev main_cst_40 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_41 : Ref sig .tc := ⟨.hbm, 273, rfl⟩
abbrev main_v198 : Ref sig .tc := ⟨.hbm, 274, rfl⟩
abbrev main_v199 : Ref sig .tc := ⟨.hbm, 275, rfl⟩
abbrev main_cst_42 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_43 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_cst_44 : Ref sig .tc := ⟨.hbm, 299, rfl⟩
abbrev main_v221 : Ref sig .tc := ⟨.hbm, 300, rfl⟩
abbrev main_cst_45 : Ref sig .tc := ⟨.hbm, 301, rfl⟩
abbrev main_v222 : Ref sig .tc := ⟨.hbm, 302, rfl⟩
abbrev main_v223 : Ref sig .tc := ⟨.hbm, 303, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S600000 : S_.BroadcastsInDim S600000 (![] : Fin 0 → Fin S600000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  concatenates_S100000_S100000_S200000_d0 : Shape.Concatenates [S100000, S100000] S200000 0
  reducesTo_S200000_S_d0 : S200000.ReducesTo [0] S_
  bcast_S_S1x1 : S_.BroadcastsInDim S1x1 (![] : Fin 0 → Fin S1x1.rank)
  dot_S100000x512_S512x256_S100000x256_1_0_0_1_n_n_wf : DotDims.WF S100000x512 S512x256 S100000x256 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  scatter_S100000_S600000x1_S600000_n_0_0_1_wf : ScatterDims.WF S100000 S600000x1 S600000 [] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RefRunS.lean ====
/- The reference program's run read back stretch by stretch against its stage values. The 284 operations are those of
   Proof/RefRunP.lean (copied line by line from that module's `ops`), cut into consecutive stretches: a cut before every
   concatenation, at most 24 operations in a stretch. Between two stretches every buffer that a later operation reads
   holds its stage of the reference (Proof/RefReadP.lean's `val_` of the arguments) and every argument is as given
   (`Inv<i>`); one stretch carries that state from its entry to its exit (`step<i>`): a buffer the stretch writes is the
   stretch's operations applied to the entry state, which is its stage by unfolding; a buffer it does not write is
   unchanged. Proof/RefRunThmS.lean chains the stretches into the statement of `run`. -/

import proofs.«149613_j7086696039015_2_alg».proof.Proof.RefReadP

set_option maxRecDepth 16384

noncomputable section

namespace Cert.ReferenceIdeal.ValueS

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## @main's operations in consecutive stretches, and the references each stretch writes -/

/-- Operations 1 … 10 of @main. -/
abbrev st1 : List (HloOp τ sig (Elt F)) :=
    unary main_arg2 main_v0 ((extractStridedSlice S1x600000 ![0, 0] · slices_S2x600000_S1x600000_0_0) : (⟨S2x600000, .i32⟩ : BufTy).Contents (Elt F) → (⟨S1x600000, .i32⟩ : BufTy).Contents (Elt F)) ::
    reshape main_v0 main_v1 rfl shapeCasts_S1x600000_S600000 ::
    unary main_arg2 main_v2 ((extractStridedSlice S1x600000 ![1, 0] · slices_S2x600000_S1x600000_1_0) : (⟨S2x600000, .i32⟩ : BufTy).Contents (Elt F) → (⟨S1x600000, .i32⟩ : BufTy).Contents (Elt F)) ::
    reshape main_v2 main_v3 rfl shapeCasts_S1x600000_S600000 ::
    unary main_arg3 main_v4 ((extractStridedSlice S1x600000 ![0, 0] · slices_S2x600000_S1x600000_0_0) : (⟨S2x600000, .i32⟩ : BufTy).Contents (Elt F) → (⟨S1x600000, .i32⟩ : BufTy).Contents (Elt F)) ::
    reshape main_v4 main_v5 rfl shapeCasts_S1x600000_S600000 ::
    unary main_arg3 main_v6 ((extractStridedSlice S1x600000 ![1, 0] · slices_S2x600000_S1x600000_1_0) : (⟨S2x600000, .i32⟩ : BufTy).Contents (Elt F) → (⟨S1x600000, .i32⟩ : BufTy).Contents (Elt F)) ::
    reshape main_v6 main_v7 rfl shapeCasts_S1x600000_S600000 ::
    binary main_arg0 main_arg4 main_v8 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)) ::
    nullary main_v9 (iotaInDim S100000 32 0) :: []
/-- The references stretch 1 writes. -/
abbrev st1_W : List (Ref sig .tc) := [main_v0, main_v1, main_v2, main_v3, main_v4, main_v5, main_v6, main_v7, main_v8, main_v9]
theorem st1_writes : (st1 : List (HloOp τ sig (Elt F))).Forall fun op => op.writes ⊆ (st1_W.map (Proc.devRef (τ := τ) .tc)).toFinset := by
  simp only [st1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 11 … 11 of @main. -/
abbrev st2 : List (HloOp τ sig (Elt F)) :=
    binary main_v1 main_v9 main_v10 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) :: []
/-- The references stretch 2 writes. -/
abbrev st2_W : List (Ref sig .tc) := [main_v10]
theorem st2_writes : (st2 : List (HloOp τ sig (Elt F))).Forall fun op => op.writes ⊆ (st2_W.map (Proc.devRef (τ := τ) .tc)).toFinset := by
  simp only [st2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 12 … 35 of @main. -/
abbrev st3 : List (HloOp τ sig (Elt F)) :=
    binary main_v3 main_v9 main_v11 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ::
    nullary main_cst (constant S_ .f32 0x3F800000#32) ::
    unary main_cst main_v12 (broadcastInDim S700000 ![] bcast_S_S700000 : (⟨S_, .f32⟩ : BufTy).Contents (Elt F) → (⟨S700000, .f32⟩ : BufTy).Contents (Elt F)) ::
    nullary main_cst_0 (constant S_ .f32 0x00000000#32) ::
    unary main_cst_0 main_v13 (broadcastInDim S100000 ![] bcast_S_S100000 : (⟨S_, .f32⟩ : BufTy).Contents (Elt F) → (⟨S100000, .f32⟩ : BufTy).Contents (Elt F)) ::
    unary main_v11 main_v14 (broadcastInDim S700000x1 ![0] bcast_S700000_S700000x1_0 : (⟨S700000, .i32⟩ : BufTy).Contents (Elt F) → (⟨S700000x1, .i32⟩ : BufTy).Contents (Elt F)) ::
    ternary main_v13 main_v14 main_v12 main_v15 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)) ::
    nullary main_cst_1 (constant S_ .f32 0x00000000#32) ::
    unary main_cst_1 main_v16 (broadcastInDim S100000 ![] bcast_S_S100000 : (⟨S_, .f32⟩ : BufTy).Contents (Elt F) → (⟨S100000, .f32⟩ : BufTy).Contents (Elt F)) ::
    binary main_v15 main_v16 main_v17 (cmpf .ogt : (⟨S100000, .f32⟩ : BufTy).Contents (Elt F) → (⟨S100000, .f32⟩ : BufTy).Contents (Elt F) → (⟨S100000, .i1⟩ : BufTy).Contents (Elt F)) ::
    nullary main_cst_2 (constant S_ .f32 0x3F800000#32) ::
    unary main_cst_2 main_v18 (broadcastInDim S100000 ![] bcast_S_S100000 : (⟨S_, .f32⟩ : BufTy).Contents (Elt F) → (⟨S100000, .f32⟩ : BufTy).Contents (Elt F)) ::
    binary main_v15 main_v18 main_v19 (maximumf : (⟨S100000, .f32⟩ : BufTy).Contents (Elt F) → (⟨S100000, .f32⟩ : BufTy).Contents (Elt F) → (⟨S100000, .f32⟩ : BufTy).Contents (Elt F)) ::
    unary main_v19 main_v20 (Host.rsqrt : (⟨S100000, .f32⟩ : BufTy).Contents (Elt F) → (⟨S100000, .f32⟩ : BufTy).Contents (Elt F)) ::
    nullary main_cst_3 (constant S_ .f32 0x00000000#32) ::
    TRef.unary (TRef.of (T := ⟨S_, .f32⟩) main_cst_3) (TRef.of (T := ⟨S_, .f32⟩) main_call0_v0) id ::
    TRef.unary (TRef.of (T := ⟨S_, .f32⟩) main_call0_v0) (TRef.of (T := ⟨S100000, .f32⟩) main_call0_v1) (broadcastInDim S100000 ![] bcast_S_S100000) ::
    TRef.ternary (TRef.of (T := ⟨S100000, .i1⟩) main_v17) (TRef.of (T := ⟨S100000, .f32⟩) main_v20) (TRef.of (T := ⟨S100000, .f32⟩) main_call0_v1) (TRef.of (T := ⟨S100000, .f32⟩) main_v21) select ::
    nullary main_c (constantI S_ 32 0#32) ::
    unary main_c main_v22 (broadcastInDim S700000 ![] bcast_S_S700000 : (⟨S_, .i32⟩ : BufTy).Contents (Elt F) → (⟨S700000, .i32⟩ : BufTy).Contents (Elt F)) ::
    binary main_v10 main_v22 main_v23 (cmpi .slt : (⟨S700000, .i32⟩ : BufTy).Contents (Elt F) → (⟨S700000, .i32⟩ : BufTy).Contents (Elt F) → (⟨S700000, .i1⟩ : BufTy).Contents (Elt F)) ::
    nullary main_c_4 (constantI S_ 32 100000#32) ::
    unary main_c_4 main_v24 (broadcastInDim S700000 ![] bcast_S_S700000 : (⟨S_, .i32⟩ : BufTy).Contents (Elt F) → (⟨S700000, .i32⟩ : BufTy).Contents (Elt F)) ::
    binary main_v10 main_v24 main_v25 (addi : (⟨S700000, .i32⟩ : BufTy).Contents (Elt F) → (⟨S700000, .i32⟩ : BufTy).Contents (Elt F) → (⟨S700000, .i32⟩ : BufTy).Contents (Elt F)) :: []
/-- The references stretch 3 writes. -/
abbrev st3_W : List (Ref sig .tc) := [main_v11, main_cst, main_v12, main_cst_0, main_v13, main_v14, main_v15, main_cst_1, main_v16, main_v17, main_cst_2, main_v18, main_v19, main_v20, main_cst_3, main_call0_v0, main_call0_v1, main_v21, main_c, main_v22, main_v23, main_c_4, main_v24, main_v25]
theorem st3_writes : (st3 : List (HloOp τ sig (Elt F))).Forall fun op => op.writes ⊆ (st3_W.map (Proc.devRef (τ := τ) .tc)).toFinset := by
  simp only [st3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 36 … 59 of @main. -/
abbrev st4 : List (HloOp τ sig (Elt F)) :=
    ternary main_v23 main_v25 main_v10 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v26 main_v27 (broadcastInDim S700000x1 ![0] bcast_S700000_S700000x1_0 : (⟨S700000, .i32⟩ : BufTy).Contents (Elt F) → (⟨S700000x1, .i32⟩ : BufTy).Contents (Elt F)) ::
    binary main_v21 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)) ::
    nullary main_c_5 (constantI S_ 32 0#32) ::
    unary main_c_5 main_v29 (broadcastInDim S700000 ![] bcast_S_S700000 : (⟨S_, .i32⟩ : BufTy).Contents (Elt F) → (⟨S700000, .i32⟩ : BufTy).Contents (Elt F)) ::
    binary main_v11 main_v29 main_v30 (cmpi .slt : (⟨S700000, .i32⟩ : BufTy).Contents (Elt F) → (⟨S700000, .i32⟩ : BufTy).Contents (Elt F) → (⟨S700000, .i1⟩ : BufTy).Contents (Elt F)) ::
    nullary main_c_6 (constantI S_ 32 100000#32) ::
    unary main_c_6 main_v31 (broadcastInDim S700000 ![] bcast_S_S700000 : (⟨S_, .i32⟩ : BufTy).Contents (Elt F) → (⟨S700000, .i32⟩ : BufTy).Contents (Elt F)) ::
    binary main_v11 main_v31 main_v32 (addi : (⟨S700000, .i32⟩ : BufTy).Contents (Elt F) → (⟨S700000, .i32⟩ : BufTy).Contents (Elt F) → (⟨S700000, .i32⟩ : BufTy).Contents (Elt F)) ::
    ternary main_v30 main_v32 main_v11 main_v33 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v33 main_v34 (broadcastInDim S700000x1 ![0] bcast_S700000_S700000x1_0 : (⟨S700000, .i32⟩ : BufTy).Contents (Elt F) → (⟨S700000x1, .i32⟩ : BufTy).Contents (Elt F)) ::
    binary main_v21 main_v34 main_v35 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)) ::
    binary main_v28 main_v35 main_v36 (mulf : (⟨S700000, .f32⟩ : BufTy).Contents (Elt F) → (⟨S700000, .f32⟩ : BufTy).Contents (Elt F) → (⟨S700000, .f32⟩ : BufTy).Contents (Elt F)) ::
    nullary main_c_7 (constantI S_ 32 0#32) ::
    unary main_c_7 main_v37 (broadcastInDim S700000 ![] bcast_S_S700000 : (⟨S_, .i32⟩ : BufTy).Contents (Elt F) → (⟨S700000, .i32⟩ : BufTy).Contents (Elt F)) ::
    binary main_v10 main_v37 main_v38 (cmpi .slt : (⟨S700000, .i32⟩ : BufTy).Contents (Elt F) → (⟨S700000, .i32⟩ : BufTy).Contents (Elt F) → (⟨S700000, .i1⟩ : BufTy).Contents (Elt F)) ::
    nullary main_c_8 (constantI S_ 32 100000#32) ::
    unary main_c_8 main_v39 (broadcastInDim S700000 ![] bcast_S_S700000 : (⟨S_, .i32⟩ : BufTy).Contents (Elt F) → (⟨S700000, .i32⟩ : BufTy).Contents (Elt F)) ::
    binary main_v10 main_v39 main_v40 (addi : (⟨S700000, .i32⟩ : BufTy).Contents (Elt F) → (⟨S700000, .i32⟩ : BufTy).Contents (Elt F) → (⟨S700000, .i32⟩ : BufTy).Contents (Elt F)) ::
    ternary main_v38 main_v40 main_v10 main_v41 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v41 main_v42 (broadcastInDim S700000x1 ![0] bcast_S700000_S700000x1_0 : (⟨S700000, .i32⟩ : BufTy).Contents (Elt F) → (⟨S700000x1, .i32⟩ : BufTy).Contents (Elt F)) ::
    binary main_v8 main_v42 main_v43 ((fun x i => Host.gather gather_S100000x256_S700000x1_S700000x256_1_0_n_n_0_1_1256 x i) : (⟨S100000x256, .f32⟩ : BufTy).Contents (Elt F) → (⟨S700000x1, .i32⟩ : BufTy).Contents (Elt F) → (⟨S700000x256, .f32⟩ : BufTy).Contents (Elt F)) ::
    unary main_v36 main_v44 (broadcastInDim S700000x1 ![0] bcast_S700000_S700000x1_0 : (⟨S700000, .f32⟩ : BufTy).Contents (Elt F) → (⟨S700000x1, .f32⟩ : BufTy).Contents (Elt F)) ::
    unary main_v44 main_v45 (broadcastInDim S700000x256 ![0, 1] bcast_S700000x1_S700000x256_0_1 : (⟨S700000x1, .f32⟩ : BufTy).Contents (Elt F) → (⟨S700000x256, .f32⟩ : BufTy).Contents (Elt F)) :: []
/-- The references stretch 4 writes. -/
abbrev st4_W : List (Ref sig .tc) := [main_v26, main_v27, main_v28, main_c_5, main_v29, main_v30, main_c_6, main_v31, main_v32, main_v33, main_v34, main_v35, main_v36, main_c_7, main_v37, main_v38, main_c_8, main_v39, main_v40, main_v41, main_v42, main_v43, main_v44, main_v45]
theorem st4_writes : (st4 : List (HloOp τ sig (Elt F))).Forall fun op => op.writes ⊆ (st4_W.map (Proc.devRef (τ := τ) .tc)).toFinset := by
  simp only [st4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 60 … 72 of @main. -/
abbrev st5 : List (HloOp τ sig (Elt F)) :=
    binary main_v43 main_v45 main_v46 (mulf : (⟨S700000x256, .f32⟩ : BufTy).Contents (Elt F) → (⟨S700000x256, .f32⟩ : BufTy).Contents (Elt F) → (⟨S700000x256, .f32⟩ : BufTy).Contents (Elt F)) ::
    nullary main_cst_9 (constant S_ .f32 0x00000000#32) ::
    unary main_cst_9 main_v47 (broadcastInDim S100000x256 ![] bcast_S_S100000x256 : (⟨S_, .f32⟩ : BufTy).Contents (Elt F) → (⟨S100000x256, .f32⟩ : BufTy).Contents (Elt F)) ::
    unary main_v11 main_v48 (broadcastInDim S700000x1 ![0] bcast_S700000_S700000x1_0 : (⟨S700000, .i32⟩ : BufTy).Contents (Elt F) → (⟨S700000x1, .i32⟩ : BufTy).Contents (Elt F)) ::
    ternary main_v47 main_v48 main_v46 main_v49 ((fun x i u => Host.scatterAdd scatter_S100000x256_S700000x1_S700000x256_1_0_0_1 x i u) : (⟨S100000x256, .f32⟩ : BufTy).Contents (Elt F) → (⟨S700000x1, .i32⟩ : BufTy).Contents (Elt F) → (⟨S700000x256, .f32⟩ : BufTy).Contents (Elt F) → (⟨S100000x256, .f32⟩ : BufTy).Contents (Elt F)) ::
    unary main_arg5 main_v50 (broadcastInDim S1x256 ![1] bcast_S256_S1x256_1 : (⟨S256, .f32⟩ : BufTy).Contents (Elt F) → (⟨S1x256, .f32⟩ : BufTy).Contents (Elt F)) ::
    unary main_v50 main_v51 (broadcastInDim S100000x256 ![0, 1] bcast_S1x256_S100000x256_0_1 : (⟨S1x256, .f32⟩ : BufTy).Contents (Elt F) → (⟨S100000x256, .f32⟩ : BufTy).Contents (Elt F)) ::
    binary main_v49 main_v51 main_v52 (addf : (⟨S100000x256, .f32⟩ : BufTy).Contents (Elt F) → (⟨S100000x256, .f32⟩ : BufTy).Contents (Elt F) → (⟨S100000x256, .f32⟩ : BufTy).Contents (Elt F)) ::
    TRef.nullary (TRef.of (T := ⟨S_, .f32⟩) main_call1_cst) (constant S_ .f32 0x00000000#32) ::
    TRef.unary (TRef.of (T := ⟨S_, .f32⟩) main_call1_cst) (TRef.of (T := ⟨S100000x256, .f32⟩) main_call1_v0) (broadcastInDim S100000x256 ![] bcast_S_S100000x256) ::
    TRef.binary (TRef.of (T := ⟨S100000x256, .f32⟩) main_v52) (TRef.of (T := ⟨S100000x256, .f32⟩) main_call1_v0) (TRef.of (T := ⟨S100000x256, .f32⟩) main_v53) maximumf ::
    binary main_arg1 main_arg6 main_v54 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)) ::
    nullary main_v55 (iotaInDim S100000 32 0) :: []
/-- The references stretch 5 writes. -/
abbrev st5_W : List (Ref sig .tc) := [main_v46, main_cst_9, main_v47, main_v48, main_v49, main_v50, main_v51, main_v52, main_call1_cst, main_call1_v0, main_v53, main_v54, main_v55]
theorem st5_writes : (st5 : List (HloOp τ sig (Elt F))).Forall fun op => op.writes ⊆ (st5_W.map (Proc.devRef (τ := τ) .tc)).toFinset := by
  simp only [st5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 73 … 73 of @main. -/
abbrev st6 : List (HloOp τ sig (Elt F)) :=
    binary main_v5 main_v55 main_v56 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) :: []
/-- The references stretch 6 writes. -/
abbrev st6_W : List (Ref sig .tc) := [main_v56]
theorem st6_writes : (st6 : List (HloOp τ sig (Elt F))).Forall fun op => op.writes ⊆ (st6_W.map (Proc.devRef (τ := τ) .tc)).toFinset := by
  simp only [st6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 74 … 97 of @main. -/
abbrev st7 : List (HloOp τ sig (Elt F)) :=
    binary main_v7 main_v55 main_v57 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ::
    nullary main_cst_10 (constant S_ .f32 0x3F800000#32) ::
    unary main_cst_10 main_v58 (broadcastInDim S700000 ![] bcast_S_S700000 : (⟨S_, .f32⟩ : BufTy).Contents (Elt F) → (⟨S700000, .f32⟩ : BufTy).Contents (Elt F)) ::
    nullary main_cst_11 (constant S_ .f32 0x00000000#32) ::
    unary main_cst_11 main_v59 (broadcastInDim S100000 ![] bcast_S_S100000 : (⟨S_, .f32⟩ : BufTy).Contents (Elt F) → (⟨S100000, .f32⟩ : BufTy).Contents (Elt F)) ::
    unary main_v57 main_v60 (broadcastInDim S700000x1 ![0] bcast_S700000_S700000x1_0 : (⟨S700000, .i32⟩ : BufTy).Contents (Elt F) → (⟨S700000x1, .i32⟩ : BufTy).Contents (Elt F)) ::
    ternary main_v59 main_v60 main_v58 main_v61 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)) ::
    nullary main_cst_12 (constant S_ .f32 0x00000000#32) ::
    unary main_cst_12 main_v62 (broadcastInDim S100000 ![] bcast_S_S100000 : (⟨S_, .f32⟩ : BufTy).Contents (Elt F) → (⟨S100000, .f32⟩ : BufTy).Contents (Elt F)) ::
    binary main_v61 main_v62 main_v63 (cmpf .ogt : (⟨S100000, .f32⟩ : BufTy).Contents (Elt F) → (⟨S100000, .f32⟩ : BufTy).Contents (Elt F) → (⟨S100000, .i1⟩ : BufTy).Contents (Elt F)) ::
    nullary main_cst_13 (constant S_ .f32 0x3F800000#32) ::
    unary main_cst_13 main_v64 (broadcastInDim S100000 ![] bcast_S_S100000 : (⟨S_, .f32⟩ : BufTy).Contents (Elt F) → (⟨S100000, .f32⟩ : BufTy).Contents (Elt F)) ::
    binary main_v61 main_v64 main_v65 (maximumf : (⟨S100000, .f32⟩ : BufTy).Contents (Elt F) → (⟨S100000, .f32⟩ : BufTy).Contents (Elt F) → (⟨S100000, .f32⟩ : BufTy).Contents (Elt F)) ::
    unary main_v65 main_v66 (Host.rsqrt : (⟨S100000, .f32⟩ : BufTy).Contents (Elt F) → (⟨S100000, .f32⟩ : BufTy).Contents (Elt F)) ::
    nullary main_cst_14 (constant S_ .f32 0x00000000#32) ::
    TRef.unary (TRef.of (T := ⟨S_, .f32⟩) main_cst_14) (TRef.of (T := ⟨S_, .f32⟩) main_call2_v0) id ::
    TRef.unary (TRef.of (T := ⟨S_, .f32⟩) main_call2_v0) (TRef.of (T := ⟨S100000, .f32⟩) main_call2_v1) (broadcastInDim S100000 ![] bcast_S_S100000) ::
    TRef.ternary (TRef.of (T := ⟨S100000, .i1⟩) main_v63) (TRef.of (T := ⟨S100000, .f32⟩) main_v66) (TRef.of (T := ⟨S100000, .f32⟩) main_call2_v1) (TRef.of (T := ⟨S100000, .f32⟩) main_v67) select ::
    nullary main_c_15 (constantI S_ 32 0#32) ::
    unary main_c_15 main_v68 (broadcastInDim S700000 ![] bcast_S_S700000 : (⟨S_, .i32⟩ : BufTy).Contents (Elt F) → (⟨S700000, .i32⟩ : BufTy).Contents (Elt F)) ::
    binary main_v56 main_v68 main_v69 (cmpi .slt : (⟨S700000, .i32⟩ : BufTy).Contents (Elt F) → (⟨S700000, .i32⟩ : BufTy).Contents (Elt F) → (⟨S700000, .i1⟩ : BufTy).Contents (Elt F)) ::
    nullary main_c_16 (constantI S_ 32 100000#32) ::
    unary main_c_16 main_v70 (broadcastInDim S700000 ![] bcast_S_S700000 : (⟨S_, .i32⟩ : BufTy).Contents (Elt F) → (⟨S700000, .i32⟩ : BufTy).Contents (Elt F)) ::
    binary main_v56 main_v70 main_v71 (addi : (⟨S700000, .i32⟩ : BufTy).Contents (Elt F) → (⟨S700000, .i32⟩ : BufTy).Contents (Elt F) → (⟨S700000, .i32⟩ : BufTy).Contents (Elt F)) :: []
/-- The references stretch 7 writes. -/
abbrev st7_W : List (Ref sig .tc) := [main_v57, main_cst_10, main_v58, main_cst_11, main_v59, main_v60, main_v61, main_cst_12, main_v62, main_v63, main_cst_13, main_v64, main_v65, main_v66, main_cst_14, main_call2_v0, main_call2_v1, main_v67, main_c_15, main_v68, main_v69, main_c_16, main_v70, main_v71]
theorem st7_writes : (st7 : List (HloOp τ sig (Elt F))).Forall fun op => op.writes ⊆ (st7_W.map (Proc.devRef (τ := τ) .tc)).toFinset := by
  simp only [st7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 98 … 121 of @main. -/
abbrev st8 : List (HloOp τ sig (Elt F)) :=
    ternary main_v69 main_v71 main_v56 main_v72 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v72 main_v73 (broadcastInDim S700000x1 ![0] bcast_S700000_S700000x1_0 : (⟨S700000, .i32⟩ : BufTy).Contents (Elt F) → (⟨S700000x1, .i32⟩ : BufTy).Contents (Elt F)) ::
    binary main_v67 main_v73 main_v74 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)) ::
    nullary main_c_17 (constantI S_ 32 0#32) ::
    unary main_c_17 main_v75 (broadcastInDim S700000 ![] bcast_S_S700000 : (⟨S_, .i32⟩ : BufTy).Contents (Elt F) → (⟨S700000, .i32⟩ : BufTy).Contents (Elt F)) ::
    binary main_v57 main_v75 main_v76 (cmpi .slt : (⟨S700000, .i32⟩ : BufTy).Contents (Elt F) → (⟨S700000, .i32⟩ : BufTy).Contents (Elt F) → (⟨S700000, .i1⟩ : BufTy).Contents (Elt F)) ::
    nullary main_c_18 (constantI S_ 32 100000#32) ::
    unary main_c_18 main_v77 (broadcastInDim S700000 ![] bcast_S_S700000 : (⟨S_, .i32⟩ : BufTy).Contents (Elt F) → (⟨S700000, .i32⟩ : BufTy).Contents (Elt F)) ::
    binary main_v57 main_v77 main_v78 (addi : (⟨S700000, .i32⟩ : BufTy).Contents (Elt F) → (⟨S700000, .i32⟩ : BufTy).Contents (Elt F) → (⟨S700000, .i32⟩ : BufTy).Contents (Elt F)) ::
    ternary main_v76 main_v78 main_v57 main_v79 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v79 main_v80 (broadcastInDim S700000x1 ![0] bcast_S700000_S700000x1_0 : (⟨S700000, .i32⟩ : BufTy).Contents (Elt F) → (⟨S700000x1, .i32⟩ : BufTy).Contents (Elt F)) ::
    binary main_v67 main_v80 main_v81 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)) ::
    binary main_v74 main_v81 main_v82 (mulf : (⟨S700000, .f32⟩ : BufTy).Contents (Elt F) → (⟨S700000, .f32⟩ : BufTy).Contents (Elt F) → (⟨S700000, .f32⟩ : BufTy).Contents (Elt F)) ::
    nullary main_c_19 (constantI S_ 32 0#32) ::
    unary main_c_19 main_v83 (broadcastInDim S700000 ![] bcast_S_S700000 : (⟨S_, .i32⟩ : BufTy).Contents (Elt F) → (⟨S700000, .i32⟩ : BufTy).Contents (Elt F)) ::
    binary main_v56 main_v83 main_v84 (cmpi .slt : (⟨S700000, .i32⟩ : BufTy).Contents (Elt F) → (⟨S700000, .i32⟩ : BufTy).Contents (Elt F) → (⟨S700000, .i1⟩ : BufTy).Contents (Elt F)) ::
    nullary main_c_20 (constantI S_ 32 100000#32) ::
    unary main_c_20 main_v85 (broadcastInDim S700000 ![] bcast_S_S700000 : (⟨S_, .i32⟩ : BufTy).Contents (Elt F) → (⟨S700000, .i32⟩ : BufTy).Contents (Elt F)) ::
    binary main_v56 main_v85 main_v86 (addi : (⟨S700000, .i32⟩ : BufTy).Contents (Elt F) → (⟨S700000, .i32⟩ : BufTy).Contents (Elt F) → (⟨S700000, .i32⟩ : BufTy).Contents (Elt F)) ::
    ternary main_v84 main_v86 main_v56 main_v87 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)) ::
    unary main_v87 main_v88 (broadcastInDim S700000x1 ![0] bcast_S700000_S700000x1_0 : (⟨S700000, .i32⟩ : BufTy).Contents (Elt F) → (⟨S700000x1, .i32⟩ : BufTy).Contents (Elt F)) ::
    binary main_v54 main_v88 main_v89 ((fun x i => Host.gather gather_S100000x256_S700000x1_S700000x256_1_0_n_n_0_1_1256 x i) : (⟨S100000x256, .f32⟩ : BufTy).Contents (Elt F) → (⟨S700000x1, .i32⟩ : BufTy).Contents (Elt F) → (⟨S700000x256, .f32⟩ : BufTy).Contents (Elt F)) ::
    unary main_v82 main_v90 (broadcastInDim S700000x1 ![0] bcast_S700000_S700000x1_0 : (⟨S700000, .f32⟩ : BufTy).Contents (Elt F) → (⟨S700000x1, .f32⟩ : BufTy).Contents (Elt F)) ::
    unary main_v90 main_v91 (broadcastInDim S700000x256 ![0, 1] bcast_S700000x1_S700000x256_0_1 : (⟨S700000x1, .f32⟩ : BufTy).Contents (Elt F) → (⟨S700000x256, .f32⟩ : BufTy).Contents (Elt F)) :: []
/-- The references stretch 8 writes. -/
abbrev st8_W : List (Ref sig .tc) := [main_v72, main_v73, main_v74, main_c_17, main_v75, main_v76, main_c_18, main_v77, main_v78, main_v79, main_v80, main_v81, main_v82, main_c_19, main_v83, main_v84, main_c_20, main_v85, main_v86, main_v87, main_v88, main_v89, main_v90, main_v91]
theorem st8_writes : (st8 : List (HloOp τ sig (Elt F))).Forall fun op => op.writes ⊆ (st8_W.map (Proc.devRef (τ := τ) .tc)).toFinset := by
  simp only [st8, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 122 … 145 of @main. -/
abbrev st9 : List (HloOp τ sig (Elt F)) :=
    binary main_v89 main_v91 main_v92 (mulf : (⟨S700000x256, .f32⟩ : BufTy).Contents (Elt F) → (⟨S700000x256, .f32⟩ : BufTy).Contents (Elt F) → (⟨S700000x256, .f32⟩ : BufTy).Contents (Elt F)) ::
    nullary main_cst_21 (constant S_ .f32 0x00000000#32) ::
    unary main_cst_21 main_v93 (broadcastInDim S100000x256 ![] bcast_S_S100000x256 : (⟨S_, .f32⟩ : BufTy).Contents (Elt F) → (⟨S100000x256, .f32⟩ : BufTy).Contents (Elt F)) ::
    unary main_v57 main_v94 (broadcastInDim S700000x1 ![0] bcast_S700000_S700000x1_0 : (⟨S700000, .i32⟩ : BufTy).Contents (Elt F) → (⟨S700000x1, .i32⟩ : BufTy).Contents (Elt F)) ::
    ternary main_v93 main_v94 main_v92 main_v95 ((fun x i u => Host.scatterAdd scatter_S100000x256_S700000x1_S700000x256_1_0_0_1 x i u) : (⟨S100000x256, .f32⟩ : BufTy).Contents (Elt F) → (⟨S700000x1, .i32⟩ : BufTy).Contents (Elt F) → (⟨S700000x256, .f32⟩ : BufTy).Contents (Elt F) → (⟨S100000x256, .f32⟩ : BufTy).Contents (Elt F)) ::
    unary main_arg7 main_v96 (broadcastInDim S1x256 ![1] bcast_S256_S1x256_1 : (⟨S256, .f32⟩ : BufTy).Contents (Elt F) → (⟨S1x256, .f32⟩ : BufTy).Contents (Elt F)) ::
    unary main_v96 main_v97 (broadcastInDim S100000x256 ![0, 1] bcast_S1x256_S100000x256_0_1 : (⟨S1x256, .f32⟩ : BufTy).Contents (Elt F) → (⟨S100000x256, .f32⟩ : BufTy).Contents (Elt F)) ::
    binary main_v95 main_v97 main_v98 (addf : (⟨S100000x256, .f32⟩ : BufTy).Contents (Elt F) → (⟨S100000x256, .f32⟩ : BufTy).Contents (Elt F) → (⟨S100000x256, .f32⟩ : BufTy).Contents (Elt F)) ::
    TRef.nullary (TRef.of (T := ⟨S_, .f32⟩) main_call3_cst) (constant S_ .f32 0x00000000#32) ::
    TRef.unary (TRef.of (T := ⟨S_, .f32⟩) main_call3_cst) (TRef.of (T := ⟨S100000x256, .f32⟩) main_call3_v0) (broadcastInDim S100000x256 ![] bcast_S_S100000x256) ::
    TRef.binary (TRef.of (T := ⟨S100000x256, .f32⟩) main_v98) (TRef.of (T := ⟨S100000x256, .f32⟩) main_call3_v0) (TRef.of (T := ⟨S100000x256, .f32⟩) main_v99) maximumf ::
    binary main_v53 main_v99 main_v100 (addf : (⟨S100000x256, .f32⟩ : BufTy).Contents (Elt F) → (⟨S100000x256, .f32⟩ : BufTy).Contents (Elt F) → (⟨S100000x256, .f32⟩ : BufTy).Contents (Elt F)) ::
    nullary main_c_22 (constantI S_ 32 0#32) ::
    unary main_c_22 main_v101 (broadcastInDim S600000 ![] bcast_S_S600000 : (⟨S_, .i32⟩ : BufTy).Contents (Elt F) → (⟨S600000, .i32⟩ : BufTy).Contents (Elt F)) ::
    binary main_v1 main_v101 main_v102 (cmpi .slt : (⟨S600000, .i32⟩ : BufTy).Contents (Elt F) → (⟨S600000, .i32⟩ : BufTy).Contents (Elt F) → (⟨S600000, .i1⟩ : BufTy).Contents (Elt F)) ::
    nullary main_c_23 (constantI S_ 32 100000#32) ::
    unary main_c_23 main_v103 (broadcastInDim S600000 ![] bcast_S_S600000 : (⟨S_, .i32⟩ : BufTy).Contents (Elt F) → (⟨S600000, .i32⟩ : BufTy).Contents (Elt F)) ::
    binary main_v1 main_v103 main_v104 (addi : (⟨S600000, .i32⟩ : BufTy).Contents (Elt F) → (⟨S600000, .i32⟩ : BufTy).Contents (Elt F) → (⟨S600000, .i32⟩ : BufTy).Contents (Elt F)) ::
    ternary main_v102 main_v104 main_v1 main_v105 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ::
    unary main_v105 main_v106 (broadcastInDim S600000x1 ![0] bcast_S600000_S600000x1_0 : (⟨S600000, .i32⟩ : BufTy).Contents (Elt F) → (⟨S600000x1, .i32⟩ : BufTy).Contents (Elt F)) ::
    binary main_v100 main_v106 main_v107 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)) ::
    nullary main_cst_24 (constant S_ .f32 0x00000000#32) ::
    unary main_cst_24 main_v108 (broadcastInDim S100000x256 ![] bcast_S_S100000x256 : (⟨S_, .f32⟩ : BufTy).Contents (Elt F) → (⟨S100000x256, .f32⟩ : BufTy).Contents (Elt F)) ::
    unary main_v3 main_v109 (broadcastInDim S600000x1 ![0] bcast_S600000_S600000x1_0 : (⟨S600000, .i32⟩ : BufTy).Contents (Elt F) → (⟨S600000x1, .i32⟩ : BufTy).Contents (Elt F)) :: []
/-- The references stretch 9 writes. -/
abbrev st9_W : List (Ref sig .tc) := [main_v92, main_cst_21, main_v93, main_v94, main_v95, main_v96, main_v97, main_v98, main_call3_cst, main_call3_v0, main_v99, main_v100, main_c_22, main_v101, main_v102, main_c_23, main_v103, main_v104, main_v105, main_v106, main_v107, main_cst_24, main_v108, main_v109]
theorem st9_writes : (st9 : List (HloOp τ sig (Elt F))).Forall fun op => op.writes ⊆ (st9_W.map (Proc.devRef (τ := τ) .tc)).toFinset := by
  simp only [st9, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 146 … 169 of @main. -/
abbrev st10 : List (HloOp τ sig (Elt F)) :=
    ternary main_v108 main_v109 main_v107 main_v110 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)) ::
    nullary main_cst_25 (constant S_ .f32 0x3F800000#32) ::
    unary main_cst_25 main_v111 (broadcastInDim S600000 ![] bcast_S_S600000 : (⟨S_, .f32⟩ : BufTy).Contents (Elt F) → (⟨S600000, .f32⟩ : BufTy).Contents (Elt F)) ::
    nullary main_cst_26 (constant S_ .f32 0x00000000#32) ::
    unary main_cst_26 main_v112 (broadcastInDim S100000 ![] bcast_S_S100000 : (⟨S_, .f32⟩ : BufTy).Contents (Elt F) → (⟨S100000, .f32⟩ : BufTy).Contents (Elt F)) ::
    unary main_v3 main_v113 (broadcastInDim S600000x1 ![0] bcast_S600000_S600000x1_0 : (⟨S600000, .i32⟩ : BufTy).Contents (Elt F) → (⟨S600000x1, .i32⟩ : BufTy).Contents (Elt F)) ::
    ternary main_v112 main_v113 main_v111 main_v114 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) ::
    nullary main_cst_27 (constant S_ .f32 0x3F800000#32) ::
    unary main_cst_27 main_v115 (broadcastInDim S100000 ![] bcast_S_S100000 : (⟨S_, .f32⟩ : BufTy).Contents (Elt F) → (⟨S100000, .f32⟩ : BufTy).Contents (Elt F)) ::
    binary main_v114 main_v115 main_v116 (maximumf : (⟨S100000, .f32⟩ : BufTy).Contents (Elt F) → (⟨S100000, .f32⟩ : BufTy).Contents (Elt F) → (⟨S100000, .f32⟩ : BufTy).Contents (Elt F)) ::
    unary main_v116 main_v117 (broadcastInDim S100000x1 ![0] bcast_S100000_S100000x1_0 : (⟨S100000, .f32⟩ : BufTy).Contents (Elt F) → (⟨S100000x1, .f32⟩ : BufTy).Contents (Elt F)) ::
    unary main_v117 main_v118 (broadcastInDim S100000x256 ![0, 1] bcast_S100000x1_S100000x256_0_1 : (⟨S100000x1, .f32⟩ : BufTy).Contents (Elt F) → (⟨S100000x256, .f32⟩ : BufTy).Contents (Elt F)) ::
    binary main_v110 main_v118 main_v119 (Host.divf : (⟨S100000x256, .f32⟩ : BufTy).Contents (Elt F) → (⟨S100000x256, .f32⟩ : BufTy).Contents (Elt F) → (⟨S100000x256, .f32⟩ : BufTy).Contents (Elt F)) ::
    binary main_v119 main_arg8 main_v120 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ::
    unary main_arg9 main_v121 (broadcastInDim S1x128 ![1] bcast_S128_S1x128_1 : (⟨S128, .f32⟩ : BufTy).Contents (Elt F) → (⟨S1x128, .f32⟩ : BufTy).Contents (Elt F)) ::
    unary main_v121 main_v122 (broadcastInDim S100000x128 ![0, 1] bcast_S1x128_S100000x128_0_1 : (⟨S1x128, .f32⟩ : BufTy).Contents (Elt F) → (⟨S100000x128, .f32⟩ : BufTy).Contents (Elt F)) ::
    binary main_v120 main_v122 main_v123 (addf : (⟨S100000x128, .f32⟩ : BufTy).Contents (Elt F) → (⟨S100000x128, .f32⟩ : BufTy).Contents (Elt F) → (⟨S100000x128, .f32⟩ : BufTy).Contents (Elt F)) ::
    binary main_v100 main_arg10 main_v124 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ::
    binary main_v123 main_v124 main_v125 (addf : (⟨S100000x128, .f32⟩ : BufTy).Contents (Elt F) → (⟨S100000x128, .f32⟩ : BufTy).Contents (Elt F) → (⟨S100000x128, .f32⟩ : BufTy).Contents (Elt F)) ::
    TRef.nullary (TRef.of (T := ⟨S_, .f32⟩) main_call4_cst) (constant S_ .f32 0x00000000#32) ::
    TRef.unary (TRef.of (T := ⟨S_, .f32⟩) main_call4_cst) (TRef.of (T := ⟨S100000x128, .f32⟩) main_call4_v0) (broadcastInDim S100000x128 ![] bcast_S_S100000x128) ::
    TRef.binary (TRef.of (T := ⟨S100000x128, .f32⟩) main_v125) (TRef.of (T := ⟨S100000x128, .f32⟩) main_call4_v0) (TRef.of (T := ⟨S100000x128, .f32⟩) main_v126) maximumf ::
    binary main_v126 main_arg14 main_v127 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
    unary main_arg15 main_v128 (broadcastInDim S1x128 ![1] bcast_S128_S1x128_1 : (⟨S128, .f32⟩ : BufTy).Contents (Elt F) → (⟨S1x128, .f32⟩ : BufTy).Contents (Elt F)) :: []
/-- The references stretch 10 writes. -/
abbrev st10_W : List (Ref sig .tc) := [main_v110, main_cst_25, main_v111, main_cst_26, main_v112, main_v113, main_v114, main_cst_27, main_v115, main_v116, main_v117, main_v118, main_v119, main_v120, main_v121, main_v122, main_v123, main_v124, main_v125, main_call4_cst, main_call4_v0, main_v126, main_v127, main_v128]
theorem st10_writes : (st10 : List (HloOp τ sig (Elt F))).Forall fun op => op.writes ⊆ (st10_W.map (Proc.devRef (τ := τ) .tc)).toFinset := by
  simp only [st10, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 170 … 193 of @main. -/
abbrev st11 : List (HloOp τ sig (Elt F)) :=
    unary main_v128 main_v129 (broadcastInDim S100000x128 ![0, 1] bcast_S1x128_S100000x128_0_1 : (⟨S1x128, .f32⟩ : BufTy).Contents (Elt F) → (⟨S100000x128, .f32⟩ : BufTy).Contents (Elt F)) ::
    binary main_v127 main_v129 main_v130 (addf : (⟨S100000x128, .f32⟩ : BufTy).Contents (Elt F) → (⟨S100000x128, .f32⟩ : BufTy).Contents (Elt F) → (⟨S100000x128, .f32⟩ : BufTy).Contents (Elt F)) ::
    nullary main_cst_28 (constant S_ .f32 0x00000000#32) ::
    binary main_v130 main_cst_28 main_v131 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ::
    unary main_v131 main_v132 (broadcastInDim S100000x1 ![0] bcast_S100000_S100000x1_0 : (⟨S100000, .f32⟩ : BufTy).Contents (Elt F) → (⟨S100000x1, .f32⟩ : BufTy).Contents (Elt F)) ::
    nullary main_cst_29 (constant S_ .f32 0x43000000#32) ::
    unary main_cst_29 main_v133 (broadcastInDim S100000x1 ![] bcast_S_S100000x1 : (⟨S_, .f32⟩ : BufTy).Contents (Elt F) → (⟨S100000x1, .f32⟩ : BufTy).Contents (Elt F)) ::
    binary main_v132 main_v133 main_v134 (Host.divf : (⟨S100000x1, .f32⟩ : BufTy).Contents (Elt F) → (⟨S100000x1, .f32⟩ : BufTy).Contents (Elt F) → (⟨S100000x1, .f32⟩ : BufTy).Contents (Elt F)) ::
    unary main_v134 main_v135 (broadcastInDim S100000x128 ![0, 1] bcast_S100000x1_S100000x128_0_1 : (⟨S100000x1, .f32⟩ : BufTy).Contents (Elt F) → (⟨S100000x128, .f32⟩ : BufTy).Contents (Elt F)) ::
    binary main_v130 main_v135 main_v136 (subf : (⟨S100000x128, .f32⟩ : BufTy).Contents (Elt F) → (⟨S100000x128, .f32⟩ : BufTy).Contents (Elt F) → (⟨S100000x128, .f32⟩ : BufTy).Contents (Elt F)) ::
    binary main_v136 main_v136 main_v137 (mulf : (⟨S100000x128, .f32⟩ : BufTy).Contents (Elt F) → (⟨S100000x128, .f32⟩ : BufTy).Contents (Elt F) → (⟨S100000x128, .f32⟩ : BufTy).Contents (Elt F)) ::
    nullary main_cst_30 (constant S_ .f32 0x00000000#32) ::
    binary main_v137 main_cst_30 main_v138 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ::
    unary main_v138 main_v139 (broadcastInDim S100000x1 ![0] bcast_S100000_S100000x1_0 : (⟨S100000, .f32⟩ : BufTy).Contents (Elt F) → (⟨S100000x1, .f32⟩ : BufTy).Contents (Elt F)) ::
    nullary main_cst_31 (constant S_ .f32 0x43000000#32) ::
    unary main_cst_31 main_v140 (broadcastInDim S100000x1 ![] bcast_S_S100000x1 : (⟨S_, .f32⟩ : BufTy).Contents (Elt F) → (⟨S100000x1, .f32⟩ : BufTy).Contents (Elt F)) ::
    binary main_v139 main_v140 main_v141 (Host.divf : (⟨S100000x1, .f32⟩ : BufTy).Contents (Elt F) → (⟨S100000x1, .f32⟩ : BufTy).Contents (Elt F) → (⟨S100000x1, .f32⟩ : BufTy).Contents (Elt F)) ::
    unary main_v134 main_v142 (broadcastInDim S100000x128 ![0, 1] bcast_S100000x1_S100000x128_0_1 : (⟨S100000x1, .f32⟩ : BufTy).Contents (Elt F) → (⟨S100000x128, .f32⟩ : BufTy).Contents (Elt F)) ::
    binary main_v130 main_v142 main_v143 (subf : (⟨S100000x128, .f32⟩ : BufTy).Contents (Elt F) → (⟨S100000x128, .f32⟩ : BufTy).Contents (Elt F) → (⟨S100000x128, .f32⟩ : BufTy).Contents (Elt F)) ::
    nullary main_cst_32 (constant S_ .f32 0x3727C5AC#32) ::
    unary main_cst_32 main_v144 (broadcastInDim S100000x1 ![] bcast_S_S100000x1 : (⟨S_, .f32⟩ : BufTy).Contents (Elt F) → (⟨S100000x1, .f32⟩ : BufTy).Contents (Elt F)) ::
    binary main_v141 main_v144 main_v145 (addf : (⟨S100000x1, .f32⟩ : BufTy).Contents (Elt F) → (⟨S100000x1, .f32⟩ : BufTy).Contents (Elt F) → (⟨S100000x1, .f32⟩ : BufTy).Contents (Elt F)) ::
    unary main_v145 main_v146 (Host.rsqrt : (⟨S100000x1, .f32⟩ : BufTy).Contents (Elt F) → (⟨S100000x1, .f32⟩ : BufTy).Contents (Elt F)) ::
    unary main_v146 main_v147 (broadcastInDim S100000x128 ![0, 1] bcast_S100000x1_S100000x128_0_1 : (⟨S100000x1, .f32⟩ : BufTy).Contents (Elt F) → (⟨S100000x128, .f32⟩ : BufTy).Contents (Elt F)) :: []
/-- The references stretch 11 writes. -/
abbrev st11_W : List (Ref sig .tc) := [main_v129, main_v130, main_cst_28, main_v131, main_v132, main_cst_29, main_v133, main_v134, main_v135, main_v136, main_v137, main_cst_30, main_v138, main_v139, main_cst_31, main_v140, main_v141, main_v142, main_v143, main_cst_32, main_v144, main_v145, main_v146, main_v147]
theorem st11_writes : (st11 : List (HloOp τ sig (Elt F))).Forall fun op => op.writes ⊆ (st11_W.map (Proc.devRef (τ := τ) .tc)).toFinset := by
  simp only [st11, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 194 … 217 of @main. -/
abbrev st12 : List (HloOp τ sig (Elt F)) :=
    binary main_v143 main_v147 main_v148 (mulf : (⟨S100000x128, .f32⟩ : BufTy).Contents (Elt F) → (⟨S100000x128, .f32⟩ : BufTy).Contents (Elt F) → (⟨S100000x128, .f32⟩ : BufTy).Contents (Elt F)) ::
    unary main_arg16 main_v149 (broadcastInDim S1x128 ![1] bcast_S128_S1x128_1 : (⟨S128, .f32⟩ : BufTy).Contents (Elt F) → (⟨S1x128, .f32⟩ : BufTy).Contents (Elt F)) ::
    unary main_v149 main_v150 (broadcastInDim S100000x128 ![0, 1] bcast_S1x128_S100000x128_0_1 : (⟨S1x128, .f32⟩ : BufTy).Contents (Elt F) → (⟨S100000x128, .f32⟩ : BufTy).Contents (Elt F)) ::
    binary main_v148 main_v150 main_v151 (mulf : (⟨S100000x128, .f32⟩ : BufTy).Contents (Elt F) → (⟨S100000x128, .f32⟩ : BufTy).Contents (Elt F) → (⟨S100000x128, .f32⟩ : BufTy).Contents (Elt F)) ::
    unary main_arg17 main_v152 (broadcastInDim S1x128 ![1] bcast_S128_S1x128_1 : (⟨S128, .f32⟩ : BufTy).Contents (Elt F) → (⟨S1x128, .f32⟩ : BufTy).Contents (Elt F)) ::
    unary main_v152 main_v153 (broadcastInDim S100000x128 ![0, 1] bcast_S1x128_S100000x128_0_1 : (⟨S1x128, .f32⟩ : BufTy).Contents (Elt F) → (⟨S100000x128, .f32⟩ : BufTy).Contents (Elt F)) ::
    binary main_v151 main_v153 main_v154 (addf : (⟨S100000x128, .f32⟩ : BufTy).Contents (Elt F) → (⟨S100000x128, .f32⟩ : BufTy).Contents (Elt F) → (⟨S100000x128, .f32⟩ : BufTy).Contents (Elt F)) ::
    binary main_v154 main_arg18 main_v155 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) ::
    unary main_arg19 main_v156 (broadcastInDim S1x1 ![1] bcast_S1_S1x1_1 : (⟨S1, .f32⟩ : BufTy).Contents (Elt F) → (⟨S1x1, .f32⟩ : BufTy).Contents (Elt F)) ::
    unary main_v156 main_v157 (broadcastInDim S100000x1 ![0, 1] bcast_S1x1_S100000x1_0_1 : (⟨S1x1, .f32⟩ : BufTy).Contents (Elt F) → (⟨S100000x1, .f32⟩ : BufTy).Contents (Elt F)) ::
    binary main_v155 main_v157 main_v158 (addf : (⟨S100000x1, .f32⟩ : BufTy).Contents (Elt F) → (⟨S100000x1, .f32⟩ : BufTy).Contents (Elt F) → (⟨S100000x1, .f32⟩ : BufTy).Contents (Elt F)) ::
    reshape main_v158 main_v159 rfl shapeCasts_S100000x1_S100000 ::
    binary main_v99 main_v98 main_v160 (addf : (⟨S100000x256, .f32⟩ : BufTy).Contents (Elt F) → (⟨S100000x256, .f32⟩ : BufTy).Contents (Elt F) → (⟨S100000x256, .f32⟩ : BufTy).Contents (Elt F)) ::
    nullary main_c_33 (constantI S_ 32 0#32) ::
    unary main_c_33 main_v161 (broadcastInDim S600000 ![] bcast_S_S600000 : (⟨S_, .i32⟩ : BufTy).Contents (Elt F) → (⟨S600000, .i32⟩ : BufTy).Contents (Elt F)) ::
    binary main_v5 main_v161 main_v162 (cmpi .slt : (⟨S600000, .i32⟩ : BufTy).Contents (Elt F) → (⟨S600000, .i32⟩ : BufTy).Contents (Elt F) → (⟨S600000, .i1⟩ : BufTy).Contents (Elt F)) ::
    nullary main_c_34 (constantI S_ 32 100000#32) ::
    unary main_c_34 main_v163 (broadcastInDim S600000 ![] bcast_S_S600000 : (⟨S_, .i32⟩ : BufTy).Contents (Elt F) → (⟨S600000, .i32⟩ : BufTy).Contents (Elt F)) ::
    binary main_v5 main_v163 main_v164 (addi : (⟨S600000, .i32⟩ : BufTy).Contents (Elt F) → (⟨S600000, .i32⟩ : BufTy).Contents (Elt F) → (⟨S600000, .i32⟩ : BufTy).Contents (Elt F)) ::
    ternary main_v162 main_v164 main_v5 main_v165 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ::
    unary main_v165 main_v166 (broadcastInDim S600000x1 ![0] bcast_S600000_S600000x1_0 : (⟨S600000, .i32⟩ : BufTy).Contents (Elt F) → (⟨S600000x1, .i32⟩ : BufTy).Contents (Elt F)) ::
    binary main_v160 main_v166 main_v167 ((fun x i => Host.gather gather_S100000x256_S600000x1_S600000x256_1_0_n_n_0_1_1256 x i) : (⟨S100000x256, .f32⟩ : BufTy).Contents (Elt F) → (⟨S600000x1, .i32⟩ : BufTy).Contents (Elt F) → (⟨S600000x256, .f32⟩ : BufTy).Contents (Elt F)) ::
    nullary main_cst_35 (constant S_ .f32 0x00000000#32) ::
    unary main_cst_35 main_v168 (broadcastInDim S100000x256 ![] bcast_S_S100000x256 : (⟨S_, .f32⟩ : BufTy).Contents (Elt F) → (⟨S100000x256, .f32⟩ : BufTy).Contents (Elt F)) :: []
/-- The references stretch 12 writes. -/
abbrev st12_W : List (Ref sig .tc) := [main_v148, main_v149, main_v150, main_v151, main_v152, main_v153, main_v154, main_v155, main_v156, main_v157, main_v158, main_v159, main_v160, main_c_33, main_v161, main_v162, main_c_34, main_v163, main_v164, main_v165, main_v166, main_v167, main_cst_35, main_v168]
theorem st12_writes : (st12 : List (HloOp τ sig (Elt F))).Forall fun op => op.writes ⊆ (st12_W.map (Proc.devRef (τ := τ) .tc)).toFinset := by
  simp only [st12, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 218 … 241 of @main. -/
abbrev st13 : List (HloOp τ sig (Elt F)) :=
    unary main_v7 main_v169 (broadcastInDim S600000x1 ![0] bcast_S600000_S600000x1_0 : (⟨S600000, .i32⟩ : BufTy).Contents (Elt F) → (⟨S600000x1, .i32⟩ : BufTy).Contents (Elt F)) ::
    ternary main_v168 main_v169 main_v167 main_v170 ((fun x i u => Host.scatterAdd scatter_S100000x256_S600000x1_S600000x256_1_0_0_1 x i u) : (⟨S100000x256, .f32⟩ : BufTy).Contents (Elt F) → (⟨S600000x1, .i32⟩ : BufTy).Contents (Elt F) → (⟨S600000x256, .f32⟩ : BufTy).Contents (Elt F) → (⟨S100000x256, .f32⟩ : BufTy).Contents (Elt F)) ::
    nullary main_cst_36 (constant S_ .f32 0x3F800000#32) ::
    unary main_cst_36 main_v171 (broadcastInDim S600000 ![] bcast_S_S600000 : (⟨S_, .f32⟩ : BufTy).Contents (Elt F) → (⟨S600000, .f32⟩ : BufTy).Contents (Elt F)) ::
    nullary main_cst_37 (constant S_ .f32 0x00000000#32) ::
    unary main_cst_37 main_v172 (broadcastInDim S100000 ![] bcast_S_S100000 : (⟨S_, .f32⟩ : BufTy).Contents (Elt F) → (⟨S100000, .f32⟩ : BufTy).Contents (Elt F)) ::
    unary main_v7 main_v173 (broadcastInDim S600000x1 ![0] bcast_S600000_S600000x1_0 : (⟨S600000, .i32⟩ : BufTy).Contents (Elt F) → (⟨S600000x1, .i32⟩ : BufTy).Contents (Elt F)) ::
    ternary main_v172 main_v173 main_v171 main_v174 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) ::
    nullary main_cst_38 (constant S_ .f32 0x3F800000#32) ::
    unary main_cst_38 main_v175 (broadcastInDim S100000 ![] bcast_S_S100000 : (⟨S_, .f32⟩ : BufTy).Contents (Elt F) → (⟨S100000, .f32⟩ : BufTy).Contents (Elt F)) ::
    binary main_v174 main_v175 main_v176 (maximumf : (⟨S100000, .f32⟩ : BufTy).Contents (Elt F) → (⟨S100000, .f32⟩ : BufTy).Contents (Elt F) → (⟨S100000, .f32⟩ : BufTy).Contents (Elt F)) ::
    unary main_v176 main_v177 (broadcastInDim S100000x1 ![0] bcast_S100000_S100000x1_0 : (⟨S100000, .f32⟩ : BufTy).Contents (Elt F) → (⟨S100000x1, .f32⟩ : BufTy).Contents (Elt F)) ::
    unary main_v177 main_v178 (broadcastInDim S100000x256 ![0, 1] bcast_S100000x1_S100000x256_0_1 : (⟨S100000x1, .f32⟩ : BufTy).Contents (Elt F) → (⟨S100000x256, .f32⟩ : BufTy).Contents (Elt F)) ::
    binary main_v170 main_v178 main_v179 (Host.divf : (⟨S100000x256, .f32⟩ : BufTy).Contents (Elt F) → (⟨S100000x256, .f32⟩ : BufTy).Contents (Elt F) → (⟨S100000x256, .f32⟩ : BufTy).Contents (Elt F)) ::
    binary main_v179 main_arg11 main_v180 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ::
    unary main_arg12 main_v181 (broadcastInDim S1x128 ![1] bcast_S128_S1x128_1 : (⟨S128, .f32⟩ : BufTy).Contents (Elt F) → (⟨S1x128, .f32⟩ : BufTy).Contents (Elt F)) ::
    unary main_v181 main_v182 (broadcastInDim S100000x128 ![0, 1] bcast_S1x128_S100000x128_0_1 : (⟨S1x128, .f32⟩ : BufTy).Contents (Elt F) → (⟨S100000x128, .f32⟩ : BufTy).Contents (Elt F)) ::
    binary main_v180 main_v182 main_v183 (addf : (⟨S100000x128, .f32⟩ : BufTy).Contents (Elt F) → (⟨S100000x128, .f32⟩ : BufTy).Contents (Elt F) → (⟨S100000x128, .f32⟩ : BufTy).Contents (Elt F)) ::
    binary main_v160 main_arg13 main_v184 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ::
    binary main_v183 main_v184 main_v185 (addf : (⟨S100000x128, .f32⟩ : BufTy).Contents (Elt F) → (⟨S100000x128, .f32⟩ : BufTy).Contents (Elt F) → (⟨S100000x128, .f32⟩ : BufTy).Contents (Elt F)) ::
    TRef.nullary (TRef.of (T := ⟨S_, .f32⟩) main_call5_cst) (constant S_ .f32 0x00000000#32) ::
    TRef.unary (TRef.of (T := ⟨S_, .f32⟩) main_call5_cst) (TRef.of (T := ⟨S100000x128, .f32⟩) main_call5_v0) (broadcastInDim S100000x128 ![] bcast_S_S100000x128) ::
    TRef.binary (TRef.of (T := ⟨S100000x128, .f32⟩) main_v185) (TRef.of (T := ⟨S100000x128, .f32⟩) main_call5_v0) (TRef.of (T := ⟨S100000x128, .f32⟩) main_v186) maximumf ::
    binary main_v186 main_arg14 main_v187 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) :: []
/-- The references stretch 13 writes. -/
abbrev st13_W : List (Ref sig .tc) := [main_v169, main_v170, main_cst_36, main_v171, main_cst_37, main_v172, main_v173, main_v174, main_cst_38, main_v175, main_v176, main_v177, main_v178, main_v179, main_v180, main_v181, main_v182, main_v183, main_v184, main_v185, main_call5_cst, main_call5_v0, main_v186, main_v187]
theorem st13_writes : (st13 : List (HloOp τ sig (Elt F))).Forall fun op => op.writes ⊆ (st13_W.map (Proc.devRef (τ := τ) .tc)).toFinset := by
  simp only [st13, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 242 … 265 of @main. -/
abbrev st14 : List (HloOp τ sig (Elt F)) :=
    unary main_arg15 main_v188 (broadcastInDim S1x128 ![1] bcast_S128_S1x128_1 : (⟨S128, .f32⟩ : BufTy).Contents (Elt F) → (⟨S1x128, .f32⟩ : BufTy).Contents (Elt F)) ::
    unary main_v188 main_v189 (broadcastInDim S100000x128 ![0, 1] bcast_S1x128_S100000x128_0_1 : (⟨S1x128, .f32⟩ : BufTy).Contents (Elt F) → (⟨S100000x128, .f32⟩ : BufTy).Contents (Elt F)) ::
    binary main_v187 main_v189 main_v190 (addf : (⟨S100000x128, .f32⟩ : BufTy).Contents (Elt F) → (⟨S100000x128, .f32⟩ : BufTy).Contents (Elt F) → (⟨S100000x128, .f32⟩ : BufTy).Contents (Elt F)) ::
    nullary main_cst_39 (constant S_ .f32 0x00000000#32) ::
    binary main_v190 main_cst_39 main_v191 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ::
    unary main_v191 main_v192 (broadcastInDim S100000x1 ![0] bcast_S100000_S100000x1_0 : (⟨S100000, .f32⟩ : BufTy).Contents (Elt F) → (⟨S100000x1, .f32⟩ : BufTy).Contents (Elt F)) ::
    nullary main_cst_40 (constant S_ .f32 0x43000000#32) ::
    unary main_cst_40 main_v193 (broadcastInDim S100000x1 ![] bcast_S_S100000x1 : (⟨S_, .f32⟩ : BufTy).Contents (Elt F) → (⟨S100000x1, .f32⟩ : BufTy).Contents (Elt F)) ::
    binary main_v192 main_v193 main_v194 (Host.divf : (⟨S100000x1, .f32⟩ : BufTy).Contents (Elt F) → (⟨S100000x1, .f32⟩ : BufTy).Contents (Elt F) → (⟨S100000x1, .f32⟩ : BufTy).Contents (Elt F)) ::
    unary main_v194 main_v195 (broadcastInDim S100000x128 ![0, 1] bcast_S100000x1_S100000x128_0_1 : (⟨S100000x1, .f32⟩ : BufTy).Contents (Elt F) → (⟨S100000x128, .f32⟩ : BufTy).Contents (Elt F)) ::
    binary main_v190 main_v195 main_v196 (subf : (⟨S100000x128, .f32⟩ : BufTy).Contents (Elt F) → (⟨S100000x128, .f32⟩ : BufTy).Contents (Elt F) → (⟨S100000x128, .f32⟩ : BufTy).Contents (Elt F)) ::
    binary main_v196 main_v196 main_v197 (mulf : (⟨S100000x128, .f32⟩ : BufTy).Contents (Elt F) → (⟨S100000x128, .f32⟩ : BufTy).Contents (Elt F) → (⟨S100000x128, .f32⟩ : BufTy).Contents (Elt F)) ::
    nullary main_cst_41 (constant S_ .f32 0x00000000#32) ::
    binary main_v197 main_cst_41 main_v198 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)) ::
    unary main_v198 main_v199 (broadcastInDim S100000x1 ![0] bcast_S100000_S100000x1_0 : (⟨S100000, .f32⟩ : BufTy).Contents (Elt F) → (⟨S100000x1, .f32⟩ : BufTy).Contents (Elt F)) ::
    nullary main_cst_42 (constant S_ .f32 0x43000000#32) ::
    unary main_cst_42 main_v200 (broadcastInDim S100000x1 ![] bcast_S_S100000x1 : (⟨S_, .f32⟩ : BufTy).Contents (Elt F) → (⟨S100000x1, .f32⟩ : BufTy).Contents (Elt F)) ::
    binary main_v199 main_v200 main_v201 (Host.divf : (⟨S100000x1, .f32⟩ : BufTy).Contents (Elt F) → (⟨S100000x1, .f32⟩ : BufTy).Contents (Elt F) → (⟨S100000x1, .f32⟩ : BufTy).Contents (Elt F)) ::
    unary main_v194 main_v202 (broadcastInDim S100000x128 ![0, 1] bcast_S100000x1_S100000x128_0_1 : (⟨S100000x1, .f32⟩ : BufTy).Contents (Elt F) → (⟨S100000x128, .f32⟩ : BufTy).Contents (Elt F)) ::
    binary main_v190 main_v202 main_v203 (subf : (⟨S100000x128, .f32⟩ : BufTy).Contents (Elt F) → (⟨S100000x128, .f32⟩ : BufTy).Contents (Elt F) → (⟨S100000x128, .f32⟩ : BufTy).Contents (Elt F)) ::
    nullary main_cst_43 (constant S_ .f32 0x3727C5AC#32) ::
    unary main_cst_43 main_v204 (broadcastInDim S100000x1 ![] bcast_S_S100000x1 : (⟨S_, .f32⟩ : BufTy).Contents (Elt F) → (⟨S100000x1, .f32⟩ : BufTy).Contents (Elt F)) ::
    binary main_v201 main_v204 main_v205 (addf : (⟨S100000x1, .f32⟩ : BufTy).Contents (Elt F) → (⟨S100000x1, .f32⟩ : BufTy).Contents (Elt F) → (⟨S100000x1, .f32⟩ : BufTy).Contents (Elt F)) ::
    unary main_v205 main_v206 (Host.rsqrt : (⟨S100000x1, .f32⟩ : BufTy).Contents (Elt F) → (⟨S100000x1, .f32⟩ : BufTy).Contents (Elt F)) :: []
/-- The references stretch 14 writes. -/
abbrev st14_W : List (Ref sig .tc) := [main_v188, main_v189, main_v190, main_cst_39, main_v191, main_v192, main_cst_40, main_v193, main_v194, main_v195, main_v196, main_v197, main_cst_41, main_v198, main_v199, main_cst_42, main_v200, main_v201, main_v202, main_v203, main_cst_43, main_v204, main_v205, main_v206]
theorem st14_writes : (st14 : List (HloOp τ sig (Elt F))).Forall fun op => op.writes ⊆ (st14_W.map (Proc.devRef (τ := τ) .tc)).toFinset := by
  simp only [st14, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 266 … 278 of @main. -/
abbrev st15 : List (HloOp τ sig (Elt F)) :=
    unary main_v206 main_v207 (broadcastInDim S100000x128 ![0, 1] bcast_S100000x1_S100000x128_0_1 : (⟨S100000x1, .f32⟩ : BufTy).Contents (Elt F) → (⟨S100000x128, .f32⟩ : BufTy).Contents (Elt F)) ::
    binary main_v203 main_v207 main_v208 (mulf : (⟨S100000x128, .f32⟩ : BufTy).Contents (Elt F) → (⟨S100000x128, .f32⟩ : BufTy).Contents (Elt F) → (⟨S100000x128, .f32⟩ : BufTy).Contents (Elt F)) ::
    unary main_arg16 main_v209 (broadcastInDim S1x128 ![1] bcast_S128_S1x128_1 : (⟨S128, .f32⟩ : BufTy).Contents (Elt F) → (⟨S1x128, .f32⟩ : BufTy).Contents (Elt F)) ::
    unary main_v209 main_v210 (broadcastInDim S100000x128 ![0, 1] bcast_S1x128_S100000x128_0_1 : (⟨S1x128, .f32⟩ : BufTy).Contents (Elt F) → (⟨S100000x128, .f32⟩ : BufTy).Contents (Elt F)) ::
    binary main_v208 main_v210 main_v211 (mulf : (⟨S100000x128, .f32⟩ : BufTy).Contents (Elt F) → (⟨S100000x128, .f32⟩ : BufTy).Contents (Elt F) → (⟨S100000x128, .f32⟩ : BufTy).Contents (Elt F)) ::
    unary main_arg17 main_v212 (broadcastInDim S1x128 ![1] bcast_S128_S1x128_1 : (⟨S128, .f32⟩ : BufTy).Contents (Elt F) → (⟨S1x128, .f32⟩ : BufTy).Contents (Elt F)) ::
    unary main_v212 main_v213 (broadcastInDim S100000x128 ![0, 1] bcast_S1x128_S100000x128_0_1 : (⟨S1x128, .f32⟩ : BufTy).Contents (Elt F) → (⟨S100000x128, .f32⟩ : BufTy).Contents (Elt F)) ::
    binary main_v211 main_v213 main_v214 (addf : (⟨S100000x128, .f32⟩ : BufTy).Contents (Elt F) → (⟨S100000x128, .f32⟩ : BufTy).Contents (Elt F) → (⟨S100000x128, .f32⟩ : BufTy).Contents (Elt F)) ::
    binary main_v214 main_arg18 main_v215 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) ::
    unary main_arg19 main_v216 (broadcastInDim S1x1 ![1] bcast_S1_S1x1_1 : (⟨S1, .f32⟩ : BufTy).Contents (Elt F) → (⟨S1x1, .f32⟩ : BufTy).Contents (Elt F)) ::
    unary main_v216 main_v217 (broadcastInDim S100000x1 ![0, 1] bcast_S1x1_S100000x1_0_1 : (⟨S1x1, .f32⟩ : BufTy).Contents (Elt F) → (⟨S100000x1, .f32⟩ : BufTy).Contents (Elt F)) ::
    binary main_v215 main_v217 main_v218 (addf : (⟨S100000x1, .f32⟩ : BufTy).Contents (Elt F) → (⟨S100000x1, .f32⟩ : BufTy).Contents (Elt F) → (⟨S100000x1, .f32⟩ : BufTy).Contents (Elt F)) ::
    reshape main_v218 main_v219 rfl shapeCasts_S100000x1_S100000 :: []
/-- The references stretch 15 writes. -/
abbrev st15_W : List (Ref sig .tc) := [main_v207, main_v208, main_v209, main_v210, main_v211, main_v212, main_v213, main_v214, main_v215, main_v216, main_v217, main_v218, main_v219]
theorem st15_writes : (st15 : List (HloOp τ sig (Elt F))).Forall fun op => op.writes ⊆ (st15_W.map (Proc.devRef (τ := τ) .tc)).toFinset := by
  simp only [st15, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 279 … 284 of @main. -/
abbrev st16 : List (HloOp τ sig (Elt F)) :=
    binary main_v159 main_v219 main_v220 ((fun a b => concatenate S200000 0 [⟨S100000, a⟩, ⟨S100000, b⟩] concatenates_S100000_S100000_S200000_d0) : (⟨S100000, .f32⟩ : BufTy).Contents (Elt F) → (⟨S100000, .f32⟩ : BufTy).Contents (Elt F) → (⟨S200000, .f32⟩ : BufTy).Contents (Elt F)) ::
    nullary main_cst_44 (constant S_ .f32 0x00000000#32) ::
    binary main_v220 main_cst_44 main_v221 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)) ::
    nullary main_cst_45 (constant S_ .f32 0x48435000#32) ::
    binary main_v221 main_cst_45 main_v222 (Host.divf : (⟨S_, .f32⟩ : BufTy).Contents (Elt F) → (⟨S_, .f32⟩ : BufTy).Contents (Elt F) → (⟨S_, .f32⟩ : BufTy).Contents (Elt F)) ::
    unary main_v222 main_v223 (broadcastInDim S1x1 ![] bcast_S_S1x1 : (⟨S_, .f32⟩ : BufTy).Contents (Elt F) → (⟨S1x1, .f32⟩ : BufTy).Contents (Elt F)) :: []
/-- The references stretch 16 writes. -/
abbrev st16_W : List (Ref sig .tc) := [main_v220, main_cst_44, main_v221, main_cst_45, main_v222, main_v223]
theorem st16_writes : (st16 : List (HloOp τ sig (Elt F))).Forall fun op => op.writes ⊆ (st16_W.map (Proc.devRef (τ := τ) .tc)).toFinset := by
  simp only [st16, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The stretches, in order, are @main's operations. -/
theorem ops_eq : (ops : List (HloOp τ sig (Elt F))) = st1 ++ (st2 ++ (st3 ++ (st4 ++ (st5 ++ (st6 ++ (st7 ++ (st8 ++ (st9 ++ (st10 ++ (st11 ++ (st12 ++ (st13 ++ (st14 ++ (st15 ++ (st16))))))))))))))) := rfl

/-! ## What the buffers hold between the stretches: each live buffer at its stage of the reference, the arguments as given -/

/-- After no operation: the arguments as given. -/
structure Inv0 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19

/-- After stretch 1: the arguments as given, and every buffer still read later at its stage. -/
structure Inv1 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v8 : V (Proc.devRef .tc main_v8) = ReadP.val_main_v8 (F := F) x0 x4
  main_v9 : V (Proc.devRef .tc main_v9) = ReadP.val_main_v9 (F := F)

/-- After stretch 2: the arguments as given, and every buffer still read later at its stage. -/
structure Inv2 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v8 : V (Proc.devRef .tc main_v8) = ReadP.val_main_v8 (F := F) x0 x4
  main_v9 : V (Proc.devRef .tc main_v9) = ReadP.val_main_v9 (F := F)
  main_v10 : V (Proc.devRef .tc main_v10) = ReadP.val_main_v10 (F := F) x2

/-- After stretch 3: the arguments as given, and every buffer still read later at its stage. -/
structure Inv3 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v8 : V (Proc.devRef .tc main_v8) = ReadP.val_main_v8 (F := F) x0 x4
  main_v10 : V (Proc.devRef .tc main_v10) = ReadP.val_main_v10 (F := F) x2
  main_v11 : V (Proc.devRef .tc main_v11) = ReadP.val_main_v11 (F := F) x2
  main_v21 : V (Proc.devRef .tc main_v21) = ReadP.val_main_v21 (F := F) x2
  main_v23 : V (Proc.devRef .tc main_v23) = ReadP.val_main_v23 (F := F) x2
  main_v25 : V (Proc.devRef .tc main_v25) = ReadP.val_main_v25 (F := F) x2

/-- After stretch 4: the arguments as given, and every buffer still read later at its stage. -/
structure Inv4 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v11 : V (Proc.devRef .tc main_v11) = ReadP.val_main_v11 (F := F) x2
  main_v43 : V (Proc.devRef .tc main_v43) = ReadP.val_main_v43 (F := F) x0 x2 x4
  main_v45 : V (Proc.devRef .tc main_v45) = ReadP.val_main_v45 (F := F) x2

/-- After stretch 5: the arguments as given, and every buffer still read later at its stage. -/
structure Inv5 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v53 : V (Proc.devRef .tc main_v53) = ReadP.val_main_v53 (F := F) x0 x2 x4 x5
  main_v54 : V (Proc.devRef .tc main_v54) = ReadP.val_main_v54 (F := F) x1 x6
  main_v55 : V (Proc.devRef .tc main_v55) = ReadP.val_main_v55 (F := F)

/-- After stretch 6: the arguments as given, and every buffer still read later at its stage. -/
structure Inv6 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v53 : V (Proc.devRef .tc main_v53) = ReadP.val_main_v53 (F := F) x0 x2 x4 x5
  main_v54 : V (Proc.devRef .tc main_v54) = ReadP.val_main_v54 (F := F) x1 x6
  main_v55 : V (Proc.devRef .tc main_v55) = ReadP.val_main_v55 (F := F)
  main_v56 : V (Proc.devRef .tc main_v56) = ReadP.val_main_v56 (F := F) x3

/-- After stretch 7: the arguments as given, and every buffer still read later at its stage. -/
structure Inv7 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v53 : V (Proc.devRef .tc main_v53) = ReadP.val_main_v53 (F := F) x0 x2 x4 x5
  main_v54 : V (Proc.devRef .tc main_v54) = ReadP.val_main_v54 (F := F) x1 x6
  main_v56 : V (Proc.devRef .tc main_v56) = ReadP.val_main_v56 (F := F) x3
  main_v57 : V (Proc.devRef .tc main_v57) = ReadP.val_main_v57 (F := F) x3
  main_v67 : V (Proc.devRef .tc main_v67) = ReadP.val_main_v67 (F := F) x3
  main_v69 : V (Proc.devRef .tc main_v69) = ReadP.val_main_v69 (F := F) x3
  main_v71 : V (Proc.devRef .tc main_v71) = ReadP.val_main_v71 (F := F) x3

/-- After stretch 8: the arguments as given, and every buffer still read later at its stage. -/
structure Inv8 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v1 : V (Proc.devRef .tc main_v1) = ReadP.val_main_v1 (F := F) x2
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v53 : V (Proc.devRef .tc main_v53) = ReadP.val_main_v53 (F := F) x0 x2 x4 x5
  main_v57 : V (Proc.devRef .tc main_v57) = ReadP.val_main_v57 (F := F) x3
  main_v89 : V (Proc.devRef .tc main_v89) = ReadP.val_main_v89 (F := F) x1 x3 x6
  main_v91 : V (Proc.devRef .tc main_v91) = ReadP.val_main_v91 (F := F) x3

/-- After stretch 9: the arguments as given, and every buffer still read later at its stage. -/
structure Inv9 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v3 : V (Proc.devRef .tc main_v3) = ReadP.val_main_v3 (F := F) x2
  main_v5 : V (Proc.devRef .tc main_v5) = ReadP.val_main_v5 (F := F) x3
  main_v7 : V (Proc.devRef .tc main_v7) = ReadP.val_main_v7 (F := F) x3
  main_v98 : V (Proc.devRef .tc main_v98) = ReadP.val_main_v98 (F := F) x1 x3 x6 x7
  main_v99 : V (Proc.devRef .tc main_v99) = ReadP.val_main_v99 (F := F) x1 x3 x6 x7
  main_v100 : V (Proc.devRef .tc main_v100) = ReadP.val_main_v100 (F := F) x0 x1 x2 x3 x4 x5 x6 x7
  main_v107 : V (Proc.devRef .tc main_v107) = ReadP.val_main_v107 (F := F) x0 x1 x2 x3 x4 x5 x6 x7
  main_v108 : V (Proc.devRef .tc main_v108) = ReadP.val_main_v108 (F := F)
  main_v109 : V (Proc.devRef .tc main_v109) = ReadP.val_main_v109 (F := F) x2

/-- After stretch 10: the arguments as given, and every buffer still read later at its stage. -/
structure Inv10 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v5 : V (Proc.devRef .tc main_v5) = ReadP.val_main_v5 (F := F) x3
  main_v7 : V (Proc.devRef .tc main_v7) = ReadP.val_main_v7 (F := F) x3
  main_v98 : V (Proc.devRef .tc main_v98) = ReadP.val_main_v98 (F := F) x1 x3 x6 x7
  main_v99 : V (Proc.devRef .tc main_v99) = ReadP.val_main_v99 (F := F) x1 x3 x6 x7
  main_v127 : V (Proc.devRef .tc main_v127) = ReadP.val_main_v127 (F := F) x0 x1 x2 x3 x4 x5 x6 x7 x8 x9 x10 x14
  main_v128 : V (Proc.devRef .tc main_v128) = ReadP.val_main_v128 (F := F) x15

/-- After stretch 11: the arguments as given, and every buffer still read later at its stage. -/
structure Inv11 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v5 : V (Proc.devRef .tc main_v5) = ReadP.val_main_v5 (F := F) x3
  main_v7 : V (Proc.devRef .tc main_v7) = ReadP.val_main_v7 (F := F) x3
  main_v98 : V (Proc.devRef .tc main_v98) = ReadP.val_main_v98 (F := F) x1 x3 x6 x7
  main_v99 : V (Proc.devRef .tc main_v99) = ReadP.val_main_v99 (F := F) x1 x3 x6 x7
  main_v143 : V (Proc.devRef .tc main_v143) = ReadP.val_main_v143 (F := F) x0 x1 x2 x3 x4 x5 x6 x7 x8 x9 x10 x14 x15
  main_v147 : V (Proc.devRef .tc main_v147) = ReadP.val_main_v147 (F := F) x0 x1 x2 x3 x4 x5 x6 x7 x8 x9 x10 x14 x15

/-- After stretch 12: the arguments as given, and every buffer still read later at its stage. -/
structure Inv12 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v7 : V (Proc.devRef .tc main_v7) = ReadP.val_main_v7 (F := F) x3
  main_v159 : V (Proc.devRef .tc main_v159) = ReadP.val_main_v159 (F := F) x0 x1 x2 x3 x4 x5 x6 x7 x8 x9 x10 x14 x15 x16 x17 x18 x19
  main_v160 : V (Proc.devRef .tc main_v160) = ReadP.val_main_v160 (F := F) x1 x3 x6 x7
  main_v167 : V (Proc.devRef .tc main_v167) = ReadP.val_main_v167 (F := F) x1 x3 x6 x7
  main_v168 : V (Proc.devRef .tc main_v168) = ReadP.val_main_v168 (F := F)

/-- After stretch 13: the arguments as given, and every buffer still read later at its stage. -/
structure Inv13 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v159 : V (Proc.devRef .tc main_v159) = ReadP.val_main_v159 (F := F) x0 x1 x2 x3 x4 x5 x6 x7 x8 x9 x10 x14 x15 x16 x17 x18 x19
  main_v187 : V (Proc.devRef .tc main_v187) = ReadP.val_main_v187 (F := F) x1 x3 x6 x7 x11 x12 x13 x14

/-- After stretch 14: the arguments as given, and every buffer still read later at its stage. -/
structure Inv14 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v159 : V (Proc.devRef .tc main_v159) = ReadP.val_main_v159 (F := F) x0 x1 x2 x3 x4 x5 x6 x7 x8 x9 x10 x14 x15 x16 x17 x18 x19
  main_v203 : V (Proc.devRef .tc main_v203) = ReadP.val_main_v203 (F := F) x1 x3 x6 x7 x11 x12 x13 x14 x15
  main_v206 : V (Proc.devRef .tc main_v206) = ReadP.val_main_v206 (F := F) x1 x3 x6 x7 x11 x12 x13 x14 x15

/-- After stretch 15: the arguments as given, and every buffer still read later at its stage. -/
structure Inv15 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v159 : V (Proc.devRef .tc main_v159) = ReadP.val_main_v159 (F := F) x0 x1 x2 x3 x4 x5 x6 x7 x8 x9 x10 x14 x15 x16 x17 x18 x19
  main_v219 : V (Proc.devRef .tc main_v219) = ReadP.val_main_v219 (F := F) x1 x3 x6 x7 x11 x12 x13 x14 x15 x16 x17 x18 x19

/-- After stretch 16: the arguments as given, and every buffer still read later at its stage. -/
structure Inv16 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_arg7 : V (Proc.devRef .tc main_arg7) = x7
  main_arg8 : V (Proc.devRef .tc main_arg8) = x8
  main_arg9 : V (Proc.devRef .tc main_arg9) = x9
  main_arg10 : V (Proc.devRef .tc main_arg10) = x10
  main_arg11 : V (Proc.devRef .tc main_arg11) = x11
  main_arg12 : V (Proc.devRef .tc main_arg12) = x12
  main_arg13 : V (Proc.devRef .tc main_arg13) = x13
  main_arg14 : V (Proc.devRef .tc main_arg14) = x14
  main_arg15 : V (Proc.devRef .tc main_arg15) = x15
  main_arg16 : V (Proc.devRef .tc main_arg16) = x16
  main_arg17 : V (Proc.devRef .tc main_arg17) = x17
  main_arg18 : V (Proc.devRef .tc main_arg18) = x18
  main_arg19 : V (Proc.devRef .tc main_arg19) = x19
  main_v223 : V (Proc.devRef .tc main_v223) = ReadP.val_main_v223 (F := F) x0 x1 x2 x3 x4 x5 x6 x7 x8 x9 x10 x11 x12 x13 x14 x15 x16 x17 x18 x19

set_option maxHeartbeats 4000000 in
/-- Stretch 1 carries the state of the buffers from its entry to its exit. -/
theorem step1 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv0 V x0 x1 x2 x3 x4 x5 x6 x7 x8 x9 x10 x11 x12 x13 x14 x15 x16 x17 x18 x19) :
    Inv1 (StableHlo.after st1 V) x0 x1 x2 x3 x4 x5 x6 x7 x8 x9 x10 x11 x12 x13 x14 x15 x16 x17 x18 x19 where
  main_arg0 := (StableHlo.after_of_writes_sub st1 V st1_writes (by decide : main_arg0 ∉ st1_W)).trans h.main_arg0
  main_arg1 := (StableHlo.after_of_writes_sub st1 V st1_writes (by decide : main_arg1 ∉ st1_W)).trans h.main_arg1
  main_arg2 := (StableHlo.after_of_writes_sub st1 V st1_writes (by decide : main_arg2 ∉ st1_W)).trans h.main_arg2
  main_arg3 := (StableHlo.after_of_writes_sub st1 V st1_writes (by decide : main_arg3 ∉ st1_W)).trans h.main_arg3
  main_arg4 := (StableHlo.after_of_writes_sub st1 V st1_writes (by decide : main_arg4 ∉ st1_W)).trans h.main_arg4
  main_arg5 := (StableHlo.after_of_writes_sub st1 V st1_writes (by decide : main_arg5 ∉ st1_W)).trans h.main_arg5
  main_arg6 := (StableHlo.after_of_writes_sub st1 V st1_writes (by decide : main_arg6 ∉ st1_W)).trans h.main_arg6
  main_arg7 := (StableHlo.after_of_writes_sub st1 V st1_writes (by decide : main_arg7 ∉ st1_W)).trans h.main_arg7
  main_arg8 := (StableHlo.after_of_writes_sub st1 V st1_writes (by decide : main_arg8 ∉ st1_W)).trans h.main_arg8
  main_arg9 := (StableHlo.after_of_writes_sub st1 V st1_writes (by decide : main_arg9 ∉ st1_W)).trans h.main_arg9
  main_arg10 := (StableHlo.after_of_writes_sub st1 V st1_writes (by decide : main_arg10 ∉ st1_W)).trans h.main_arg10
  main_arg11 := (StableHlo.after_of_writes_sub st1 V st1_writes (by decide : main_arg11 ∉ st1_W)).trans h.main_arg11
  main_arg12 := (StableHlo.after_of_writes_sub st1 V st1_writes (by decide : main_arg12 ∉ st1_W)).trans h.main_arg12
  main_arg13 := (StableHlo.after_of_writes_sub st1 V st1_writes (by decide : main_arg13 ∉ st1_W)).trans h.main_arg13
  main_arg14 := (StableHlo.after_of_writes_sub st1 V st1_writes (by decide : main_arg14 ∉ st1_W)).trans h.main_arg14
  main_arg15 := (StableHlo.after_of_writes_sub st1 V st1_writes (by decide : main_arg15 ∉ st1_W)).trans h.main_arg15
  main_arg16 := (StableHlo.after_of_writes_sub st1 V st1_writes (by decide : main_arg16 ∉ st1_W)).trans h.main_arg16
  main_arg17 := (StableHlo.after_of_writes_sub st1 V st1_writes (by decide : main_arg17 ∉ st1_W)).trans h.main_arg17
  main_arg18 := (StableHlo.after_of_writes_sub st1 V st1_writes (by decide : main_arg18 ∉ st1_W)).trans h.main_arg18
  main_arg19 := (StableHlo.after_of_writes_sub st1 V st1_writes (by decide : main_arg19 ∉ st1_W)).trans h.main_arg19
  main_v1 := by
    show StableHlo.after st1 V (Proc.devRef .tc main_v1) = _
    after_results_simp
    rw [h.main_arg2]
    rfl
  main_v3 := by
    show StableHlo.after st1 V (Proc.devRef .tc main_v3) = _
    after_results_simp
    rw [h.main_arg2]
    rfl
  main_v5 := by
    show StableHlo.after st1 V (Proc.devRef .tc main_v5) = _
    after_results_simp
    rw [h.main_arg3]
    rfl
  main_v7 := by
    show StableHlo.after st1 V (Proc.devRef .tc main_v7) = _
    after_results_simp
    rw [h.main_arg3]
    rfl
  main_v8 := by
    show StableHlo.after st1 V (Proc.devRef .tc main_v8) = _
    after_results_simp
    rw [h.main_arg0, h.main_arg4]
    rfl
  main_v9 := by
    show StableHlo.after st1 V (Proc.devRef .tc main_v9) = _
    after_results_simp
    rfl

set_option maxHeartbeats 4000000 in
/-- Stretch 2 carries the state of the buffers from its entry to its exit. -/
theorem step2 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv1 V x0 x1 x2 x3 x4 x5 x6 x7 x8 x9 x10 x11 x12 x13 x14 x15 x16 x17 x18 x19) :
    Inv2 (StableHlo.after st2 V) x0 x1 x2 x3 x4 x5 x6 x7 x8 x9 x10 x11 x12 x13 x14 x15 x16 x17 x18 x19 where
  main_arg0 := (StableHlo.after_of_writes_sub st2 V st2_writes (by decide : main_arg0 ∉ st2_W)).trans h.main_arg0
  main_arg1 := (StableHlo.after_of_writes_sub st2 V st2_writes (by decide : main_arg1 ∉ st2_W)).trans h.main_arg1
  main_arg2 := (StableHlo.after_of_writes_sub st2 V st2_writes (by decide : main_arg2 ∉ st2_W)).trans h.main_arg2
  main_arg3 := (StableHlo.after_of_writes_sub st2 V st2_writes (by decide : main_arg3 ∉ st2_W)).trans h.main_arg3
  main_arg4 := (StableHlo.after_of_writes_sub st2 V st2_writes (by decide : main_arg4 ∉ st2_W)).trans h.main_arg4
  main_arg5 := (StableHlo.after_of_writes_sub st2 V st2_writes (by decide : main_arg5 ∉ st2_W)).trans h.main_arg5
  main_arg6 := (StableHlo.after_of_writes_sub st2 V st2_writes (by decide : main_arg6 ∉ st2_W)).trans h.main_arg6
  main_arg7 := (StableHlo.after_of_writes_sub st2 V st2_writes (by decide : main_arg7 ∉ st2_W)).trans h.main_arg7
  main_arg8 := (StableHlo.after_of_writes_sub st2 V st2_writes (by decide : main_arg8 ∉ st2_W)).trans h.main_arg8
  main_arg9 := (StableHlo.after_of_writes_sub st2 V st2_writes (by decide : main_arg9 ∉ st2_W)).trans h.main_arg9
  main_arg10 := (StableHlo.after_of_writes_sub st2 V st2_writes (by decide : main_arg10 ∉ st2_W)).trans h.main_arg10
  main_arg11 := (StableHlo.after_of_writes_sub st2 V st2_writes (by decide : main_arg11 ∉ st2_W)).trans h.main_arg11
  main_arg12 := (StableHlo.after_of_writes_sub st2 V st2_writes (by decide : main_arg12 ∉ st2_W)).trans h.main_arg12
  main_arg13 := (StableHlo.after_of_writes_sub st2 V st2_writes (by decide : main_arg13 ∉ st2_W)).trans h.main_arg13
  main_arg14 := (StableHlo.after_of_writes_sub st2 V st2_writes (by decide : main_arg14 ∉ st2_W)).trans h.main_arg14
  main_arg15 := (StableHlo.after_of_writes_sub st2 V st2_writes (by decide : main_arg15 ∉ st2_W)).trans h.main_arg15
  main_arg16 := (StableHlo.after_of_writes_sub st2 V st2_writes (by decide : main_arg16 ∉ st2_W)).trans h.main_arg16
  main_arg17 := (StableHlo.after_of_writes_sub st2 V st2_writes (by decide : main_arg17 ∉ st2_W)).trans h.main_arg17
  main_arg18 := (StableHlo.after_of_writes_sub st2 V st2_writes (by decide : main_arg18 ∉ st2_W)).trans h.main_arg18
  main_arg19 := (StableHlo.after_of_writes_sub st2 V st2_writes (by decide : main_arg19 ∉ st2_W)).trans h.main_arg19
  main_v1 := (StableHlo.after_of_writes_sub st2 V st2_writes (by decide : main_v1 ∉ st2_W)).trans h.main_v1
  main_v3 := (StableHlo.after_of_writes_sub st2 V st2_writes (by decide : main_v3 ∉ st2_W)).trans h.main_v3
  main_v5 := (StableHlo.after_of_writes_sub st2 V st2_writes (by decide : main_v5 ∉ st2_W)).trans h.main_v5
  main_v7 := (StableHlo.after_of_writes_sub st2 V st2_writes (by decide : main_v7 ∉ st2_W)).trans h.main_v7
  main_v8 := (StableHlo.after_of_writes_sub st2 V st2_writes (by decide : main_v8 ∉ st2_W)).trans h.main_v8
  main_v9 := (StableHlo.after_of_writes_sub st2 V st2_writes (by decide : main_v9 ∉ st2_W)).trans h.main_v9
  main_v10 := by
    show StableHlo.after st2 V (Proc.devRef .tc main_v10) = _
    after_results_simp
    rw [h.main_v1, h.main_v9]
    rfl

set_option maxHeartbeats 4000000 in
/-- Stretch 3 carries the state of the buffers from its entry to its exit. -/
theorem step3 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv2 V x0 x1 x2 x3 x4 x5 x6 x7 x8 x9 x10 x11 x12 x13 x14 x15 x16 x17 x18 x19) :
    Inv3 (StableHlo.after st3 V) x0 x1 x2 x3 x4 x5 x6 x7 x8 x9 x10 x11 x12 x13 x14 x15 x16 x17 x18 x19 where
  main_arg0 := (StableHlo.after_of_writes_sub st3 V st3_writes (by decide : main_arg0 ∉ st3_W)).trans h.main_arg0
  main_arg1 := (StableHlo.after_of_writes_sub st3 V st3_writes (by decide : main_arg1 ∉ st3_W)).trans h.main_arg1
  main_arg2 := (StableHlo.after_of_writes_sub st3 V st3_writes (by decide : main_arg2 ∉ st3_W)).trans h.main_arg2
  main_arg3 := (StableHlo.after_of_writes_sub st3 V st3_writes (by decide : main_arg3 ∉ st3_W)).trans h.main_arg3
  main_arg4 := (StableHlo.after_of_writes_sub st3 V st3_writes (by decide : main_arg4 ∉ st3_W)).trans h.main_arg4
  main_arg5 := (StableHlo.after_of_writes_sub st3 V st3_writes (by decide : main_arg5 ∉ st3_W)).trans h.main_arg5
  main_arg6 := (StableHlo.after_of_writes_sub st3 V st3_writes (by decide : main_arg6 ∉ st3_W)).trans h.main_arg6
  main_arg7 := (StableHlo.after_of_writes_sub st3 V st3_writes (by decide : main_arg7 ∉ st3_W)).trans h.main_arg7
  main_arg8 := (StableHlo.after_of_writes_sub st3 V st3_writes (by decide : main_arg8 ∉ st3_W)).trans h.main_arg8
  main_arg9 := (StableHlo.after_of_writes_sub st3 V st3_writes (by decide : main_arg9 ∉ st3_W)).trans h.main_arg9
  main_arg10 := (StableHlo.after_of_writes_sub st3 V st3_writes (by decide : main_arg10 ∉ st3_W)).trans h.main_arg10
  main_arg11 := (StableHlo.after_of_writes_sub st3 V st3_writes (by decide : main_arg11 ∉ st3_W)).trans h.main_arg11
  main_arg12 := (StableHlo.after_of_writes_sub st3 V st3_writes (by decide : main_arg12 ∉ st3_W)).trans h.main_arg12
  main_arg13 := (StableHlo.after_of_writes_sub st3 V st3_writes (by decide : main_arg13 ∉ st3_W)).trans h.main_arg13
  main_arg14 := (StableHlo.after_of_writes_sub st3 V st3_writes (by decide : main_arg14 ∉ st3_W)).trans h.main_arg14
  main_arg15 := (StableHlo.after_of_writes_sub st3 V st3_writes (by decide : main_arg15 ∉ st3_W)).trans h.main_arg15
  main_arg16 := (StableHlo.after_of_writes_sub st3 V st3_writes (by decide : main_arg16 ∉ st3_W)).trans h.main_arg16
  main_arg17 := (StableHlo.after_of_writes_sub st3 V st3_writes (by decide : main_arg17 ∉ st3_W)).trans h.main_arg17
  main_arg18 := (StableHlo.after_of_writes_sub st3 V st3_writes (by decide : main_arg18 ∉ st3_W)).trans h.main_arg18
  main_arg19 := (StableHlo.after_of_writes_sub st3 V st3_writes (by decide : main_arg19 ∉ st3_W)).trans h.main_arg19
  main_v1 := (StableHlo.after_of_writes_sub st3 V st3_writes (by decide : main_v1 ∉ st3_W)).trans h.main_v1
  main_v3 := (StableHlo.after_of_writes_sub st3 V st3_writes (by decide : main_v3 ∉ st3_W)).trans h.main_v3
  main_v5 := (StableHlo.after_of_writes_sub st3 V st3_writes (by decide : main_v5 ∉ st3_W)).trans h.main_v5
  main_v7 := (StableHlo.after_of_writes_sub st3 V st3_writes (by decide : main_v7 ∉ st3_W)).trans h.main_v7
  main_v8 := (StableHlo.after_of_writes_sub st3 V st3_writes (by decide : main_v8 ∉ st3_W)).trans h.main_v8
  main_v10 := (StableHlo.after_of_writes_sub st3 V st3_writes (by decide : main_v10 ∉ st3_W)).trans h.main_v10
  main_v11 := by
    show StableHlo.after st3 V (Proc.devRef .tc main_v11) = _
    after_results_simp
    rw [h.main_v3, h.main_v9]
    rfl
  main_v21 := by
    show StableHlo.after st3 V (Proc.devRef .tc main_v21) = _
    after_results_simp
    rw [h.main_v3, h.main_v9]
    rfl
  main_v23 := by
    show StableHlo.after st3 V (Proc.devRef .tc main_v23) = _
    after_results_simp
    rw [h.main_v10]
    rfl
  main_v25 := by
    show StableHlo.after st3 V (Proc.devRef .tc main_v25) = _
    after_results_simp
    rw [h.main_v10]
    rfl

set_option maxHeartbeats 4000000 in
/-- Stretch 4 carries the state of the buffers from its entry to its exit. -/
theorem step4 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv3 V x0 x1 x2 x3 x4 x5 x6 x7 x8 x9 x10 x11 x12 x13 x14 x15 x16 x17 x18 x19) :
    Inv4 (StableHlo.after st4 V) x0 x1 x2 x3 x4 x5 x6 x7 x8 x9 x10 x11 x12 x13 x14 x15 x16 x17 x18 x19 where
  main_arg0 := (StableHlo.after_of_writes_sub st4 V st4_writes (by decide : main_arg0 ∉ st4_W)).trans h.main_arg0
  main_arg1 := (StableHlo.after_of_writes_sub st4 V st4_writes (by decide : main_arg1 ∉ st4_W)).trans h.main_arg1
  main_arg2 := (StableHlo.after_of_writes_sub st4 V st4_writes (by decide : main_arg2 ∉ st4_W)).trans h.main_arg2
  main_arg3 := (StableHlo.after_of_writes_sub st4 V st4_writes (by decide : main_arg3 ∉ st4_W)).trans h.main_arg3
  main_arg4 := (StableHlo.after_of_writes_sub st4 V st4_writes (by decide : main_arg4 ∉ st4_W)).trans h.main_arg4
  main_arg5 := (StableHlo.after_of_writes_sub st4 V st4_writes (by decide : main_arg5 ∉ st4_W)).trans h.main_arg5
  main_arg6 := (StableHlo.after_of_writes_sub st4 V st4_writes (by decide : main_arg6 ∉ st4_W)).trans h.main_arg6
  main_arg7 := (StableHlo.after_of_writes_sub st4 V st4_writes (by decide : main_arg7 ∉ st4_W)).trans h.main_arg7
  main_arg8 := (StableHlo.after_of_writes_sub st4 V st4_writes (by decide : main_arg8 ∉ st4_W)).trans h.main_arg8
  main_arg9 := (StableHlo.after_of_writes_sub st4 V st4_writes (by decide : main_arg9 ∉ st4_W)).trans h.main_arg9
  main_arg10 := (StableHlo.after_of_writes_sub st4 V st4_writes (by decide : main_arg10 ∉ st4_W)).trans h.main_arg10
  main_arg11 := (StableHlo.after_of_writes_sub st4 V st4_writes (by decide : main_arg11 ∉ st4_W)).trans h.main_arg11
  main_arg12 := (StableHlo.after_of_writes_sub st4 V st4_writes (by decide : main_arg12 ∉ st4_W)).trans h.main_arg12
  main_arg13 := (StableHlo.after_of_writes_sub st4 V st4_writes (by decide : main_arg13 ∉ st4_W)).trans h.main_arg13
  main_arg14 := (StableHlo.after_of_writes_sub st4 V st4_writes (by decide : main_arg14 ∉ st4_W)).trans h.main_arg14
  main_arg15 := (StableHlo.after_of_writes_sub st4 V st4_writes (by decide : main_arg15 ∉ st4_W)).trans h.main_arg15
  main_arg16 := (StableHlo.after_of_writes_sub st4 V st4_writes (by decide : main_arg16 ∉ st4_W)).trans h.main_arg16
  main_arg17 := (StableHlo.after_of_writes_sub st4 V st4_writes (by decide : main_arg17 ∉ st4_W)).trans h.main_arg17
  main_arg18 := (StableHlo.after_of_writes_sub st4 V st4_writes (by decide : main_arg18 ∉ st4_W)).trans h.main_arg18
  main_arg19 := (StableHlo.after_of_writes_sub st4 V st4_writes (by decide : main_arg19 ∉ st4_W)).trans h.main_arg19
  main_v1 := (StableHlo.after_of_writes_sub st4 V st4_writes (by decide : main_v1 ∉ st4_W)).trans h.main_v1
  main_v3 := (StableHlo.after_of_writes_sub st4 V st4_writes (by decide : main_v3 ∉ st4_W)).trans h.main_v3
  main_v5 := (StableHlo.after_of_writes_sub st4 V st4_writes (by decide : main_v5 ∉ st4_W)).trans h.main_v5
  main_v7 := (StableHlo.after_of_writes_sub st4 V st4_writes (by decide : main_v7 ∉ st4_W)).trans h.main_v7
  main_v11 := (StableHlo.after_of_writes_sub st4 V st4_writes (by decide : main_v11 ∉ st4_W)).trans h.main_v11
  main_v43 := by
    show StableHlo.after st4 V (Proc.devRef .tc main_v43) = _
    after_results_simp
    rw [h.main_v8, h.main_v10]
    rfl
  main_v45 := by
    show StableHlo.after st4 V (Proc.devRef .tc main_v45) = _
    after_results_simp
    rw [h.main_v21, h.main_v23, h.main_v25, h.main_v10, h.main_v11]
    rfl

set_option maxHeartbeats 4000000 in
/-- Stretch 5 carries the state of the buffers from its entry to its exit. -/
theorem step5 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv4 V x0 x1 x2 x3 x4 x5 x6 x7 x8 x9 x10 x11 x12 x13 x14 x15 x16 x17 x18 x19) :
    Inv5 (StableHlo.after st5 V) x0 x1 x2 x3 x4 x5 x6 x7 x8 x9 x10 x11 x12 x13 x14 x15 x16 x17 x18 x19 where
  main_arg0 := (StableHlo.after_of_writes_sub st5 V st5_writes (by decide : main_arg0 ∉ st5_W)).trans h.main_arg0
  main_arg1 := (StableHlo.after_of_writes_sub st5 V st5_writes (by decide : main_arg1 ∉ st5_W)).trans h.main_arg1
  main_arg2 := (StableHlo.after_of_writes_sub st5 V st5_writes (by decide : main_arg2 ∉ st5_W)).trans h.main_arg2
  main_arg3 := (StableHlo.after_of_writes_sub st5 V st5_writes (by decide : main_arg3 ∉ st5_W)).trans h.main_arg3
  main_arg4 := (StableHlo.after_of_writes_sub st5 V st5_writes (by decide : main_arg4 ∉ st5_W)).trans h.main_arg4
  main_arg5 := (StableHlo.after_of_writes_sub st5 V st5_writes (by decide : main_arg5 ∉ st5_W)).trans h.main_arg5
  main_arg6 := (StableHlo.after_of_writes_sub st5 V st5_writes (by decide : main_arg6 ∉ st5_W)).trans h.main_arg6
  main_arg7 := (StableHlo.after_of_writes_sub st5 V st5_writes (by decide : main_arg7 ∉ st5_W)).trans h.main_arg7
  main_arg8 := (StableHlo.after_of_writes_sub st5 V st5_writes (by decide : main_arg8 ∉ st5_W)).trans h.main_arg8
  main_arg9 := (StableHlo.after_of_writes_sub st5 V st5_writes (by decide : main_arg9 ∉ st5_W)).trans h.main_arg9
  main_arg10 := (StableHlo.after_of_writes_sub st5 V st5_writes (by decide : main_arg10 ∉ st5_W)).trans h.main_arg10
  main_arg11 := (StableHlo.after_of_writes_sub st5 V st5_writes (by decide : main_arg11 ∉ st5_W)).trans h.main_arg11
  main_arg12 := (StableHlo.after_of_writes_sub st5 V st5_writes (by decide : main_arg12 ∉ st5_W)).trans h.main_arg12
  main_arg13 := (StableHlo.after_of_writes_sub st5 V st5_writes (by decide : main_arg13 ∉ st5_W)).trans h.main_arg13
  main_arg14 := (StableHlo.after_of_writes_sub st5 V st5_writes (by decide : main_arg14 ∉ st5_W)).trans h.main_arg14
  main_arg15 := (StableHlo.after_of_writes_sub st5 V st5_writes (by decide : main_arg15 ∉ st5_W)).trans h.main_arg15
  main_arg16 := (StableHlo.after_of_writes_sub st5 V st5_writes (by decide : main_arg16 ∉ st5_W)).trans h.main_arg16
  main_arg17 := (StableHlo.after_of_writes_sub st5 V st5_writes (by decide : main_arg17 ∉ st5_W)).trans h.main_arg17
  main_arg18 := (StableHlo.after_of_writes_sub st5 V st5_writes (by decide : main_arg18 ∉ st5_W)).trans h.main_arg18
  main_arg19 := (StableHlo.after_of_writes_sub st5 V st5_writes (by decide : main_arg19 ∉ st5_W)).trans h.main_arg19
  main_v1 := (StableHlo.after_of_writes_sub st5 V st5_writes (by decide : main_v1 ∉ st5_W)).trans h.main_v1
  main_v3 := (StableHlo.after_of_writes_sub st5 V st5_writes (by decide : main_v3 ∉ st5_W)).trans h.main_v3
  main_v5 := (StableHlo.after_of_writes_sub st5 V st5_writes (by decide : main_v5 ∉ st5_W)).trans h.main_v5
  main_v7 := (StableHlo.after_of_writes_sub st5 V st5_writes (by decide : main_v7 ∉ st5_W)).trans h.main_v7
  main_v53 := by
    show StableHlo.after st5 V (Proc.devRef .tc main_v53) = _
    after_results_simp
    rw [h.main_v11, h.main_v43, h.main_v45, h.main_arg5]
    rfl
  main_v54 := by
    show StableHlo.after st5 V (Proc.devRef .tc main_v54) = _
    after_results_simp
    rw [h.main_arg1, h.main_arg6]
    rfl
  main_v55 := by
    show StableHlo.after st5 V (Proc.devRef .tc main_v55) = _
    after_results_simp
    rfl

set_option maxHeartbeats 4000000 in
/-- Stretch 6 carries the state of the buffers from its entry to its exit. -/
theorem step6 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv5 V x0 x1 x2 x3 x4 x5 x6 x7 x8 x9 x10 x11 x12 x13 x14 x15 x16 x17 x18 x19) :
    Inv6 (StableHlo.after st6 V) x0 x1 x2 x3 x4 x5 x6 x7 x8 x9 x10 x11 x12 x13 x14 x15 x16 x17 x18 x19 where
  main_arg0 := (StableHlo.after_of_writes_sub st6 V st6_writes (by decide : main_arg0 ∉ st6_W)).trans h.main_arg0
  main_arg1 := (StableHlo.after_of_writes_sub st6 V st6_writes (by decide : main_arg1 ∉ st6_W)).trans h.main_arg1
  main_arg2 := (StableHlo.after_of_writes_sub st6 V st6_writes (by decide : main_arg2 ∉ st6_W)).trans h.main_arg2
  main_arg3 := (StableHlo.after_of_writes_sub st6 V st6_writes (by decide : main_arg3 ∉ st6_W)).trans h.main_arg3
  main_arg4 := (StableHlo.after_of_writes_sub st6 V st6_writes (by decide : main_arg4 ∉ st6_W)).trans h.main_arg4
  main_arg5 := (StableHlo.after_of_writes_sub st6 V st6_writes (by decide : main_arg5 ∉ st6_W)).trans h.main_arg5
  main_arg6 := (StableHlo.after_of_writes_sub st6 V st6_writes (by decide : main_arg6 ∉ st6_W)).trans h.main_arg6
  main_arg7 := (StableHlo.after_of_writes_sub st6 V st6_writes (by decide : main_arg7 ∉ st6_W)).trans h.main_arg7
  main_arg8 := (StableHlo.after_of_writes_sub st6 V st6_writes (by decide : main_arg8 ∉ st6_W)).trans h.main_arg8
  main_arg9 := (StableHlo.after_of_writes_sub st6 V st6_writes (by decide : main_arg9 ∉ st6_W)).trans h.main_arg9
  main_arg10 := (StableHlo.after_of_writes_sub st6 V st6_writes (by decide : main_arg10 ∉ st6_W)).trans h.main_arg10
  main_arg11 := (StableHlo.after_of_writes_sub st6 V st6_writes (by decide : main_arg11 ∉ st6_W)).trans h.main_arg11
  main_arg12 := (StableHlo.after_of_writes_sub st6 V st6_writes (by decide : main_arg12 ∉ st6_W)).trans h.main_arg12
  main_arg13 := (StableHlo.after_of_writes_sub st6 V st6_writes (by decide : main_arg13 ∉ st6_W)).trans h.main_arg13
  main_arg14 := (StableHlo.after_of_writes_sub st6 V st6_writes (by decide : main_arg14 ∉ st6_W)).trans h.main_arg14
  main_arg15 := (StableHlo.after_of_writes_sub st6 V st6_writes (by decide : main_arg15 ∉ st6_W)).trans h.main_arg15
  main_arg16 := (StableHlo.after_of_writes_sub st6 V st6_writes (by decide : main_arg16 ∉ st6_W)).trans h.main_arg16
  main_arg17 := (StableHlo.after_of_writes_sub st6 V st6_writes (by decide : main_arg17 ∉ st6_W)).trans h.main_arg17
  main_arg18 := (StableHlo.after_of_writes_sub st6 V st6_writes (by decide : main_arg18 ∉ st6_W)).trans h.main_arg18
  main_arg19 := (StableHlo.after_of_writes_sub st6 V st6_writes (by decide : main_arg19 ∉ st6_W)).trans h.main_arg19
  main_v1 := (StableHlo.after_of_writes_sub st6 V st6_writes (by decide : main_v1 ∉ st6_W)).trans h.main_v1
  main_v3 := (StableHlo.after_of_writes_sub st6 V st6_writes (by decide : main_v3 ∉ st6_W)).trans h.main_v3
  main_v5 := (StableHlo.after_of_writes_sub st6 V st6_writes (by decide : main_v5 ∉ st6_W)).trans h.main_v5
  main_v7 := (StableHlo.after_of_writes_sub st6 V st6_writes (by decide : main_v7 ∉ st6_W)).trans h.main_v7
  main_v53 := (StableHlo.after_of_writes_sub st6 V st6_writes (by decide : main_v53 ∉ st6_W)).trans h.main_v53
  main_v54 := (StableHlo.after_of_writes_sub st6 V st6_writes (by decide : main_v54 ∉ st6_W)).trans h.main_v54
  main_v55 := (StableHlo.after_of_writes_sub st6 V st6_writes (by decide : main_v55 ∉ st6_W)).trans h.main_v55
  main_v56 := by
    show StableHlo.after st6 V (Proc.devRef .tc main_v56) = _
    after_results_simp
    rw [h.main_v5, h.main_v55]
    rfl

set_option maxHeartbeats 4000000 in
/-- Stretch 7 carries the state of the buffers from its entry to its exit. -/
theorem step7 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv6 V x0 x1 x2 x3 x4 x5 x6 x7 x8 x9 x10 x11 x12 x13 x14 x15 x16 x17 x18 x19) :
    Inv7 (StableHlo.after st7 V) x0 x1 x2 x3 x4 x5 x6 x7 x8 x9 x10 x11 x12 x13 x14 x15 x16 x17 x18 x19 where
  main_arg0 := (StableHlo.after_of_writes_sub st7 V st7_writes (by decide : main_arg0 ∉ st7_W)).trans h.main_arg0
  main_arg1 := (StableHlo.after_of_writes_sub st7 V st7_writes (by decide : main_arg1 ∉ st7_W)).trans h.main_arg1
  main_arg2 := (StableHlo.after_of_writes_sub st7 V st7_writes (by decide : main_arg2 ∉ st7_W)).trans h.main_arg2
  main_arg3 := (StableHlo.after_of_writes_sub st7 V st7_writes (by decide : main_arg3 ∉ st7_W)).trans h.main_arg3
  main_arg4 := (StableHlo.after_of_writes_sub st7 V st7_writes (by decide : main_arg4 ∉ st7_W)).trans h.main_arg4
  main_arg5 := (StableHlo.after_of_writes_sub st7 V st7_writes (by decide : main_arg5 ∉ st7_W)).trans h.main_arg5
  main_arg6 := (StableHlo.after_of_writes_sub st7 V st7_writes (by decide : main_arg6 ∉ st7_W)).trans h.main_arg6
  main_arg7 := (StableHlo.after_of_writes_sub st7 V st7_writes (by decide : main_arg7 ∉ st7_W)).trans h.main_arg7
  main_arg8 := (StableHlo.after_of_writes_sub st7 V st7_writes (by decide : main_arg8 ∉ st7_W)).trans h.main_arg8
  main_arg9 := (StableHlo.after_of_writes_sub st7 V st7_writes (by decide : main_arg9 ∉ st7_W)).trans h.main_arg9
  main_arg10 := (StableHlo.after_of_writes_sub st7 V st7_writes (by decide : main_arg10 ∉ st7_W)).trans h.main_arg10
  main_arg11 := (StableHlo.after_of_writes_sub st7 V st7_writes (by decide : main_arg11 ∉ st7_W)).trans h.main_arg11
  main_arg12 := (StableHlo.after_of_writes_sub st7 V st7_writes (by decide : main_arg12 ∉ st7_W)).trans h.main_arg12
  main_arg13 := (StableHlo.after_of_writes_sub st7 V st7_writes (by decide : main_arg13 ∉ st7_W)).trans h.main_arg13
  main_arg14 := (StableHlo.after_of_writes_sub st7 V st7_writes (by decide : main_arg14 ∉ st7_W)).trans h.main_arg14
  main_arg15 := (StableHlo.after_of_writes_sub st7 V st7_writes (by decide : main_arg15 ∉ st7_W)).trans h.main_arg15
  main_arg16 := (StableHlo.after_of_writes_sub st7 V st7_writes (by decide : main_arg16 ∉ st7_W)).trans h.main_arg16
  main_arg17 := (StableHlo.after_of_writes_sub st7 V st7_writes (by decide : main_arg17 ∉ st7_W)).trans h.main_arg17
  main_arg18 := (StableHlo.after_of_writes_sub st7 V st7_writes (by decide : main_arg18 ∉ st7_W)).trans h.main_arg18
  main_arg19 := (StableHlo.after_of_writes_sub st7 V st7_writes (by decide : main_arg19 ∉ st7_W)).trans h.main_arg19
  main_v1 := (StableHlo.after_of_writes_sub st7 V st7_writes (by decide : main_v1 ∉ st7_W)).trans h.main_v1
  main_v3 := (StableHlo.after_of_writes_sub st7 V st7_writes (by decide : main_v3 ∉ st7_W)).trans h.main_v3
  main_v5 := (StableHlo.after_of_writes_sub st7 V st7_writes (by decide : main_v5 ∉ st7_W)).trans h.main_v5
  main_v7 := (StableHlo.after_of_writes_sub st7 V st7_writes (by decide : main_v7 ∉ st7_W)).trans h.main_v7
  main_v53 := (StableHlo.after_of_writes_sub st7 V st7_writes (by decide : main_v53 ∉ st7_W)).trans h.main_v53
  main_v54 := (StableHlo.after_of_writes_sub st7 V st7_writes (by decide : main_v54 ∉ st7_W)).trans h.main_v54
  main_v56 := (StableHlo.after_of_writes_sub st7 V st7_writes (by decide : main_v56 ∉ st7_W)).trans h.main_v56
  main_v57 := by
    show StableHlo.after st7 V (Proc.devRef .tc main_v57) = _
    after_results_simp
    rw [h.main_v7, h.main_v55]
    rfl
  main_v67 := by
    show StableHlo.after st7 V (Proc.devRef .tc main_v67) = _
    after_results_simp
    rw [h.main_v7, h.main_v55]
    rfl
  main_v69 := by
    show StableHlo.after st7 V (Proc.devRef .tc main_v69) = _
    after_results_simp
    rw [h.main_v56]
    rfl
  main_v71 := by
    show StableHlo.after st7 V (Proc.devRef .tc main_v71) = _
    after_results_simp
    rw [h.main_v56]
    rfl

set_option maxHeartbeats 4000000 in
/-- Stretch 8 carries the state of the buffers from its entry to its exit. -/
theorem step8 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv7 V x0 x1 x2 x3 x4 x5 x6 x7 x8 x9 x10 x11 x12 x13 x14 x15 x16 x17 x18 x19) :
    Inv8 (StableHlo.after st8 V) x0 x1 x2 x3 x4 x5 x6 x7 x8 x9 x10 x11 x12 x13 x14 x15 x16 x17 x18 x19 where
  main_arg0 := (StableHlo.after_of_writes_sub st8 V st8_writes (by decide : main_arg0 ∉ st8_W)).trans h.main_arg0
  main_arg1 := (StableHlo.after_of_writes_sub st8 V st8_writes (by decide : main_arg1 ∉ st8_W)).trans h.main_arg1
  main_arg2 := (StableHlo.after_of_writes_sub st8 V st8_writes (by decide : main_arg2 ∉ st8_W)).trans h.main_arg2
  main_arg3 := (StableHlo.after_of_writes_sub st8 V st8_writes (by decide : main_arg3 ∉ st8_W)).trans h.main_arg3
  main_arg4 := (StableHlo.after_of_writes_sub st8 V st8_writes (by decide : main_arg4 ∉ st8_W)).trans h.main_arg4
  main_arg5 := (StableHlo.after_of_writes_sub st8 V st8_writes (by decide : main_arg5 ∉ st8_W)).trans h.main_arg5
  main_arg6 := (StableHlo.after_of_writes_sub st8 V st8_writes (by decide : main_arg6 ∉ st8_W)).trans h.main_arg6
  main_arg7 := (StableHlo.after_of_writes_sub st8 V st8_writes (by decide : main_arg7 ∉ st8_W)).trans h.main_arg7
  main_arg8 := (StableHlo.after_of_writes_sub st8 V st8_writes (by decide : main_arg8 ∉ st8_W)).trans h.main_arg8
  main_arg9 := (StableHlo.after_of_writes_sub st8 V st8_writes (by decide : main_arg9 ∉ st8_W)).trans h.main_arg9
  main_arg10 := (StableHlo.after_of_writes_sub st8 V st8_writes (by decide : main_arg10 ∉ st8_W)).trans h.main_arg10
  main_arg11 := (StableHlo.after_of_writes_sub st8 V st8_writes (by decide : main_arg11 ∉ st8_W)).trans h.main_arg11
  main_arg12 := (StableHlo.after_of_writes_sub st8 V st8_writes (by decide : main_arg12 ∉ st8_W)).trans h.main_arg12
  main_arg13 := (StableHlo.after_of_writes_sub st8 V st8_writes (by decide : main_arg13 ∉ st8_W)).trans h.main_arg13
  main_arg14 := (StableHlo.after_of_writes_sub st8 V st8_writes (by decide : main_arg14 ∉ st8_W)).trans h.main_arg14
  main_arg15 := (StableHlo.after_of_writes_sub st8 V st8_writes (by decide : main_arg15 ∉ st8_W)).trans h.main_arg15
  main_arg16 := (StableHlo.after_of_writes_sub st8 V st8_writes (by decide : main_arg16 ∉ st8_W)).trans h.main_arg16
  main_arg17 := (StableHlo.after_of_writes_sub st8 V st8_writes (by decide : main_arg17 ∉ st8_W)).trans h.main_arg17
  main_arg18 := (StableHlo.after_of_writes_sub st8 V st8_writes (by decide : main_arg18 ∉ st8_W)).trans h.main_arg18
  main_arg19 := (StableHlo.after_of_writes_sub st8 V st8_writes (by decide : main_arg19 ∉ st8_W)).trans h.main_arg19
  main_v1 := (StableHlo.after_of_writes_sub st8 V st8_writes (by decide : main_v1 ∉ st8_W)).trans h.main_v1
  main_v3 := (StableHlo.after_of_writes_sub st8 V st8_writes (by decide : main_v3 ∉ st8_W)).trans h.main_v3
  main_v5 := (StableHlo.after_of_writes_sub st8 V st8_writes (by decide : main_v5 ∉ st8_W)).trans h.main_v5
  main_v7 := (StableHlo.after_of_writes_sub st8 V st8_writes (by decide : main_v7 ∉ st8_W)).trans h.main_v7
  main_v53 := (StableHlo.after_of_writes_sub st8 V st8_writes (by decide : main_v53 ∉ st8_W)).trans h.main_v53
  main_v57 := (StableHlo.after_of_writes_sub st8 V st8_writes (by decide : main_v57 ∉ st8_W)).trans h.main_v57
  main_v89 := by
    show StableHlo.after st8 V (Proc.devRef .tc main_v89) = _
    after_results_simp
    rw [h.main_v54, h.main_v56]
    rfl
  main_v91 := by
    show StableHlo.after st8 V (Proc.devRef .tc main_v91) = _
    after_results_simp
    rw [h.main_v67, h.main_v69, h.main_v71, h.main_v56, h.main_v57]
    rfl

set_option maxHeartbeats 4000000 in
/-- Stretch 9 carries the state of the buffers from its entry to its exit. -/
theorem step9 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv8 V x0 x1 x2 x3 x4 x5 x6 x7 x8 x9 x10 x11 x12 x13 x14 x15 x16 x17 x18 x19) :
    Inv9 (StableHlo.after st9 V) x0 x1 x2 x3 x4 x5 x6 x7 x8 x9 x10 x11 x12 x13 x14 x15 x16 x17 x18 x19 where
  main_arg0 := (StableHlo.after_of_writes_sub st9 V st9_writes (by decide : main_arg0 ∉ st9_W)).trans h.main_arg0
  main_arg1 := (StableHlo.after_of_writes_sub st9 V st9_writes (by decide : main_arg1 ∉ st9_W)).trans h.main_arg1
  main_arg2 := (StableHlo.after_of_writes_sub st9 V st9_writes (by decide : main_arg2 ∉ st9_W)).trans h.main_arg2
  main_arg3 := (StableHlo.after_of_writes_sub st9 V st9_writes (by decide : main_arg3 ∉ st9_W)).trans h.main_arg3
  main_arg4 := (StableHlo.after_of_writes_sub st9 V st9_writes (by decide : main_arg4 ∉ st9_W)).trans h.main_arg4
  main_arg5 := (StableHlo.after_of_writes_sub st9 V st9_writes (by decide : main_arg5 ∉ st9_W)).trans h.main_arg5
  main_arg6 := (StableHlo.after_of_writes_sub st9 V st9_writes (by decide : main_arg6 ∉ st9_W)).trans h.main_arg6
  main_arg7 := (StableHlo.after_of_writes_sub st9 V st9_writes (by decide : main_arg7 ∉ st9_W)).trans h.main_arg7
  main_arg8 := (StableHlo.after_of_writes_sub st9 V st9_writes (by decide : main_arg8 ∉ st9_W)).trans h.main_arg8
  main_arg9 := (StableHlo.after_of_writes_sub st9 V st9_writes (by decide : main_arg9 ∉ st9_W)).trans h.main_arg9
  main_arg10 := (StableHlo.after_of_writes_sub st9 V st9_writes (by decide : main_arg10 ∉ st9_W)).trans h.main_arg10
  main_arg11 := (StableHlo.after_of_writes_sub st9 V st9_writes (by decide : main_arg11 ∉ st9_W)).trans h.main_arg11
  main_arg12 := (StableHlo.after_of_writes_sub st9 V st9_writes (by decide : main_arg12 ∉ st9_W)).trans h.main_arg12
  main_arg13 := (StableHlo.after_of_writes_sub st9 V st9_writes (by decide : main_arg13 ∉ st9_W)).trans h.main_arg13
  main_arg14 := (StableHlo.after_of_writes_sub st9 V st9_writes (by decide : main_arg14 ∉ st9_W)).trans h.main_arg14
  main_arg15 := (StableHlo.after_of_writes_sub st9 V st9_writes (by decide : main_arg15 ∉ st9_W)).trans h.main_arg15
  main_arg16 := (StableHlo.after_of_writes_sub st9 V st9_writes (by decide : main_arg16 ∉ st9_W)).trans h.main_arg16
  main_arg17 := (StableHlo.after_of_writes_sub st9 V st9_writes (by decide : main_arg17 ∉ st9_W)).trans h.main_arg17
  main_arg18 := (StableHlo.after_of_writes_sub st9 V st9_writes (by decide : main_arg18 ∉ st9_W)).trans h.main_arg18
  main_arg19 := (StableHlo.after_of_writes_sub st9 V st9_writes (by decide : main_arg19 ∉ st9_W)).trans h.main_arg19
  main_v3 := (StableHlo.after_of_writes_sub st9 V st9_writes (by decide : main_v3 ∉ st9_W)).trans h.main_v3
  main_v5 := (StableHlo.after_of_writes_sub st9 V st9_writes (by decide : main_v5 ∉ st9_W)).trans h.main_v5
  main_v7 := (StableHlo.after_of_writes_sub st9 V st9_writes (by decide : main_v7 ∉ st9_W)).trans h.main_v7
  main_v98 := by
    show StableHlo.after st9 V (Proc.devRef .tc main_v98) = _
    after_results_simp
    rw [h.main_v57, h.main_v89, h.main_v91, h.main_arg7]
    rfl
  main_v99 := by
    show StableHlo.after st9 V (Proc.devRef .tc main_v99) = _
    after_results_simp
    rw [h.main_v57, h.main_v89, h.main_v91, h.main_arg7]
    rfl
  main_v100 := by
    show StableHlo.after st9 V (Proc.devRef .tc main_v100) = _
    after_results_simp
    rw [h.main_v53, h.main_v57, h.main_v89, h.main_v91, h.main_arg7]
    rfl
  main_v107 := by
    show StableHlo.after st9 V (Proc.devRef .tc main_v107) = _
    after_results_simp
    rw [h.main_v53, h.main_v57, h.main_v89, h.main_v91, h.main_arg7, h.main_v1]
    rfl
  main_v108 := by
    show StableHlo.after st9 V (Proc.devRef .tc main_v108) = _
    after_results_simp
    rfl
  main_v109 := by
    show StableHlo.after st9 V (Proc.devRef .tc main_v109) = _
    after_results_simp
    rw [h.main_v3]
    rfl

set_option maxHeartbeats 4000000 in
/-- Stretch 10 carries the state of the buffers from its entry to its exit. -/
theorem step10 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv9 V x0 x1 x2 x3 x4 x5 x6 x7 x8 x9 x10 x11 x12 x13 x14 x15 x16 x17 x18 x19) :
    Inv10 (StableHlo.after st10 V) x0 x1 x2 x3 x4 x5 x6 x7 x8 x9 x10 x11 x12 x13 x14 x15 x16 x17 x18 x19 where
  main_arg0 := (StableHlo.after_of_writes_sub st10 V st10_writes (by decide : main_arg0 ∉ st10_W)).trans h.main_arg0
  main_arg1 := (StableHlo.after_of_writes_sub st10 V st10_writes (by decide : main_arg1 ∉ st10_W)).trans h.main_arg1
  main_arg2 := (StableHlo.after_of_writes_sub st10 V st10_writes (by decide : main_arg2 ∉ st10_W)).trans h.main_arg2
  main_arg3 := (StableHlo.after_of_writes_sub st10 V st10_writes (by decide : main_arg3 ∉ st10_W)).trans h.main_arg3
  main_arg4 := (StableHlo.after_of_writes_sub st10 V st10_writes (by decide : main_arg4 ∉ st10_W)).trans h.main_arg4
  main_arg5 := (StableHlo.after_of_writes_sub st10 V st10_writes (by decide : main_arg5 ∉ st10_W)).trans h.main_arg5
  main_arg6 := (StableHlo.after_of_writes_sub st10 V st10_writes (by decide : main_arg6 ∉ st10_W)).trans h.main_arg6
  main_arg7 := (StableHlo.after_of_writes_sub st10 V st10_writes (by decide : main_arg7 ∉ st10_W)).trans h.main_arg7
  main_arg8 := (StableHlo.after_of_writes_sub st10 V st10_writes (by decide : main_arg8 ∉ st10_W)).trans h.main_arg8
  main_arg9 := (StableHlo.after_of_writes_sub st10 V st10_writes (by decide : main_arg9 ∉ st10_W)).trans h.main_arg9
  main_arg10 := (StableHlo.after_of_writes_sub st10 V st10_writes (by decide : main_arg10 ∉ st10_W)).trans h.main_arg10
  main_arg11 := (StableHlo.after_of_writes_sub st10 V st10_writes (by decide : main_arg11 ∉ st10_W)).trans h.main_arg11
  main_arg12 := (StableHlo.after_of_writes_sub st10 V st10_writes (by decide : main_arg12 ∉ st10_W)).trans h.main_arg12
  main_arg13 := (StableHlo.after_of_writes_sub st10 V st10_writes (by decide : main_arg13 ∉ st10_W)).trans h.main_arg13
  main_arg14 := (StableHlo.after_of_writes_sub st10 V st10_writes (by decide : main_arg14 ∉ st10_W)).trans h.main_arg14
  main_arg15 := (StableHlo.after_of_writes_sub st10 V st10_writes (by decide : main_arg15 ∉ st10_W)).trans h.main_arg15
  main_arg16 := (StableHlo.after_of_writes_sub st10 V st10_writes (by decide : main_arg16 ∉ st10_W)).trans h.main_arg16
  main_arg17 := (StableHlo.after_of_writes_sub st10 V st10_writes (by decide : main_arg17 ∉ st10_W)).trans h.main_arg17
  main_arg18 := (StableHlo.after_of_writes_sub st10 V st10_writes (by decide : main_arg18 ∉ st10_W)).trans h.main_arg18
  main_arg19 := (StableHlo.after_of_writes_sub st10 V st10_writes (by decide : main_arg19 ∉ st10_W)).trans h.main_arg19
  main_v5 := (StableHlo.after_of_writes_sub st10 V st10_writes (by decide : main_v5 ∉ st10_W)).trans h.main_v5
  main_v7 := (StableHlo.after_of_writes_sub st10 V st10_writes (by decide : main_v7 ∉ st10_W)).trans h.main_v7
  main_v98 := (StableHlo.after_of_writes_sub st10 V st10_writes (by decide : main_v98 ∉ st10_W)).trans h.main_v98
  main_v99 := (StableHlo.after_of_writes_sub st10 V st10_writes (by decide : main_v99 ∉ st10_W)).trans h.main_v99
  main_v127 := by
    show StableHlo.after st10 V (Proc.devRef .tc main_v127) = _
    after_results_simp
    rw [h.main_v108, h.main_v109, h.main_v107, h.main_v3, h.main_arg8, h.main_arg9, h.main_v100, h.main_arg10, h.main_arg14]
    rfl
  main_v128 := by
    show StableHlo.after st10 V (Proc.devRef .tc main_v128) = _
    after_results_simp
    rw [h.main_arg15]
    rfl

set_option maxHeartbeats 4000000 in
/-- Stretch 11 carries the state of the buffers from its entry to its exit. -/
theorem step11 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv10 V x0 x1 x2 x3 x4 x5 x6 x7 x8 x9 x10 x11 x12 x13 x14 x15 x16 x17 x18 x19) :
    Inv11 (StableHlo.after st11 V) x0 x1 x2 x3 x4 x5 x6 x7 x8 x9 x10 x11 x12 x13 x14 x15 x16 x17 x18 x19 where
  main_arg0 := (StableHlo.after_of_writes_sub st11 V st11_writes (by decide : main_arg0 ∉ st11_W)).trans h.main_arg0
  main_arg1 := (StableHlo.after_of_writes_sub st11 V st11_writes (by decide : main_arg1 ∉ st11_W)).trans h.main_arg1
  main_arg2 := (StableHlo.after_of_writes_sub st11 V st11_writes (by decide : main_arg2 ∉ st11_W)).trans h.main_arg2
  main_arg3 := (StableHlo.after_of_writes_sub st11 V st11_writes (by decide : main_arg3 ∉ st11_W)).trans h.main_arg3
  main_arg4 := (StableHlo.after_of_writes_sub st11 V st11_writes (by decide : main_arg4 ∉ st11_W)).trans h.main_arg4
  main_arg5 := (StableHlo.after_of_writes_sub st11 V st11_writes (by decide : main_arg5 ∉ st11_W)).trans h.main_arg5
  main_arg6 := (StableHlo.after_of_writes_sub st11 V st11_writes (by decide : main_arg6 ∉ st11_W)).trans h.main_arg6
  main_arg7 := (StableHlo.after_of_writes_sub st11 V st11_writes (by decide : main_arg7 ∉ st11_W)).trans h.main_arg7
  main_arg8 := (StableHlo.after_of_writes_sub st11 V st11_writes (by decide : main_arg8 ∉ st11_W)).trans h.main_arg8
  main_arg9 := (StableHlo.after_of_writes_sub st11 V st11_writes (by decide : main_arg9 ∉ st11_W)).trans h.main_arg9
  main_arg10 := (StableHlo.after_of_writes_sub st11 V st11_writes (by decide : main_arg10 ∉ st11_W)).trans h.main_arg10
  main_arg11 := (StableHlo.after_of_writes_sub st11 V st11_writes (by decide : main_arg11 ∉ st11_W)).trans h.main_arg11
  main_arg12 := (StableHlo.after_of_writes_sub st11 V st11_writes (by decide : main_arg12 ∉ st11_W)).trans h.main_arg12
  main_arg13 := (StableHlo.after_of_writes_sub st11 V st11_writes (by decide : main_arg13 ∉ st11_W)).trans h.main_arg13
  main_arg14 := (StableHlo.after_of_writes_sub st11 V st11_writes (by decide : main_arg14 ∉ st11_W)).trans h.main_arg14
  main_arg15 := (StableHlo.after_of_writes_sub st11 V st11_writes (by decide : main_arg15 ∉ st11_W)).trans h.main_arg15
  main_arg16 := (StableHlo.after_of_writes_sub st11 V st11_writes (by decide : main_arg16 ∉ st11_W)).trans h.main_arg16
  main_arg17 := (StableHlo.after_of_writes_sub st11 V st11_writes (by decide : main_arg17 ∉ st11_W)).trans h.main_arg17
  main_arg18 := (StableHlo.after_of_writes_sub st11 V st11_writes (by decide : main_arg18 ∉ st11_W)).trans h.main_arg18
  main_arg19 := (StableHlo.after_of_writes_sub st11 V st11_writes (by decide : main_arg19 ∉ st11_W)).trans h.main_arg19
  main_v5 := (StableHlo.after_of_writes_sub st11 V st11_writes (by decide : main_v5 ∉ st11_W)).trans h.main_v5
  main_v7 := (StableHlo.after_of_writes_sub st11 V st11_writes (by decide : main_v7 ∉ st11_W)).trans h.main_v7
  main_v98 := (StableHlo.after_of_writes_sub st11 V st11_writes (by decide : main_v98 ∉ st11_W)).trans h.main_v98
  main_v99 := (StableHlo.after_of_writes_sub st11 V st11_writes (by decide : main_v99 ∉ st11_W)).trans h.main_v99
  main_v143 := by
    show StableHlo.after st11 V (Proc.devRef .tc main_v143) = _
    after_results_simp
    rw [h.main_v127, h.main_v128]
    rfl
  main_v147 := by
    show StableHlo.after st11 V (Proc.devRef .tc main_v147) = _
    after_results_simp
    rw [h.main_v127, h.main_v128]
    rfl

set_option maxHeartbeats 4000000 in
/-- Stretch 12 carries the state of the buffers from its entry to its exit. -/
theorem step12 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv11 V x0 x1 x2 x3 x4 x5 x6 x7 x8 x9 x10 x11 x12 x13 x14 x15 x16 x17 x18 x19) :
    Inv12 (StableHlo.after st12 V) x0 x1 x2 x3 x4 x5 x6 x7 x8 x9 x10 x11 x12 x13 x14 x15 x16 x17 x18 x19 where
  main_arg0 := (StableHlo.after_of_writes_sub st12 V st12_writes (by decide : main_arg0 ∉ st12_W)).trans h.main_arg0
  main_arg1 := (StableHlo.after_of_writes_sub st12 V st12_writes (by decide : main_arg1 ∉ st12_W)).trans h.main_arg1
  main_arg2 := (StableHlo.after_of_writes_sub st12 V st12_writes (by decide : main_arg2 ∉ st12_W)).trans h.main_arg2
  main_arg3 := (StableHlo.after_of_writes_sub st12 V st12_writes (by decide : main_arg3 ∉ st12_W)).trans h.main_arg3
  main_arg4 := (StableHlo.after_of_writes_sub st12 V st12_writes (by decide : main_arg4 ∉ st12_W)).trans h.main_arg4
  main_arg5 := (StableHlo.after_of_writes_sub st12 V st12_writes (by decide : main_arg5 ∉ st12_W)).trans h.main_arg5
  main_arg6 := (StableHlo.after_of_writes_sub st12 V st12_writes (by decide : main_arg6 ∉ st12_W)).trans h.main_arg6
  main_arg7 := (StableHlo.after_of_writes_sub st12 V st12_writes (by decide : main_arg7 ∉ st12_W)).trans h.main_arg7
  main_arg8 := (StableHlo.after_of_writes_sub st12 V st12_writes (by decide : main_arg8 ∉ st12_W)).trans h.main_arg8
  main_arg9 := (StableHlo.after_of_writes_sub st12 V st12_writes (by decide : main_arg9 ∉ st12_W)).trans h.main_arg9
  main_arg10 := (StableHlo.after_of_writes_sub st12 V st12_writes (by decide : main_arg10 ∉ st12_W)).trans h.main_arg10
  main_arg11 := (StableHlo.after_of_writes_sub st12 V st12_writes (by decide : main_arg11 ∉ st12_W)).trans h.main_arg11
  main_arg12 := (StableHlo.after_of_writes_sub st12 V st12_writes (by decide : main_arg12 ∉ st12_W)).trans h.main_arg12
  main_arg13 := (StableHlo.after_of_writes_sub st12 V st12_writes (by decide : main_arg13 ∉ st12_W)).trans h.main_arg13
  main_arg14 := (StableHlo.after_of_writes_sub st12 V st12_writes (by decide : main_arg14 ∉ st12_W)).trans h.main_arg14
  main_arg15 := (StableHlo.after_of_writes_sub st12 V st12_writes (by decide : main_arg15 ∉ st12_W)).trans h.main_arg15
  main_arg16 := (StableHlo.after_of_writes_sub st12 V st12_writes (by decide : main_arg16 ∉ st12_W)).trans h.main_arg16
  main_arg17 := (StableHlo.after_of_writes_sub st12 V st12_writes (by decide : main_arg17 ∉ st12_W)).trans h.main_arg17
  main_arg18 := (StableHlo.after_of_writes_sub st12 V st12_writes (by decide : main_arg18 ∉ st12_W)).trans h.main_arg18
  main_arg19 := (StableHlo.after_of_writes_sub st12 V st12_writes (by decide : main_arg19 ∉ st12_W)).trans h.main_arg19
  main_v7 := (StableHlo.after_of_writes_sub st12 V st12_writes (by decide : main_v7 ∉ st12_W)).trans h.main_v7
  main_v159 := by
    show StableHlo.after st12 V (Proc.devRef .tc main_v159) = _
    after_results_simp
    rw [h.main_v143, h.main_v147, h.main_arg16, h.main_arg17, h.main_arg18, h.main_arg19]
    rfl
  main_v160 := by
    show StableHlo.after st12 V (Proc.devRef .tc main_v160) = _
    after_results_simp
    rw [h.main_v99, h.main_v98]
    rfl
  main_v167 := by
    show StableHlo.after st12 V (Proc.devRef .tc main_v167) = _
    after_results_simp
    rw [h.main_v99, h.main_v98, h.main_v5]
    rfl
  main_v168 := by
    show StableHlo.after st12 V (Proc.devRef .tc main_v168) = _
    after_results_simp
    rfl

set_option maxHeartbeats 4000000 in
/-- Stretch 13 carries the state of the buffers from its entry to its exit. -/
theorem step13 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv12 V x0 x1 x2 x3 x4 x5 x6 x7 x8 x9 x10 x11 x12 x13 x14 x15 x16 x17 x18 x19) :
    Inv13 (StableHlo.after st13 V) x0 x1 x2 x3 x4 x5 x6 x7 x8 x9 x10 x11 x12 x13 x14 x15 x16 x17 x18 x19 where
  main_arg0 := (StableHlo.after_of_writes_sub st13 V st13_writes (by decide : main_arg0 ∉ st13_W)).trans h.main_arg0
  main_arg1 := (StableHlo.after_of_writes_sub st13 V st13_writes (by decide : main_arg1 ∉ st13_W)).trans h.main_arg1
  main_arg2 := (StableHlo.after_of_writes_sub st13 V st13_writes (by decide : main_arg2 ∉ st13_W)).trans h.main_arg2
  main_arg3 := (StableHlo.after_of_writes_sub st13 V st13_writes (by decide : main_arg3 ∉ st13_W)).trans h.main_arg3
  main_arg4 := (StableHlo.after_of_writes_sub st13 V st13_writes (by decide : main_arg4 ∉ st13_W)).trans h.main_arg4
  main_arg5 := (StableHlo.after_of_writes_sub st13 V st13_writes (by decide : main_arg5 ∉ st13_W)).trans h.main_arg5
  main_arg6 := (StableHlo.after_of_writes_sub st13 V st13_writes (by decide : main_arg6 ∉ st13_W)).trans h.main_arg6
  main_arg7 := (StableHlo.after_of_writes_sub st13 V st13_writes (by decide : main_arg7 ∉ st13_W)).trans h.main_arg7
  main_arg8 := (StableHlo.after_of_writes_sub st13 V st13_writes (by decide : main_arg8 ∉ st13_W)).trans h.main_arg8
  main_arg9 := (StableHlo.after_of_writes_sub st13 V st13_writes (by decide : main_arg9 ∉ st13_W)).trans h.main_arg9
  main_arg10 := (StableHlo.after_of_writes_sub st13 V st13_writes (by decide : main_arg10 ∉ st13_W)).trans h.main_arg10
  main_arg11 := (StableHlo.after_of_writes_sub st13 V st13_writes (by decide : main_arg11 ∉ st13_W)).trans h.main_arg11
  main_arg12 := (StableHlo.after_of_writes_sub st13 V st13_writes (by decide : main_arg12 ∉ st13_W)).trans h.main_arg12
  main_arg13 := (StableHlo.after_of_writes_sub st13 V st13_writes (by decide : main_arg13 ∉ st13_W)).trans h.main_arg13
  main_arg14 := (StableHlo.after_of_writes_sub st13 V st13_writes (by decide : main_arg14 ∉ st13_W)).trans h.main_arg14
  main_arg15 := (StableHlo.after_of_writes_sub st13 V st13_writes (by decide : main_arg15 ∉ st13_W)).trans h.main_arg15
  main_arg16 := (StableHlo.after_of_writes_sub st13 V st13_writes (by decide : main_arg16 ∉ st13_W)).trans h.main_arg16
  main_arg17 := (StableHlo.after_of_writes_sub st13 V st13_writes (by decide : main_arg17 ∉ st13_W)).trans h.main_arg17
  main_arg18 := (StableHlo.after_of_writes_sub st13 V st13_writes (by decide : main_arg18 ∉ st13_W)).trans h.main_arg18
  main_arg19 := (StableHlo.after_of_writes_sub st13 V st13_writes (by decide : main_arg19 ∉ st13_W)).trans h.main_arg19
  main_v159 := (StableHlo.after_of_writes_sub st13 V st13_writes (by decide : main_v159 ∉ st13_W)).trans h.main_v159
  main_v187 := by
    show StableHlo.after st13 V (Proc.devRef .tc main_v187) = _
    after_results_simp
    rw [h.main_v168, h.main_v7, h.main_v167, h.main_arg11, h.main_arg12, h.main_v160, h.main_arg13, h.main_arg14]
    rfl

set_option maxHeartbeats 4000000 in
/-- Stretch 14 carries the state of the buffers from its entry to its exit. -/
theorem step14 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv13 V x0 x1 x2 x3 x4 x5 x6 x7 x8 x9 x10 x11 x12 x13 x14 x15 x16 x17 x18 x19) :
    Inv14 (StableHlo.after st14 V) x0 x1 x2 x3 x4 x5 x6 x7 x8 x9 x10 x11 x12 x13 x14 x15 x16 x17 x18 x19 where
  main_arg0 := (StableHlo.after_of_writes_sub st14 V st14_writes (by decide : main_arg0 ∉ st14_W)).trans h.main_arg0
  main_arg1 := (StableHlo.after_of_writes_sub st14 V st14_writes (by decide : main_arg1 ∉ st14_W)).trans h.main_arg1
  main_arg2 := (StableHlo.after_of_writes_sub st14 V st14_writes (by decide : main_arg2 ∉ st14_W)).trans h.main_arg2
  main_arg3 := (StableHlo.after_of_writes_sub st14 V st14_writes (by decide : main_arg3 ∉ st14_W)).trans h.main_arg3
  main_arg4 := (StableHlo.after_of_writes_sub st14 V st14_writes (by decide : main_arg4 ∉ st14_W)).trans h.main_arg4
  main_arg5 := (StableHlo.after_of_writes_sub st14 V st14_writes (by decide : main_arg5 ∉ st14_W)).trans h.main_arg5
  main_arg6 := (StableHlo.after_of_writes_sub st14 V st14_writes (by decide : main_arg6 ∉ st14_W)).trans h.main_arg6
  main_arg7 := (StableHlo.after_of_writes_sub st14 V st14_writes (by decide : main_arg7 ∉ st14_W)).trans h.main_arg7
  main_arg8 := (StableHlo.after_of_writes_sub st14 V st14_writes (by decide : main_arg8 ∉ st14_W)).trans h.main_arg8
  main_arg9 := (StableHlo.after_of_writes_sub st14 V st14_writes (by decide : main_arg9 ∉ st14_W)).trans h.main_arg9
  main_arg10 := (StableHlo.after_of_writes_sub st14 V st14_writes (by decide : main_arg10 ∉ st14_W)).trans h.main_arg10
  main_arg11 := (StableHlo.after_of_writes_sub st14 V st14_writes (by decide : main_arg11 ∉ st14_W)).trans h.main_arg11
  main_arg12 := (StableHlo.after_of_writes_sub st14 V st14_writes (by decide : main_arg12 ∉ st14_W)).trans h.main_arg12
  main_arg13 := (StableHlo.after_of_writes_sub st14 V st14_writes (by decide : main_arg13 ∉ st14_W)).trans h.main_arg13
  main_arg14 := (StableHlo.after_of_writes_sub st14 V st14_writes (by decide : main_arg14 ∉ st14_W)).trans h.main_arg14
  main_arg15 := (StableHlo.after_of_writes_sub st14 V st14_writes (by decide : main_arg15 ∉ st14_W)).trans h.main_arg15
  main_arg16 := (StableHlo.after_of_writes_sub st14 V st14_writes (by decide : main_arg16 ∉ st14_W)).trans h.main_arg16
  main_arg17 := (StableHlo.after_of_writes_sub st14 V st14_writes (by decide : main_arg17 ∉ st14_W)).trans h.main_arg17
  main_arg18 := (StableHlo.after_of_writes_sub st14 V st14_writes (by decide : main_arg18 ∉ st14_W)).trans h.main_arg18
  main_arg19 := (StableHlo.after_of_writes_sub st14 V st14_writes (by decide : main_arg19 ∉ st14_W)).trans h.main_arg19
  main_v159 := (StableHlo.after_of_writes_sub st14 V st14_writes (by decide : main_v159 ∉ st14_W)).trans h.main_v159
  main_v203 := by
    show StableHlo.after st14 V (Proc.devRef .tc main_v203) = _
    after_results_simp
    rw [h.main_v187, h.main_arg15]
    rfl
  main_v206 := by
    show StableHlo.after st14 V (Proc.devRef .tc main_v206) = _
    after_results_simp
    rw [h.main_v187, h.main_arg15]
    rfl

set_option maxHeartbeats 4000000 in
/-- Stretch 15 carries the state of the buffers from its entry to its exit. -/
theorem step15 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv14 V x0 x1 x2 x3 x4 x5 x6 x7 x8 x9 x10 x11 x12 x13 x14 x15 x16 x17 x18 x19) :
    Inv15 (StableHlo.after st15 V) x0 x1 x2 x3 x4 x5 x6 x7 x8 x9 x10 x11 x12 x13 x14 x15 x16 x17 x18 x19 where
  main_arg0 := (StableHlo.after_of_writes_sub st15 V st15_writes (by decide : main_arg0 ∉ st15_W)).trans h.main_arg0
  main_arg1 := (StableHlo.after_of_writes_sub st15 V st15_writes (by decide : main_arg1 ∉ st15_W)).trans h.main_arg1
  main_arg2 := (StableHlo.after_of_writes_sub st15 V st15_writes (by decide : main_arg2 ∉ st15_W)).trans h.main_arg2
  main_arg3 := (StableHlo.after_of_writes_sub st15 V st15_writes (by decide : main_arg3 ∉ st15_W)).trans h.main_arg3
  main_arg4 := (StableHlo.after_of_writes_sub st15 V st15_writes (by decide : main_arg4 ∉ st15_W)).trans h.main_arg4
  main_arg5 := (StableHlo.after_of_writes_sub st15 V st15_writes (by decide : main_arg5 ∉ st15_W)).trans h.main_arg5
  main_arg6 := (StableHlo.after_of_writes_sub st15 V st15_writes (by decide : main_arg6 ∉ st15_W)).trans h.main_arg6
  main_arg7 := (StableHlo.after_of_writes_sub st15 V st15_writes (by decide : main_arg7 ∉ st15_W)).trans h.main_arg7
  main_arg8 := (StableHlo.after_of_writes_sub st15 V st15_writes (by decide : main_arg8 ∉ st15_W)).trans h.main_arg8
  main_arg9 := (StableHlo.after_of_writes_sub st15 V st15_writes (by decide : main_arg9 ∉ st15_W)).trans h.main_arg9
  main_arg10 := (StableHlo.after_of_writes_sub st15 V st15_writes (by decide : main_arg10 ∉ st15_W)).trans h.main_arg10
  main_arg11 := (StableHlo.after_of_writes_sub st15 V st15_writes (by decide : main_arg11 ∉ st15_W)).trans h.main_arg11
  main_arg12 := (StableHlo.after_of_writes_sub st15 V st15_writes (by decide : main_arg12 ∉ st15_W)).trans h.main_arg12
  main_arg13 := (StableHlo.after_of_writes_sub st15 V st15_writes (by decide : main_arg13 ∉ st15_W)).trans h.main_arg13
  main_arg14 := (StableHlo.after_of_writes_sub st15 V st15_writes (by decide : main_arg14 ∉ st15_W)).trans h.main_arg14
  main_arg15 := (StableHlo.after_of_writes_sub st15 V st15_writes (by decide : main_arg15 ∉ st15_W)).trans h.main_arg15
  main_arg16 := (StableHlo.after_of_writes_sub st15 V st15_writes (by decide : main_arg16 ∉ st15_W)).trans h.main_arg16
  main_arg17 := (StableHlo.after_of_writes_sub st15 V st15_writes (by decide : main_arg17 ∉ st15_W)).trans h.main_arg17
  main_arg18 := (StableHlo.after_of_writes_sub st15 V st15_writes (by decide : main_arg18 ∉ st15_W)).trans h.main_arg18
  main_arg19 := (StableHlo.after_of_writes_sub st15 V st15_writes (by decide : main_arg19 ∉ st15_W)).trans h.main_arg19
  main_v159 := (StableHlo.after_of_writes_sub st15 V st15_writes (by decide : main_v159 ∉ st15_W)).trans h.main_v159
  main_v219 := by
    show StableHlo.after st15 V (Proc.devRef .tc main_v219) = _
    after_results_simp
    rw [h.main_v203, h.main_v206, h.main_arg16, h.main_arg17, h.main_arg18, h.main_arg19]
    rfl

set_option maxHeartbeats 4000000 in
/-- Stretch 16 carries the state of the buffers from its entry to its exit. -/
theorem step16 (V : Valuation τ sig (Elt F)) (x0 : (⟨S100000x512, .f32⟩ : BufTy).Contents (Elt F)) (x1 : (⟨S100000x512, .f32⟩ : BufTy).Contents (Elt F)) (x2 : (⟨S2x600000, .i32⟩ : BufTy).Contents (Elt F)) (x3 : (⟨S2x600000, .i32⟩ : BufTy).Contents (Elt F)) (x4 : (⟨S512x256, .f32⟩ : BufTy).Contents (Elt F)) (x5 : (⟨S256, .f32⟩ : BufTy).Contents (Elt F)) (x6 : (⟨S512x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S256x128, .f32⟩ : BufTy).Contents (Elt F)) (x11 : (⟨S256x128, .f32⟩ : BufTy).Contents (Elt F)) (x12 : (⟨S128, .f32⟩ : BufTy).Contents (Elt F)) (x13 : (⟨S256x128, .f32⟩ : BufTy).Contents (Elt F)) (x14 : (⟨S128x128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) (h : Inv15 V x0 x1 x2 x3 x4 x5 x6 x7 x8 x9 x10 x11 x12 x13 x14 x15 x16 x17 x18 x19) :
    Inv16 (StableHlo.after st16 V) x0 x1 x2 x3 x4 x5 x6 x7 x8 x9 x10 x11 x12 x13 x14 x15 x16 x17 x18 x19 where
  main_arg0 := (StableHlo.after_of_writes_sub st16 V st16_writes (by decide : main_arg0 ∉ st16_W)).trans h.main_arg0
  main_arg1 := (StableHlo.after_of_writes_sub st16 V st16_writes (by decide : main_arg1 ∉ st16_W)).trans h.main_arg1
  main_arg2 := (StableHlo.after_of_writes_sub st16 V st16_writes (by decide : main_arg2 ∉ st16_W)).trans h.main_arg2
  main_arg3 := (StableHlo.after_of_writes_sub st16 V st16_writes (by decide : main_arg3 ∉ st16_W)).trans h.main_arg3
  main_arg4 := (StableHlo.after_of_writes_sub st16 V st16_writes (by decide : main_arg4 ∉ st16_W)).trans h.main_arg4
  main_arg5 := (StableHlo.after_of_writes_sub st16 V st16_writes (by decide : main_arg5 ∉ st16_W)).trans h.main_arg5
  main_arg6 := (StableHlo.after_of_writes_sub st16 V st16_writes (by decide : main_arg6 ∉ st16_W)).trans h.main_arg6
  main_arg7 := (StableHlo.after_of_writes_sub st16 V st16_writes (by decide : main_arg7 ∉ st16_W)).trans h.main_arg7
  main_arg8 := (StableHlo.after_of_writes_sub st16 V st16_writes (by decide : main_arg8 ∉ st16_W)).trans h.main_arg8
  main_arg9 := (StableHlo.after_of_writes_sub st16 V st16_writes (by decide : main_arg9 ∉ st16_W)).trans h.main_arg9
  main_arg10 := (StableHlo.after_of_writes_sub st16 V st16_writes (by decide : main_arg10 ∉ st16_W)).trans h.main_arg10
  main_arg11 := (StableHlo.after_of_writes_sub st16 V st16_writes (by decide : main_arg11 ∉ st16_W)).trans h.main_arg11
  main_arg12 := (StableHlo.after_of_writes_sub st16 V st16_writes (by decide : main_arg12 ∉ st16_W)).trans h.main_arg12
  main_arg13 := (StableHlo.after_of_writes_sub st16 V st16_writes (by decide : main_arg13 ∉ st16_W)).trans h.main_arg13
  main_arg14 := (StableHlo.after_of_writes_sub st16 V st16_writes (by decide : main_arg14 ∉ st16_W)).trans h.main_arg14
  main_arg15 := (StableHlo.after_of_writes_sub st16 V st16_writes (by decide : main_arg15 ∉ st16_W)).trans h.main_arg15
  main_arg16 := (StableHlo.after_of_writes_sub st16 V st16_writes (by decide : main_arg16 ∉ st16_W)).trans h.main_arg16
  main_arg17 := (StableHlo.after_of_writes_sub st16 V st16_writes (by decide : main_arg17 ∉ st16_W)).trans h.main_arg17
  main_arg18 := (StableHlo.after_of_writes_sub st16 V st16_writes (by decide : main_arg18 ∉ st16_W)).trans h.main_arg18
  main_arg19 := (StableHlo.after_of_writes_sub st16 V st16_writes (by decide : main_arg19 ∉ st16_W)).trans h.main_arg19
  main_v223 := by
    show StableHlo.after st16 V (Proc.devRef .tc main_v223) = _
    after_results_simp
    rw [h.main_v159, h.main_v219]
    rfl

end Cert.ReferenceIdeal.ValueS

end
-- ==== Proof.RefRunThmS.lean ====
/- The reference program's run: its 284 operations read back in sixteen consecutive stretches. Between two stretches
   every buffer that a later operation reads holds its stage of the arguments and every argument is as given (the
   invariants of the stretch module); one stretch carries that state from its entry to its exit. Chaining the sixteen
   stretches from the launch contents gives, after the last one, the result buffer at its last stage and the twenty
   arguments unchanged, which is the statement of the run. The buffers after two lines run one after the other are
   the second line's from the first line's, so the whole line is its stretches in order; the side condition that no
   operation allocates is supplied stretch by stretch. -/
import proofs.«149613_j7086696039015_2_alg».proof.Proof.RefRunS

noncomputable section

namespace Cert.ReferenceIdeal.ValueS

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The buffers after two lines run one after the other are the second line's, from the first line's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- At launch every argument's buffer holds the argument. -/
theorem inv0 (m : (ℓ : Loc nD τ sig) → Buf (Elt F) ℓ) (c : Dev nD) :
    Inv0 (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  ⟨rfl, rfl, rfl, rfl, rfl, rfl, rfl, rfl, rfl, rfl, rfl, rfl, rfl, rfl, rfl, rfl, rfl, rfl, rfl, rfl⟩

/-- The whole line is its stretches run in order. -/
theorem after_ops (m : (ℓ : Loc nD τ sig) → Buf (Elt F) ℓ) (c : Dev nD) :
    StableHlo.after (ops (F := F)) (launchContents m c) = (StableHlo.after (st16 (F := F)) (StableHlo.after (st15 (F := F)) (StableHlo.after (st14 (F := F)) (StableHlo.after (st13 (F := F)) (StableHlo.after (st12 (F := F)) (StableHlo.after (st11 (F := F)) (StableHlo.after (st10 (F := F)) (StableHlo.after (st9 (F := F)) (StableHlo.after (st8 (F := F)) (StableHlo.after (st7 (F := F)) (StableHlo.after (st6 (F := F)) (StableHlo.after (st5 (F := F)) (StableHlo.after (st4 (F := F)) (StableHlo.after (st3 (F := F)) (StableHlo.after (st2 (F := F)) (StableHlo.after (st1 (F := F)) (launchContents m c))))))))))))))))) := by
  rw [ops_eq, after_append, after_append, after_append, after_append, after_append, after_append, after_append, after_append, after_append, after_append, after_append, after_append, after_append, after_append, after_append]

/-- After the whole line: the result buffer at the read module's value of the arguments, every argument unchanged. -/
theorem invN (m : (ℓ : Loc nD τ sig) → Buf (Elt F) ℓ) (c : Dev nD) :
    Inv16 (F := F) (StableHlo.after (ops (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_ops]
  exact step16 _ _ _ _ _ _ _ _ _ _ _ _ _ _ _ _ _ _ _ _ _ (step15 _ _ _ _ _ _ _ _ _ _ _ _ _ _ _ _ _ _ _ _ _ (step14 _ _ _ _ _ _ _ _ _ _ _ _ _ _ _ _ _ _ _ _ _ (step13 _ _ _ _ _ _ _ _ _ _ _ _ _ _ _ _ _ _ _ _ _ (step12 _ _ _ _ _ _ _ _ _ _ _ _ _ _ _ _ _ _ _ _ _ (step11 _ _ _ _ _ _ _ _ _ _ _ _ _ _ _ _ _ _ _ _ _ (step10 _ _ _ _ _ _ _ _ _ _ _ _ _ _ _ _ _ _ _ _ _ (step9 _ _ _ _ _ _ _ _ _ _ _ _ _ _ _ _ _ _ _ _ _ (step8 _ _ _ _ _ _ _ _ _ _ _ _ _ _ _ _ _ _ _ _ _ (step7 _ _ _ _ _ _ _ _ _ _ _ _ _ _ _ _ _ _ _ _ _ (step6 _ _ _ _ _ _ _ _ _ _ _ _ _ _ _ _ _ _ _ _ _ (step5 _ _ _ _ _ _ _ _ _ _ _ _ _ _ _ _ _ _ _ _ _ (step4 _ _ _ _ _ _ _ _ _ _ _ _ _ _ _ _ _ _ _ _ _ (step3 _ _ _ _ _ _ _ _ _ _ _ _ _ _ _ _ _ _ _ _ _ (step2 _ _ _ _ _ _ _ _ _ _ _ _ _ _ _ _ _ _ _ _ _ (step1 _ _ _ _ _ _ _ _ _ _ _ _ _ _ _ _ _ _ _ _ _ (inv0 m c))))))))))))))))

/-! ## No operation allocates: stretch by stretch -/

theorem st1_fresh : ∀ op ∈ (st1 : List (HloOp τ sig (Elt F))), op.fresh = ∅ := by
  intro op h; (repeat (cases h with | head => rfl | tail _ h => ?_)); exact nomatch h
theorem st2_fresh : ∀ op ∈ (st2 : List (HloOp τ sig (Elt F))), op.fresh = ∅ := by
  intro op h; (repeat (cases h with | head => rfl | tail _ h => ?_)); exact nomatch h
theorem st3_fresh : ∀ op ∈ (st3 : List (HloOp τ sig (Elt F))), op.fresh = ∅ := by
  intro op h; (repeat (cases h with | head => rfl | tail _ h => ?_)); exact nomatch h
theorem st4_fresh : ∀ op ∈ (st4 : List (HloOp τ sig (Elt F))), op.fresh = ∅ := by
  intro op h; (repeat (cases h with | head => rfl | tail _ h => ?_)); exact nomatch h
theorem st5_fresh : ∀ op ∈ (st5 : List (HloOp τ sig (Elt F))), op.fresh = ∅ := by
  intro op h; (repeat (cases h with | head => rfl | tail _ h => ?_)); exact nomatch h
theorem st6_fresh : ∀ op ∈ (st6 : List (HloOp τ sig (Elt F))), op.fresh = ∅ := by
  intro op h; (repeat (cases h with | head => rfl | tail _ h => ?_)); exact nomatch h
theorem st7_fresh : ∀ op ∈ (st7 : List (HloOp τ sig (Elt F))), op.fresh = ∅ := by
  intro op h; (repeat (cases h with | head => rfl | tail _ h => ?_)); exact nomatch h
theorem st8_fresh : ∀ op ∈ (st8 : List (HloOp τ sig (Elt F))), op.fresh = ∅ := by
  intro op h; (repeat (cases h with | head => rfl | tail _ h => ?_)); exact nomatch h
theorem st9_fresh : ∀ op ∈ (st9 : List (HloOp τ sig (Elt F))), op.fresh = ∅ := by
  intro op h; (repeat (cases h with | head => rfl | tail _ h => ?_)); exact nomatch h
theorem st10_fresh : ∀ op ∈ (st10 : List (HloOp τ sig (Elt F))), op.fresh = ∅ := by
  intro op h; (repeat (cases h with | head => rfl | tail _ h => ?_)); exact nomatch h
theorem st11_fresh : ∀ op ∈ (st11 : List (HloOp τ sig (Elt F))), op.fresh = ∅ := by
  intro op h; (repeat (cases h with | head => rfl | tail _ h => ?_)); exact nomatch h
theorem st12_fresh : ∀ op ∈ (st12 : List (HloOp τ sig (Elt F))), op.fresh = ∅ := by
  intro op h; (repeat (cases h with | head => rfl | tail _ h => ?_)); exact nomatch h
theorem st13_fresh : ∀ op ∈ (st13 : List (HloOp τ sig (Elt F))), op.fresh = ∅ := by
  intro op h; (repeat (cases h with | head => rfl | tail _ h => ?_)); exact nomatch h
theorem st14_fresh : ∀ op ∈ (st14 : List (HloOp τ sig (Elt F))), op.fresh = ∅ := by
  intro op h; (repeat (cases h with | head => rfl | tail _ h => ?_)); exact nomatch h
theorem st15_fresh : ∀ op ∈ (st15 : List (HloOp τ sig (Elt F))), op.fresh = ∅ := by
  intro op h; (repeat (cases h with | head => rfl | tail _ h => ?_)); exact nomatch h
theorem st16_fresh : ∀ op ∈ (st16 : List (HloOp τ sig (Elt F))), op.fresh = ∅ := by
  intro op h; (repeat (cases h with | head => rfl | tail _ h => ?_)); exact nomatch h

theorem ops_fresh : ∀ op ∈ (ops : List (HloOp τ sig (Elt F))), op.fresh = ∅ := by
  intro op h
  rw [ops_eq] at h
  exact (List.mem_append.mp h).elim (st1_fresh op) (fun h => (List.mem_append.mp h).elim (st2_fresh op) (fun h => (List.mem_append.mp h).elim (st3_fresh op) (fun h => (List.mem_append.mp h).elim (st4_fresh op) (fun h => (List.mem_append.mp h).elim (st5_fresh op) (fun h => (List.mem_append.mp h).elim (st6_fresh op) (fun h => (List.mem_append.mp h).elim (st7_fresh op) (fun h => (List.mem_append.mp h).elim (st8_fresh op) (fun h => (List.mem_append.mp h).elim (st9_fresh op) (fun h => (List.mem_append.mp h).elim (st10_fresh op) (fun h => (List.mem_append.mp h).elim (st11_fresh op) (fun h => (List.mem_append.mp h).elim (st12_fresh op) (fun h => (List.mem_append.mp h).elim (st13_fresh op) (fun h => (List.mem_append.mp h).elim (st14_fresh op) (fun h => (List.mem_append.mp h).elim (st15_fresh op) (fun h => st16_fresh op h)))))))))))))))

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v223) = res_main_v223 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v223).trans ((invN m c).main_v223.trans (val_main_v223_eq m c).symm),
      (h c main_arg0).trans (invN m c).main_arg0,
      (h c main_arg1).trans (invN m c).main_arg1,
      (h c main_arg2).trans (invN m c).main_arg2,
      (h c main_arg3).trans (invN m c).main_arg3,
      (h c main_arg4).trans (invN m c).main_arg4,
      (h c main_arg5).trans (invN m c).main_arg5,
      (h c main_arg6).trans (invN m c).main_arg6,
      (h c main_arg7).trans (invN m c).main_arg7,
      (h c main_arg8).trans (invN m c).main_arg8,
      (h c main_arg9).trans (invN m c).main_arg9,
      (h c main_arg10).trans (invN m c).main_arg10,
      (h c main_arg11).trans (invN m c).main_arg11,
      (h c main_arg12).trans (invN m c).main_arg12,
      (h c main_arg13).trans (invN m c).main_arg13,
      (h c main_arg14).trans (invN m c).main_arg14,
      (h c main_arg15).trans (invN m c).main_arg15,
      (h c main_arg16).trans (invN m c).main_arg16,
      (h c main_arg17).trans (invN m c).main_arg17,
      (h c main_arg18).trans (invN m c).main_arg18,
      (h c main_arg19).trans (invN m c).main_arg19⟩)
    (run_seq scopedRefs_eq scopedSems_eq defs main (fun _ => ops) main_eq (fun _ => ops_sub) m ρ (fun _ => ops_fresh))

end Cert.ReferenceIdeal.ValueS

end
-- ==== Proof.KRun.lean ====
/-
  The idealized kernel program's run with its result named.  The program is ten segments: stretches of host
  operations and five grid launches.  Its buffer contents at each segment boundary are a fold from the launch memory
  (`Gen.W0` … `Gen.W10`): a host stretch applies its operations, a launch replaces its output arrays by what the
  grid's write-backs leave.  Every weakly fair execution terminates without a fault in a state whose unscoped buffers
  hold the last boundary's contents; here that is read not only at the twenty argument arrays (which end as launched)
  but also at the result buffer, which therefore ends at `Gen.W10 m ρ c` of it.
-/
import proofs.«149613_j7086696039015_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from `m` terminates, nothing faulting, with the result buffer at the
    last segment boundary's contents and the argument arrays as launched. -/
theorem run_named : θ_run defs (onTc (τ := τ) (main (F := F))) ⟨m, fun _ => 0, ρ⟩ (fun r => ∀ c : Dev nD,
      r.2.mem ((c.tc : Thread nD τ).loc main_v104) = W10 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v104 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c)⟩)

end Cert.KernelIdeal.RunNamed

end
-- ==== Proof.SpecGcn.lean ====
/- The closed forms of the three node-tiled regions, as whole-array functions read index by index at the extended
   reals: a matrix product whose rows are then scaled by a column (`matScaled`), and the two outputs of the
   combine step (`gcnX0`, `gcnG1`) built from one affine row expression (`gcnRaw`). -/
import Idealize.ShloMosaic.PureOps.Ideal
import Idealize.ShloMosaic.Lib.ValueIdx

noncomputable section

namespace Cert.Spec

open Idealize.ShloMosaic Idealize.ShloMosaic.ValueIdx
open scoped BigOperators

/-- The zero the combine step clamps against: the word of `0.0`, kept as a word (it denotes `0`,
    `Ideal.ofBits_zero_f32`). -/
abbrev zeroF32 : EReal := Ideal.ofBits .f32 0x00000000#32

/-- Row `r`, column `c` of `(X · Wt)` scaled by row `r` of the column `D`:
    `(∑ k, X[r,k] * Wt[k,c]) * D[r,0]`. -/
def matScaled (X : (⟨2, ![100000, 512]⟩ : Shape).Idx → EReal) (Wt : (⟨2, ![512, 256]⟩ : Shape).Idx → EReal)
    (D : (⟨2, ![100000, 1]⟩ : Shape).Idx → EReal) : (⟨2, ![100000, 256]⟩ : Shape).Idx → EReal :=
  fun y => (∑ k : Fin 512, X (ix2 (n0 := 100000) (n1 := 512) (y 0) k) * Wt (ix2 (n0 := 512) (n1 := 256) k (y 1)))
    * D (ix2 (n0 := 100000) (n1 := 1) (y 0) (0 : Fin 1))

/-- The affine row expression of the combine step: `D[r,0] * (AGG[r,c] + XW[r,c]) + B[0,c]`. -/
def gcnRaw (AGG XW : (⟨2, ![100000, 256]⟩ : Shape).Idx → EReal) (D : (⟨2, ![100000, 1]⟩ : Shape).Idx → EReal)
    (B : (⟨2, ![1, 256]⟩ : Shape).Idx → EReal) : (⟨2, ![100000, 256]⟩ : Shape).Idx → EReal :=
  fun y => D (ix2 (n0 := 100000) (n1 := 1) (y 0) (0 : Fin 1)) * (AGG y + XW y)
    + B (ix2 (n0 := 1) (n1 := 256) (0 : Fin 1) (y 1))

/-- First output of the combine step: the two clamped row expressions added,
    `max h 0 + max g 0`. -/
def gcnX0 (AGGh XWh : (⟨2, ![100000, 256]⟩ : Shape).Idx → EReal) (Dh : (⟨2, ![100000, 1]⟩ : Shape).Idx → EReal)
    (Bh : (⟨2, ![1, 256]⟩ : Shape).Idx → EReal)
    (AGGg XWg : (⟨2, ![100000, 256]⟩ : Shape).Idx → EReal) (Dg : (⟨2, ![100000, 1]⟩ : Shape).Idx → EReal)
    (Bg : (⟨2, ![1, 256]⟩ : Shape).Idx → EReal) : (⟨2, ![100000, 256]⟩ : Shape).Idx → EReal :=
  fun y => max (gcnRaw AGGh XWh Dh Bh y) zeroF32 + max (gcnRaw AGGg XWg Dg Bg y) zeroF32

/-- Second output of the combine step: the clamped second row expression plus itself unclamped,
    `max g 0 + g`. -/
def gcnG1 (AGGg XWg : (⟨2, ![100000, 256]⟩ : Shape).Idx → EReal) (Dg : (⟨2, ![100000, 1]⟩ : Shape).Idx → EReal)
    (Bg : (⟨2, ![1, 256]⟩ : Shape).Idx → EReal) : (⟨2, ![100000, 256]⟩ : Shape).Idx → EReal :=
  fun y => max (gcnRaw AGGg XWg Dg Bg y) zeroF32 + gcnRaw AGGg XWg Dg Bg y

end Cert.Spec

end
-- ==== Proof.KHostDefs.lean ====
/- The host expressions of the kernel program between its first three regions, as functions of the launch arrays: the
   edge rows, the normalisation column (the reciprocal square root of one plus the in-degree count), the scaled
   product, the rows of it gathered at the sources and added up at the targets, and a bias vector as one row. -/
import proofs.«149613_j7086696039015_2_alg».proof.Proof.Gen.KernelIdeal
import proofs.«149613_j7086696039015_2_alg».proof.Proof.SpecGcn

noncomputable section

namespace Cert.KernelIdeal.Head

open Idealize.ShloMosaic Idealize.SL.Sem
open Cert.KernelIdeal Cert.KernelIdeal.Gen

/-! ## The host expressions of the kernel program, as functions of the launch arrays -/

/-- Row 0 of an edge array `[2, 600000]` as a vector of `600000` entries (the sources). -/
def edgeRow0 (E : (⟨S2x600000, .i32⟩ : BufTy).Contents (Elt Ideal)) : (⟨S600000, .i32⟩ : BufTy).Contents (Elt Ideal) :=
  shapeCast S600000 (extractStridedSlice S1x600000 ![0, 0] E slices_S2x600000_S1x600000_0_0) shapeCasts_S1x600000_S600000
/-- Row 1 of an edge array (the targets). -/
def edgeRow1 (E : (⟨S2x600000, .i32⟩ : BufTy).Contents (Elt Ideal)) : (⟨S600000, .i32⟩ : BufTy).Contents (Elt Ideal) :=
  shapeCast S600000 (extractStridedSlice S1x600000 ![1, 0] E slices_S2x600000_S1x600000_1_0) shapeCasts_S1x600000_S600000

/-- The normalisation column: the reciprocal square root of (the count of edges into a node, plus one). -/
def kDis (E : (⟨S2x600000, .i32⟩ : BufTy).Contents (Elt Ideal)) : (⟨S100000x1, .f32⟩ : BufTy).Contents (Elt Ideal) :=
  broadcastInDim S100000x1 ![0] bcast_S100000_S100000x1_0
    (Host.rsqrt (F := Ideal) (addf
      (Host.scatterAdd (F := Ideal) scatter_S100000_S600000x1_S600000_n_0_0_1
        (broadcastInDim S100000 ![] bcast_S_S100000 (constant (F := Ideal) S_ .f32 0x00000000#32))
        (broadcastInDim S600000x1 ![0] bcast_S600000_S600000x1_0 (edgeRow1 E))
        (broadcastInDim S600000 ![] bcast_S_S600000 (constant (F := Ideal) S_ .f32 0x3F800000#32)))
      (broadcastInDim S100000 ![] bcast_S_S100000 (constant (F := Ideal) S_ .f32 0x3F800000#32))))

/-- The sources with a negative index shifted up by the number of nodes. -/
def kSrcN (E : (⟨S2x600000, .i32⟩ : BufTy).Contents (Elt Ideal)) : (⟨S600000, .i32⟩ : BufTy).Contents (Elt Ideal) :=
  select (cmpi .slt (edgeRow0 E) (broadcastInDim S600000 ![] bcast_S_S600000 (constantI S_ 32 0#32)))
    (addi (edgeRow0 E) (broadcastInDim S600000 ![] bcast_S_S600000 (constantI S_ 32 100000#32)))
    (edgeRow0 E)

/-- The rows of `XWS` gathered at the sources and added up at the targets. -/
def kAgg (XWS : (⟨S100000x256, .f32⟩ : BufTy).Contents (Elt Ideal)) (E : (⟨S2x600000, .i32⟩ : BufTy).Contents (Elt Ideal)) :
    (⟨S100000x256, .f32⟩ : BufTy).Contents (Elt Ideal) :=
  Host.scatterAdd (F := Ideal) scatter_S100000x256_S600000x1_S600000x256_1_0_0_1
    (broadcastInDim S100000x256 ![] bcast_S_S100000x256 (constant (F := Ideal) S_ .f32 0x00000000#32))
    (broadcastInDim S600000x1 ![0] bcast_S600000_S600000x1_0 (edgeRow1 E))
    (Host.gather gather_S100000x256_S600000x1_S600000x256_1_0_n_n_0_1_1256 XWS
      (broadcastInDim S600000x1 ![0] bcast_S600000_S600000x1_0 (kSrcN E)))

/-- A bias vector as one row. -/
def kB (b : (⟨S256, .f32⟩ : BufTy).Contents (Elt Ideal)) : (⟨S1x256, .f32⟩ : BufTy).Contents (Elt Ideal) :=
  shapeCast S1x256 b shapeCasts_S256_S1x256

/-- The product scaled by the normalisation column. -/
abbrev kXws (X : (⟨S100000x512, .f32⟩ : BufTy).Contents (Elt Ideal)) (Wt : (⟨S512x256, .f32⟩ : BufTy).Contents (Elt Ideal))
    (E : (⟨S2x600000, .i32⟩ : BufTy).Contents (Elt Ideal)) : (⟨S100000x256, .f32⟩ : BufTy).Contents (Elt Ideal) :=
  Spec.matScaled X Wt (kDis E)

end Cert.KernelIdeal.Head

end
-- ==== Proof.KColumn.lean ====
/- A column laid along every row, read at an index: a `[a, 1]` array broadcast to `[a, b]` reads, at `(p, c)`,
   the column's entry of row `p`. -/
import Idealize.ShloMosaic.Lib.Pipeline.Value
import Idealize.ShloMosaic.Lib.ValueIdx

namespace Cert.KLib

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KLib
-- ==== Proof.KRegion0.lean ====
/- Region 0 (the scaled matrix product on row blocks of 1000): the array its output window ends holding is
   `Spec.matScaled` of the three input arrays as the region finds them. The payload is read at an index (the product
   with a zero accumulator is the sum over the contraction axis, the format changes are the identity on the extended
   reals, the column is laid along the rows), each input block is the rows `1000 t … 1000 t + 999` of its array, and the
   hundred output blocks tile the array. -/
import proofs.«149613_j7086696039015_2_alg».proof.Proof.Gen.KernelIdeal.Frame
import proofs.«149613_j7086696039015_2_alg».proof.Proof.SpecGcn
import proofs.«149613_j7086696039015_2_alg».proof.Proof.KColumn
import Idealize.ShloMosaic.Lib.Pipeline.Value
import Idealize.ShloMosaic.Lib.ValueIdx
import Idealize.ShloMosaic.PureOps.Ideal.Laws

set_option maxRecDepth 16384

noncomputable section

namespace Cert.KernelIdeal.R0

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The product's operand indices -/

theorem lhs_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The product into a zero accumulator, at row `p` and column `q`: the sum over the contraction axis. -/
theorem mm_apply {φ₁ φ₂ : FTy} (a : FVec Ideal S1000x512 φ₁) (b : FVec Ideal S512x256 φ₂) (p : Fin 1000) (q : Fin 256) :
    matmul (F := Ideal) dot_S1000x512_S512x256_S1000x256_1_0_0_1_n_n none a b (constant (F := Ideal) S1000x256 .f32 0x00000000#32) (ix2 p q)
      = ∑ k : Fin 512, a (ix2 p k) * b (ix2 k q) := by
  show FloatOps.matmul dot_S1000x512_S512x256_S1000x256_1_0_0_1_n_n none a b (constant (F := Ideal) S1000x256 .f32 0x00000000#32) (ix2 p q) = _
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 p q) ((contrEquiv1 dot_S1000x512_S512x256_S1000x256_1_0_0_1_n_n 512 rfl rfl).symm k) = ix2 p k := funext fun a => Fin.ext (by
    match a with
    | ⟨0, _⟩ => exact lhs_0 _ _
    | ⟨1, _⟩ => exact (lhs_1 _ _).trans hk)
  have er : dot_S1000x512_S512x256_S1000x256_1_0_0_1_n_n.rhsIdx (ix2 p q) ((contrEquiv1 dot_S1000x512_S512x256_S1000x256_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The payload at an index -/

/-- The stored value at row `p`, column `q` of the block: the row of `x0` against the column of `x1`, times
    the row's entry of the column `x2`. -/
theorem pay_apply (x0 : Vec Ideal S1000x512 .f32) (x1 : Vec Ideal S512x256 .f32) (x2 : Vec Ideal S1000x1 .f32)
    (p : Fin 1000) (q : Fin 256) :
    k0_pay1 (F := Ideal) x0 x1 x2 (ix2 p q) = (∑ k : Fin 512, x0 (ix2 p k) * x1 (ix2 k q)) * x2 (ix2 p (0 : Fin 1)) := by
  unfold k0_pay1
  refine congrArg₂ (fun a b : EReal => a * b) (mm_apply _ _ p q) ?_
  refine (congrArg (fun v => broadcastTo S1000x256 v broadcasts_S1000x1_S1000x256 (ix2 p q)) (shapeCast_self x2 shapeCasts_S1000x1_S1000x1)).trans ?_
  exact Cert.KLib.broadcastTo_a1_ab_apply x2 broadcasts_S1000x1_S1000x256 p q

/-- A block's stored value is the closed form at the array index of that entry, given that the blocks are the
    rows `1000 b … 1000 b + 999` of their arrays (`e0`, `e2`) and the whole second operand (`e1`). -/
theorem point_eq (x0 : Vec Ideal S1000x512 .f32) (x1 : Vec Ideal S512x256 .f32) (x2 : Vec Ideal S1000x1 .f32)
    (X : S100000x512.Idx → EReal) (Wt : S512x256.Idx → EReal) (D : S100000x1.Idx → EReal)
    (b : Nat) (j : S1000x256.Idx) (i : S100000x256.Idx)
    (h0 : (i 0).val = b * 1000 + (j 0).val) (h1 : (i 1).val = (j 1).val)
    (e0 : ∀ (x : S1000x512.Idx) (k : S100000x512.Idx), (k 0).val = b * 1000 + (x 0).val → (k 1).val = (x 1).val → x0 x = X k)
    (e1 : ∀ x : S512x256.Idx, x1 x = Wt x)
    (e2 : ∀ (x : S1000x1.Idx) (k : S100000x1.Idx), (k 0).val = b * 1000 + (x 0).val → (k 1).val = (x 1).val → x2 x = D k) :
    k0_pay1 (F := Ideal) x0 x1 x2 j = Spec.matScaled X Wt D i := by
  obtain ⟨p, q, rfl⟩ : ∃ (p : Fin 1000) (q : Fin 256), j = ix2 p q := ⟨j 0, j 1, eq_ix2 j⟩
  rw [pay_apply]
  unfold Spec.matScaled
  have a0 : ∀ k : Fin 512, x0 (ix2 p k) = X (ix2 (n0 := 100000) (n1 := 512) (i 0) k) := fun k => e0 _ _ h0 rfl
  have a1 : ∀ k : Fin 512, x1 (ix2 k q) = Wt (ix2 (n0 := 512) (n1 := 256) k (i 1)) := fun k =>
    (e1 _).trans (congrArg Wt (funext fun a => by
      match a with
      | ⟨0, _⟩ => rfl
      | ⟨1, _⟩ => exact Fin.ext h1.symm))
  have a2 : x2 (ix2 p (0 : Fin 1)) = D (ix2 (n0 := 100000) (n1 := 1) (i 0) (0 : Fin 1)) := e2 _ _ h0 rfl
  rw [a2]
  exact congrArg (fun s : EReal => s * D (ix2 (n0 := 100000) (n1 := 1) (i 0) (0 : Fin 1)))
    (Finset.sum_congr rfl fun k _ => by rw [a0 k, a1 k])

/-! ## The windows' blocks as rows of their arrays -/

/-- The printed index maps, decided over the grid: the row-blocked windows sit at block `(t, 0)`, the second
    operand at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk_0_apply (c : Dev nD) (t : Fin cfg0.N) (x : S1000x512.Idx) (k : S100000x512.Idx)
    (hk0 : (k 0).val = t.val * 1000 + (x 0).val) (hk1 : (k 1).val = (x 1).val) :
    (iblk0 (F := Ideal) V c 0 t : Vec Ideal S1000x512 .f32) x = (V c (Pipeline.arrRef spec0 0) : S100000x512.Idx → EReal) k := by
  obtain ⟨e00, e01, -⟩ := idx_facts t
  show (V c (Pipeline.arrRef spec0 0) : S100000x512.Idx → EReal) (((cfg0.win 0).blk t).view.emb x) = _
  refine congrArg _ (funext fun a => Fin.ext ?_)
  match a with
  | ⟨0, _⟩ => show win0_0.index t (0 : Fin 2) * 1000 + 1 * (x 0).val = (k 0).val; rw [e00, hk0]; omega
  | ⟨1, _⟩ => show win0_0.index t (1 : Fin 2) * 512 + 1 * (x 1).val = (k 1).val; rw [e01, hk1]; omega

theorem iblk_1_apply (c : Dev nD) (t : Fin cfg0.N) (x : S512x256.Idx) :
    (iblk0 (F := Ideal) V c 1 t : Vec Ideal S512x256 .f32) x = (V c (Pipeline.arrRef spec0 1) : S512x256.Idx → EReal) x := by
  obtain ⟨-, -, e10, e11, -⟩ := idx_facts t
  show (V c (Pipeline.arrRef spec0 1) : S512x256.Idx → EReal) (((cfg0.win 1).blk t).view.emb x) = _
  refine congrArg _ (funext fun a => Fin.ext ?_)
  match a with
  | ⟨0, _⟩ => show win0_1.index t (0 : Fin 2) * 512 + 1 * (x 0).val = (x 0).val; rw [e10]; omega
  | ⟨1, _⟩ => show win0_1.index t (1 : Fin 2) * 256 + 1 * (x 1).val = (x 1).val; rw [e11]; omega

theorem iblk_2_apply (c : Dev nD) (t : Fin cfg0.N) (x : S1000x1.Idx) (k : S100000x1.Idx)
    (hk0 : (k 0).val = t.val * 1000 + (x 0).val) (hk1 : (k 1).val = (x 1).val) :
    (iblk0 (F := Ideal) V c 2 t : Vec Ideal S1000x1 .f32) x = (V c (Pipeline.arrRef spec0 2) : S100000x1.Idx → EReal) k := by
  obtain ⟨-, -, -, -, e20, e21, -⟩ := idx_facts t
  show (V c (Pipeline.arrRef spec0 2) : S100000x1.Idx → EReal) (((cfg0.win 2).blk t).view.emb x) = _
  refine congrArg _ (funext fun a => Fin.ext ?_)
  match a with
  | ⟨0, _⟩ => show win0_2.index t (0 : Fin 2) * 1000 + 1 * (x 0).val = (k 0).val; rw [e20, hk0]; omega
  | ⟨1, _⟩ => show win0_2.index t (1 : Fin 2) * 1 + 1 * (x 1).val = (k 1).val; rw [e21, hk1]; omega

/-! ## What each point writes back, and the array -/

/-- WHAT POINT `t` WRITES BACK is block `t` of the closed form of the input arrays as the region finds them. -/
theorem flushed_eq (c : Dev nD) (t : Fin cfg0.N) :
    (dat0 (F := Ideal) V c).flushed 3 t = ((cfg0.win 3).blk t).view.read (Elt Ideal)
      (Spec.matScaled (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz]
  simp only [View.ld_unit_zero (S := S1000x512) hz, View.ld_unit_zero (S := S512x256) hz, View.ld_unit_zero (S := S1000x1) hz]
  obtain ⟨-, -, -, -, -, -, e30, e31⟩ := idx_facts t
  funext j
  show k0_pay1 (F := Ideal) (iblk0 V c 0 t) (iblk0 V c 1 t) (iblk0 V c 2 t) j
    = Spec.matScaled (V c (Pipeline.arrRef spec0 0)) (V c (Pipeline.arrRef spec0 1)) (V c (Pipeline.arrRef spec0 2)) (((cfg0.win 3).blk t).view.emb j)
  refine point_eq (iblk0 V c 0 t) (iblk0 V c 1 t) (iblk0 V c 2 t)
    (V c (Pipeline.arrRef spec0 0)) (V c (Pipeline.arrRef spec0 1)) (V c (Pipeline.arrRef spec0 2)) t.val j
    (((cfg0.win 3).blk t).view.emb j) ?_ ?_
    (fun x k hk0 hk1 => iblk_0_apply V c t x k hk0 hk1) (fun x => iblk_1_apply V c t x)
    (fun x k hk0 hk1 => iblk_2_apply V c t x k hk0 hk1)
  · show win0_3.index t (0 : Fin 2) * 1000 + 1 * (j 0).val = t.val * 1000 + (j 0).val; rw [e30]; omega
  · show win0_3.index t (1 : Fin 2) * 256 + 1 * (j 1).val = (j 1).val; rw [e31]; omega

/-- An index of the array is in point `t`'s block iff each coordinate is in the block's range on its axis. -/
theorem mem_blk (t : Fin cfg0.N) (i : S100000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v24).slice (win0_3.rect t)).set ↔ _
  rw [View.set_slice_whole, Rect.mem_set_unit]
  exact Iff.rfl

/-- The hundred row blocks tile the array: row `r` is in the block of point `r / 1000`. -/
theorem cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 100 := N_0
  have ht : (i 0).val / 1000 < cfg0.N := by omega
  obtain ⟨t, htv⟩ : ∃ t : Fin cfg0.N, t.val = (i 0).val / 1000 := ⟨⟨(i 0).val / 1000, ht⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 1000 ≤ (i 0).val ∧ (i 0).val < win0_3.index t (0 : Fin 2) * 1000 + 1000
    rw [e30, htv]; omega
  | ⟨1, _⟩ =>
    show win0_3.index t (1 : Fin 2) * 256 ≤ (i 1).val ∧ (i 1).val < win0_3.index t (1 : Fin 2) * 256 + 256
    rw [e31]; omega

/-- THE ARRAY after the region: the closed form of the three input arrays as the region finds them. -/
theorem final0_3 (c : Dev nD) :
    (dat0 (F := Ideal) V c).arrAt 3 cfg0.N
      = Spec.matScaled (V c (Pipeline.arrRef spec0 0)) (V c (Pipeline.arrRef spec0 1)) (V c (Pipeline.arrRef spec0 2)) :=
  (dat0 (F := Ideal) V c).arrAt_eq_of_cover 3
    (Spec.matScaled (V c (Pipeline.arrRef spec0 0)) (V c (Pipeline.arrRef spec0 1)) (V c (Pipeline.arrRef spec0 2)))
    (fun t _ => flushed_eq V c t) cover

end Cert.KernelIdeal.R0

end
-- ==== Proof.KRegion1.lean ====
/- Region 1 (the scaled matrix product on row blocks of 1000): the array its output window ends holding is
   `Spec.matScaled` of the three input arrays as the region finds them. The payload is read at an index (the product
   with a zero accumulator is the sum over the contraction axis, the format changes are the identity on the extended
   reals, the column is laid along the rows), each input block is the rows `1000 t … 1000 t + 999` of its array, and the
   hundred output blocks tile the array. -/
import proofs.«149613_j7086696039015_2_alg».proof.Proof.Gen.KernelIdeal.Frame
import proofs.«149613_j7086696039015_2_alg».proof.Proof.SpecGcn
import proofs.«149613_j7086696039015_2_alg».proof.Proof.KColumn
import Idealize.ShloMosaic.Lib.Pipeline.Value
import Idealize.ShloMosaic.Lib.ValueIdx
import Idealize.ShloMosaic.PureOps.Ideal.Laws

set_option maxRecDepth 16384

noncomputable section

namespace Cert.KernelIdeal.R1

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The product's operand indices -/

theorem lhs_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The product into a zero accumulator, at row `p` and column `q`: the sum over the contraction axis. -/
theorem mm_apply {φ₁ φ₂ : FTy} (a : FVec Ideal S1000x512 φ₁) (b : FVec Ideal S512x256 φ₂) (p : Fin 1000) (q : Fin 256) :
    matmul (F := Ideal) dot_S1000x512_S512x256_S1000x256_1_0_0_1_n_n none a b (constant (F := Ideal) S1000x256 .f32 0x00000000#32) (ix2 p q)
      = ∑ k : Fin 512, a (ix2 p k) * b (ix2 k q) := by
  show FloatOps.matmul dot_S1000x512_S512x256_S1000x256_1_0_0_1_n_n none a b (constant (F := Ideal) S1000x256 .f32 0x00000000#32) (ix2 p q) = _
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 p q) ((contrEquiv1 dot_S1000x512_S512x256_S1000x256_1_0_0_1_n_n 512 rfl rfl).symm k) = ix2 p k := funext fun a => Fin.ext (by
    match a with
    | ⟨0, _⟩ => exact lhs_0 _ _
    | ⟨1, _⟩ => exact (lhs_1 _ _).trans hk)
  have er : dot_S1000x512_S512x256_S1000x256_1_0_0_1_n_n.rhsIdx (ix2 p q) ((contrEquiv1 dot_S1000x512_S512x256_S1000x256_1_0_0_1_n_n 512 rfl rfl).symm k) = ix2 k q := funext fun a => Fin.ext (by
    match a with
    | ⟨0, _⟩ => exact (rhs_0 _ _).trans hk
    | ⟨1, _⟩ => exact rhs_1 _ _)
  rw [el, er]

/-! ## The payload at an index -/

/-- The stored value at row `p`, column `q` of the block: the row of `x0` against the column of `x1`, times
    the row's entry of the column `x2`. -/
theorem pay_apply (x0 : Vec Ideal S1000x512 .f32) (x1 : Vec Ideal S512x256 .f32) (x2 : Vec Ideal S1000x1 .f32)
    (p : Fin 1000) (q : Fin 256) :
    k1_pay1 (F := Ideal) x0 x1 x2 (ix2 p q) = (∑ k : Fin 512, x0 (ix2 p k) * x1 (ix2 k q)) * x2 (ix2 p (0 : Fin 1)) := by
  unfold k1_pay1
  refine congrArg₂ (fun a b : EReal => a * b) (mm_apply _ _ p q) ?_
  refine (congrArg (fun v => broadcastTo S1000x256 v broadcasts_S1000x1_S1000x256 (ix2 p q)) (shapeCast_self x2 shapeCasts_S1000x1_S1000x1)).trans ?_
  exact Cert.KLib.broadcastTo_a1_ab_apply x2 broadcasts_S1000x1_S1000x256 p q

/-- A block's stored value is the closed form at the array index of that entry, given that the blocks are the
    rows `1000 b … 1000 b + 999` of their arrays (`e0`, `e2`) and the whole second operand (`e1`). -/
theorem point_eq (x0 : Vec Ideal S1000x512 .f32) (x1 : Vec Ideal S512x256 .f32) (x2 : Vec Ideal S1000x1 .f32)
    (X : S100000x512.Idx → EReal) (Wt : S512x256.Idx → EReal) (D : S100000x1.Idx → EReal)
    (b : Nat) (j : S1000x256.Idx) (i : S100000x256.Idx)
    (h0 : (i 0).val = b * 1000 + (j 0).val) (h1 : (i 1).val = (j 1).val)
    (e0 : ∀ (x : S1000x512.Idx) (k : S100000x512.Idx), (k 0).val = b * 1000 + (x 0).val → (k 1).val = (x 1).val → x0 x = X k)
    (e1 : ∀ x : S512x256.Idx, x1 x = Wt x)
    (e2 : ∀ (x : S1000x1.Idx) (k : S100000x1.Idx), (k 0).val = b * 1000 + (x 0).val → (k 1).val = (x 1).val → x2 x = D k) :
    k1_pay1 (F := Ideal) x0 x1 x2 j = Spec.matScaled X Wt D i := by
  obtain ⟨p, q, rfl⟩ : ∃ (p : Fin 1000) (q : Fin 256), j = ix2 p q := ⟨j 0, j 1, eq_ix2 j⟩
  rw [pay_apply]
  unfold Spec.matScaled
  have a0 : ∀ k : Fin 512, x0 (ix2 p k) = X (ix2 (n0 := 100000) (n1 := 512) (i 0) k) := fun k => e0 _ _ h0 rfl
  have a1 : ∀ k : Fin 512, x1 (ix2 k q) = Wt (ix2 (n0 := 512) (n1 := 256) k (i 1)) := fun k =>
    (e1 _).trans (congrArg Wt (funext fun a => by
      match a with
      | ⟨0, _⟩ => rfl
      | ⟨1, _⟩ => exact Fin.ext h1.symm))
  have a2 : x2 (ix2 p (0 : Fin 1)) = D (ix2 (n0 := 100000) (n1 := 1) (i 0) (0 : Fin 1)) := e2 _ _ h0 rfl
  rw [a2]
  exact congrArg (fun s : EReal => s * D (ix2 (n0 := 100000) (n1 := 1) (i 0) (0 : Fin 1)))
    (Finset.sum_congr rfl fun k _ => by rw [a0 k, a1 k])

/-! ## The windows' blocks as rows of their arrays -/

/-- The printed index maps, decided over the grid: the row-blocked windows sit at block `(t, 0)`, the second
    operand at `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem iblk_0_apply (c : Dev nD) (t : Fin cfg1.N) (x : S1000x512.Idx) (k : S100000x512.Idx)
    (hk0 : (k 0).val = t.val * 1000 + (x 0).val) (hk1 : (k 1).val = (x 1).val) :
    (iblk1 (F := Ideal) V c 0 t : Vec Ideal S1000x512 .f32) x = (V c (Pipeline.arrRef spec1 0) : S100000x512.Idx → EReal) k := by
  obtain ⟨e00, e01, -⟩ := idx_facts t
  show (V c (Pipeline.arrRef spec1 0) : S100000x512.Idx → EReal) (((cfg1.win 0).blk t).view.emb x) = _
  refine congrArg _ (funext fun a => Fin.ext ?_)
  match a with
  | ⟨0, _⟩ => show win1_0.index t (0 : Fin 2) * 1000 + 1 * (x 0).val = (k 0).val; rw [e00, hk0]; omega
  | ⟨1, _⟩ => show win1_0.index t (1 : Fin 2) * 512 + 1 * (x 1).val = (k 1).val; rw [e01, hk1]; omega

theorem iblk_1_apply (c : Dev nD) (t : Fin cfg1.N) (x : S512x256.Idx) :
    (iblk1 (F := Ideal) V c 1 t : Vec Ideal S512x256 .f32) x = (V c (Pipeline.arrRef spec1 1) : S512x256.Idx → EReal) x := by
  obtain ⟨-, -, e10, e11, -⟩ := idx_facts t
  show (V c (Pipeline.arrRef spec1 1) : S512x256.Idx → EReal) (((cfg1.win 1).blk t).view.emb x) = _
  refine congrArg _ (funext fun a => Fin.ext ?_)
  match a with
  | ⟨0, _⟩ => show win1_1.index t (0 : Fin 2) * 512 + 1 * (x 0).val = (x 0).val; rw [e10]; omega
  | ⟨1, _⟩ => show win1_1.index t (1 : Fin 2) * 256 + 1 * (x 1).val = (x 1).val; rw [e11]; omega

theorem iblk_2_apply (c : Dev nD) (t : Fin cfg1.N) (x : S1000x1.Idx) (k : S100000x1.Idx)
    (hk0 : (k 0).val = t.val * 1000 + (x 0).val) (hk1 : (k 1).val = (x 1).val) :
    (iblk1 (F := Ideal) V c 2 t : Vec Ideal S1000x1 .f32) x = (V c (Pipeline.arrRef spec1 2) : S100000x1.Idx → EReal) k := by
  obtain ⟨-, -, -, -, e20, e21, -⟩ := idx_facts t
  show (V c (Pipeline.arrRef spec1 2) : S100000x1.Idx → EReal) (((cfg1.win 2).blk t).view.emb x) = _
  refine congrArg _ (funext fun a => Fin.ext ?_)
  match a with
  | ⟨0, _⟩ => show win1_2.index t (0 : Fin 2) * 1000 + 1 * (x 0).val = (k 0).val; rw [e20, hk0]; omega
  | ⟨1, _⟩ => show win1_2.index t (1 : Fin 2) * 1 + 1 * (x 1).val = (k 1).val; rw [e21, hk1]; omega

/-! ## What each point writes back, and the array -/

/-- WHAT POINT `t` WRITES BACK is block `t` of the closed form of the input arrays as the region finds them. -/
theorem flushed_eq (c : Dev nD) (t : Fin cfg1.N) :
    (dat1 (F := Ideal) V c).flushed 3 t = ((cfg1.win 3).blk t).view.read (Elt Ideal)
      (Spec.matScaled (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S1000x512) hz, View.ld_unit_zero (S := S512x256) hz, View.ld_unit_zero (S := S1000x1) hz]
  obtain ⟨-, -, -, -, -, -, e30, e31⟩ := idx_facts t
  funext j
  show k1_pay1 (F := Ideal) (iblk1 V c 0 t) (iblk1 V c 1 t) (iblk1 V c 2 t) j
    = Spec.matScaled (V c (Pipeline.arrRef spec1 0)) (V c (Pipeline.arrRef spec1 1)) (V c (Pipeline.arrRef spec1 2)) (((cfg1.win 3).blk t).view.emb j)
  refine point_eq (iblk1 V c 0 t) (iblk1 V c 1 t) (iblk1 V c 2 t)
    (V c (Pipeline.arrRef spec1 0)) (V c (Pipeline.arrRef spec1 1)) (V c (Pipeline.arrRef spec1 2)) t.val j
    (((cfg1.win 3).blk t).view.emb j) ?_ ?_
    (fun x k hk0 hk1 => iblk_0_apply V c t x k hk0 hk1) (fun x => iblk_1_apply V c t x)
    (fun x k hk0 hk1 => iblk_2_apply V c t x k hk0 hk1)
  · show win1_3.index t (0 : Fin 2) * 1000 + 1 * (j 0).val = t.val * 1000 + (j 0).val; rw [e30]; omega
  · show win1_3.index t (1 : Fin 2) * 256 + 1 * (j 1).val = (j 1).val; rw [e31]; omega

/-- An index of the array is in point `t`'s block iff each coordinate is in the block's range on its axis. -/
theorem mem_blk (t : Fin cfg1.N) (i : S100000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v25).slice (win1_3.rect t)).set ↔ _
  rw [View.set_slice_whole, Rect.mem_set_unit]
  exact Iff.rfl

/-- The hundred row blocks tile the array: row `r` is in the block of point `r / 1000`. -/
theorem cover (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 100 := N_1
  have ht : (i 0).val / 1000 < cfg1.N := by omega
  obtain ⟨t, htv⟩ : ∃ t : Fin cfg1.N, t.val = (i 0).val / 1000 := ⟨⟨(i 0).val / 1000, ht⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    rw [e30, htv]; omega
  | ⟨1, _⟩ =>
    show win1_3.index t (1 : Fin 2) * 256 ≤ (i 1).val ∧ (i 1).val < win1_3.index t (1 : Fin 2) * 256 + 256
    rw [e31]; omega

/-- THE ARRAY after the region: the closed form of the three input arrays as the region finds them. -/
theorem final1_3 (c : Dev nD) :
    (dat1 (F := Ideal) V c).arrAt 3 cfg1.N
      = Spec.matScaled (V c (Pipeline.arrRef spec1 0)) (V c (Pipeline.arrRef spec1 1)) (V c (Pipeline.arrRef spec1 2)) :=
  (dat1 (F := Ideal) V c).arrAt_eq_of_cover 3
    (Spec.matScaled (V c (Pipeline.arrRef spec1 0)) (V c (Pipeline.arrRef spec1 1)) (V c (Pipeline.arrRef spec1 2)))
    (fun t _ => flushed_eq V c t) cover

end Cert.KernelIdeal.R1

end
-- ==== Proof.KRegion2.lean ====
/- Region 2 (the combine step on row blocks of 1000): the arrays its two output windows end holding are
   `Spec.gcnX0` and `Spec.gcnG1` of the eight input arrays as the region finds them. Every operation of the body is
   pointwise but the two broadcasts (a column laid along the rows, a row laid along the columns); each row-blocked input
   block is the rows `1000 t … 1000 t + 999` of its array, the two bias rows are whole, and the hundred output blocks
   tile each output array. -/
import proofs.«149613_j7086696039015_2_alg».proof.Proof.Gen.KernelIdeal.Frame
import proofs.«149613_j7086696039015_2_alg».proof.Proof.SpecGcn
import proofs.«149613_j7086696039015_2_alg».proof.Proof.KColumn
import Idealize.ShloMosaic.Lib.Pipeline.Value
import Idealize.ShloMosaic.Lib.ValueIdx
import Idealize.ShloMosaic.Lib.ValueLayout

set_option maxRecDepth 16384

noncomputable section

namespace Cert.KernelIdeal.R2

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The payloads at an index -/

/-- The affine row expression at row `p`, column `q` of the block: `d[p,0] * (agg[p,q] + xw[p,q]) + bb[0,q]`. -/
theorem raw_apply (d : Vec Ideal S1000x1 .f32) (agg xw : Vec Ideal S1000x256 .f32) (bb : Vec Ideal S1x256 .f32)
    (p : Fin 1000) (q : Fin 256) :
    k2_pay1 (F := Ideal) d agg xw bb (ix2 p q)
      = d (ix2 p (0 : Fin 1)) * (agg (ix2 p q) + xw (ix2 p q)) + bb (ix2 (0 : Fin 1) q) := by
  unfold k2_pay1
  have hd : broadcastTo S1000x256 (shapeCast S1000x1 d shapeCasts_S1000x1_S1000x1) broadcasts_S1000x1_S1000x256 (ix2 p q) = d (ix2 p (0 : Fin 1)) :=
    (congrArg (fun v => broadcastTo S1000x256 v broadcasts_S1000x1_S1000x256 (ix2 p q)) (shapeCast_self d shapeCasts_S1000x1_S1000x1)).trans
      (Cert.KLib.broadcastTo_a1_ab_apply d broadcasts_S1000x1_S1000x256 p q)
  have hb : broadcastTo S1000x256 (shapeCast S1x256 bb shapeCasts_S1x256_S1x256) broadcasts_S1x256_S1000x256 (ix2 p q) = bb (ix2 (0 : Fin 1) q) :=
    (congrArg (fun v => broadcastTo S1000x256 v broadcasts_S1x256_S1000x256 (ix2 p q)) (shapeCast_self bb shapeCasts_S1x256_S1x256)).trans
      (broadcastTo_1b_ab_apply bb broadcasts_S1x256_S1000x256 p q)
  have hagg : shapeCast S1000x256 agg shapeCasts_S1000x256_S1000x256 (ix2 p q) = agg (ix2 p q) :=
    congrFun (shapeCast_self agg shapeCasts_S1000x256_S1000x256) _
  have hxw : shapeCast S1000x256 xw shapeCasts_S1000x256_S1000x256 (ix2 p q) = xw (ix2 p q) :=
    congrFun (shapeCast_self xw shapeCasts_S1000x256_S1000x256) _
  show broadcastTo S1000x256 (shapeCast S1000x1 d shapeCasts_S1000x1_S1000x1) broadcasts_S1000x1_S1000x256 (ix2 p q)
      * (shapeCast S1000x256 agg shapeCasts_S1000x256_S1000x256 (ix2 p q) + shapeCast S1000x256 xw shapeCasts_S1000x256_S1000x256 (ix2 p q))
      + broadcastTo S1000x256 (shapeCast S1x256 bb shapeCasts_S1x256_S1x256) broadcasts_S1x256_S1000x256 (ix2 p q) = _
  rw [hd, hb, hagg, hxw]

/-- The first stored value is the two clamped row expressions added (every operation above them is pointwise). -/
theorem pay3_eq (dh : Vec Ideal S1000x1 .f32) (aggh xwh : Vec Ideal S1000x256 .f32) (bh : Vec Ideal S1x256 .f32)
    (dg : Vec Ideal S1000x1 .f32) (aggg xwg : Vec Ideal S1000x256 .f32) (bg : Vec Ideal S1x256 .f32) (j : S1000x256.Idx) :
    k2_pay3 (F := Ideal) dh aggh xwh bh dg aggg xwg bg j
      = max (k2_pay1 (F := Ideal) dh aggh xwh bh j) (Ideal.ofBits .f32 0x00000000#32)
        + max (k2_pay1 (F := Ideal) dg aggg xwg bg j) (Ideal.ofBits .f32 0x00000000#32) := rfl

/-- The second stored value is the clamped second row expression plus itself unclamped. -/
theorem pay4_eq (dg : Vec Ideal S1000x1 .f32) (aggg xwg : Vec Ideal S1000x256 .f32) (bg : Vec Ideal S1x256 .f32) (j : S1000x256.Idx) :
    k2_pay4 (F := Ideal) dg aggg xwg bg j
      = max (k2_pay1 (F := Ideal) dg aggg xwg bg j) (Ideal.ofBits .f32 0x00000000#32) + k2_pay1 (F := Ideal) dg aggg xwg bg j := rfl

/-- A block's row expression is the closed form's at the array index of that entry, given that the blocks are the
    rows `1000 b … 1000 b + 999` of their arrays and the whole bias row. -/
theorem raw_point (d : Vec Ideal S1000x1 .f32) (agg xw : Vec Ideal S1000x256 .f32) (bb : Vec Ideal S1x256 .f32)
    (AGG XW : S100000x256.Idx → EReal) (D : S100000x1.Idx → EReal) (B : S1x256.Idx → EReal)
    (b : Nat) (j : S1000x256.Idx) (i : S100000x256.Idx)
    (h0 : (i 0).val = b * 1000 + (j 0).val) (h1 : (i 1).val = (j 1).val)
    (eagg : ∀ (x : S1000x256.Idx) (k : S100000x256.Idx), (k 0).val = b * 1000 + (x 0).val → (k 1).val = (x 1).val → agg x = AGG k)
    (exw : ∀ (x : S1000x256.Idx) (k : S100000x256.Idx), (k 0).val = b * 1000 + (x 0).val → (k 1).val = (x 1).val → xw x = XW k)
    (ed : ∀ (x : S1000x1.Idx) (k : S100000x1.Idx), (k 0).val = b * 1000 + (x 0).val → (k 1).val = (x 1).val → d x = D k)
    (eb : ∀ x : S1x256.Idx, bb x = B x) :
    k2_pay1 (F := Ideal) d agg xw bb j = Spec.gcnRaw AGG XW D B i := by
  obtain ⟨p, q, rfl⟩ : ∃ (p : Fin 1000) (q : Fin 256), j = ix2 p q := ⟨j 0, j 1, eq_ix2 j⟩
  rw [raw_apply]
  unfold Spec.gcnRaw
  have a0 : agg (ix2 p q) = AGG i := eagg _ _ h0 h1
  have a1 : xw (ix2 p q) = XW i := exw _ _ h0 h1
  have a2 : d (ix2 p (0 : Fin 1)) = D (ix2 (n0 := 100000) (n1 := 1) (i 0) (0 : Fin 1)) := ed _ _ h0 rfl
  have a3 : bb (ix2 (0 : Fin 1) q) = B (ix2 (n0 := 1) (n1 := 256) (0 : Fin 1) (i 1)) :=
    (eb _).trans (congrArg B (funext fun a => by
      match a with
      | ⟨0, _⟩ => rfl
      | ⟨1, _⟩ => exact Fin.ext h1.symm))
  rw [a0, a1, a2, a3]

theorem point8_eq (x0 x1 : Vec Ideal S1000x256 .f32) (x2 : Vec Ideal S1000x1 .f32) (x3 : Vec Ideal S1x256 .f32)
    (x4 x5 : Vec Ideal S1000x256 .f32) (x6 : Vec Ideal S1000x1 .f32) (x7 : Vec Ideal S1x256 .f32)
    (A0 A1 : S100000x256.Idx → EReal) (A2 : S100000x1.Idx → EReal) (A3 : S1x256.Idx → EReal)
    (A4 A5 : S100000x256.Idx → EReal) (A6 : S100000x1.Idx → EReal) (A7 : S1x256.Idx → EReal)
    (b : Nat) (j : S1000x256.Idx) (i : S100000x256.Idx)
    (h0 : (i 0).val = b * 1000 + (j 0).val) (h1 : (i 1).val = (j 1).val)
    (e0 : ∀ (x : S1000x256.Idx) (k : S100000x256.Idx), (k 0).val = b * 1000 + (x 0).val → (k 1).val = (x 1).val → x0 x = A0 k)
    (e1 : ∀ (x : S1000x256.Idx) (k : S100000x256.Idx), (k 0).val = b * 1000 + (x 0).val → (k 1).val = (x 1).val → x1 x = A1 k)
    (e2 : ∀ (x : S1000x1.Idx) (k : S100000x1.Idx), (k 0).val = b * 1000 + (x 0).val → (k 1).val = (x 1).val → x2 x = A2 k)
    (e3 : ∀ x : S1x256.Idx, x3 x = A3 x)
    (e4 : ∀ (x : S1000x256.Idx) (k : S100000x256.Idx), (k 0).val = b * 1000 + (x 0).val → (k 1).val = (x 1).val → x4 x = A4 k)
    (e5 : ∀ (x : S1000x256.Idx) (k : S100000x256.Idx), (k 0).val = b * 1000 + (x 0).val → (k 1).val = (x 1).val → x5 x = A5 k)
    (e6 : ∀ (x : S1000x1.Idx) (k : S100000x1.Idx), (k 0).val = b * 1000 + (x 0).val → (k 1).val = (x 1).val → x6 x = A6 k)
    (e7 : ∀ x : S1x256.Idx, x7 x = A7 x) :
    k2_pay3 (F := Ideal) x2 x0 x1 x3 x6 x4 x5 x7 j = Spec.gcnX0 A0 A1 A2 A3 A4 A5 A6 A7 i := by
  rw [pay3_eq]
  unfold Spec.gcnX0
  rw [raw_point x2 x0 x1 x3 A0 A1 A2 A3 b j i h0 h1 e0 e1 e2 e3, raw_point x6 x4 x5 x7 A4 A5 A6 A7 b j i h0 h1 e4 e5 e6 e7]

theorem point9_eq (x4 x5 : Vec Ideal S1000x256 .f32) (x6 : Vec Ideal S1000x1 .f32) (x7 : Vec Ideal S1x256 .f32)
    (A4 A5 : S100000x256.Idx → EReal) (A6 : S100000x1.Idx → EReal) (A7 : S1x256.Idx → EReal)
    (b : Nat) (j : S1000x256.Idx) (i : S100000x256.Idx)
    (h0 : (i 0).val = b * 1000 + (j 0).val) (h1 : (i 1).val = (j 1).val)
    (e4 : ∀ (x : S1000x256.Idx) (k : S100000x256.Idx), (k 0).val = b * 1000 + (x 0).val → (k 1).val = (x 1).val → x4 x = A4 k)
    (e5 : ∀ (x : S1000x256.Idx) (k : S100000x256.Idx), (k 0).val = b * 1000 + (x 0).val → (k 1).val = (x 1).val → x5 x = A5 k)
    (e6 : ∀ (x : S1000x1.Idx) (k : S100000x1.Idx), (k 0).val = b * 1000 + (x 0).val → (k 1).val = (x 1).val → x6 x = A6 k)
    (e7 : ∀ x : S1x256.Idx, x7 x = A7 x) :
    k2_pay4 (F := Ideal) x6 x4 x5 x7 j = Spec.gcnG1 A4 A5 A6 A7 i := by
  rw [pay4_eq]
  unfold Spec.gcnG1
  rw [raw_point x6 x4 x5 x7 A4 A5 A6 A7 b j i h0 h1 e4 e5 e6 e7]

/-! ## The windows' blocks as rows of their arrays -/

/-- The printed index maps, decided over the grid: the row-blocked windows sit at block `(t, 0)`, the two bias
    rows at `(0, 0)`. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0
    ∧ win2_9.index t (0 : Fin 2) = t.val
    ∧ win2_9.index t (1 : Fin 2) = 0 :=
  (by decide +kernel : ∀ t : Fin grid2.N, _)

theorem iblk_0_apply (c : Dev nD) (t : Fin cfg2.N) (x : S1000x256.Idx) (k : S100000x256.Idx)
    (hk0 : (k 0).val = t.val * 1000 + (x 0).val) (hk1 : (k 1).val = (x 1).val) :
    (iblk2 (F := Ideal) V c 0 t : Vec Ideal S1000x256 .f32) x = (V c (Pipeline.arrRef spec2 0) : S100000x256.Idx → EReal) k := by
  obtain ⟨f00, f01, f10, f11, f20, f21, f30, f31, f40, f41, f50, f51, f60, f61, f70, f71, f80, f81, f90, f91⟩ := idx_facts t
  show (V c (Pipeline.arrRef spec2 0) : S100000x256.Idx → EReal) (((cfg2.win 0).blk t).view.emb x) = _
  refine congrArg _ (funext fun a => Fin.ext ?_)
  match a with
  | ⟨0, _⟩ => show win2_0.index t (0 : Fin 2) * 1000 + 1 * (x 0).val = (k 0).val; rw [f00, hk0]; omega
  | ⟨1, _⟩ => show win2_0.index t (1 : Fin 2) * 256 + 1 * (x 1).val = (k 1).val; rw [f01, hk1]; omega

theorem iblk_1_apply (c : Dev nD) (t : Fin cfg2.N) (x : S1000x256.Idx) (k : S100000x256.Idx)
    (hk0 : (k 0).val = t.val * 1000 + (x 0).val) (hk1 : (k 1).val = (x 1).val) :
    (iblk2 (F := Ideal) V c 1 t : Vec Ideal S1000x256 .f32) x = (V c (Pipeline.arrRef spec2 1) : S100000x256.Idx → EReal) k := by
  obtain ⟨f00, f01, f10, f11, f20, f21, f30, f31, f40, f41, f50, f51, f60, f61, f70, f71, f80, f81, f90, f91⟩ := idx_facts t
  show (V c (Pipeline.arrRef spec2 1) : S100000x256.Idx → EReal) (((cfg2.win 1).blk t).view.emb x) = _
  refine congrArg _ (funext fun a => Fin.ext ?_)
  match a with
  | ⟨0, _⟩ => show win2_1.index t (0 : Fin 2) * 1000 + 1 * (x 0).val = (k 0).val; rw [f10, hk0]; omega
  | ⟨1, _⟩ => show win2_1.index t (1 : Fin 2) * 256 + 1 * (x 1).val = (k 1).val; rw [f11, hk1]; omega

theorem iblk_2_apply (c : Dev nD) (t : Fin cfg2.N) (x : S1000x1.Idx) (k : S100000x1.Idx)
    (hk0 : (k 0).val = t.val * 1000 + (x 0).val) (hk1 : (k 1).val = (x 1).val) :
    (iblk2 (F := Ideal) V c 2 t : Vec Ideal S1000x1 .f32) x = (V c (Pipeline.arrRef spec2 2) : S100000x1.Idx → EReal) k := by
  obtain ⟨f00, f01, f10, f11, f20, f21, f30, f31, f40, f41, f50, f51, f60, f61, f70, f71, f80, f81, f90, f91⟩ := idx_facts t
  show (V c (Pipeline.arrRef spec2 2) : S100000x1.Idx → EReal) (((cfg2.win 2).blk t).view.emb x) = _
  refine congrArg _ (funext fun a => Fin.ext ?_)
  match a with
  | ⟨0, _⟩ => show win2_2.index t (0 : Fin 2) * 1000 + 1 * (x 0).val = (k 0).val; rw [f20, hk0]; omega
  | ⟨1, _⟩ => show win2_2.index t (1 : Fin 2) * 1 + 1 * (x 1).val = (k 1).val; rw [f21, hk1]; omega

theorem iblk_3_apply (c : Dev nD) (t : Fin cfg2.N) (x : S1x256.Idx) :
    (iblk2 (F := Ideal) V c 3 t : Vec Ideal S1x256 .f32) x = (V c (Pipeline.arrRef spec2 3) : S1x256.Idx → EReal) x := by
  obtain ⟨f00, f01, f10, f11, f20, f21, f30, f31, f40, f41, f50, f51, f60, f61, f70, f71, f80, f81, f90, f91⟩ := idx_facts t
  show (V c (Pipeline.arrRef spec2 3) : S1x256.Idx → EReal) (((cfg2.win 3).blk t).view.emb x) = _
  refine congrArg _ (funext fun a => Fin.ext ?_)
  match a with
  | ⟨0, _⟩ => show win2_3.index t (0 : Fin 2) * 1 + 1 * (x 0).val = (x 0).val; rw [f30]; omega
  | ⟨1, _⟩ => show win2_3.index t (1 : Fin 2) * 256 + 1 * (x 1).val = (x 1).val; rw [f31]; omega

theorem iblk_4_apply (c : Dev nD) (t : Fin cfg2.N) (x : S1000x256.Idx) (k : S100000x256.Idx)
    (hk0 : (k 0).val = t.val * 1000 + (x 0).val) (hk1 : (k 1).val = (x 1).val) :
    (iblk2 (F := Ideal) V c 4 t : Vec Ideal S1000x256 .f32) x = (V c (Pipeline.arrRef spec2 4) : S100000x256.Idx → EReal) k := by
  obtain ⟨f00, f01, f10, f11, f20, f21, f30, f31, f40, f41, f50, f51, f60, f61, f70, f71, f80, f81, f90, f91⟩ := idx_facts t
  show (V c (Pipeline.arrRef spec2 4) : S100000x256.Idx → EReal) (((cfg2.win 4).blk t).view.emb x) = _
  refine congrArg _ (funext fun a => Fin.ext ?_)
  match a with
  | ⟨0, _⟩ => show win2_4.index t (0 : Fin 2) * 1000 + 1 * (x 0).val = (k 0).val; rw [f40, hk0]; omega
  | ⟨1, _⟩ => show win2_4.index t (1 : Fin 2) * 256 + 1 * (x 1).val = (k 1).val; rw [f41, hk1]; omega

theorem iblk_5_apply (c : Dev nD) (t : Fin cfg2.N) (x : S1000x256.Idx) (k : S100000x256.Idx)
    (hk0 : (k 0).val = t.val * 1000 + (x 0).val) (hk1 : (k 1).val = (x 1).val) :
    (iblk2 (F := Ideal) V c 5 t : Vec Ideal S1000x256 .f32) x = (V c (Pipeline.arrRef spec2 5) : S100000x256.Idx → EReal) k := by
  obtain ⟨f00, f01, f10, f11, f20, f21, f30, f31, f40, f41, f50, f51, f60, f61, f70, f71, f80, f81, f90, f91⟩ := idx_facts t
  show (V c (Pipeline.arrRef spec2 5) : S100000x256.Idx → EReal) (((cfg2.win 5).blk t).view.emb x) = _
  refine congrArg _ (funext fun a => Fin.ext ?_)
  match a with
  | ⟨0, _⟩ => show win2_5.index t (0 : Fin 2) * 1000 + 1 * (x 0).val = (k 0).val; rw [f50, hk0]; omega
  | ⟨1, _⟩ => show win2_5.index t (1 : Fin 2) * 256 + 1 * (x 1).val = (k 1).val; rw [f51, hk1]; omega

theorem iblk_6_apply (c : Dev nD) (t : Fin cfg2.N) (x : S1000x1.Idx) (k : S100000x1.Idx)
    (hk0 : (k 0).val = t.val * 1000 + (x 0).val) (hk1 : (k 1).val = (x 1).val) :
    (iblk2 (F := Ideal) V c 6 t : Vec Ideal S1000x1 .f32) x = (V c (Pipeline.arrRef spec2 6) : S100000x1.Idx → EReal) k := by
  obtain ⟨f00, f01, f10, f11, f20, f21, f30, f31, f40, f41, f50, f51, f60, f61, f70, f71, f80, f81, f90, f91⟩ := idx_facts t
  show (V c (Pipeline.arrRef spec2 6) : S100000x1.Idx → EReal) (((cfg2.win 6).blk t).view.emb x) = _
  refine congrArg _ (funext fun a => Fin.ext ?_)
  match a with
  | ⟨0, _⟩ => show win2_6.index t (0 : Fin 2) * 1000 + 1 * (x 0).val = (k 0).val; rw [f60, hk0]; omega
  | ⟨1, _⟩ => show win2_6.index t (1 : Fin 2) * 1 + 1 * (x 1).val = (k 1).val; rw [f61, hk1]; omega

theorem iblk_7_apply (c : Dev nD) (t : Fin cfg2.N) (x : S1x256.Idx) :
    (iblk2 (F := Ideal) V c 7 t : Vec Ideal S1x256 .f32) x = (V c (Pipeline.arrRef spec2 7) : S1x256.Idx → EReal) x := by
  obtain ⟨f00, f01, f10, f11, f20, f21, f30, f31, f40, f41, f50, f51, f60, f61, f70, f71, f80, f81, f90, f91⟩ := idx_facts t
  show (V c (Pipeline.arrRef spec2 7) : S1x256.Idx → EReal) (((cfg2.win 7).blk t).view.emb x) = _
  refine congrArg _ (funext fun a => Fin.ext ?_)
  match a with
  | ⟨0, _⟩ => show win2_7.index t (0 : Fin 2) * 1 + 1 * (x 0).val = (x 0).val; rw [f70]; omega
  | ⟨1, _⟩ => show win2_7.index t (1 : Fin 2) * 256 + 1 * (x 1).val = (x 1).val; rw [f71]; omega

/-! ## What each point writes back, and the arrays -/

set_option maxHeartbeats 1000000 in
/-- WHAT POINT `t` WRITES BACK to output window 8 is block `t` of its closed form of the input arrays as the region finds them. -/
theorem flushed8_eq (c : Dev nD) (t : Fin cfg2.N) :
    (dat2 (F := Ideal) V c).flushed 8 t = ((cfg2.win 8).blk t).view.read (Elt Ideal)
      (Spec.gcnX0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  show (cfg2.win 8).cut (grid2.coords t) ((dat2 (F := Ideal) V c).after 8 t) = _
  rw [after2_8]
  unfold out2_8
  rw [View.canon_unit_zero hz]
  simp only [View.ld_unit_zero (S := S1000x256) hz, View.ld_unit_zero (S := S1000x1) hz, View.ld_unit_zero (S := S1x256) hz]
  obtain ⟨f00, f01, f10, f11, f20, f21, f30, f31, f40, f41, f50, f51, f60, f61, f70, f71, f80, f81, f90, f91⟩ := idx_facts t
  funext j
  show k2_pay3 (F := Ideal) (iblk2 V c 2 t) (iblk2 V c 0 t) (iblk2 V c 1 t) (iblk2 V c 3 t) (iblk2 V c 6 t) (iblk2 V c 4 t) (iblk2 V c 5 t) (iblk2 V c 7 t) j
    = Spec.gcnX0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (((cfg2.win 8).blk t).view.emb j)
  refine point8_eq (iblk2 V c 0 t) (iblk2 V c 1 t) (iblk2 V c 2 t) (iblk2 V c 3 t) (iblk2 V c 4 t) (iblk2 V c 5 t) (iblk2 V c 6 t) (iblk2 V c 7 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) t.val j
    (((cfg2.win 8).blk t).view.emb j) ?_ ?_
    (fun x k hk0 hk1 => iblk_0_apply V c t x k hk0 hk1)
    (fun x k hk0 hk1 => iblk_1_apply V c t x k hk0 hk1)
    (fun x k hk0 hk1 => iblk_2_apply V c t x k hk0 hk1)
    (fun x => iblk_3_apply V c t x)
    (fun x k hk0 hk1 => iblk_4_apply V c t x k hk0 hk1)
    (fun x k hk0 hk1 => iblk_5_apply V c t x k hk0 hk1)
    (fun x k hk0 hk1 => iblk_6_apply V c t x k hk0 hk1)
    (fun x => iblk_7_apply V c t x)
  · show win2_8.index t (0 : Fin 2) * 1000 + 1 * (j 0).val = t.val * 1000 + (j 0).val; rw [f80]; omega
  · show win2_8.index t (1 : Fin 2) * 256 + 1 * (j 1).val = (j 1).val; rw [f81]; omega

/-- An index of the array is in point `t`'s block of window 8 iff each coordinate is in the block's range on its axis. -/
theorem mem_blk8 (t : Fin cfg2.N) (i : S100000x256.Idx) :
    i ∈ ((cfg2.win 8).blk t).view.set ↔ ∀ a : Fin 2, win2_8.index t a * S1000x256.size a ≤ (i a).val ∧ (i a).val < win2_8.index t a * S1000x256.size a + S1000x256.size a := by
  show i ∈ ((View.whole main_v48_0).slice (win2_8.rect t)).set ↔ _
  rw [View.set_slice_whole, Rect.mem_set_unit]
  exact Iff.rfl

/-- The hundred row blocks of window 8 tile its array: row `r` is in the block of point `r / 1000`. -/
theorem cover8 (i : S100000x256.Idx) :
    ∃ t : Fin cfg2.N, (cfg2.win 8).flush t = true ∧ i ∈ ((cfg2.win 8).blk t).view.set := by
  have hi0 : (i 0).val < 100000 := (i 0).isLt
  have hi1 : (i 1).val < 256 := (i 1).isLt
  have hN : cfg2.N = 100 := N_2
  have ht : (i 0).val / 1000 < cfg2.N := by omega
  obtain ⟨t, htv⟩ : ∃ t : Fin cfg2.N, t.val = (i 0).val / 1000 := ⟨⟨(i 0).val / 1000, ht⟩, rfl⟩
  obtain ⟨f00, f01, f10, f11, f20, f21, f30, f31, f40, f41, f50, f51, f60, f61, f70, f71, f80, f81, f90, f91⟩ := idx_facts t
  refine ⟨t, flush2_8 t, ?_⟩
  rw [mem_blk8]
  intro a
  match a with
  | ⟨0, _⟩ =>
    show win2_8.index t (0 : Fin 2) * 1000 ≤ (i 0).val ∧ (i 0).val < win2_8.index t (0 : Fin 2) * 1000 + 1000
    rw [f80, htv]; omega
  | ⟨1, _⟩ =>
    show win2_8.index t (1 : Fin 2) * 256 ≤ (i 1).val ∧ (i 1).val < win2_8.index t (1 : Fin 2) * 256 + 256
    rw [f81]; omega

/-- THE ARRAY of output window 8 after the region: its closed form of the input arrays as the region finds them. -/
theorem final2_8 (c : Dev nD) :
    (dat2 (F := Ideal) V c).arrAt 8 cfg2.N
      = Spec.gcnX0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 (F := Ideal) V c).arrAt_eq_of_cover 8
    (Spec.gcnX0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)))
    (fun t _ => flushed8_eq V c t) cover8

/-- WHAT POINT `t` WRITES BACK to output window 9 is block `t` of its closed form of the input arrays as the region finds them. -/
theorem flushed9_eq (c : Dev nD) (t : Fin cfg2.N) :
    (dat2 (F := Ideal) V c).flushed 9 t = ((cfg2.win 9).blk t).view.read (Elt Ideal)
      (Spec.gcnG1 (V c (Pipeline.arrRef spec2 4)) (V c (Pipeline.arrRef spec2 5)) (V c (Pipeline.arrRef spec2 6)) (V c (Pipeline.arrRef spec2 7))) := by
  show (cfg2.win 9).cut (grid2.coords t) ((dat2 (F := Ideal) V c).after 9 t) = _
  rw [after2_9]
  unfold out2_9
  rw [View.canon_unit_zero hz]
  simp only [View.ld_unit_zero (S := S1000x256) hz, View.ld_unit_zero (S := S1000x1) hz, View.ld_unit_zero (S := S1x256) hz]
  obtain ⟨f00, f01, f10, f11, f20, f21, f30, f31, f40, f41, f50, f51, f60, f61, f70, f71, f80, f81, f90, f91⟩ := idx_facts t
  funext j
  show k2_pay4 (F := Ideal) (iblk2 V c 6 t) (iblk2 V c 4 t) (iblk2 V c 5 t) (iblk2 V c 7 t) j
    = Spec.gcnG1 (V c (Pipeline.arrRef spec2 4)) (V c (Pipeline.arrRef spec2 5)) (V c (Pipeline.arrRef spec2 6)) (V c (Pipeline.arrRef spec2 7)) (((cfg2.win 9).blk t).view.emb j)
  refine point9_eq (iblk2 V c 4 t) (iblk2 V c 5 t) (iblk2 V c 6 t) (iblk2 V c 7 t)
    (V c (Pipeline.arrRef spec2 4)) (V c (Pipeline.arrRef spec2 5)) (V c (Pipeline.arrRef spec2 6)) (V c (Pipeline.arrRef spec2 7)) t.val j
    (((cfg2.win 9).blk t).view.emb j) ?_ ?_
    (fun x k hk0 hk1 => iblk_4_apply V c t x k hk0 hk1)
    (fun x k hk0 hk1 => iblk_5_apply V c t x k hk0 hk1)
    (fun x k hk0 hk1 => iblk_6_apply V c t x k hk0 hk1)
    (fun x => iblk_7_apply V c t x)
  · show win2_9.index t (0 : Fin 2) * 1000 + 1 * (j 0).val = t.val * 1000 + (j 0).val; rw [f90]; omega
  · show win2_9.index t (1 : Fin 2) * 256 + 1 * (j 1).val = (j 1).val; rw [f91]; omega

/-- An index of the array is in point `t`'s block of window 9 iff each coordinate is in the block's range on its axis. -/
theorem mem_blk9 (t : Fin cfg2.N) (i : S100000x256.Idx) :
    i ∈ ((cfg2.win 9).blk t).view.set ↔ ∀ a : Fin 2, win2_9.index t a * S1000x256.size a ≤ (i a).val ∧ (i a).val < win2_9.index t a * S1000x256.size a + S1000x256.size a := by
  show i ∈ ((View.whole main_v48_1).slice (win2_9.rect t)).set ↔ _
  rw [View.set_slice_whole, Rect.mem_set_unit]
  exact Iff.rfl

/-- The hundred row blocks of window 9 tile its array: row `r` is in the block of point `r / 1000`. -/
theorem cover9 (i : S100000x256.Idx) :
    ∃ t : Fin cfg2.N, (cfg2.win 9).flush t = true ∧ i ∈ ((cfg2.win 9).blk t).view.set := by
  have hi0 : (i 0).val < 100000 := (i 0).isLt
  have hi1 : (i 1).val < 256 := (i 1).isLt
  have hN : cfg2.N = 100 := N_2
  have ht : (i 0).val / 1000 < cfg2.N := by omega
  obtain ⟨t, htv⟩ : ∃ t : Fin cfg2.N, t.val = (i 0).val / 1000 := ⟨⟨(i 0).val / 1000, ht⟩, rfl⟩
  obtain ⟨f00, f01, f10, f11, f20, f21, f30, f31, f40, f41, f50, f51, f60, f61, f70, f71, f80, f81, f90, f91⟩ := idx_facts t
  refine ⟨t, flush2_9 t, ?_⟩
  rw [mem_blk9]
  intro a
  match a with
  | ⟨0, _⟩ =>
    show win2_9.index t (0 : Fin 2) * 1000 ≤ (i 0).val ∧ (i 0).val < win2_9.index t (0 : Fin 2) * 1000 + 1000
    rw [f90, htv]; omega
  | ⟨1, _⟩ =>
    show win2_9.index t (1 : Fin 2) * 256 ≤ (i 1).val ∧ (i 1).val < win2_9.index t (1 : Fin 2) * 256 + 256
    rw [f91]; omega

/-- THE ARRAY of output window 9 after the region: its closed form of the input arrays as the region finds them. -/
theorem final2_9 (c : Dev nD) :
    (dat2 (F := Ideal) V c).arrAt 9 cfg2.N
      = Spec.gcnG1 (V c (Pipeline.arrRef spec2 4)) (V c (Pipeline.arrRef spec2 5)) (V c (Pipeline.arrRef spec2 6)) (V c (Pipeline.arrRef spec2 7)) :=
  (dat2 (F := Ideal) V c).arrAt_eq_of_cover 9
    (Spec.gcnG1 (V c (Pipeline.arrRef spec2 4)) (V c (Pipeline.arrRef spec2 5)) (V c (Pipeline.arrRef spec2 6)) (V c (Pipeline.arrRef spec2 7)))
    (fun t _ => flushed9_eq V c t) cover9

end Cert.KernelIdeal.R2

end
-- ==== Proof.ChainHead.lean ====
/- The kernel program's two first-layer outputs, read off the frame: the buffer contents at the boundary after the
   third region are the combine step's closed forms of host expressions of the launch arrays — the edge rows, the
   normalisation column (the reciprocal square root of one plus the in-degree count), the scaled product, and the
   rows of it gathered at the sources and added up at the targets. -/
import proofs.«149613_j7086696039015_2_alg».proof.Proof.Gen.KernelIdeal.Frame
import proofs.«149613_j7086696039015_2_alg».proof.Proof.SpecGcn
import proofs.«149613_j7086696039015_2_alg».proof.Proof.KHostDefs
import proofs.«149613_j7086696039015_2_alg».proof.Proof.KRegion0
import proofs.«149613_j7086696039015_2_alg».proof.Proof.KRegion1
import proofs.«149613_j7086696039015_2_alg».proof.Proof.KRegion2
import Idealize.ShloMosaic.Lib.StableHlo.Run

set_option maxRecDepth 16384

noncomputable section

namespace Cert.KernelIdeal.Head

open Idealize.ShloMosaic Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg)

/-! ## The buffers at each boundary, walked back to the launch arrays -/

theorem W1_arg0 (c : Dev nD) : W1 m ρ c (Proc.devRef .tc main_arg0) = (m ((c : Thread nD τ).loc main_arg0)) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg1 (c : Dev nD) : W1 m ρ c (Proc.devRef .tc main_arg1) = (m ((c : Thread nD τ).loc main_arg1)) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg4 (c : Dev nD) : W1 m ρ c (Proc.devRef .tc main_arg4) = (m ((c : Thread nD τ).loc main_arg4)) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg5 (c : Dev nD) : W1 m ρ c (Proc.devRef .tc main_arg5) = (m ((c : Thread nD τ).loc main_arg5)) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg6 (c : Dev nD) : W1 m ρ c (Proc.devRef .tc main_arg6) = (m ((c : Thread nD τ).loc main_arg6)) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg7 (c : Dev nD) : W1 m ρ c (Proc.devRef .tc main_arg7) = (m ((c : Thread nD τ).loc main_arg7)) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_v1 (c : Dev nD) : W1 m ρ c (Proc.devRef .tc main_v1) = edgeRow0 (m ((c : Thread nD τ).loc main_arg2)) := by
  dsimp only [W1, hostOps0]
  after_results
  rfl

theorem W1_v3 (c : Dev nD) : W1 m ρ c (Proc.devRef .tc main_v3) = edgeRow1 (m ((c : Thread nD τ).loc main_arg2)) := by
  dsimp only [W1, hostOps0]
  after_results
  rfl

theorem W1_v5 (c : Dev nD) : W1 m ρ c (Proc.devRef .tc main_v5) = edgeRow0 (m ((c : Thread nD τ).loc main_arg3)) := by
  dsimp only [W1, hostOps0]
  after_results
  rfl

theorem W1_v7 (c : Dev nD) : W1 m ρ c (Proc.devRef .tc main_v7) = edgeRow1 (m ((c : Thread nD τ).loc main_arg3)) := by
  dsimp only [W1, hostOps0]
  after_results
  rfl

theorem W1_v15 (c : Dev nD) : W1 m ρ c (Proc.devRef .tc main_v15) = kDis (m ((c : Thread nD τ).loc main_arg2)) := by
  dsimp only [W1, hostOps0]
  after_results
  rfl

theorem W1_v23 (c : Dev nD) : W1 m ρ c (Proc.devRef .tc main_v23) = kDis (m ((c : Thread nD τ).loc main_arg3)) := by
  dsimp only [W1, hostOps0]
  after_results
  rfl

theorem W2_v1 (c : Dev nD) : W2 m ρ c (Proc.devRef .tc main_v1) = edgeRow0 (m ((c : Thread nD τ).loc main_arg2)) :=
  (W2_of_ne m ρ c main_v1 (by decide)).trans (W1_v1 m ρ c)

theorem W2_v3 (c : Dev nD) : W2 m ρ c (Proc.devRef .tc main_v3) = edgeRow1 (m ((c : Thread nD τ).loc main_arg2)) :=
  (W2_of_ne m ρ c main_v3 (by decide)).trans (W1_v3 m ρ c)

theorem W2_v5 (c : Dev nD) : W2 m ρ c (Proc.devRef .tc main_v5) = edgeRow0 (m ((c : Thread nD τ).loc main_arg3)) :=
  (W2_of_ne m ρ c main_v5 (by decide)).trans (W1_v5 m ρ c)

theorem W2_v7 (c : Dev nD) : W2 m ρ c (Proc.devRef .tc main_v7) = edgeRow1 (m ((c : Thread nD τ).loc main_arg3)) :=
  (W2_of_ne m ρ c main_v7 (by decide)).trans (W1_v7 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_v23 (c : Dev nD) : W2 m ρ c (Proc.devRef .tc main_v23) = kDis (m ((c : Thread nD τ).loc main_arg3)) :=
  (W2_of_ne m ρ c main_v23 (by decide)).trans (W1_v23 m ρ c)

theorem W2_arg1 (c : Dev nD) : W2 m ρ c (Proc.devRef .tc main_arg1) = (m ((c : Thread nD τ).loc main_arg1)) :=
  (W2_of_ne m ρ c main_arg1 (by decide)).trans (W1_arg1 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_v15 (c : Dev nD) : W2 m ρ c (Proc.devRef .tc main_v15) = kDis (m ((c : Thread nD τ).loc main_arg2)) :=
  ((W2_arr m ρ c 2).trans (((dat0 (V1 m ρ) c).arrAt_in 2 rfl _).trans (A_eq0 (V1 m ρ) c 2))).trans (W1_v15 m ρ c)

theorem W2_v24 (c : Dev nD) : W2 m ρ c (Proc.devRef .tc main_v24) = Spec.matScaled (m ((c : Thread nD τ).loc main_arg0)) (m ((c : Thread nD τ).loc main_arg4)) (kDis (m ((c : Thread nD τ).loc main_arg2))) := by
  refine (W2_arr m ρ c 3).trans ((Cert.KernelIdeal.R0.final0_3 (V1 m ρ) c).trans ?_)
  show Spec.matScaled (W1 m ρ c (Proc.devRef .tc main_arg0)) (W1 m ρ c (Proc.devRef .tc main_arg4)) (W1 m ρ c (Proc.devRef .tc main_v15)) = _
  rw [W1_arg0, W1_arg4, W1_v15]

theorem W3_v1 (c : Dev nD) : W3 m ρ c (Proc.devRef .tc main_v1) = edgeRow0 (m ((c : Thread nD τ).loc main_arg2)) :=
  (W3_of_ne m ρ c main_v1 (by decide)).trans (W2_v1 m ρ c)

theorem W3_v3 (c : Dev nD) : W3 m ρ c (Proc.devRef .tc main_v3) = edgeRow1 (m ((c : Thread nD τ).loc main_arg2)) :=
  (W3_of_ne m ρ c main_v3 (by decide)).trans (W2_v3 m ρ c)

theorem W3_v5 (c : Dev nD) : W3 m ρ c (Proc.devRef .tc main_v5) = edgeRow0 (m ((c : Thread nD τ).loc main_arg3)) :=
  (W3_of_ne m ρ c main_v5 (by decide)).trans (W2_v5 m ρ c)

theorem W3_v7 (c : Dev nD) : W3 m ρ c (Proc.devRef .tc main_v7) = edgeRow1 (m ((c : Thread nD τ).loc main_arg3)) :=
  (W3_of_ne m ρ c main_v7 (by decide)).trans (W2_v7 m ρ c)

theorem W3_v24 (c : Dev nD) : W3 m ρ c (Proc.devRef .tc main_v24) = Spec.matScaled (m ((c : Thread nD τ).loc main_arg0)) (m ((c : Thread nD τ).loc main_arg4)) (kDis (m ((c : Thread nD τ).loc main_arg2))) :=
  (W3_of_ne m ρ c main_v24 (by decide)).trans (W2_v24 m ρ c)

theorem W3_v15 (c : Dev nD) : W3 m ρ c (Proc.devRef .tc main_v15) = kDis (m ((c : Thread nD τ).loc main_arg2)) :=
  (W3_of_ne m ρ c main_v15 (by decide)).trans (W2_v15 m ρ c)

theorem W3_arg5 (c : Dev nD) : W3 m ρ c (Proc.devRef .tc main_arg5) = (m ((c : Thread nD τ).loc main_arg5)) :=
  (W3_of_ne m ρ c main_arg5 (by decide)).trans (W2_arg5 m ρ c)

theorem W3_arg7 (c : Dev nD) : W3 m ρ c (Proc.devRef .tc main_arg7) = (m ((c : Thread nD τ).loc main_arg7)) :=
  (W3_of_ne m ρ c main_arg7 (by decide)).trans (W2_arg7 m ρ c)

theorem W3_v23 (c : Dev nD) : W3 m ρ c (Proc.devRef .tc main_v23) = kDis (m ((c : Thread nD τ).loc main_arg3)) :=
  ((W3_arr m ρ c 2).trans (((dat1 (V2 m ρ) c).arrAt_in 2 rfl _).trans (A_eq1 (V2 m ρ) c 2))).trans (W2_v23 m ρ c)

theorem W3_v25 (c : Dev nD) : W3 m ρ c (Proc.devRef .tc main_v25) = Spec.matScaled (m ((c : Thread nD τ).loc main_arg1)) (m ((c : Thread nD τ).loc main_arg6)) (kDis (m ((c : Thread nD τ).loc main_arg3))) := by
  refine (W3_arr m ρ c 3).trans ((Cert.KernelIdeal.R1.final1_3 (V2 m ρ) c).trans ?_)
  show Spec.matScaled (W2 m ρ c (Proc.devRef .tc main_arg1)) (W2 m ρ c (Proc.devRef .tc main_arg6)) (W2 m ρ c (Proc.devRef .tc main_v23)) = _
  rw [W2_arg1, W2_arg6, W2_v23]

theorem W4_v24 (c : Dev nD) : W4 m ρ c (Proc.devRef .tc main_v24) = Spec.matScaled (m ((c : Thread nD τ).loc main_arg0)) (m ((c : Thread nD τ).loc main_arg4)) (kDis (m ((c : Thread nD τ).loc main_arg2))) :=
  (StableHlo.after_of_forall_not_mem (b := Proc.devRef .tc main_v24) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W3_v24 m ρ c)

theorem W4_v15 (c : Dev nD) : W4 m ρ c (Proc.devRef .tc main_v15) = kDis (m ((c : Thread nD τ).loc main_arg2)) :=
  (StableHlo.after_of_forall_not_mem (b := Proc.devRef .tc main_v15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W3_v15 m ρ c)

theorem W4_v25 (c : Dev nD) : W4 m ρ c (Proc.devRef .tc main_v25) = Spec.matScaled (m ((c : Thread nD τ).loc main_arg1)) (m ((c : Thread nD τ).loc main_arg6)) (kDis (m ((c : Thread nD τ).loc main_arg3))) :=
  (StableHlo.after_of_forall_not_mem (b := Proc.devRef .tc main_v25) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W3_v25 m ρ c)

theorem W4_v23 (c : Dev nD) : W4 m ρ c (Proc.devRef .tc main_v23) = kDis (m ((c : Thread nD τ).loc main_arg3)) :=
  (StableHlo.after_of_forall_not_mem (b := Proc.devRef .tc main_v23) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W3_v23 m ρ c)

theorem W4_v35 (c : Dev nD) : W4 m ρ c (Proc.devRef .tc main_v35) = kAgg (Spec.matScaled (m ((c : Thread nD τ).loc main_arg0)) (m ((c : Thread nD τ).loc main_arg4)) (kDis (m ((c : Thread nD τ).loc main_arg2)))) (m ((c : Thread nD τ).loc main_arg2)) := by
  dsimp only [W4, hostOps2]
  after_results_simp
  rw [W3_v3, W3_v24, W3_v1]
  rfl

theorem W4_v45 (c : Dev nD) : W4 m ρ c (Proc.devRef .tc main_v45) = kAgg (Spec.matScaled (m ((c : Thread nD τ).loc main_arg1)) (m ((c : Thread nD τ).loc main_arg6)) (kDis (m ((c : Thread nD τ).loc main_arg3)))) (m ((c : Thread nD τ).loc main_arg3)) := by
  dsimp only [W4, hostOps2]
  after_results_simp
  rw [W3_v7, W3_v25, W3_v5]
  rfl

theorem W4_v46 (c : Dev nD) : W4 m ρ c (Proc.devRef .tc main_v46) = kB (m ((c : Thread nD τ).loc main_arg5)) := by
  dsimp only [W4, hostOps2]
  after_results
  rw [W3_arg5]
  rfl

theorem W4_v47 (c : Dev nD) : W4 m ρ c (Proc.devRef .tc main_v47) = kB (m ((c : Thread nD τ).loc main_arg7)) := by
  dsimp only [W4, hostOps2]
  after_results
  rw [W3_arg7]
  rfl

/-! ## The two outputs of the third region -/

/-- At the boundary after the third region its two output arrays hold the combine step's closed forms of the host
    expressions of the launch arrays. -/
theorem head_kernel (c : Dev nD) :
    W5 m ρ c (Proc.devRef .tc main_v48_0)
        = Spec.gcnX0 (kAgg (Spec.matScaled (m ((c : Thread nD τ).loc main_arg0)) (m ((c : Thread nD τ).loc main_arg4)) (kDis (m ((c : Thread nD τ).loc main_arg2)))) (m ((c : Thread nD τ).loc main_arg2))) (Spec.matScaled (m ((c : Thread nD τ).loc main_arg0)) (m ((c : Thread nD τ).loc main_arg4)) (kDis (m ((c : Thread nD τ).loc main_arg2)))) (kDis (m ((c : Thread nD τ).loc main_arg2))) (kB (m ((c : Thread nD τ).loc main_arg5)))
            (kAgg (Spec.matScaled (m ((c : Thread nD τ).loc main_arg1)) (m ((c : Thread nD τ).loc main_arg6)) (kDis (m ((c : Thread nD τ).loc main_arg3)))) (m ((c : Thread nD τ).loc main_arg3))) (Spec.matScaled (m ((c : Thread nD τ).loc main_arg1)) (m ((c : Thread nD τ).loc main_arg6)) (kDis (m ((c : Thread nD τ).loc main_arg3)))) (kDis (m ((c : Thread nD τ).loc main_arg3))) (kB (m ((c : Thread nD τ).loc main_arg7)))
    ∧ W5 m ρ c (Proc.devRef .tc main_v48_1)
        = Spec.gcnG1 (kAgg (Spec.matScaled (m ((c : Thread nD τ).loc main_arg1)) (m ((c : Thread nD τ).loc main_arg6)) (kDis (m ((c : Thread nD τ).loc main_arg3)))) (m ((c : Thread nD τ).loc main_arg3))) (Spec.matScaled (m ((c : Thread nD τ).loc main_arg1)) (m ((c : Thread nD τ).loc main_arg6)) (kDis (m ((c : Thread nD τ).loc main_arg3)))) (kDis (m ((c : Thread nD τ).loc main_arg3))) (kB (m ((c : Thread nD τ).loc main_arg7))) := by
  constructor
  · refine (W5_arr m ρ c 8).trans ((Cert.KernelIdeal.R2.final2_8 (V4 m ρ) c).trans ?_)
    show Spec.gcnX0 (W4 m ρ c (Proc.devRef .tc main_v35)) (W4 m ρ c (Proc.devRef .tc main_v24)) (W4 m ρ c (Proc.devRef .tc main_v15)) (W4 m ρ c (Proc.devRef .tc main_v46))
      (W4 m ρ c (Proc.devRef .tc main_v45)) (W4 m ρ c (Proc.devRef .tc main_v25)) (W4 m ρ c (Proc.devRef .tc main_v23)) (W4 m ρ c (Proc.devRef .tc main_v47)) = _
    rw [W4_v35, W4_v24, W4_v15, W4_v46, W4_v45, W4_v25, W4_v23, W4_v47]
  · refine (W5_arr m ρ c 9).trans ((Cert.KernelIdeal.R2.final2_9 (V4 m ρ) c).trans ?_)
    show Spec.gcnG1 (W4 m ρ c (Proc.devRef .tc main_v45)) (W4 m ρ c (Proc.devRef .tc main_v25)) (W4 m ρ c (Proc.devRef .tc main_v23)) (W4 m ρ c (Proc.devRef .tc main_v47)) = _
    rw [W4_v45, W4_v25, W4_v23, W4_v47]

end Cert.KernelIdeal.Head

end
-- ==== Proof.LibGcnSum.lean ====
/-
  Finite-sum algebra on the extended reals behind a graph-convolution normalisation identity.

  A scatter-add over real edges and self-loops, each term weighted by a product of two
  normalisation coefficients, equals the target node's coefficient times the sum of the
  source-weighted terms. The coefficient `c` is only assumed to satisfy `0 ≤ c` and `c ≠ ⊤`:
  that is exactly what makes multiplication by `c` distribute over sums of arbitrary
  extended reals (no finiteness of the summands is needed).
-/
import Mathlib.Data.EReal.Operations
import Mathlib.Algebra.BigOperators.Fin
import Mathlib.Algebra.BigOperators.Group.Finset.Basic
import Idealize.ShloMosaic.PureOps.Ideal

namespace LibGcnSum

open Finset

/-- Multiplication by a nonnegative, non-`⊤` extended real distributes over a finite sum:
    `c * ∑ f = ∑ c * f`. The summands are arbitrary extended reals. -/
theorem mul_sum_of_nonneg_ne_top {ι : Type*} (s : Finset ι) (f : ι → EReal) {c : EReal}
    (h0 : 0 ≤ c) (ht : c ≠ ⊤) : c * ∑ e ∈ s, f e = ∑ e ∈ s, c * f e := by
  classical
  induction s using Finset.induction_on with
  | empty => simp
  | insert a s ha ih =>
    rw [Finset.sum_insert ha, Finset.sum_insert ha,
      EReal.left_distrib_of_nonneg_of_ne_top h0 ht, ih]

/-- The normalisation identity at one node. With `c` the node's own coefficient
    (`0 ≤ c`, `c ≠ ⊤`), the sum over incoming edges of `a e * (p e * c)` plus the
    self-loop term `z * (c * c)` equals `c` times (the sum of `a e * p e` plus `z * c`). -/
theorem gcn_term_identity (c : EReal) (h0 : 0 ≤ c) (ht : c ≠ ⊤) {ι : Type*} (s : Finset ι)
    (a p : ι → EReal) (z : EReal) :
    (∑ e ∈ s, a e * (p e * c)) + z * (c * c) = c * ((∑ e ∈ s, a e * p e) + z * c) := by
  rw [EReal.left_distrib_of_nonneg_of_ne_top h0 ht, mul_sum_of_nonneg_ne_top s _ h0 ht]
  congr 1
  · refine Finset.sum_congr rfl (fun e _ => ?_)
    rw [← mul_assoc, mul_comm c (a e * p e)]
  · rw [mul_left_comm]

/-- A filtered sum over `Fin (E + N)` splits into the filtered sum over the first `E`
    indices (`Fin.castAdd`) plus the filtered sum over the last `N` indices (`Fin.natAdd`). -/
theorem sum_filter_fin_append {E N : ℕ} (P : Fin (E + N) → Prop) [DecidablePred P]
    (f : Fin (E + N) → EReal) :
    ∑ k ∈ Finset.univ.filter P, f k
      = (∑ e ∈ (Finset.univ : Finset (Fin E)).filter (fun e => P (Fin.castAdd N e)),
            f (Fin.castAdd N e))
        + ∑ r ∈ (Finset.univ : Finset (Fin N)).filter (fun r => P (Fin.natAdd E r)),
            f (Fin.natAdd E r) := by
  rw [Finset.sum_filter, Fin.sum_univ_add, Finset.sum_filter, Finset.sum_filter]

/-- The same splitting when the index type is `Fin T` with `E + N = T`: the first `E`
    indices are reached through `Fin.cast h ∘ Fin.castAdd N`, the last `N` through
    `Fin.cast h ∘ Fin.natAdd E`. Nothing is computed about `T`. -/
theorem sum_filter_fin_append_cast {E N T : ℕ} (h : E + N = T) (P : Fin T → Prop)
    [DecidablePred P] (f : Fin T → EReal) :
    ∑ k ∈ Finset.univ.filter P, f k
      = (∑ e ∈ (Finset.univ : Finset (Fin E)).filter
              (fun e => P (Fin.cast h (Fin.castAdd N e))),
            f (Fin.cast h (Fin.castAdd N e)))
        + ∑ r ∈ (Finset.univ : Finset (Fin N)).filter
              (fun r => P (Fin.cast h (Fin.natAdd E r))),
            f (Fin.cast h (Fin.natAdd E r)) := by
  subst h
  exact sum_filter_fin_append P f

/-- Summing over the indices of `Fin N` whose value equals that of `i` (compared as
    integers) picks out the single term at `i`. -/
theorem sum_filter_val_eq {N : ℕ} (i : Fin N) (g : Fin N → EReal) :
    ∑ r ∈ Finset.univ.filter (fun r : Fin N => (r.val : ℤ) = (i.val : ℤ)), g r = g i := by
  have : Finset.univ.filter (fun r : Fin N => (r.val : ℤ) = (i.val : ℤ)) = {i} := by
    ext r
    simp only [Finset.mem_filter, Finset.mem_univ, true_and, Finset.mem_singleton]
    constructor
    · intro hr
      exact Fin.ext (by exact_mod_cast hr)
    · intro hr
      rw [hr]
  rw [this, Finset.sum_singleton]

/-- Summing the constant `1` over a finite set counts it: the sum is the real number
    `card s`, seen as an extended real. -/
theorem sum_one_eq_card {ι : Type*} (s : Finset ι) :
    (∑ _e ∈ s, (1 : EReal)) = (((s.card : ℕ) : ℝ) : EReal) := by
  classical
  induction s using Finset.induction_on with
  | empty => simp
  | insert a s ha ih =>
    rw [Finset.sum_insert ha, ih, Finset.card_insert_of_notMem ha, Nat.cast_add, Nat.cast_one,
      EReal.coe_add, EReal.coe_one, add_comm]

/-- A count is nonnegative. -/
theorem sum_one_nonneg {ι : Type*} (s : Finset ι) : (0 : EReal) ≤ ∑ _e ∈ s, (1 : EReal) := by
  rw [sum_one_eq_card]
  exact EReal.coe_nonneg.mpr (Nat.cast_nonneg _)

/-- A count is finite. -/
theorem sum_one_ne_top {ι : Type*} (s : Finset ι) : (∑ _e ∈ s, (1 : EReal)) ≠ ⊤ := by
  rw [sum_one_eq_card]
  exact EReal.coe_ne_top _

/-- `0 +` a count is the same real number `card s`. -/
theorem zero_add_sum_one_eq_card {ι : Type*} (s : Finset ι) :
    (0 : EReal) + ∑ _e ∈ s, (1 : EReal) = (((s.card : ℕ) : ℝ) : EReal) := by
  rw [zero_add, sum_one_eq_card]

/-- The degree count with self-loops. Over `Fin (E + N)` (real edges first, then one
    self-loop per node), if among the last `N` indices exactly `r = i` satisfies `P`, then
    the number of indices satisfying `P` is the number of real edges satisfying `P`, plus one. -/
theorem degree_count_append {E N : ℕ} (P : Fin (E + N) → Prop) [DecidablePred P] (i : Fin N)
    (hP : ∀ r : Fin N, P (Fin.natAdd E r) ↔ r = i) :
    (0 : EReal) + ∑ _k ∈ Finset.univ.filter P, (1 : EReal)
      = ((0 : EReal) + ∑ _e ∈ (Finset.univ : Finset (Fin E)).filter
            (fun e => P (Fin.castAdd N e)), (1 : EReal)) + 1 := by
  have hlast : (Finset.univ : Finset (Fin N)).filter (fun r => P (Fin.natAdd E r)) = {i} := by
    ext r
    simp only [Finset.mem_filter, Finset.mem_univ, true_and, Finset.mem_singleton]
    exact hP r
  rw [sum_filter_fin_append P (fun _ => (1 : EReal)), hlast, Finset.sum_singleton, add_assoc]

/-- The same degree count when the index type is `Fin T` with `E + N = T`. -/
theorem degree_count_append_cast {E N T : ℕ} (h : E + N = T) (P : Fin T → Prop)
    [DecidablePred P] (i : Fin N)
    (hP : ∀ r : Fin N, P (Fin.cast h (Fin.natAdd E r)) ↔ r = i) :
    (0 : EReal) + ∑ _k ∈ Finset.univ.filter P, (1 : EReal)
      = ((0 : EReal) + ∑ _e ∈ (Finset.univ : Finset (Fin E)).filter
            (fun e => P (Fin.cast h (Fin.castAdd N e))), (1 : EReal)) + 1 := by
  subst h
  exact degree_count_append P i hP

/-- The degree with self-loops is a real number that is at least one: the count over the
    real edges, as a real, plus one. -/
theorem degree_count_append_eq_coe {E N : ℕ} (P : Fin (E + N) → Prop) [DecidablePred P]
    (i : Fin N) (hP : ∀ r : Fin N, P (Fin.natAdd E r) ↔ r = i) :
    (0 : EReal) + ∑ _k ∈ Finset.univ.filter P, (1 : EReal)
      = (((((Finset.univ : Finset (Fin E)).filter
            (fun e => P (Fin.castAdd N e))).card : ℕ) : ℝ) : EReal) + 1 := by
  rw [degree_count_append P i hP, zero_add_sum_one_eq_card]

open Idealize.ShloMosaic in
/-- On a positive real, the reciprocal square root is the real `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

open Idealize.ShloMosaic in
/-- The reciprocal square root of a real `r ≥ 1` is nonnegative. -/
theorem rsqrt_coe_nonneg {r : ℝ} (hr : 1 ≤ r) : (0 : EReal) ≤ Ideal.rsqrt (r : EReal) := by
  rw [rsqrt_coe_of_pos (lt_of_lt_of_le one_pos hr)]
  exact EReal.coe_nonneg.mpr (inv_nonneg.mpr (Real.sqrt_nonneg r))

open Idealize.ShloMosaic in
/-- The reciprocal square root of a real `r ≥ 1` is not `⊤`. -/
theorem rsqrt_coe_ne_top {r : ℝ} (hr : 1 ≤ r) : Ideal.rsqrt (r : EReal) ≠ ⊤ := by
  rw [rsqrt_coe_of_pos (lt_of_lt_of_le one_pos hr)]
  exact EReal.coe_ne_top _

/-- A real `r ≥ 1` is positive as an extended real. -/
theorem coe_pos_of_one_le {r : ℝ} (hr : 1 ≤ r) : (0 : EReal) < (r : EReal) :=
  EReal.coe_pos.mpr (lt_of_lt_of_le one_pos hr)

/-- For a real `r ≥ 1`, `max r 1 = r` in the extended reals. -/
theorem max_coe_one_of_one_le {r : ℝ} (hr : 1 ≤ r) : max (r : EReal) 1 = (r : EReal) :=
  max_eq_left (by rw [← EReal.coe_one]; exact EReal.coe_le_coe_iff.mpr hr)

/-- A natural number plus one, as an extended real, is the real `n + 1`. -/
theorem natCast_add_one_eq_coe (n : ℕ) :
    (((n : ℕ) : ℝ) : EReal) + 1 = (((n : ℝ) + 1 : ℝ) : EReal) := by
  rw [EReal.coe_add, EReal.coe_one]

/-- `1 ≤ n + 1` for a natural `n`, in the reals. -/
theorem one_le_natCast_add_one (n : ℕ) : (1 : ℝ) ≤ (n : ℝ) + 1 :=
  le_add_of_nonneg_left (Nat.cast_nonneg n)

open Idealize.ShloMosaic in
/-- The reciprocal square root of `n + 1` (`n` a natural number) is nonnegative. -/
theorem rsqrt_natCast_add_one_nonneg (n : ℕ) :
    (0 : EReal) ≤ Ideal.rsqrt ((((n : ℕ) : ℝ) : EReal) + 1) := by
  rw [natCast_add_one_eq_coe]
  exact rsqrt_coe_nonneg (one_le_natCast_add_one n)

open Idealize.ShloMosaic in
/-- The reciprocal square root of `n + 1` (`n` a natural number) is not `⊤`. -/
theorem rsqrt_natCast_add_one_ne_top (n : ℕ) :
    Ideal.rsqrt ((((n : ℕ) : ℝ) : EReal) + 1) ≠ ⊤ := by
  rw [natCast_add_one_eq_coe]
  exact rsqrt_coe_ne_top (one_le_natCast_add_one n)

/-- `n + 1` (`n` a natural number) is positive as an extended real. -/
theorem natCast_add_one_pos (n : ℕ) : (0 : EReal) < (((n : ℕ) : ℝ) : EReal) + 1 := by
  rw [natCast_add_one_eq_coe]
  exact coe_pos_of_one_le (one_le_natCast_add_one n)

/-- `max (n + 1) 1 = n + 1` (`n` a natural number) in the extended reals. -/
theorem max_natCast_add_one (n : ℕ) :
    max ((((n : ℕ) : ℝ) : EReal) + 1) 1 = (((n : ℕ) : ℝ) : EReal) + 1 := by
  rw [natCast_add_one_eq_coe]
  exact max_coe_one_of_one_le (one_le_natCast_add_one n)

/-- The whole identity at one node. Over `Fin (E + N)` (real edges first, then one self-loop
    per node), let `P` select the indices landing at node `i`, with exactly the self-loop
    `r = i` selected among the last `N`. If the summand at a selected real edge `e` is
    `a e * (p e * c)` and the summand at the self-loop of `i` is `z * (c * c)`, where
    `0 ≤ c` and `c ≠ ⊤`, then the scatter-add at `i` is `c` times (the sum over the selected
    real edges of `a e * p e`, plus `z * c`). -/
theorem gcn_scatter_identity {E N : ℕ} (P : Fin (E + N) → Prop) [DecidablePred P] (i : Fin N)
    (hP : ∀ r : Fin N, P (Fin.natAdd E r) ↔ r = i)
    (c : EReal) (h0 : 0 ≤ c) (ht : c ≠ ⊤) (a p : Fin E → EReal) (z : EReal)
    (f : Fin (E + N) → EReal)
    (hf1 : ∀ e : Fin E, P (Fin.castAdd N e) → f (Fin.castAdd N e) = a e * (p e * c))
    (hf2 : f (Fin.natAdd E i) = z * (c * c)) :
    ∑ k ∈ Finset.univ.filter P, f k
      = c * ((∑ e ∈ (Finset.univ : Finset (Fin E)).filter (fun e => P (Fin.castAdd N e)),
                a e * p e) + z * c) := by
  have hlast : (Finset.univ : Finset (Fin N)).filter (fun r => P (Fin.natAdd E r)) = {i} := by
    ext r
    simp only [Finset.mem_filter, Finset.mem_univ, true_and, Finset.mem_singleton]
    exact hP r
  rw [sum_filter_fin_append P f, hlast, Finset.sum_singleton, hf2, ← gcn_term_identity c h0 ht]
  congr 1
  exact Finset.sum_congr rfl (fun e he => hf1 e (Finset.mem_filter.mp he).2)

/-- The same identity when the index type is `Fin T` with `E + N = T`. -/
theorem gcn_scatter_identity_cast {E N T : ℕ} (h : E + N = T) (P : Fin T → Prop)
    [DecidablePred P] (i : Fin N)
    (hP : ∀ r : Fin N, P (Fin.cast h (Fin.natAdd E r)) ↔ r = i)
    (c : EReal) (h0 : 0 ≤ c) (ht : c ≠ ⊤) (a p : Fin E → EReal) (z : EReal)
    (f : Fin T → EReal)
    (hf1 : ∀ e : Fin E, P (Fin.cast h (Fin.castAdd N e)) →
      f (Fin.cast h (Fin.castAdd N e)) = a e * (p e * c))
    (hf2 : f (Fin.cast h (Fin.natAdd E i)) = z * (c * c)) :
    ∑ k ∈ Finset.univ.filter P, f k
      = c * ((∑ e ∈ (Finset.univ : Finset (Fin E)).filter
                (fun e => P (Fin.cast h (Fin.castAdd N e))), a e * p e) + z * c) := by
  subst h
  exact gcn_scatter_identity P i hP c h0 ht a p z f hf1 hf2

end LibGcnSum
-- ==== Proof.GcnDefs.lean ====
/-
  The index-level vocabulary of a graph-convolution layer with self-loops, at the literal sizes
  of the two programs: 100000 nodes, 600000 edges, 700000 = 600000 + 100000 edge slots once one
  self-loop per node is appended after the real edges, 256 features.

  A gather reads row `row z` of a 100000-row table at a signed index `z`: a negative index is
  first shifted up by the table's length, then the result is clamped into the table. The
  extended edge lists `appZ srcZ`, `appZ dstZ` are the real edges' endpoints followed by the
  self-loops `r ↦ r`. The degree of a node counts the edge slots that point at it; the
  normalisation coefficient is its reciprocal square root.
-/
import Mathlib.Data.EReal.Operations
import Mathlib.Algebra.BigOperators.Fin
import Mathlib.Algebra.BigOperators.Group.Finset.Basic
import Idealize.ShloMosaic.PureOps.Ideal

noncomputable section

namespace GcnIdx

open Idealize.ShloMosaic

/-- The pattern of `1.0` denotes the extended real `1`. -/
theorem ofBits_one_f32 : Ideal.ofBits .f32 0x3F800000#32 = (1 : EReal) := by
  simp [Ideal.ofBits, Ideal.ieee, -EReal.coe_mul]; norm_num

/-- The pattern of `+0.0` denotes the extended real `0`. -/
theorem ofBits_zero_f32 : Ideal.ofBits .f32 0x00000000#32 = (0 : EReal) := by
  simp [Ideal.ofBits, Ideal.ieee]

/-- A signed index, with a negative one shifted up by the table's length `100000`. -/
def nrm (z : ℤ) : ℤ := if z < 0 then z + 100000 else z

/-- The row of a `100000`-row table that a gather reads at the signed index `z`: shifted if
    negative, then clamped into `[0, 99999]`. -/
def row (z : ℤ) : Fin 100000 := ⟨min (nrm z).toNat 99999, by omega⟩

/-- An endpoint list of the `600000` real edges, extended to `700000` slots by the self-loops:
    slot `600000 + r` has endpoint `r`. -/
def appZ (f : Fin 600000 → ℤ) (k : Fin 700000) : ℤ :=
  if h : k.val < 600000 then f ⟨k.val, h⟩ else ((k.val - 600000 : ℕ) : ℤ)

/-- The reference's degree of node `i`: `0` plus one for every edge slot (self-loops included)
    whose target is `i`. -/
def degR (dstZ : Fin 600000 → ℤ) (i : Fin 100000) : EReal :=
  Ideal.ofBits .f32 0x00000000#32
    + ∑ _k ∈ Finset.univ.filter (fun k : Fin 700000 => appZ dstZ k = (i.val : ℤ)),
        Ideal.ofBits .f32 0x3F800000#32

/-- The reference's coefficient of node `i`: where the degree is positive, the reciprocal
    square root of `max degree 1`; elsewhere `0`. -/
def disR (dstZ : Fin 600000 → ℤ) (i : Fin 100000) : EReal :=
  Scalar.select (Ideal.cmp .ogt (degR dstZ i) (Ideal.ofBits .f32 0x00000000#32))
    (Ideal.rsqrt (max (degR dstZ i) (Ideal.ofBits .f32 0x3F800000#32)))
    (Ideal.ofBits .f32 0x00000000#32)

/-- The kernel's degree of node `i`: `0` plus one for every real edge whose target is `i`,
    plus one for the self-loop. -/
def degK (dstZ : Fin 600000 → ℤ) (i : Fin 100000) : EReal :=
  (Ideal.ofBits .f32 0x00000000#32
    + ∑ _e ∈ Finset.univ.filter (fun e : Fin 600000 => dstZ e = (i.val : ℤ)),
        Ideal.ofBits .f32 0x3F800000#32)
    + Ideal.ofBits .f32 0x3F800000#32

/-- The kernel's coefficient of node `i`: the reciprocal square root of its degree. -/
def disK (dstZ : Fin 600000 → ℤ) (i : Fin 100000) : EReal := Ideal.rsqrt (degK dstZ i)

/-- A select on the bit of `y < x` is the branch on that inequality. -/
theorem select_cmp_ogt {α : Type} (x y : EReal) (a b : α) :
    Scalar.select (Ideal.cmp .ogt x y) a b = if y < x then a else b := by
  unfold Scalar.select Ideal.cmp
  by_cases h : y < x
  · simp [h]
  · simp [h]

/-- A gather at a nonnegative in-range index reads that row. -/
theorem row_coe (r : Fin 100000) : row ((r.val : ℕ) : ℤ) = r := by
  apply Fin.ext
  have := r.isLt
  simp only [row, nrm]
  omega

/-- On a real edge's slot the extended endpoint list is the edge's endpoint. -/
theorem appZ_castAdd (f : Fin 600000 → ℤ) (h : 600000 + 100000 = 700000) (e : Fin 600000) :
    appZ f (Fin.cast h (Fin.castAdd 100000 e)) = f e := by
  have he := e.isLt
  unfold appZ
  rw [dif_pos (by simpa using he)]
  rfl

/-- On the self-loop slot of node `r` the extended endpoint list is `r`. -/
theorem appZ_natAdd (f : Fin 600000 → ℤ) (h : 600000 + 100000 = 700000) (r : Fin 100000) :
    appZ f (Fin.cast h (Fin.natAdd 600000 r)) = ((r.val : ℕ) : ℤ) := by
  unfold appZ
  rw [dif_neg (by simp)]
  simp

end GcnIdx

end
-- ==== Proof.GcnIdx.lean ====
/-
  The graph-convolution normalisation identity, index by index, at the literal sizes of the
  two programs (100000 nodes, 600000 edges, 256 features).

  The reference appends one self-loop per node to the edge list, counts degrees over the
  700000 slots, and scatter-adds `xw[s] * (dis[s] * dis[d])` over all slots. The kernel counts
  degrees over the real edges and adds one, scales the features by `dis` once, aggregates over
  the real edges, adds the node's own scaled row, and scales by `dis` again. The two degrees
  are the same real number `n + 1` (`n` the number of real edges into the node), so the two
  coefficients agree, are nonnegative and are not `⊤`; multiplication by such a coefficient
  distributes over the sums, which gives the identity with no finiteness assumption on `xw`.
-/
import proofs.«149613_j7086696039015_2_alg».proof.Proof.LibGcnSum
import proofs.«149613_j7086696039015_2_alg».proof.Proof.GcnDefs

noncomputable section

namespace GcnIdx

open Idealize.ShloMosaic LibGcnSum

/-- The edge slots are the real edges followed by the self-loops. -/
theorem slots_eq : 600000 + 100000 = 700000 := by norm_num

/-- The number of real edges whose target is node `i`. -/
def inDeg (dstZ : Fin 600000 → ℤ) (i : Fin 100000) : ℕ :=
  (Finset.univ.filter (fun e : Fin 600000 => dstZ e = (i.val : ℤ))).card

/-- Among the self-loop slots, exactly the one of node `i` has target `i`. -/
theorem loop_target_iff (dstZ : Fin 600000 → ℤ) (i r : Fin 100000) :
    appZ dstZ (Fin.cast slots_eq (Fin.natAdd 600000 r)) = (i.val : ℤ) ↔ r = i := by
  rw [appZ_natAdd]
  constructor
  · intro hr
    exact Fin.ext (by exact_mod_cast hr)
  · intro hr
    rw [hr]

/-- Selecting the real edges by the extended target list is selecting them by their target. -/
theorem filter_edges_eq (dstZ : Fin 600000 → ℤ) (i : Fin 100000) :
    (Finset.univ : Finset (Fin 600000)).filter
        (fun e => appZ dstZ (Fin.cast slots_eq (Fin.castAdd 100000 e)) = (i.val : ℤ))
      = (Finset.univ : Finset (Fin 600000)).filter (fun e => dstZ e = (i.val : ℤ)) := by
  apply Finset.filter_congr
  intro e _
  rw [appZ_castAdd]

/-- The kernel's degree is the real number `n + 1`, `n` the number of real edges into `i`. -/
theorem degK_eq_coe (dstZ : Fin 600000 → ℤ) (i : Fin 100000) :
    degK dstZ i = (((inDeg dstZ i : ℕ) : ℝ) : EReal) + 1 := by
  unfold degK inDeg
  rw [ofBits_zero_f32, ofBits_one_f32, zero_add_sum_one_eq_card]

/-- The two degrees agree: counting over all slots is counting the real edges, plus the
    node's own self-loop. -/
theorem degR_eq_degK (dstZ : Fin 600000 → ℤ) (i : Fin 100000) : degR dstZ i = degK dstZ i := by
  unfold degR degK
  rw [ofBits_zero_f32, ofBits_one_f32,
    degree_count_append_cast slots_eq (fun k : Fin 700000 => appZ dstZ k = (i.val : ℤ)) i
      (loop_target_iff dstZ i),
    filter_edges_eq]

/-- The reference's degree is the same real number `n + 1`. -/
theorem degR_eq_coe (dstZ : Fin 600000 → ℤ) (i : Fin 100000) :
    degR dstZ i = (((inDeg dstZ i : ℕ) : ℝ) : EReal) + 1 := by
  rw [degR_eq_degK, degK_eq_coe]

/-- The two coefficients agree: the degree `n + 1` is positive and at least one, so the
    reference's guard and its `max` with one do nothing. -/
theorem disR_eq_disK (dstZ : Fin 600000 → ℤ) (i : Fin 100000) : disR dstZ i = disK dstZ i := by
  unfold disR disK
  rw [select_cmp_ogt, degR_eq_degK, degK_eq_coe, ofBits_zero_f32, ofBits_one_f32,
    if_pos (natCast_add_one_pos _), max_natCast_add_one]

/-- The coefficient is nonnegative. -/
theorem disK_nonneg (dstZ : Fin 600000 → ℤ) (i : Fin 100000) : 0 ≤ disK dstZ i := by
  unfold disK
  rw [degK_eq_coe]
  exact rsqrt_natCast_add_one_nonneg _

/-- The coefficient is not `⊤`. -/
theorem disK_ne_top (dstZ : Fin 600000 → ℤ) (i : Fin 100000) : disK dstZ i ≠ ⊤ := by
  unfold disK
  rw [degK_eq_coe]
  exact rsqrt_natCast_add_one_ne_top _

/-- THE IDENTITY at node `i` and feature `j`. Left: the kernel's
    `dis i * (aggregate over real edges of (xw * dis)[s] + (xw * dis)[i]) + b`. Right: the
    reference's scatter over real edges and self-loops of `xw[s] * (dis[s] * dis[d])`, plus `b`. -/
theorem gcn_identity (srcZ dstZ : Fin 600000 → ℤ) (xw : Fin 100000 → Fin 256 → EReal) (b : EReal)
    (i : Fin 100000) (j : Fin 256) :
    disK dstZ i
        * ((Ideal.ofBits .f32 0x00000000#32
              + ∑ e ∈ Finset.univ.filter (fun e : Fin 600000 => dstZ e = (i.val : ℤ)),
                  xw (row (srcZ e)) j * disK dstZ (row (srcZ e)))
            + xw i j * disK dstZ i)
      + b
    = (Ideal.ofBits .f32 0x00000000#32
          + ∑ k ∈ Finset.univ.filter (fun k : Fin 700000 => appZ dstZ k = (i.val : ℤ)),
              xw (row (appZ srcZ k)) j
                * (disR dstZ (row (appZ srcZ k)) * disR dstZ (row (appZ dstZ k))))
      + b := by
  have hdis : disR dstZ = disK dstZ := funext (disR_eq_disK dstZ)
  have hf1 : ∀ e : Fin 600000,
      appZ dstZ (Fin.cast slots_eq (Fin.castAdd 100000 e)) = (i.val : ℤ) →
      (fun k : Fin 700000 => xw (row (appZ srcZ k)) j
          * (disK dstZ (row (appZ srcZ k)) * disK dstZ (row (appZ dstZ k))))
        (Fin.cast slots_eq (Fin.castAdd 100000 e))
        = (fun e : Fin 600000 => xw (row (srcZ e)) j) e
          * ((fun e : Fin 600000 => disK dstZ (row (srcZ e))) e * disK dstZ i) := by
    intro e he
    dsimp only
    rw [appZ_castAdd] at he
    rw [appZ_castAdd, appZ_castAdd, he, row_coe]
  have hf2 :
      (fun k : Fin 700000 => xw (row (appZ srcZ k)) j
          * (disK dstZ (row (appZ srcZ k)) * disK dstZ (row (appZ dstZ k))))
        (Fin.cast slots_eq (Fin.natAdd 600000 i))
        = xw i j * (disK dstZ i * disK dstZ i) := by
    dsimp only
    rw [appZ_natAdd, appZ_natAdd, row_coe]
  have key := gcn_scatter_identity_cast slots_eq
      (fun k : Fin 700000 => appZ dstZ k = (i.val : ℤ)) i
      (loop_target_iff dstZ i) (disK dstZ i) (disK_nonneg dstZ i) (disK_ne_top dstZ i)
      (fun e : Fin 600000 => xw (row (srcZ e)) j) (fun e : Fin 600000 => disK dstZ (row (srcZ e)))
      (xw i j)
      (fun k : Fin 700000 => xw (row (appZ srcZ k)) j
          * (disK dstZ (row (appZ srcZ k)) * disK dstZ (row (appZ dstZ k))))
      hf1 hf2
  rw [filter_edges_eq] at key
  rw [hdis, ofBits_zero_f32, zero_add, zero_add, key]

end GcnIdx

end
-- ==== Proof.LibRowOps.lean ====
/-
  Reading the host scatter-add, the host gather and a rank-1 concatenate AT AN INDEX, at the ideal instance
  (floats are extended reals), for dimension numbers that scatter or gather WHOLE ROWS of a matrix (or single
  elements of a vector) at one column of signed start indices.  Everything is generic in the number of rows
  `N` of the operand, the number `E` of start indices, the row width `C` and the index bit width `w`.
-/
import Idealize.ShloMosaic.Lib.ValueIdx
import Idealize.ShloMosaic.Lib.Pipeline.Value

noncomputable section

open scoped BigOperators

namespace LibRowOps

open Idealize.ShloMosaic Idealize.ShloMosaic.ValueIdx

/-! ## Scatter-add of rows: operand `[N, C]`, indices `[E, 1]`, updates `[E, C]` -/

/-- The dimension numbers that scatter row `e` of the updates `[E, C]` to the operand row named by the start index
    `idx[e, 0]`: the updates' axis 1 is the window axis, the operand's axis 0 is inserted and is the one the start
    index addresses, and the index vector lies along axis 1 of the indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-- On the row axis the window of update `u` starts at the signed start index `idx[u₀, 0]`. -/
theorem rowScatter_start0 (idx : IVec ⟨2, ![E, 1]⟩ w) (u : (⟨2, ![E, C]⟩ : Shape).Idx) :
    (rowScatterDims N E C wf).start u idx 0 = (idx (ix2 (u 0) 0)).toInt := by
  unfold ScatterDims.start
  rw [dif_pos (show (0 : Fin 2) ∈ (rowScatterDims N E C wf).scatterDimsToOperandDims from List.mem_singleton.mpr rfl)]
  have hsi : (rowScatterDims N E C wf).siIdx u ⟨List.idxOf (0 : Fin 2) (rowScatterDims N E C wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at `0`: no start index addresses it. -/
theorem rowScatter_start1 (idx : IVec ⟨2, ![E, 1]⟩ w) (u : (⟨2, ![E, C]⟩ : Shape).Idx) :
    (rowScatterDims N E C wf).start u idx 1 = 0 := by
  unfold ScatterDims.start
  rw [dif_neg (show (1 : Fin 2) ∉ (rowScatterDims N E C wf).scatterDimsToOperandDims from
    (by decide : (1 : Fin 2) ∉ ([0] : List (Fin 2))))]

/-- The row axis is inserted: its window coordinate is `0`. -/
theorem rowScatter_window0 (u : (⟨2, ![E, C]⟩ : Shape).Idx) : (rowScatterDims N E C wf).window u 0 = 0 := by
  unfold ScatterDims.window
  rw [dif_neg (show (0 : Fin 2) ∉ (rowScatterDims N E C wf).sKept by
    simp [ScatterDims.sKept, Shape.kept, List.mem_filter, List.mem_finRange])]

/-- The column axis is the window axis: its window coordinate is the update's column. -/
theorem rowScatter_window1 (u : (⟨2, ![E, C]⟩ : Shape).Idx) : (rowScatterDims N E C wf).window u 1 = (u 1).val := by
  unfold ScatterDims.window
  rw [dif_pos (show (1 : Fin 2) ∈ (rowScatterDims N E C wf).sKept by
    simp [ScatterDims.sKept, Shape.kept, List.mem_filter, List.mem_finRange])]
  rfl

end RowScatter

section RowScatterSum
variable {N E C w : Nat} (wf : ScatterDims.WF ⟨2, ![N, C]⟩ ⟨2, ![E, 1]⟩ ⟨2, ![E, C]⟩ [1] [0] [0] 1)

/-- Where update `u = (e, c)` lands: at operand element `(i, j)` exactly when its start index `idx[e, 0]`, read
    signed, is `i` and its column `c` is `j`; in particular an update whose start index is negative or at least
    `N` lands nowhere. -/
theorem rowScatter_resultIdx_eq_some (idx : IVec ⟨2, ![E, 1]⟩ w) (u : (⟨2, ![E, C]⟩ : Shape).Idx) (i : Fin N)
    (j : Fin C) :
    (rowScatterDims N E C wf).resultIdx? u idx = some (ix2 i j)
      ↔ (idx (ix2 (u 0) 0)).toInt = (i.val : ℤ) ∧ (u 1).val = j.val := by
  have hi := i.isLt
  have hj := j.isLt
  have hu1 : (u 1).val < C := (u 1).isLt
  unfold ScatterDims.resultIdx?
  split
  · next h =>
    rw [Option.some.injEq]
    constructor
    · intro hf
      have h0 : ((rowScatterDims N E C wf).start u idx 0 + ((rowScatterDims N E C wf).window u 0 : ℤ)).toNat = i.val :=
        congrArg (fun f => (f 0).val) hf
      have h1 : ((rowScatterDims N E C wf).start u idx 1 + ((rowScatterDims N E C wf).window u 1 : ℤ)).toNat = j.val :=
        congrArg (fun f => (f 1).val) hf
      have H0 := (h 0).1
      rw [rowScatter_start0, rowScatter_window0] at h0 H0
      rw [rowScatter_start1, rowScatter_window1] at h1
      constructor
      · omega
      · omega
    · rintro ⟨h0, h1⟩
      funext a
      refine Fin.ext ?_
      match a with
      | ⟨0, _⟩ =>
        show ((rowScatterDims N E C wf).start u idx 0 + ((rowScatterDims N E C wf).window u 0 : ℤ)).toNat = i.val
        rw [rowScatter_start0, rowScatter_window0]; omega
      | ⟨1, _⟩ =>
        show ((rowScatterDims N E C wf).start u idx 1 + ((rowScatterDims N E C wf).window u 1 : ℤ)).toNat = j.val
        rw [rowScatter_start1, rowScatter_window1]; omega
  · next h =>
    constructor
    · intro hf; cases hf
    · rintro ⟨h0, h1⟩
      exfalso; apply h; intro a
      match a with
      | ⟨0, _⟩ =>
        show 0 ≤ (rowScatterDims N E C wf).start u idx 0 + ((rowScatterDims N E C wf).window u 0 : ℤ)
          ∧ (rowScatterDims N E C wf).start u idx 0 + ((rowScatterDims N E C wf).window u 0 : ℤ) < (N : ℤ)
        rw [rowScatter_start0, rowScatter_window0]; omega
      | ⟨1, _⟩ =>
        show 0 ≤ (rowScatterDims N E C wf).start u idx 1 + ((rowScatterDims N E C wf).window u 1 : ℤ)
          ∧ (rowScatterDims N E C wf).start u idx 1 + ((rowScatterDims N E C wf).window u 1 : ℤ) < (C : ℤ)
        rw [rowScatter_start1, rowScatter_window1]; omega

/-- THE ROW SCATTER-ADD AT `(i, j)`: the operand's element plus the sum, over the updates `e` whose start index
    `idx[e, 0]` read signed is `i`, of the update's element `(e, j)`. An update whose start index is outside
    `[0, N)` contributes to no element. -/
theorem scatterAdd_rows_apply (x : (⟨2, ![N, C]⟩ : Shape).Idx → EReal) (idx : IVec ⟨2, ![E, 1]⟩ w)
    (upd : (⟨2, ![E, C]⟩ : Shape).Idx → EReal) (i : Fin N) (j : Fin C) :
    Ideal.hostScatterAdd (rowScatterDims N E C wf) x idx upd (ix2 i j)
      = x (ix2 i j) + ∑ e ∈ Finset.univ.filter (fun e : Fin E => (idx (ix2 e 0)).toInt = (i.val : ℤ)), upd (ix2 e j) := by
  unfold Ideal.hostScatterAdd
  congr 1
  have key : ∀ u : (⟨2, ![E, C]⟩ : Shape).Idx,
      u ∈ Finset.univ.filter (fun u => (rowScatterDims N E C wf).resultIdx? u idx = some (ix2 i j)) →
      u = ix2 (⟨(u 0).val, idx2_lt0 u⟩ : Fin E) j := by
    intro u hu
    have h1 := ((rowScatter_resultIdx_eq_some wf idx u i j).1 (Finset.mem_filter.1 hu).2).2
    have hj : u 1 = j := Fin.ext h1
    rw [← hj]
    exact eq_ix2 u
  refine Finset.sum_nbij' (fun u => (⟨(u 0).val, idx2_lt0 u⟩ : Fin E)) (fun e => ix2 e j) ?_ ?_ ?_ ?_ ?_
  · intro u hu
    exact Finset.mem_filter.2 ⟨Finset.mem_univ _,
      ((rowScatter_resultIdx_eq_some wf idx u i j).1 (Finset.mem_filter.1 hu).2).1⟩
  · intro e he
    exact Finset.mem_filter.2 ⟨Finset.mem_univ _,
      (rowScatter_resultIdx_eq_some wf idx (ix2 e j) i j).2 ⟨(Finset.mem_filter.1 he).2, rfl⟩⟩
  · intro u hu
    exact (key u hu).symm
  · intro e _; rfl
  · intro u hu
    exact congrArg upd (key u hu)

end RowScatterSum

/-! ## Scatter-add of elements: operand `[N]`, indices `[E, 1]`, updates `[E]` -/

/-- The dimension numbers that scatter element `e` of the updates `[E]` to the operand element named by the start
    index `idx[e, 0]`: no window axis, the operand's one axis inserted and addressed by the start index, the index
    vector along axis 1 of the indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The window of update `u` starts at the signed start index `idx[u₀, 0]`. -/
theorem vecScatter_start0 (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- The operand's one axis is inserted: its window coordinate is `0`. -/
theorem vecScatter_window0 (u : (⟨1, ![E]⟩ : Shape).Idx) : (vecScatterDims N E wf).window u 0 = 0 := by
  unfold ScatterDims.window
  rw [dif_neg (show (0 : Fin 1) ∉ (vecScatterDims N E wf).sKept by
    simp [ScatterDims.sKept, Shape.kept, List.mem_filter, List.mem_finRange])]

/-- Where update `u = (e)` lands: at operand element `i` exactly when its start index `idx[e, 0]`, read signed, is
    `i`; an update whose start index is negative or at least `N` lands nowhere. -/
theorem vecScatter_resultIdx_eq_some (idx : IVec ⟨2, ![E, 1]⟩ w) (u : (⟨1, ![E]⟩ : Shape).Idx) (i : Fin N) :
    (vecScatterDims N E wf).resultIdx? u idx = some (ix1 i) ↔ (idx (ix2 (u 0) 0)).toInt = (i.val : ℤ) := by
  have hi := i.isLt
  unfold ScatterDims.resultIdx?
  split
  · next h =>
    rw [Option.some.injEq]
    constructor
    · intro hf
      have h0 : ((vecScatterDims N E wf).start u idx 0 + ((vecScatterDims N E wf).window u 0 : ℤ)).toNat = i.val :=
        congrArg (fun f => (f 0).val) hf
      have H0 := (h 0).1
      rw [vecScatter_start0, vecScatter_window0] at h0 H0
      omega
    · intro h0
      funext a
      refine Fin.ext ?_
      match a with
      | ⟨0, _⟩ =>
        show ((vecScatterDims N E wf).start u idx 0 + ((vecScatterDims N E wf).window u 0 : ℤ)).toNat = i.val
        rw [vecScatter_start0, vecScatter_window0]; omega
  · next h =>
    constructor
    · intro hf; cases hf
    · intro h0
      exfalso; apply h; intro a
      match a with
      | ⟨0, _⟩ =>
        show 0 ≤ (vecScatterDims N E wf).start u idx 0 + ((vecScatterDims N E wf).window u 0 : ℤ)
          ∧ (vecScatterDims N E wf).start u idx 0 + ((vecScatterDims N E wf).window u 0 : ℤ) < (N : ℤ)
        rw [vecScatter_start0, vecScatter_window0]; omega

/-- THE ELEMENT SCATTER-ADD AT `i`: the operand's element plus the sum of the updates `e` whose start index
    `idx[e, 0]` read signed is `i`. An update whose start index is outside `[0, N)` contributes to no element. -/
theorem scatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e 0)).toInt = (i.val : ℤ)), upd (ix1 e) := by
  unfold Ideal.hostScatterAdd
  congr 1
  refine Finset.sum_nbij' (fun u => (⟨(u 0).val, (u 0).isLt⟩ : Fin E)) (fun e => ix1 e) ?_ ?_ ?_ ?_ ?_
  · intro u hu
    exact Finset.mem_filter.2 ⟨Finset.mem_univ _,
      (vecScatter_resultIdx_eq_some wf idx u i).1 (Finset.mem_filter.1 hu).2⟩
  · intro e he
    exact Finset.mem_filter.2 ⟨Finset.mem_univ _,
      (vecScatter_resultIdx_eq_some wf idx (ix1 e) i).2 (Finset.mem_filter.1 he).2⟩
  · intro u _
    exact (eq_ix1 u).symm
  · intro e _; rfl
  · intro u _
    exact congrArg upd (eq_ix1 u)

end VecScatter

/-! ## Gather of rows: operand `[N, C]`, start indices `[E, 1]`, result `[E, C]` -/

/-- The dimension numbers that gather, for each start index `idx[e, 0]`, the whole operand row it names into row
    `e` of the result: the result's axis 1 is the offset axis, the operand's axis 0 is collapsed and addressed by
    the start index, the slice is `1 × C`, and the index vector lies along axis 1 of the indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, j)`: the operand at row `idx[e, 0]`, read signed and clamped into `[0, N − 1]`, and
    column `j`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 (⟨min (idx (ix2 e 0)).toInt.toNat (N - 1), by omega⟩ : Fin N) j) := by
  unfold Host.gather
  congr 1
  funext a
  refine Fin.ext ?_
  match a with
  | ⟨0, _⟩ =>
    show (rowGatherDims N E C wf).start (ix2 e j) idx 0 + (rowGatherDims N E C wf).batchCoord (ix2 e j) 0
      + (rowGatherDims N E C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e j) idx 1 + (rowGatherDims N E C wf).batchCoord (ix2 e j) 1
      + (rowGatherDims N E C wf).offCoord (ix2 e j) 1 = j.val
    rw [GatherDims.batchCoord_eq_zero _ _ _ List.not_mem_nil]
    have hs : (rowGatherDims N E C wf).start (ix2 e j) idx 1 = 0 := by
      unfold GatherDims.start
      rw [dif_neg (show (1 : Fin 2) ∉ (rowGatherDims N E C wf).startIndexMap from
        (by decide : (1 : Fin 2) ∉ ([0] : List (Fin 2))))]
    have ho : (rowGatherDims N E C wf).offCoord (ix2 e j) 1 = j.val := by
      unfold GatherDims.offCoord
      rw [dif_pos ((GatherDims.mem_sKept _ _).mpr
        ⟨(by decide : (1 : Fin 2) ∉ ([0] : List (Fin 2))), List.not_mem_nil⟩)]
      rfl
    rw [hs, ho]
    omega

/-! ## Gather of elements: operand `[N]`, start indices `[E, 1]`, result `[E]` -/

/-- The dimension numbers that gather, for each start index `idx[e, 0]`, the operand element it names into element
    `e` of the result: no offset axis, the operand's one axis collapsed and addressed by the start index, the slice
    one element, the index vector along axis 1 of the indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER AT `e`: the operand at `idx[e, 0]`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e 0)).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## A rank-1 concatenate: `a : [A]` followed by `b : [B]`, read at a position -/

/-- The two extents of a rank-1 concatenation add up to the result's. -/
theorem concat1_sum {A B T : Nat}
    (h : Shape.Concatenates [(⟨1, ![A]⟩ : Shape), ⟨1, ![B]⟩] ⟨1, ![T]⟩ 0) : A + B = T := by
  have e : A + (B + 0) = T := h.2.2
  omega

/-- A position below the first extent reads the first piece at that position. -/
theorem concat1_apply_left {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : k.val < A) :
    concatenate (⟨1, ![T]⟩ : Shape) 0 [⟨⟨1, ![A]⟩, a⟩, ⟨⟨1, ![B]⟩, b⟩] h (ix1 k) = a (ix1 ⟨k.val, hk⟩) := by
  refine concatenate_pair_apply_left (t := ⟨1, ![T]⟩) (s₁ := ⟨1, ![A]⟩) (s₂ := ⟨1, ![B]⟩) 0 a b h (ix1 k) rfl
    (ix1 ⟨k.val, hk⟩) ?_
  intro c
  match c with
  | ⟨0, _⟩ => rfl

/-- A position at or past the first extent reads the second piece at that position less the first extent. -/
theorem concat1_apply_right {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : A ≤ k.val) :
    concatenate (⟨1, ![T]⟩ : Shape) 0 [⟨⟨1, ![A]⟩, a⟩, ⟨⟨1, ![B]⟩, b⟩] h (ix1 k)
      = b (ix1 ⟨k.val - A, by have := concat1_sum h; have := k.isLt; omega⟩) := by
  have hB : k.val - A < B := by have := concat1_sum h; have := k.isLt; omega
  refine concatenate_pair_apply_right (t := ⟨1, ![T]⟩) (s₁ := ⟨1, ![A]⟩) (s₂ := ⟨1, ![B]⟩) 0 a b h (ix1 k) rfl rfl
    (ix1 ⟨k.val - A, hB⟩) ?_ ?_
  · intro c hc
    exact absurd (Subsingleton.elim _ _) hc
  · show (k.val - A) + A = k.val
    omega

/-- THE RANK-1 CONCATENATE AT POSITION `k`: the first piece at `k` when `k` is below its extent `A`, else the
    second piece at `k − A`. -/
theorem concat1_apply {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) :
    concatenate (⟨1, ![T]⟩ : Shape) 0 [⟨⟨1, ![A]⟩, a⟩, ⟨⟨1, ![B]⟩, b⟩] h (ix1 k)
      = if hk : k.val < A then a (ix1 ⟨k.val, hk⟩)
        else b (ix1 ⟨k.val - A, by have := concat1_sum h; have := k.isLt; omega⟩) := by
  by_cases hk : k.val < A
  · rw [dif_pos hk]; exact concat1_apply_left a b h k hk
  · rw [dif_neg hk]; exact concat1_apply_right a b h k (Nat.le_of_not_lt hk)

end LibRowOps

end
-- ==== Proof.GcnOps.lean ====
/-
  The two programs' HOST operations read AT AN INDEX, at the ideal instance (floats are extended reals): the kernel
  side's degree, inverse square-root degree and neighbour aggregation, and the reference side's degree over the edge
  list extended by the self loops, its inverse square-root degree and its normalised aggregation plus bias.  Each is an
  expression of scatter-add / gather / broadcast / select operations over 32-bit index words; read at one element it is
  a finite sum over the edges whose destination is that node.  The dimension numbers are the row / element scatter and
  gather records of `LibRowOps` at the sizes `N = 100000` nodes, `E = 600000` edges, `T = 700000` extended edges and
  `C = 256` columns; the operand arrays are arbitrary.
-/
import proofs.«149613_j7086696039015_2_alg».proof.Proof.LibRowOps
import proofs.«149613_j7086696039015_2_alg».proof.Proof.GcnDefs
import Idealize.ShloMosaic.Lib.IdealHost
import Idealize.ShloMosaic.Lib.WordArith
import Idealize.ShloMosaic.Lib.ValueLayout

noncomputable section

open scoped BigOperators

namespace GcnOps

open Idealize.ShloMosaic Idealize.ShloMosaic.ValueIdx LibRowOps GcnIdx

/-! ## Index normalisation on signed 32-bit words -/

/-- The word `x < 0 ? x + 100000 : x` (signed compare, wrapping add) reads signed as `nrm` of `x`: the sum cannot
    overflow, since it is taken only for negative `x`. -/
theorem toInt_select_slt_add (x : BitVec 32) :
    (Scalar.select (IntOp.cmpi .slt x 0#32) (IntOp.addi x 100000#32) x).toInt = nrm x.toInt := by
  show (if BitVec.ofBool (x.slt 0#32) = 1 then x + 100000#32 else x).toInt = nrm x.toInt
  unfold nrm
  have hlt : (x.slt 0#32 = true) ↔ x.toInt < 0 := by simp [BitVec.slt]
  have h100 : (100000#32).toInt = 100000 := by decide
  have hlo : -2 ^ 31 ≤ x.toInt := BitVec.le_toInt x
  by_cases h : x.toInt < 0
  · have hb : BitVec.ofBool (x.slt 0#32) = 1 := by rw [hlt.2 h]; rfl
    rw [if_pos hb, if_pos h, WordArith.toInt_add_of_bounds _ _ (by rw [h100]; omega) (by rw [h100]; omega), h100]
  · have hf : x.slt 0#32 = false := by
      cases hs : x.slt 0#32
      · rfl
      · exact absurd (hlt.1 hs) h
    have hb : ¬ BitVec.ofBool (x.slt 0#32) = 1 := by rw [hf]; decide
    rw [if_neg hb, if_neg h]

/-- The index vector `select (x < zeros) (x + c) x`, for `zeros` the splat of `0` and `c` the splat of `100000`,
    reads signed at an index as `nrm` of `x` there. -/
theorem nrmVec_toInt {s : Shape} (x zI cI : IVec s 32) (hz : ∀ i, zI i = 0#32) (hc : ∀ i, cI i = 100000#32)
    (i : s.Idx) : (select (cmpi .slt x zI) (addi x cI) x i).toInt = nrm (x i).toInt := by
  show (Scalar.select (IntOp.cmpi .slt (x i) (zI i)) (IntOp.addi (x i) (cI i)) (x i)).toInt = _
  rw [hz, hc]
  exact toInt_select_slt_add _

/-! ## Broadcasts at an index -/

/-- A vector `[E]` broadcast to a column `[E, 1]` reads the vector at the row. -/
theorem bcastCol_apply {α : Type} {E : Nat} (h : (⟨1, ![E]⟩ : Shape).BroadcastsInDim ⟨2, ![E, 1]⟩ ![0])
    (x : (⟨1, ![E]⟩ : Shape).Idx → α) (e : Fin E) (c : Fin 1) :
    broadcastInDim ⟨2, ![E, 1]⟩ ![0] h x (ix2 e c) = x (ix1 e) := by
  refine broadcastInDim_apply _ h x _ (ix1 e) ?_
  intro a
  match a with
  | ⟨0, _⟩ =>
    show e.val = if E = 1 then 0 else e.val
    split
    · have := e.isLt; omega
    · rfl

/-- A column `[E, 1]` broadcast along its rows to `[E, C]` reads the column at the row. -/
theorem bcastRows_apply {α : Type} {E C : Nat} (h : (⟨2, ![E, 1]⟩ : Shape).BroadcastsInDim ⟨2, ![E, C]⟩ ![0, 1])
    (x : (⟨2, ![E, 1]⟩ : Shape).Idx → α) (e : Fin E) (j : Fin C) :
    broadcastInDim ⟨2, ![E, C]⟩ ![0, 1] h x (ix2 e j) = x (ix2 e 0) := by
  refine broadcastInDim_apply _ h x _ (ix2 e 0) ?_
  intro a
  match a with
  | ⟨0, _⟩ =>
    show e.val = if E = 1 then 0 else e.val
    split
    · have := e.isLt; omega
    · rfl
  | ⟨1, _⟩ => rfl

/-- A vector `[C]` laid as one row `[1, C]` and broadcast down `N` rows reads the vector at the column. -/
theorem bcastBias_apply {α : Type} {N C : Nat} (h1 : (⟨1, ![C]⟩ : Shape).BroadcastsInDim ⟨2, ![1, C]⟩ ![1])
    (h2 : (⟨2, ![1, C]⟩ : Shape).BroadcastsInDim ⟨2, ![N, C]⟩ ![0, 1])
    (x : (⟨1, ![C]⟩ : Shape).Idx → α) (i : Fin N) (j : Fin C) :
    broadcastInDim ⟨2, ![N, C]⟩ ![0, 1] h2 (broadcastInDim ⟨2, ![1, C]⟩ ![1] h1 x) (ix2 i j) = x (ix1 j) := by
  rw [broadcastInDim_apply _ h2 _ _ (ix2 (0 : Fin 1) j) (by
    intro a
    match a with
    | ⟨0, _⟩ => rfl
    | ⟨1, _⟩ =>
      show j.val = if C = 1 then 0 else j.val
      split
      · have := j.isLt; omega
      · rfl)]
  refine broadcastInDim_apply _ h1 x _ (ix1 j) ?_
  intro a
  match a with
  | ⟨0, _⟩ =>
    show j.val = if C = 1 then 0 else j.val
    split
    · have := j.isLt; omega
    · rfl

/-! ## The kernel's host operations at an index -/

section Kernel
variable (wfv : ScatterDims.WF ⟨1, ![100000]⟩ ⟨2, ![600000, 1]⟩ ⟨1, ![600000]⟩ [] [0] [0] 1)
  (wfs : ScatterDims.WF ⟨2, ![100000, 256]⟩ ⟨2, ![600000, 1]⟩ ⟨2, ![600000, 256]⟩ [1] [0] [0] 1)
  (wfg : GatherDims.WF ⟨2, ![100000, 256]⟩ ⟨2, ![600000, 1]⟩ ⟨2, ![600000, 256]⟩ [1] [0] [] [0] [] 1 ![1, 256])
  (hbE : (⟨1, ![600000]⟩ : Shape).BroadcastsInDim ⟨2, ![600000, 1]⟩ ![0])
  (hbN : (⟨1, ![100000]⟩ : Shape).BroadcastsInDim ⟨2, ![100000, 1]⟩ ![0])

/-- THE KERNEL'S DEGREE AT NODE `i`: the scatter-add of `ones` at the destination indices into `zeros`: the
    `zeros` element plus the sum of `ones` over the edges whose destination, read signed, is `i`. -/
theorem kernel_deg_apply (zeros : FVec Ideal ⟨1, ![100000]⟩ .f32) (ones : FVec Ideal ⟨1, ![600000]⟩ .f32)
    (dstI : IVec ⟨1, ![600000]⟩ 32) (i : Fin 100000) :
    Host.scatterAdd (vecScatterDims 100000 600000 wfv) zeros (broadcastInDim ⟨2, ![600000, 1]⟩ ![0] hbE dstI) ones (ix1 i)
      = zeros (ix1 i) + ∑ e ∈ Finset.univ.filter (fun e : Fin 600000 => (dstI (ix1 e)).toInt = (i.val : ℤ)), ones (ix1 e) := by
  have hb : ∀ x : Fin 600000, broadcastInDim ⟨2, ![600000, 1]⟩ ![0] hbE dstI (ix2 x 0) = dstI (ix1 x) :=
    fun x => bcastCol_apply hbE dstI x 0
  show Ideal.hostScatterAdd (vecScatterDims 100000 600000 wfv) zeros _ ones (ix1 i) = _
  rw [scatterAdd_vec_apply]
  simp only [hb]

/-- THE KERNEL'S INVERSE SQUARE-ROOT DEGREE, AS A COLUMN, AT `(i, 0)`: `rsqrt` of the degree plus `ones'`. -/
theorem kernel_dis_apply (zeros ones' : FVec Ideal ⟨1, ![100000]⟩ .f32) (ones : FVec Ideal ⟨1, ![600000]⟩ .f32)
    (dstI : IVec ⟨1, ![600000]⟩ 32) (i : Fin 100000) (c : Fin 1) :
    broadcastInDim ⟨2, ![100000, 1]⟩ ![0] hbN
        (Host.rsqrt (addf (Host.scatterAdd (vecScatterDims 100000 600000 wfv) zeros
          (broadcastInDim ⟨2, ![600000, 1]⟩ ![0] hbE dstI) ones) ones')) (ix2 i c)
      = Ideal.rsqrt ((zeros (ix1 i)
          + ∑ e ∈ Finset.univ.filter (fun e : Fin 600000 => (dstI (ix1 e)).toInt = (i.val : ℤ)), ones (ix1 e))
          + ones' (ix1 i)) := by
  rw [bcastCol_apply]
  show Ideal.rsqrt (Host.scatterAdd (vecScatterDims 100000 600000 wfv) zeros
      (broadcastInDim ⟨2, ![600000, 1]⟩ ![0] hbE dstI) ones (ix1 i) + ones' (ix1 i)) = _
  rw [kernel_deg_apply]

/-- THE KERNEL'S AGGREGATION AT `(i, j)`: rows of `XWS` gathered at the normalised source indices and scatter-added
    at the destination indices into `zeros`: the `zeros` element plus the sum, over the edges whose destination read
    signed is `i`, of `XWS` at the row the edge's source names and column `j`. -/
theorem kernel_agg_apply (zeros : FVec Ideal ⟨2, ![100000, 256]⟩ .f32) (XWS : FVec Ideal ⟨2, ![100000, 256]⟩ .f32)
    (srcI dstI zI cI : IVec ⟨1, ![600000]⟩ 32) (hz : ∀ e, zI e = 0#32) (hc : ∀ e, cI e = 100000#32)
    (i : Fin 100000) (j : Fin 256) :
    Host.scatterAdd (rowScatterDims 100000 600000 256 wfs) zeros (broadcastInDim ⟨2, ![600000, 1]⟩ ![0] hbE dstI)
        (Host.gather (rowGatherDims 100000 600000 256 wfg) XWS
          (broadcastInDim ⟨2, ![600000, 1]⟩ ![0] hbE (select (cmpi .slt srcI zI) (addi srcI cI) srcI))) (ix2 i j)
      = zeros (ix2 i j)
        + ∑ e ∈ Finset.univ.filter (fun e : Fin 600000 => (dstI (ix1 e)).toInt = (i.val : ℤ)),
            XWS (ix2 (GcnIdx.row (srcI (ix1 e)).toInt) j) := by
  have hbd : ∀ x : Fin 600000, broadcastInDim ⟨2, ![600000, 1]⟩ ![0] hbE dstI (ix2 x 0) = dstI (ix1 x) :=
    fun x => bcastCol_apply hbE dstI x 0
  have hbs : ∀ x : Fin 600000, broadcastInDim ⟨2, ![600000, 1]⟩ ![0] hbE
      (select (cmpi .slt srcI zI) (addi srcI cI) srcI) (ix2 x 0) = select (cmpi .slt srcI zI) (addi srcI cI) srcI (ix1 x) :=
    fun x => bcastCol_apply hbE _ x 0
  show Ideal.hostScatterAdd (rowScatterDims 100000 600000 256 wfs) zeros _ _ (ix2 i j) = _
  rw [scatterAdd_rows_apply]
  simp only [hbd]
  refine congrArg (fun t => zeros (ix2 i j) + t) (Finset.sum_congr rfl fun e _ => ?_)
  rw [gather_rows_apply (by omega)]
  refine congrArg (fun r => XWS (ix2 r j)) (Fin.ext ?_)
  show min (broadcastInDim ⟨2, ![600000, 1]⟩ ![0] hbE (select (cmpi .slt srcI zI) (addi srcI cI) srcI) (ix2 e 0)).toInt.toNat
      99999 = min (GcnIdx.nrm (srcI (ix1 e)).toInt).toNat 99999
  rw [hbs, nrmVec_toInt srcI zI cI hz hc]

end Kernel

/-! ## Gathers at the normalised indices, at an index -/

section NrmGather
variable {T : Nat}

/-- A row gather at the normalised index vector `select (s < 0) (s + 100000) s`, read at `(k, j)`: the operand at the
    row `s k` names and column `j`. -/
theorem gatherRow_nrm_apply
    (wfg : GatherDims.WF ⟨2, ![100000, 256]⟩ ⟨2, ![T, 1]⟩ ⟨2, ![T, 256]⟩ [1] [0] [] [0] [] 1 ![1, 256])
    (hb : (⟨1, ![T]⟩ : Shape).BroadcastsInDim ⟨2, ![T, 1]⟩ ![0])
    (XW : FVec Ideal ⟨2, ![100000, 256]⟩ .f32) (s zI cI : IVec ⟨1, ![T]⟩ 32) (hz : ∀ e, zI e = 0#32)
    (hc : ∀ e, cI e = 100000#32) (k : Fin T) (j : Fin 256) :
    Host.gather (rowGatherDims 100000 T 256 wfg) XW
        (broadcastInDim ⟨2, ![T, 1]⟩ ![0] hb (select (cmpi .slt s zI) (addi s cI) s)) (ix2 k j)
      = XW (ix2 (row (s (ix1 k)).toInt) j) := by
  rw [gather_rows_apply (by omega)]
  refine congrArg (fun r => XW (ix2 r j)) (Fin.ext ?_)
  show min (broadcastInDim ⟨2, ![T, 1]⟩ ![0] hb (select (cmpi .slt s zI) (addi s cI) s) (ix2 k 0)).toInt.toNat 99999
    = min (nrm (s (ix1 k)).toInt).toNat 99999
  rw [bcastCol_apply, nrmVec_toInt s zI cI hz hc]

/-- An element gather at the normalised index vector, read at `k`: the operand at the row `s k` names. -/
theorem gatherVec_nrm_apply
    (wfg : GatherDims.WF ⟨1, ![100000]⟩ ⟨2, ![T, 1]⟩ ⟨1, ![T]⟩ [] [0] [] [0] [] 1 ![1])
    (hb : (⟨1, ![T]⟩ : Shape).BroadcastsInDim ⟨2, ![T, 1]⟩ ![0])
    (dis : FVec Ideal ⟨1, ![100000]⟩ .f32) (s zI cI : IVec ⟨1, ![T]⟩ 32) (hz : ∀ e, zI e = 0#32)
    (hc : ∀ e, cI e = 100000#32) (k : Fin T) :
    Host.gather (vecGatherDims 100000 T wfg) dis
        (broadcastInDim ⟨2, ![T, 1]⟩ ![0] hb (select (cmpi .slt s zI) (addi s cI) s)) (ix1 k)
      = dis (ix1 (row (s (ix1 k)).toInt)) := by
  rw [gather_vec_apply (by omega)]
  refine congrArg (fun r => dis (ix1 r)) (Fin.ext ?_)
  show min (broadcastInDim ⟨2, ![T, 1]⟩ ![0] hb (select (cmpi .slt s zI) (addi s cI) s) (ix2 k 0)).toInt.toNat 99999
    = min (nrm (s (ix1 k)).toInt).toNat 99999
  rw [bcastCol_apply, nrmVec_toInt s zI cI hz hc]

end NrmGather

/-! ## The reference's host operations at an index -/

section Reference
variable (wfvT : ScatterDims.WF ⟨1, ![100000]⟩ ⟨2, ![700000, 1]⟩ ⟨1, ![700000]⟩ [] [0] [0] 1)
  (wfsT : ScatterDims.WF ⟨2, ![100000, 256]⟩ ⟨2, ![700000, 1]⟩ ⟨2, ![700000, 256]⟩ [1] [0] [0] 1)
  (wfgT : GatherDims.WF ⟨2, ![100000, 256]⟩ ⟨2, ![700000, 1]⟩ ⟨2, ![700000, 256]⟩ [1] [0] [] [0] [] 1 ![1, 256])
  (wfvgT : GatherDims.WF ⟨1, ![100000]⟩ ⟨2, ![700000, 1]⟩ ⟨1, ![700000]⟩ [] [0] [] [0] [] 1 ![1])
  (hbT : (⟨1, ![700000]⟩ : Shape).BroadcastsInDim ⟨2, ![700000, 1]⟩ ![0])
  (hbTC : (⟨2, ![700000, 1]⟩ : Shape).BroadcastsInDim ⟨2, ![700000, 256]⟩ ![0, 1])
  (hb1 : (⟨1, ![256]⟩ : Shape).BroadcastsInDim ⟨2, ![1, 256]⟩ ![1])
  (hb2 : (⟨2, ![1, 256]⟩ : Shape).BroadcastsInDim ⟨2, ![100000, 256]⟩ ![0, 1])
  (hcat : Shape.Concatenates [(⟨1, ![600000]⟩ : Shape), ⟨1, ![100000]⟩] ⟨1, ![700000]⟩ 0)

/-- The index vector `I` followed by the positions `0 … 99999` (an iota), read signed at `k`: `I` below 600000,
    then `k − 600000`. -/
theorem catIdx_toInt (I : IVec ⟨1, ![600000]⟩ 32) (k : Fin 700000) :
    (concatenate (⟨1, ![700000]⟩ : Shape) 0
        [⟨⟨1, ![600000]⟩, I⟩, ⟨⟨1, ![100000]⟩, iotaInDim ⟨1, ![100000]⟩ 32 0⟩] hcat (ix1 k)).toInt
      = appZ (fun e => (I (ix1 e)).toInt) k := by
  rw [concat1_apply]
  unfold appZ
  by_cases h : k.val < 600000
  · rw [dif_pos h, dif_pos h]
  · rw [dif_neg h, dif_neg h, iotaInDim_apply]
    show (BitVec.ofNat 32 (k.val - 600000)).toInt = ((k.val - 600000 : ℕ) : ℤ)
    exact WordArith.toInt_ofNat_small _ (by have := k.isLt; omega)

/-- THE REFERENCE'S DEGREE AT NODE `i`, for any index vector `d : [700000]`: the `zeros` element plus the sum of
    `ones` over the positions whose index, read signed, is `i`. -/
theorem ref_deg_apply (zeros : FVec Ideal ⟨1, ![100000]⟩ .f32) (ones : FVec Ideal ⟨1, ![700000]⟩ .f32)
    (d : IVec ⟨1, ![700000]⟩ 32) (i : Fin 100000) :
    Host.scatterAdd (vecScatterDims 100000 700000 wfvT) zeros (broadcastInDim ⟨2, ![700000, 1]⟩ ![0] hbT d) ones (ix1 i)
      = zeros (ix1 i) + ∑ k ∈ Finset.univ.filter (fun k : Fin 700000 => (d (ix1 k)).toInt = (i.val : ℤ)), ones (ix1 k) := by
  have hb : ∀ x : Fin 700000, broadcastInDim ⟨2, ![700000, 1]⟩ ![0] hbT d (ix2 x 0) = d (ix1 x) :=
    fun x => bcastCol_apply hbT d x 0
  show Ideal.hostScatterAdd (vecScatterDims 100000 700000 wfvT) zeros _ ones (ix1 i) = _
  rw [scatterAdd_vec_apply]
  simp only [hb]

/-- The same with the index vector the reference builds, the destinations followed by every node's own number (the
    self loops): the sum runs over the positions whose extended destination is `i`. -/
theorem ref_deg_cat_apply (zeros : FVec Ideal ⟨1, ![100000]⟩ .f32) (ones : FVec Ideal ⟨1, ![700000]⟩ .f32)
    (dstI : IVec ⟨1, ![600000]⟩ 32) (i : Fin 100000) :
    Host.scatterAdd (vecScatterDims 100000 700000 wfvT) zeros (broadcastInDim ⟨2, ![700000, 1]⟩ ![0] hbT
        (concatenate (⟨1, ![700000]⟩ : Shape) 0
          [⟨⟨1, ![600000]⟩, dstI⟩, ⟨⟨1, ![100000]⟩, iotaInDim ⟨1, ![100000]⟩ 32 0⟩] hcat)) ones (ix1 i)
      = zeros (ix1 i) + ∑ k ∈ Finset.univ.filter
          (fun k : Fin 700000 => appZ (fun e => (dstI (ix1 e)).toInt) k = (i.val : ℤ)), ones (ix1 k) := by
  have hk : ∀ k : Fin 700000, (concatenate (⟨1, ![700000]⟩ : Shape) 0
      [⟨⟨1, ![600000]⟩, dstI⟩, ⟨⟨1, ![100000]⟩, iotaInDim ⟨1, ![100000]⟩ 32 0⟩] hcat (ix1 k)).toInt
      = appZ (fun e => (dstI (ix1 e)).toInt) k := fun k => catIdx_toInt hcat dstI k
  rw [ref_deg_apply]
  simp only [hk]

/-- THE REFERENCE'S LAYER OUTPUT BEFORE THE ACTIVATION, AT `(i, j)`, for any index vectors `s d : [700000]`: rows of
    `XW` gathered at the normalised `s`, each scaled by the product of `dis` gathered at the normalised `s` and at the
    normalised `d`, scatter-added at `d` into `zeros`, plus the bias: the `zeros` element plus the sum over the
    positions whose `d`, read signed, is `i`, plus `bias j`. -/
theorem ref_h_apply (zeros XW : FVec Ideal ⟨2, ![100000, 256]⟩ .f32) (dis : FVec Ideal ⟨1, ![100000]⟩ .f32)
    (bias : FVec Ideal ⟨1, ![256]⟩ .f32) (s d zI cI : IVec ⟨1, ![700000]⟩ 32) (hz : ∀ e, zI e = 0#32)
    (hc : ∀ e, cI e = 100000#32) (i : Fin 100000) (j : Fin 256) :
    addf (Host.scatterAdd (rowScatterDims 100000 700000 256 wfsT) zeros (broadcastInDim ⟨2, ![700000, 1]⟩ ![0] hbT d)
        (mulf (Host.gather (rowGatherDims 100000 700000 256 wfgT) XW
            (broadcastInDim ⟨2, ![700000, 1]⟩ ![0] hbT (select (cmpi .slt s zI) (addi s cI) s)))
          (broadcastInDim ⟨2, ![700000, 256]⟩ ![0, 1] hbTC (broadcastInDim ⟨2, ![700000, 1]⟩ ![0] hbT
            (mulf (Host.gather (vecGatherDims 100000 700000 wfvgT) dis
                (broadcastInDim ⟨2, ![700000, 1]⟩ ![0] hbT (select (cmpi .slt s zI) (addi s cI) s)))
              (Host.gather (vecGatherDims 100000 700000 wfvgT) dis
                (broadcastInDim ⟨2, ![700000, 1]⟩ ![0] hbT (select (cmpi .slt d zI) (addi d cI) d))))))))
      (broadcastInDim ⟨2, ![100000, 256]⟩ ![0, 1] hb2 (broadcastInDim ⟨2, ![1, 256]⟩ ![1] hb1 bias)) (ix2 i j)
    = (zeros (ix2 i j) + ∑ k ∈ Finset.univ.filter (fun k : Fin 700000 => (d (ix1 k)).toInt = (i.val : ℤ)),
          XW (ix2 (row (s (ix1 k)).toInt) j)
            * (dis (ix1 (row (s (ix1 k)).toInt)) * dis (ix1 (row (d (ix1 k)).toInt))))
      + bias (ix1 j) := by
  have hbd : ∀ x : Fin 700000, broadcastInDim ⟨2, ![700000, 1]⟩ ![0] hbT d (ix2 x 0) = d (ix1 x) :=
    fun x => bcastCol_apply hbT d x 0
  rw [addf_apply, bcastBias_apply]
  refine congrArg (fun t => t + bias (ix1 j)) ?_
  show Ideal.hostScatterAdd (rowScatterDims 100000 700000 256 wfsT) zeros _ _ (ix2 i j) = _
  rw [scatterAdd_rows_apply]
  simp only [hbd]
  refine congrArg (fun t => zeros (ix2 i j) + t) (Finset.sum_congr rfl fun k _ => ?_)
  rw [mulf_apply, gatherRow_nrm_apply wfgT hbT XW s zI cI hz hc, bcastRows_apply, bcastCol_apply, mulf_apply,
    gatherVec_nrm_apply wfvgT hbT dis s zI cI hz hc, gatherVec_nrm_apply wfvgT hbT dis d zI cI hz hc]

end Reference

/-! ## The reference's inverse square-root degree, and the closed forms with the programs' constants -/

section Closed
variable (hbSN : (⟨0, ![]⟩ : Shape).BroadcastsInDim ⟨1, ![100000]⟩ ![])

/-- THE REFERENCE'S INVERSE SQUARE-ROOT DEGREE AT NODE `i`: where the degree exceeds `zeros`, `rsqrt` of the larger
    of the degree and `ones`; elsewhere the scalar `z`. -/
theorem ref_dis_apply (deg zeros ones : FVec Ideal ⟨1, ![100000]⟩ .f32) (z : FVec Ideal ⟨0, ![]⟩ .f32)
    (i : Fin 100000) :
    select (cmpf .ogt deg zeros) (Host.rsqrt (maximumf deg ones)) (broadcastInDim ⟨1, ![100000]⟩ ![] hbSN z) (ix1 i)
      = Scalar.select (Ideal.cmp .ogt (deg (ix1 i)) (zeros (ix1 i)))
          (Ideal.rsqrt (max (deg (ix1 i)) (ones (ix1 i)))) (z ix0) := by
  rw [select_apply, broadcastInDim_scalar_apply]
  rfl

end Closed

end GcnOps

end
-- ==== Proof.GcnBridge.lean ====
/-
  The array-level bridge of the graph-convolution layer: the kernel's affine row expression
  `D[r,0] * (AGG[r,c] + XWS[r,c]) + B[0,c]`, with `D` the kernel's coefficient column, `XWS` the
  product array scaled by `D` and `AGG` its aggregation over the real edges, is the reference's
  layer output `scatter over edges and self-loops of XW[s] * (dis[s] * dis[d]), plus bias`, as
  whole arrays. Each side is read at an index as a finite sum over edges, and the two sums are
  related by the index-level identity.
-/
import proofs.«149613_j7086696039015_2_alg».proof.Proof.GcnIdx
import proofs.«149613_j7086696039015_2_alg».proof.Proof.GcnOps
import proofs.«149613_j7086696039015_2_alg».proof.Proof.SpecGcn
import Idealize.ShloMosaic.Lib.ValueIdx

noncomputable section

open scoped BigOperators

namespace GcnBridge

open Idealize.ShloMosaic Idealize.ShloMosaic.ValueIdx LibRowOps GcnIdx GcnOps

/-- The bridge in abstract form: arrays that read, index by index, as the two sides of the
    index-level identity are equal as arrays. `D` reads as the kernel's coefficient, `XWS` is
    `XW` scaled by `D`'s row entry, `AGG` reads as the aggregation of `XWS` over the real edges
    into each node, `B1` is the bias as one row, and `H` reads as the reference's scatter over
    all edge slots plus the bias. -/
theorem gcnRaw_eq_of_apply (srcZ dstZ : Fin 600000 → ℤ)
    (XW AGG XWS H : (⟨2, ![100000, 256]⟩ : Shape).Idx → EReal)
    (D : (⟨2, ![100000, 1]⟩ : Shape).Idx → EReal) (B1 : (⟨2, ![1, 256]⟩ : Shape).Idx → EReal)
    (bias : (⟨1, ![256]⟩ : Shape).Idx → EReal)
    (hD : ∀ (i : Fin 100000) (c : Fin 1), D (ix2 i c) = disK dstZ i)
    (hXWS : ∀ (i : Fin 100000) (j : Fin 256), XWS (ix2 i j) = XW (ix2 i j) * D (ix2 i (0 : Fin 1)))
    (hAGG : ∀ (i : Fin 100000) (j : Fin 256), AGG (ix2 i j)
      = Ideal.ofBits .f32 0x00000000#32
        + ∑ e ∈ Finset.univ.filter (fun e : Fin 600000 => dstZ e = (i.val : ℤ)),
            XWS (ix2 (row (srcZ e)) j))
    (hB : ∀ j : Fin 256, B1 (ix2 (0 : Fin 1) j) = bias (ix1 j))
    (hH : ∀ (i : Fin 100000) (j : Fin 256), H (ix2 i j)
      = (Ideal.ofBits .f32 0x00000000#32
          + ∑ k ∈ Finset.univ.filter (fun k : Fin 700000 => appZ dstZ k = (i.val : ℤ)),
              XW (ix2 (row (appZ srcZ k)) j)
                * (disR dstZ (row (appZ srcZ k)) * disR dstZ (row (appZ dstZ k))))
        + bias (ix1 j)) :
    Cert.Spec.gcnRaw AGG XWS D B1 = H := by
  funext y
  obtain ⟨i, j, hy⟩ : ∃ (i : Fin 100000) (j : Fin 256), y = ix2 i j := ⟨y 0, y 1, eq_ix2 y⟩
  subst hy
  show D (ix2 i (0 : Fin 1)) * (AGG (ix2 i j) + XWS (ix2 i j)) + B1 (ix2 (0 : Fin 1) j) = H (ix2 i j)
  rw [hH, hAGG, hB, hXWS, hD]
  simp only [hXWS, hD]
  exact gcn_identity srcZ dstZ (fun i j => XW (ix2 i j)) (bias (ix1 j)) i j

end GcnBridge

end
-- ==== Proof.GcnClosed.lean ====
/-
  The host operations of the two programs with their CONSTANTS plugged in (the splats of `0.0`, `1.0`, `0` and
  `100000`) and the reference's edge lists extended by the self loops, read at an index in closed form: the kernel's
  and the reference's degree coefficients and aggregations as finite sums over edges.
-/
import proofs.«149613_j7086696039015_2_alg».proof.Proof.GcnOps

noncomputable section

open scoped BigOperators

namespace GcnClosed

open Idealize.ShloMosaic Idealize.ShloMosaic.ValueIdx LibRowOps GcnIdx GcnOps

/-! ## Splat constants at an index -/

/-- A float constant broadcast from a scalar reads, everywhere, the extended real its word encodes. -/
theorem splatF_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply]
  rfl

/-- An integer constant broadcast from a scalar reads its word everywhere. -/
theorem splatI_apply {T : Shape} (h : (⟨0, ![]⟩ : Shape).BroadcastsInDim T ![]) (b : BitVec 32) (j : T.Idx) :
    broadcastInDim T ![] h (constantI ⟨0, ![]⟩ 32 b) j = b := by
  rw [broadcastInDim_scalar_apply]
  rfl

section Closed
variable (wfv : ScatterDims.WF ⟨1, ![100000]⟩ ⟨2, ![600000, 1]⟩ ⟨1, ![600000]⟩ [] [0] [0] 1)
  (wfs : ScatterDims.WF ⟨2, ![100000, 256]⟩ ⟨2, ![600000, 1]⟩ ⟨2, ![600000, 256]⟩ [1] [0] [0] 1)
  (wfg : GatherDims.WF ⟨2, ![100000, 256]⟩ ⟨2, ![600000, 1]⟩ ⟨2, ![600000, 256]⟩ [1] [0] [] [0] [] 1 ![1, 256])
  (hbE : (⟨1, ![600000]⟩ : Shape).BroadcastsInDim ⟨2, ![600000, 1]⟩ ![0])
  (hbN : (⟨1, ![100000]⟩ : Shape).BroadcastsInDim ⟨2, ![100000, 1]⟩ ![0])
  (wfvT : ScatterDims.WF ⟨1, ![100000]⟩ ⟨2, ![700000, 1]⟩ ⟨1, ![700000]⟩ [] [0] [0] 1)
  (wfsT : ScatterDims.WF ⟨2, ![100000, 256]⟩ ⟨2, ![700000, 1]⟩ ⟨2, ![700000, 256]⟩ [1] [0] [0] 1)
  (wfgT : GatherDims.WF ⟨2, ![100000, 256]⟩ ⟨2, ![700000, 1]⟩ ⟨2, ![700000, 256]⟩ [1] [0] [] [0] [] 1 ![1, 256])
  (wfvgT : GatherDims.WF ⟨1, ![100000]⟩ ⟨2, ![700000, 1]⟩ ⟨1, ![700000]⟩ [] [0] [] [0] [] 1 ![1])
  (hbT : (⟨1, ![700000]⟩ : Shape).BroadcastsInDim ⟨2, ![700000, 1]⟩ ![0])
  (hbTC : (⟨2, ![700000, 1]⟩ : Shape).BroadcastsInDim ⟨2, ![700000, 256]⟩ ![0, 1])
  (hb1 : (⟨1, ![256]⟩ : Shape).BroadcastsInDim ⟨2, ![1, 256]⟩ ![1])
  (hb2 : (⟨2, ![1, 256]⟩ : Shape).BroadcastsInDim ⟨2, ![100000, 256]⟩ ![0, 1])
  (hcat : Shape.Concatenates [(⟨1, ![600000]⟩ : Shape), ⟨1, ![100000]⟩] ⟨1, ![700000]⟩ 0)
  (hSN : (⟨0, ![]⟩ : Shape).BroadcastsInDim ⟨1, ![100000]⟩ ![])
  (hSE : (⟨0, ![]⟩ : Shape).BroadcastsInDim ⟨1, ![600000]⟩ ![])
  (hST : (⟨0, ![]⟩ : Shape).BroadcastsInDim ⟨1, ![700000]⟩ ![])
  (hSNC : (⟨0, ![]⟩ : Shape).BroadcastsInDim ⟨2, ![100000, 256]⟩ ![])

local notation "cZ" => constant (F := Ideal) (⟨0, ![]⟩ : Shape) FTy.f32 0x00000000#32
local notation "cO" => constant (F := Ideal) (⟨0, ![]⟩ : Shape) FTy.f32 0x3F800000#32
local notation "Z0N" => broadcastInDim (⟨1, ![100000]⟩ : Shape) ![] hSN cZ
local notation "O1N" => broadcastInDim (⟨1, ![100000]⟩ : Shape) ![] hSN cO
local notation "O1E" => broadcastInDim (⟨1, ![600000]⟩ : Shape) ![] hSE cO
local notation "O1T" => broadcastInDim (⟨1, ![700000]⟩ : Shape) ![] hST cO
local notation "Z0NC" => broadcastInDim (⟨2, ![100000, 256]⟩ : Shape) ![] hSNC cZ
local notation "zIE" => broadcastInDim (⟨1, ![600000]⟩ : Shape) ![] hSE (constantI (⟨0, ![]⟩ : Shape) 32 0#32)
local notation "cIE" => broadcastInDim (⟨1, ![600000]⟩ : Shape) ![] hSE (constantI (⟨0, ![]⟩ : Shape) 32 100000#32)
local notation "zIT" => broadcastInDim (⟨1, ![700000]⟩ : Shape) ![] hST (constantI (⟨0, ![]⟩ : Shape) 32 0#32)
local notation "cIT" => broadcastInDim (⟨1, ![700000]⟩ : Shape) ![] hST (constantI (⟨0, ![]⟩ : Shape) 32 100000#32)

/-- THE KERNEL'S COEFFICIENT WITH ITS CONSTANTS, AT `(i, 0)`: the reciprocal square root of `0` plus one per edge into
    `i` plus one. -/
theorem kernel_disK (dstI : IVec ⟨1, ![600000]⟩ 32) (i : Fin 100000) (c : Fin 1) :
    broadcastInDim ⟨2, ![100000, 1]⟩ ![0] hbN
        (Host.rsqrt (addf (Host.scatterAdd (vecScatterDims 100000 600000 wfv) Z0N
          (broadcastInDim ⟨2, ![600000, 1]⟩ ![0] hbE dstI) O1E) O1N)) (ix2 i c)
      = disK (fun e => (dstI (ix1 e)).toInt) i := by
  have h1 : ∀ e : Fin 600000, O1E (ix1 e) = Ideal.ofBits .f32 0x3F800000#32 := fun e => splatF_apply hSE _ _
  rw [kernel_dis_apply, splatF_apply hSN, splatF_apply hSN]
  simp only [h1]
  rfl

/-- THE KERNEL'S AGGREGATION WITH ITS CONSTANTS, AT `(i, j)`: `0` plus the sum over the edges into `i` of `XWS` at the
    edge's source row. -/
theorem kernel_agg_closed (XWS : FVec Ideal ⟨2, ![100000, 256]⟩ .f32) (srcI dstI : IVec ⟨1, ![600000]⟩ 32)
    (i : Fin 100000) (j : Fin 256) :
    Host.scatterAdd (rowScatterDims 100000 600000 256 wfs) Z0NC (broadcastInDim ⟨2, ![600000, 1]⟩ ![0] hbE dstI)
        (Host.gather (rowGatherDims 100000 600000 256 wfg) XWS
          (broadcastInDim ⟨2, ![600000, 1]⟩ ![0] hbE (select (cmpi .slt srcI zIE) (addi srcI cIE) srcI))) (ix2 i j)
      = Ideal.ofBits .f32 0x00000000#32
        + ∑ e ∈ Finset.univ.filter (fun e : Fin 600000 => (dstI (ix1 e)).toInt = (i.val : ℤ)),
            XWS (ix2 (row (srcI (ix1 e)).toInt) j) := by
  rw [kernel_agg_apply wfs wfg hbE Z0NC XWS srcI dstI zIE cIE (fun e => splatI_apply hSE _ e)
    (fun e => splatI_apply hSE _ e) i j, splatF_apply hSNC]

/-- THE REFERENCE'S COEFFICIENT WITH ITS CONSTANTS, AT NODE `i`: the degree counts the edges and self loops into
    `i`; where it is positive the coefficient is the reciprocal square root of the larger of it and `1`, else `0`. -/
theorem ref_disR (dstI : IVec ⟨1, ![600000]⟩ 32) (i : Fin 100000) :
    select (cmpf .ogt
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) Z0N)
        (Host.rsqrt (maximumf
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) O1N))
        (broadcastInDim ⟨1, ![100000]⟩ ![] hSN cZ) (ix1 i)
      = disR (fun e => (dstI (ix1 e)).toInt) i := by
  have h1 : ∀ k : Fin 700000, O1T (ix1 k) = Ideal.ofBits .f32 0x3F800000#32 := fun k => splatF_apply hST _ _
  rw [ref_dis_apply, ref_deg_cat_apply, splatF_apply hSN, splatF_apply hSN]
  simp only [h1]
  rfl

/-- THE REFERENCE'S LAYER OUTPUT WITH ITS CONSTANTS AND ITS EXTENDED EDGE LISTS, AT `(i, j)`, for any coefficient array
    `dis`: `0` plus the sum, over the edge slots (self loops included) into `i`, of `XW` at the slot's source row times
    the two coefficients, plus the bias. -/
theorem ref_h_cat (XW : FVec Ideal ⟨2, ![100000, 256]⟩ .f32) (dis : FVec Ideal ⟨1, ![100000]⟩ .f32)
    (bias : FVec Ideal ⟨1, ![256]⟩ .f32) (srcI dstI : IVec ⟨1, ![600000]⟩ 32) (i : Fin 100000) (j : Fin 256) :
    addf (Host.scatterAdd (rowScatterDims 100000 700000 256 wfsT) Z0NC
        (broadcastInDim ⟨2, ![700000, 1]⟩ ![0] hbT
          (concatenate (⟨1, ![700000]⟩ : Shape) 0
            [⟨⟨1, ![600000]⟩, dstI⟩, ⟨⟨1, ![100000]⟩, iotaInDim ⟨1, ![100000]⟩ 32 0⟩] hcat))
        (mulf (Host.gather (rowGatherDims 100000 700000 256 wfgT) XW
            (broadcastInDim ⟨2, ![700000, 1]⟩ ![0] hbT
              (select (cmpi .slt (concatenate (⟨1, ![700000]⟩ : Shape) 0
                  [⟨⟨1, ![600000]⟩, srcI⟩, ⟨⟨1, ![100000]⟩, iotaInDim ⟨1, ![100000]⟩ 32 0⟩] hcat) zIT)
                (addi (concatenate (⟨1, ![700000]⟩ : Shape) 0
                  [⟨⟨1, ![600000]⟩, srcI⟩, ⟨⟨1, ![100000]⟩, iotaInDim ⟨1, ![100000]⟩ 32 0⟩] hcat) cIT)
                (concatenate (⟨1, ![700000]⟩ : Shape) 0
                  [⟨⟨1, ![600000]⟩, srcI⟩, ⟨⟨1, ![100000]⟩, iotaInDim ⟨1, ![100000]⟩ 32 0⟩] hcat))))
          (broadcastInDim ⟨2, ![700000, 256]⟩ ![0, 1] hbTC (broadcastInDim ⟨2, ![700000, 1]⟩ ![0] hbT
            (mulf (Host.gather (vecGatherDims 100000 700000 wfvgT) dis
                (broadcastInDim ⟨2, ![700000, 1]⟩ ![0] hbT
                  (select (cmpi .slt (concatenate (⟨1, ![700000]⟩ : Shape) 0
                      [⟨⟨1, ![600000]⟩, srcI⟩, ⟨⟨1, ![100000]⟩, iotaInDim ⟨1, ![100000]⟩ 32 0⟩] hcat) zIT)
                    (addi (concatenate (⟨1, ![700000]⟩ : Shape) 0
                      [⟨⟨1, ![600000]⟩, srcI⟩, ⟨⟨1, ![100000]⟩, iotaInDim ⟨1, ![100000]⟩ 32 0⟩] hcat) cIT)
                    (concatenate (⟨1, ![700000]⟩ : Shape) 0
                      [⟨⟨1, ![600000]⟩, srcI⟩, ⟨⟨1, ![100000]⟩, iotaInDim ⟨1, ![100000]⟩ 32 0⟩] hcat))))
              (Host.gather (vecGatherDims 100000 700000 wfvgT) dis
                (broadcastInDim ⟨2, ![700000, 1]⟩ ![0] hbT
                  (select (cmpi .slt (concatenate (⟨1, ![700000]⟩ : Shape) 0
                      [⟨⟨1, ![600000]⟩, dstI⟩, ⟨⟨1, ![100000]⟩, iotaInDim ⟨1, ![100000]⟩ 32 0⟩] hcat) zIT)
                    (addi (concatenate (⟨1, ![700000]⟩ : Shape) 0
                      [⟨⟨1, ![600000]⟩, dstI⟩, ⟨⟨1, ![100000]⟩, iotaInDim ⟨1, ![100000]⟩ 32 0⟩] hcat) cIT)
                    (concatenate (⟨1, ![700000]⟩ : Shape) 0
                      [⟨⟨1, ![600000]⟩, dstI⟩, ⟨⟨1, ![100000]⟩, iotaInDim ⟨1, ![100000]⟩ 32 0⟩] hcat)))))))))
      (broadcastInDim ⟨2, ![100000, 256]⟩ ![0, 1] hb2 (broadcastInDim ⟨2, ![1, 256]⟩ ![1] hb1 bias)) (ix2 i j)
    = (Ideal.ofBits .f32 0x00000000#32
        + ∑ k ∈ Finset.univ.filter (fun k : Fin 700000 => appZ (fun e => (dstI (ix1 e)).toInt) k = (i.val : ℤ)),
          XW (ix2 (row (appZ (fun e => (srcI (ix1 e)).toInt) k)) j)
            * (dis (ix1 (row (appZ (fun e => (srcI (ix1 e)).toInt) k)))
              * dis (ix1 (row (appZ (fun e => (dstI (ix1 e)).toInt) k)))))
      + bias (ix1 j) := by
  have hS : ∀ k : Fin 700000, (concatenate (⟨1, ![700000]⟩ : Shape) 0
      [⟨⟨1, ![600000]⟩, srcI⟩, ⟨⟨1, ![100000]⟩, iotaInDim ⟨1, ![100000]⟩ 32 0⟩] hcat (ix1 k)).toInt
      = appZ (fun e => (srcI (ix1 e)).toInt) k := fun k => catIdx_toInt hcat srcI k
  have hD : ∀ k : Fin 700000, (concatenate (⟨1, ![700000]⟩ : Shape) 0
      [⟨⟨1, ![600000]⟩, dstI⟩, ⟨⟨1, ![100000]⟩, iotaInDim ⟨1, ![100000]⟩ 32 0⟩] hcat (ix1 k)).toInt
      = appZ (fun e => (dstI (ix1 e)).toInt) k := fun k => catIdx_toInt hcat dstI k
  rw [ref_h_apply wfsT wfgT wfvgT hbT hbTC hb1 hb2 Z0NC XW dis bias _ _ zIT cIT (fun e => splatI_apply hST _ e)
    (fun e => splatI_apply hST _ e) i j, splatF_apply hSNC]
  simp only [hS, hD]

/-- THE REFERENCE'S LAYER OUTPUT IN CLOSED FORM, AT `(i, j)`: as above with the coefficient array the reference
    computes, so that each coefficient is `disR` of the extended destination list. -/
theorem ref_h_closed (XW : FVec Ideal ⟨2, ![100000, 256]⟩ .f32) (bias : FVec Ideal ⟨1, ![256]⟩ .f32)
    (srcI dstI : IVec ⟨1, ![600000]⟩ 32) (i : Fin 100000) (j : Fin 256) :
    addf (Host.scatterAdd (rowScatterDims 100000 700000 256 wfsT) Z0NC
        (broadcastInDim ⟨2, ![700000, 1]⟩ ![0] hbT
          (concatenate (⟨1, ![700000]⟩ : Shape) 0
            [⟨⟨1, ![600000]⟩, dstI⟩, ⟨⟨1, ![100000]⟩, iotaInDim ⟨1, ![100000]⟩ 32 0⟩] hcat))
        (mulf (Host.gather (rowGatherDims 100000 700000 256 wfgT) XW
            (broadcastInDim ⟨2, ![700000, 1]⟩ ![0] hbT
              (select (cmpi .slt (concatenate (⟨1, ![700000]⟩ : Shape) 0
                  [⟨⟨1, ![600000]⟩, srcI⟩, ⟨⟨1, ![100000]⟩, iotaInDim ⟨1, ![100000]⟩ 32 0⟩] hcat) zIT)
                (addi (concatenate (⟨1, ![700000]⟩ : Shape) 0
                  [⟨⟨1, ![600000]⟩, srcI⟩, ⟨⟨1, ![100000]⟩, iotaInDim ⟨1, ![100000]⟩ 32 0⟩] hcat) cIT)
                (concatenate (⟨1, ![700000]⟩ : Shape) 0
                  [⟨⟨1, ![600000]⟩, srcI⟩, ⟨⟨1, ![100000]⟩, iotaInDim ⟨1, ![100000]⟩ 32 0⟩] hcat))))
          (broadcastInDim ⟨2, ![700000, 256]⟩ ![0, 1] hbTC (broadcastInDim ⟨2, ![700000, 1]⟩ ![0] hbT
            (mulf (Host.gather (vecGatherDims 100000 700000 wfvgT) (select (cmpf .ogt
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) Z0N)
        (Host.rsqrt (maximumf
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) O1N))
        (broadcastInDim ⟨1, ![100000]⟩ ![] hSN cZ))
                (broadcastInDim ⟨2, ![700000, 1]⟩ ![0] hbT
                  (select (cmpi .slt (concatenate (⟨1, ![700000]⟩ : Shape) 0
                      [⟨⟨1, ![600000]⟩, srcI⟩, ⟨⟨1, ![100000]⟩, iotaInDim ⟨1, ![100000]⟩ 32 0⟩] hcat) zIT)
                    (addi (concatenate (⟨1, ![700000]⟩ : Shape) 0
                      [⟨⟨1, ![600000]⟩, srcI⟩, ⟨⟨1, ![100000]⟩, iotaInDim ⟨1, ![100000]⟩ 32 0⟩] hcat) cIT)
                    (concatenate (⟨1, ![700000]⟩ : Shape) 0
                      [⟨⟨1, ![600000]⟩, srcI⟩, ⟨⟨1, ![100000]⟩, iotaInDim ⟨1, ![100000]⟩ 32 0⟩] hcat))))
              (Host.gather (vecGatherDims 100000 700000 wfvgT) (select (cmpf .ogt
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) Z0N)
        (Host.rsqrt (maximumf
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) O1N))
        (broadcastInDim ⟨1, ![100000]⟩ ![] hSN cZ))
                (broadcastInDim ⟨2, ![700000, 1]⟩ ![0] hbT
                  (select (cmpi .slt (concatenate (⟨1, ![700000]⟩ : Shape) 0
                      [⟨⟨1, ![600000]⟩, dstI⟩, ⟨⟨1, ![100000]⟩, iotaInDim ⟨1, ![100000]⟩ 32 0⟩] hcat) zIT)
                    (addi (concatenate (⟨1, ![700000]⟩ : Shape) 0
                      [⟨⟨1, ![600000]⟩, dstI⟩, ⟨⟨1, ![100000]⟩, iotaInDim ⟨1, ![100000]⟩ 32 0⟩] hcat) cIT)
                    (concatenate (⟨1, ![700000]⟩ : Shape) 0
                      [⟨⟨1, ![600000]⟩, dstI⟩, ⟨⟨1, ![100000]⟩, iotaInDim ⟨1, ![100000]⟩ 32 0⟩] hcat)))))))))
      (broadcastInDim ⟨2, ![100000, 256]⟩ ![0, 1] hb2 (broadcastInDim ⟨2, ![1, 256]⟩ ![1] hb1 bias)) (ix2 i j)
    = (Ideal.ofBits .f32 0x00000000#32
        + ∑ k ∈ Finset.univ.filter (fun k : Fin 700000 => appZ (fun e => (dstI (ix1 e)).toInt) k = (i.val : ℤ)),
          XW (ix2 (row (appZ (fun e => (srcI (ix1 e)).toInt) k)) j)
            * (disR (fun e => (dstI (ix1 e)).toInt) (row (appZ (fun e => (srcI (ix1 e)).toInt) k))
              * disR (fun e => (dstI (ix1 e)).toInt) (row (appZ (fun e => (dstI (ix1 e)).toInt) k))))
      + bias (ix1 j) := by
  have hdis : ∀ r : Fin 100000, (select (cmpf .ogt
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) Z0N)
        (Host.rsqrt (maximumf
          (Host.scatterAdd (vecScatterDims 100000 700000 wfvT) Z0N (broadcastInDim ⟨2, ![700000, 1]⟩ ![0] hbT
            (concatenate (⟨1, ![700000]⟩ : Shape) 0
              [⟨⟨1, ![600000]⟩, dstI⟩, ⟨⟨1, ![100000]⟩, iotaInDim ⟨1, ![100000]⟩ 32 0⟩] hcat)) O1T) O1N))
        (broadcastInDim ⟨1, ![100000]⟩ ![] hSN cZ)) (ix1 r) = disR (fun e => (dstI (ix1 e)).toInt) r :=
    fun r => ref_disR wfvT hbT hcat hSN hST dstI r
  rw [ref_h_cat wfsT wfgT wfvgT hbT hbTC hb1 hb2 hcat hST hSNC XW _ bias srcI dstI i j]
  simp only [hdis]

end Closed

end GcnClosed

end
-- ==== Proof.GcnRecords.lean ====
/-
  The dimension-number records the two programs print for their row / element scatters and gathers ARE the records of
  `LibRowOps` at the programs' literal sizes (100000 nodes, 600000 edges or 700000 extended edges, 256 columns): the
  fields agree literally, so each equation holds by unfolding.
-/
import proofs.«149613_j7086696039015_2_alg».proof.KernelIdeal
import proofs.«149613_j7086696039015_2_alg».proof.ReferenceIdeal
import proofs.«149613_j7086696039015_2_alg».proof.Proof.LibRowOps

noncomputable section

namespace GcnRecords

open Idealize.ShloMosaic LibRowOps

section Kernel
variable [Cert.KernelIdeal.Facts₀]
open Cert.KernelIdeal.Facts₀

/-- The kernel side's element scatter over the 600000 edges. -/
theorem kernel_vecScatter : Cert.KernelIdeal.scatter_S100000_S600000x1_S600000_n_0_0_1
    = vecScatterDims 100000 600000 scatter_S100000_S600000x1_S600000_n_0_0_1_wf := rfl
/-- The kernel side's row scatter over the 600000 edges. -/
theorem kernel_rowScatter : Cert.KernelIdeal.scatter_S100000x256_S600000x1_S600000x256_1_0_0_1
    = rowScatterDims 100000 600000 256 scatter_S100000x256_S600000x1_S600000x256_1_0_0_1_wf := rfl
/-- The kernel side's row gather over the 600000 edges. -/
theorem kernel_rowGather : Cert.KernelIdeal.gather_S100000x256_S600000x1_S600000x256_1_0_n_n_0_1_1256
    = rowGatherDims 100000 600000 256 gather_S100000x256_S600000x1_S600000x256_1_0_n_n_0_1_1256_wf := rfl

end Kernel

section Reference
variable [Cert.ReferenceIdeal.Facts₀]
open Cert.ReferenceIdeal.Facts₀

/-- The reference's element scatter over the 700000 extended edges. -/
theorem ref_vecScatter700 : Cert.ReferenceIdeal.scatter_S100000_S700000x1_S700000_n_0_0_1
    = vecScatterDims 100000 700000 scatter_S100000_S700000x1_S700000_n_0_0_1_wf := rfl
/-- The reference's row scatter over the 700000 extended edges. -/
theorem ref_rowScatter700 : Cert.ReferenceIdeal.scatter_S100000x256_S700000x1_S700000x256_1_0_0_1
    = rowScatterDims 100000 700000 256 scatter_S100000x256_S700000x1_S700000x256_1_0_0_1_wf := rfl
/-- The reference's row gather over the 700000 extended edges. -/
theorem ref_rowGather700 : Cert.ReferenceIdeal.gather_S100000x256_S700000x1_S700000x256_1_0_n_n_0_1_1256
    = rowGatherDims 100000 700000 256 gather_S100000x256_S700000x1_S700000x256_1_0_n_n_0_1_1256_wf := rfl
/-- The reference's element gather over the 700000 extended edges. -/
theorem ref_vecGather700 : Cert.ReferenceIdeal.gather_S100000_S700000x1_S700000_n_0_n_n_0_1_1
    = vecGatherDims 100000 700000 gather_S100000_S700000x1_S700000_n_0_n_n_0_1_1_wf := rfl
/-- The reference's element scatter over the 600000 edges. -/
theorem ref_vecScatter600 : Cert.ReferenceIdeal.scatter_S100000_S600000x1_S600000_n_0_0_1
    = vecScatterDims 100000 600000 scatter_S100000_S600000x1_S600000_n_0_0_1_wf := rfl
/-- The reference's row scatter over the 600000 edges. -/
theorem ref_rowScatter600 : Cert.ReferenceIdeal.scatter_S100000x256_S600000x1_S600000x256_1_0_0_1
    = rowScatterDims 100000 600000 256 scatter_S100000x256_S600000x1_S600000x256_1_0_0_1_wf := rfl
/-- The reference's row gather over the 600000 edges. -/
theorem ref_rowGather600 : Cert.ReferenceIdeal.gather_S100000x256_S600000x1_S600000x256_1_0_n_n_0_1_1256
    = rowGatherDims 100000 600000 256 gather_S100000x256_S600000x1_S600000x256_1_0_n_n_0_1_1256_wf := rfl

end Reference

end GcnRecords

end
-- ==== Proof.GcnBranch.lean ====
/-
  One branch of the first layer, kernel against reference, as whole arrays: the kernel's affine
  row expression over its own host terms (the coefficient column, the scaled product, its
  aggregation over the real edges, the bias as one row) is the reference's expression for the
  layer output before the activation (the product, the edge lists extended by the self-loops,
  the degree and its coefficient, the normalised gathers, the scatter-add, the bias broadcast).
-/
import proofs.«149613_j7086696039015_2_alg».proof.Proof.GcnBridge
import proofs.«149613_j7086696039015_2_alg».proof.Proof.GcnClosed
import proofs.«149613_j7086696039015_2_alg».proof.Proof.GcnRecords
import proofs.«149613_j7086696039015_2_alg».proof.Proof.KHostDefs
import proofs.«149613_j7086696039015_2_alg».proof.Proof.Gen.ReferenceIdeal
import Idealize.ShloMosaic.PureOps.Ideal.Laws
import Idealize.ShloMosaic.Lib.ValueIdx
import Idealize.ShloMosaic.Lib.Pipeline.Value

noncomputable section

open scoped BigOperators

namespace Cert.ReferenceIdeal.HeadR

open Idealize.ShloMosaic Idealize.SL.Sem
open Cert.ReferenceIdeal Cert.ReferenceIdeal.Gen

/-! ## The reference's host expressions for one branch, as functions of its arguments -/

/-- Row 0 of an edge array `[2, 600000]` as a vector (the sources). -/
def rRow0 (E : (⟨S2x600000, .i32⟩ : BufTy).Contents (Elt Ideal)) : (⟨S600000, .i32⟩ : BufTy).Contents (Elt Ideal) :=
  shapeCast S600000 (extractStridedSlice S1x600000 ![0, 0] E slices_S2x600000_S1x600000_0_0) shapeCasts_S1x600000_S600000
/-- Row 1 of an edge array (the targets). -/
def rRow1 (E : (⟨S2x600000, .i32⟩ : BufTy).Contents (Elt Ideal)) : (⟨S600000, .i32⟩ : BufTy).Contents (Elt Ideal) :=
  shapeCast S600000 (extractStridedSlice S1x600000 ![1, 0] E slices_S2x600000_S1x600000_1_0) shapeCasts_S1x600000_S600000

/-- The product `X · W`. -/
def rXW (X : (⟨S100000x512, .f32⟩ : BufTy).Contents (Elt Ideal)) (W : (⟨S512x256, .f32⟩ : BufTy).Contents (Elt Ideal)) :
    (⟨S100000x256, .f32⟩ : BufTy).Contents (Elt Ideal) :=
  Host.dotGeneral (F := Ideal) (φ₁ := .f32) (φ₂ := .f32) dot_S100000x512_S512x256_S100000x256_1_0_0_1_n_n none X W

/-- An endpoint list of the real edges followed by every node's own number (the self-loops). -/
def rCat (I : (⟨S600000, .i32⟩ : BufTy).Contents (Elt Ideal)) : (⟨S700000, .i32⟩ : BufTy).Contents (Elt Ideal) :=
  concatenate S700000 0 [⟨S600000, I⟩, ⟨S100000, iotaInDim S100000 32 0⟩] concatenates_S600000_S100000_S700000_d0

/-- An index list with each negative entry shifted up by the number of nodes. -/
def rNrm (t : (⟨S700000, .i32⟩ : BufTy).Contents (Elt Ideal)) : (⟨S700000, .i32⟩ : BufTy).Contents (Elt Ideal) :=
  select (cmpi .slt t (broadcastInDim S700000 ![] bcast_S_S700000 (constantI S_ 32 0#32)))
    (addi t (broadcastInDim S700000 ![] bcast_S_S700000 (constantI S_ 32 100000#32)))
    t

/-- The degree: one per edge slot (self-loops included) into each node. -/
def rDeg (E : (⟨S2x600000, .i32⟩ : BufTy).Contents (Elt Ideal)) : (⟨S100000, .f32⟩ : BufTy).Contents (Elt Ideal) :=
  Host.scatterAdd (F := Ideal) scatter_S100000_S700000x1_S700000_n_0_0_1
    (broadcastInDim S100000 ![] bcast_S_S100000 (constant (F := Ideal) S_ .f32 0x00000000#32))
    (broadcastInDim S700000x1 ![0] bcast_S700000_S700000x1_0 (rCat (rRow1 E)))
    (broadcastInDim S700000 ![] bcast_S_S700000 (constant (F := Ideal) S_ .f32 0x3F800000#32))

/-- The coefficient: where the degree is positive, the reciprocal square root of the larger of it and one;
    elsewhere zero. -/
def rDis (E : (⟨S2x600000, .i32⟩ : BufTy).Contents (Elt Ideal)) : (⟨S100000, .f32⟩ : BufTy).Contents (Elt Ideal) :=
  select (cmpf .ogt (rDeg E) (broadcastInDim S100000 ![] bcast_S_S100000 (constant (F := Ideal) S_ .f32 0x00000000#32)))
    (Host.rsqrt (F := Ideal) (maximumf (rDeg E)
      (broadcastInDim S100000 ![] bcast_S_S100000 (constant (F := Ideal) S_ .f32 0x3F800000#32))))
    (broadcastInDim S100000 ![] bcast_S_S100000 (id (constant (F := Ideal) S_ .f32 0x00000000#32)))

/-- The layer output before the activation: rows of the product gathered at the sources, each scaled by the two
    endpoint coefficients, added up at the targets, plus the bias on every row. -/
def HRef (X : (⟨S100000x512, .f32⟩ : BufTy).Contents (Elt Ideal)) (E : (⟨S2x600000, .i32⟩ : BufTy).Contents (Elt Ideal))
    (W : (⟨S512x256, .f32⟩ : BufTy).Contents (Elt Ideal)) (b : (⟨S256, .f32⟩ : BufTy).Contents (Elt Ideal)) :
    (⟨S100000x256, .f32⟩ : BufTy).Contents (Elt Ideal) :=
  addf
    (Host.scatterAdd (F := Ideal) scatter_S100000x256_S700000x1_S700000x256_1_0_0_1
      (broadcastInDim S100000x256 ![] bcast_S_S100000x256 (constant (F := Ideal) S_ .f32 0x00000000#32))
      (broadcastInDim S700000x1 ![0] bcast_S700000_S700000x1_0 (rCat (rRow1 E)))
      (mulf
        (Host.gather gather_S100000x256_S700000x1_S700000x256_1_0_n_n_0_1_1256 (rXW X W)
          (broadcastInDim S700000x1 ![0] bcast_S700000_S700000x1_0 (rNrm (rCat (rRow0 E)))))
        (broadcastInDim S700000x256 ![0, 1] bcast_S700000x1_S700000x256_0_1
          (broadcastInDim S700000x1 ![0] bcast_S700000_S700000x1_0
            (mulf
              (Host.gather gather_S100000_S700000x1_S700000_n_0_n_n_0_1_1 (rDis E)
                (broadcastInDim S700000x1 ![0] bcast_S700000_S700000x1_0 (rNrm (rCat (rRow0 E)))))
              (Host.gather gather_S100000_S700000x1_S700000_n_0_n_n_0_1_1 (rDis E)
                (broadcastInDim S700000x1 ![0] bcast_S700000_S700000x1_0 (rNrm (rCat (rRow1 E))))))))))
    (broadcastInDim S100000x256 ![0, 1] bcast_S1x256_S100000x256_0_1 (broadcastInDim S1x256 ![1] bcast_S256_S1x256_1 b))

end Cert.ReferenceIdeal.HeadR

namespace Cert.ReferenceIdeal.HeadR

open Idealize.ShloMosaic Idealize.SL.Sem Idealize.ShloMosaic.ValueIdx
open Cert.ReferenceIdeal Cert.ReferenceIdeal.Gen

/-- The product read at `(i, j)`: the sum over the contracted coordinate of the entries' products. -/
theorem rXW_apply (X : (⟨S100000x512, .f32⟩ : BufTy).Contents (Elt Ideal)) (W : (⟨S512x256, .f32⟩ : BufTy).Contents (Elt Ideal))
    (i : Fin 100000) (j : Fin 256) :
    rXW X W (ix2 i j) = ∑ k : Fin 512, X (ix2 i k) * W (ix2 k j) := by
  unfold rXW
  simp only [Host.dotGeneral]
  rw [Ideal.dotGeneral_apply,
    ← Equiv.sum_comp (contrEquiv1 dot_S100000x512_S512x256_S100000x256_1_0_0_1_n_n 512 rfl rfl).symm]
  refine Finset.sum_congr rfl fun k _ => ?_
  have hk := contrEquiv1_symm_val dot_S100000x512_S512x256_S100000x256_1_0_0_1_n_n 512 rfl rfl k
  have el : dot_S100000x512_S512x256_S100000x256_1_0_0_1_n_n.lhsIdx (ix2 i j)
      ((contrEquiv1 dot_S100000x512_S512x256_S100000x256_1_0_0_1_n_n 512 rfl rfl).symm k) = ix2 i k :=
    funext fun a => Fin.ext (by
      match a with
      | ⟨0, _⟩ =>
        show (dot_S100000x512_S512x256_S100000x256_1_0_0_1_n_n.lhsIdx (ix2 i j) _ 0).val = i.val
        unfold DotDims.lhsIdx
        rw [dif_neg (show ¬(0 : Fin S100000x512.rank) ∈ dot_S100000x512_S512x256_S100000x256_1_0_0_1_n_n.lhsBatch by decide),
          dif_pos (show (0 : Fin S100000x512.rank) ∈ dot_S100000x512_S512x256_S100000x256_1_0_0_1_n_n.lhsNonContracting by decide)]
        rfl
      | ⟨1, _⟩ =>
        exact (dot_S100000x512_S512x256_S100000x256_1_0_0_1_n_n.lhsIdx_val_of_single rfl (ix2 i j) _).trans hk)
  have er : dot_S100000x512_S512x256_S100000x256_1_0_0_1_n_n.rhsIdx (ix2 i j)
      ((contrEquiv1 dot_S100000x512_S512x256_S100000x256_1_0_0_1_n_n 512 rfl rfl).symm k) = ix2 k j :=
    funext fun a => Fin.ext (by
      match a with
      | ⟨0, _⟩ =>
        exact (dot_S100000x512_S512x256_S100000x256_1_0_0_1_n_n.rhsIdx_val_of_single rfl (ix2 i j) _).trans hk
      | ⟨1, _⟩ =>
        show (dot_S100000x512_S512x256_S100000x256_1_0_0_1_n_n.rhsIdx (ix2 i j) _ 1).val = j.val
        unfold DotDims.rhsIdx
        rw [dif_neg (show ¬(1 : Fin S512x256.rank) ∈ dot_S100000x512_S512x256_S100000x256_1_0_0_1_n_n.rhsBatch by decide),
          dif_pos (show (1 : Fin S512x256.rank) ∈ dot_S100000x512_S512x256_S100000x256_1_0_0_1_n_n.rhsNonContracting by decide)]
        rfl)
  rw [el, er]

end Cert.ReferenceIdeal.HeadR

namespace GcnBranch

open Idealize.ShloMosaic Idealize.SL.Sem Idealize.ShloMosaic.ValueIdx LibRowOps GcnIdx
open Cert.KernelIdeal.Head Cert.ReferenceIdeal.HeadR

/-- The bias as one row reads, at `(0, j)`, the bias at `j`. -/
theorem kB_apply (b : (⟨Cert.KernelIdeal.S256, .f32⟩ : BufTy).Contents (Elt Ideal)) (j : Fin 256) :
    kB b (ix2 (0 : Fin 1) j) = b (ix1 j) := by
  unfold kB
  refine shapeCast_apply b _ _ _ ?_
  rw [Shape.rowMajor_val_two, Shape.rowMajor_val_one]
  show j.val = 0 * 256 + j.val
  omega

/-- ONE BRANCH, KERNEL AGAINST REFERENCE: the kernel's affine row expression over its own host terms is the
    reference's layer output before the activation, for arbitrary features, weights, edges and bias. -/
theorem branch_eq (X : (⟨Cert.KernelIdeal.S100000x512, .f32⟩ : BufTy).Contents (Elt Ideal))
    (W : (⟨Cert.KernelIdeal.S512x256, .f32⟩ : BufTy).Contents (Elt Ideal))
    (E : (⟨Cert.KernelIdeal.S2x600000, .i32⟩ : BufTy).Contents (Elt Ideal))
    (b : (⟨Cert.KernelIdeal.S256, .f32⟩ : BufTy).Contents (Elt Ideal)) :
    Cert.Spec.gcnRaw (kAgg (kXws X W E) E) (kXws X W E) (kDis E) (kB b) = HRef X E W b := by
  refine GcnBridge.gcnRaw_eq_of_apply (fun e => (edgeRow0 E (ix1 e)).toInt) (fun e => (edgeRow1 E (ix1 e)).toInt)
    (rXW X W) _ _ _ _ _ b ?hD ?hXWS ?hAGG ?hB ?hH
  case hD =>
    intro i c
    exact GcnClosed.kernel_disK _ _ _ _ _ (edgeRow1 E) i c
  case hXWS =>
    intro i j
    show (∑ k : Fin 512, X (ix2 i k) * W (ix2 k j)) * kDis E (ix2 i (0 : Fin 1)) = _
    rw [rXW_apply]
  case hAGG =>
    intro i j
    exact GcnClosed.kernel_agg_closed _ _ _ _ _ (kXws X W E) (edgeRow0 E) (edgeRow1 E) i j
  case hB =>
    intro j
    exact kB_apply b j
  case hH =>
    intro i j
    exact GcnClosed.ref_h_closed _ _ _ _ _ _ _ _ _ _ _ _ (rXW X W) b (edgeRow0 E) (edgeRow1 E) i j

end GcnBranch

end
-- ==== Proof.GcnLayer.lean ====
/-
  The activation and the sum of the two branches of the first layer, kernel against reference, as whole arrays:
  the reference clamps each branch's output at zero and adds the two (its first result), and adds the second
  branch's clamped output to its unclamped one (its second result); the kernel's combine step computes the same
  two arrays from its affine row expressions.
-/
import proofs.«149613_j7086696039015_2_alg».proof.Proof.GcnBranch
import proofs.«149613_j7086696039015_2_alg».proof.Proof.SpecGcn
import proofs.«149613_j7086696039015_2_alg».proof.Proof.KHostDefs

noncomputable section

open scoped BigOperators

namespace Cert.ReferenceIdeal.HeadR

open Idealize.ShloMosaic Idealize.SL.Sem Idealize.ShloMosaic.ValueIdx
open Cert.ReferenceIdeal Cert.ReferenceIdeal.Gen

/-- The activation: the larger of each entry and zero. -/
def rRelu (Y : (⟨S100000x256, .f32⟩ : BufTy).Contents (Elt Ideal)) : (⟨S100000x256, .f32⟩ : BufTy).Contents (Elt Ideal) :=
  maximumf (F := Ideal) (s := S100000x256) (φ := .f32) Y (broadcastInDim S100000x256 ![] bcast_S_S100000x256 (constant (F := Ideal) S_ .f32 0x00000000#32))

/-- The reference's first result of the layer: the two branches' activated outputs added. -/
def XRef (X0 : (⟨S100000x512, .f32⟩ : BufTy).Contents (Elt Ideal)) (E0 : (⟨S2x600000, .i32⟩ : BufTy).Contents (Elt Ideal))
    (W0 : (⟨S512x256, .f32⟩ : BufTy).Contents (Elt Ideal)) (b0 : (⟨S256, .f32⟩ : BufTy).Contents (Elt Ideal))
    (X1 : (⟨S100000x512, .f32⟩ : BufTy).Contents (Elt Ideal)) (E1 : (⟨S2x600000, .i32⟩ : BufTy).Contents (Elt Ideal))
    (W1 : (⟨S512x256, .f32⟩ : BufTy).Contents (Elt Ideal)) (b1 : (⟨S256, .f32⟩ : BufTy).Contents (Elt Ideal)) :
    (⟨S100000x256, .f32⟩ : BufTy).Contents (Elt Ideal) :=
  addf (F := Ideal) (s := S100000x256) (φ := .f32) (rRelu (HRef X0 E0 W0 b0)) (rRelu (HRef X1 E1 W1 b1))

/-- The reference's second result of the layer: the second branch's activated output plus its output. -/
def GRef (X1 : (⟨S100000x512, .f32⟩ : BufTy).Contents (Elt Ideal)) (E1 : (⟨S2x600000, .i32⟩ : BufTy).Contents (Elt Ideal))
    (W1 : (⟨S512x256, .f32⟩ : BufTy).Contents (Elt Ideal)) (b1 : (⟨S256, .f32⟩ : BufTy).Contents (Elt Ideal)) :
    (⟨S100000x256, .f32⟩ : BufTy).Contents (Elt Ideal) :=
  addf (F := Ideal) (s := S100000x256) (φ := .f32) (rRelu (HRef X1 E1 W1 b1)) (HRef X1 E1 W1 b1)

/-- The activation read at an index: the larger of the entry and the word of zero. -/
theorem rRelu_apply (Y : (⟨S100000x256, .f32⟩ : BufTy).Contents (Elt Ideal)) (y : S100000x256.Idx) :
    rRelu Y y = max (Y y) (Ideal.ofBits .f32 0x00000000#32) := by
  show max (Y y) (broadcastInDim S100000x256 ![] bcast_S_S100000x256 (constant (F := Ideal) S_ .f32 0x00000000#32) y) = _
  rw [GcnClosed.splatF_apply]

end Cert.ReferenceIdeal.HeadR

namespace GcnLayer

open Idealize.ShloMosaic Idealize.SL.Sem Idealize.ShloMosaic.ValueIdx
open Cert.KernelIdeal.Head Cert.ReferenceIdeal.HeadR

/-- The first result of the combine step, spelled over its two affine row expressions. -/
theorem gcnX0_def (A0 XW0 : (⟨2, ![100000, 256]⟩ : Shape).Idx → EReal) (D0 : (⟨2, ![100000, 1]⟩ : Shape).Idx → EReal)
    (B0 : (⟨2, ![1, 256]⟩ : Shape).Idx → EReal)
    (A1 XW1 : (⟨2, ![100000, 256]⟩ : Shape).Idx → EReal) (D1 : (⟨2, ![100000, 1]⟩ : Shape).Idx → EReal)
    (B1 : (⟨2, ![1, 256]⟩ : Shape).Idx → EReal) :
    Cert.Spec.gcnX0 A0 XW0 D0 B0 A1 XW1 D1 B1
      = fun y => max (Cert.Spec.gcnRaw A0 XW0 D0 B0 y) Cert.Spec.zeroF32
          + max (Cert.Spec.gcnRaw A1 XW1 D1 B1 y) Cert.Spec.zeroF32 := rfl

/-- The second result of the combine step, spelled over its affine row expression. -/
theorem gcnG1_def (A1 XW1 : (⟨2, ![100000, 256]⟩ : Shape).Idx → EReal) (D1 : (⟨2, ![100000, 1]⟩ : Shape).Idx → EReal)
    (B1 : (⟨2, ![1, 256]⟩ : Shape).Idx → EReal) :
    Cert.Spec.gcnG1 A1 XW1 D1 B1
      = fun y => max (Cert.Spec.gcnRaw A1 XW1 D1 B1 y) Cert.Spec.zeroF32 + Cert.Spec.gcnRaw A1 XW1 D1 B1 y := rfl

/-- Clamping two arrays at zero entry by entry and adding them is adding their activations. -/
theorem relu_add (H0 H1 : (⟨Cert.ReferenceIdeal.S100000x256, .f32⟩ : BufTy).Contents (Elt Ideal)) :
    (fun y => max (H0 y) Cert.Spec.zeroF32 + max (H1 y) Cert.Spec.zeroF32)
      = addf (F := Ideal) (s := Cert.ReferenceIdeal.S100000x256) (φ := .f32) (rRelu H0) (rRelu H1) := by
  funext y
  show _ = rRelu H0 y + rRelu H1 y
  rw [rRelu_apply, rRelu_apply]

/-- Clamping an array at zero entry by entry and adding the array is adding its activation to it. -/
theorem relu_add_self (H1 : (⟨Cert.ReferenceIdeal.S100000x256, .f32⟩ : BufTy).Contents (Elt Ideal)) :
    (fun y => max (H1 y) Cert.Spec.zeroF32 + H1 y)
      = addf (F := Ideal) (s := Cert.ReferenceIdeal.S100000x256) (φ := .f32) (rRelu H1) H1 := by
  funext y
  show _ = rRelu H1 y + H1 y
  rw [rRelu_apply]

/-- THE FIRST RESULT OF THE LAYER, KERNEL AGAINST REFERENCE: the two clamped row expressions added are the two
    branches' activated outputs added. -/
theorem x0_eq (X0 : (⟨Cert.KernelIdeal.S100000x512, .f32⟩ : BufTy).Contents (Elt Ideal))
    (W0 : (⟨Cert.KernelIdeal.S512x256, .f32⟩ : BufTy).Contents (Elt Ideal))
    (E0 : (⟨Cert.KernelIdeal.S2x600000, .i32⟩ : BufTy).Contents (Elt Ideal))
    (b0 : (⟨Cert.KernelIdeal.S256, .f32⟩ : BufTy).Contents (Elt Ideal))
    (X1 : (⟨Cert.KernelIdeal.S100000x512, .f32⟩ : BufTy).Contents (Elt Ideal))
    (W1 : (⟨Cert.KernelIdeal.S512x256, .f32⟩ : BufTy).Contents (Elt Ideal))
    (E1 : (⟨Cert.KernelIdeal.S2x600000, .i32⟩ : BufTy).Contents (Elt Ideal))
    (b1 : (⟨Cert.KernelIdeal.S256, .f32⟩ : BufTy).Contents (Elt Ideal)) :
    Cert.Spec.gcnX0 (kAgg (kXws X0 W0 E0) E0) (kXws X0 W0 E0) (kDis E0) (kB b0)
        (kAgg (kXws X1 W1 E1) E1) (kXws X1 W1 E1) (kDis E1) (kB b1)
      = XRef X0 E0 W0 b0 X1 E1 W1 b1 := by
  unfold XRef
  rw [gcnX0_def]
  exact (congrArg₂
      (fun (G0 G1 : (⟨2, ![100000, 256]⟩ : Shape).Idx → EReal) =>
        fun y => max (G0 y) Cert.Spec.zeroF32 + max (G1 y) Cert.Spec.zeroF32)
      (GcnBranch.branch_eq X0 W0 E0 b0) (GcnBranch.branch_eq X1 W1 E1 b1)).trans
    (relu_add (HRef X0 E0 W0 b0) (HRef X1 E1 W1 b1))

/-- THE SECOND RESULT OF THE LAYER, KERNEL AGAINST REFERENCE: the clamped second row expression plus itself is
    the second branch's activated output plus its output. -/
theorem g1_eq (X1 : (⟨Cert.KernelIdeal.S100000x512, .f32⟩ : BufTy).Contents (Elt Ideal))
    (W1 : (⟨Cert.KernelIdeal.S512x256, .f32⟩ : BufTy).Contents (Elt Ideal))
    (E1 : (⟨Cert.KernelIdeal.S2x600000, .i32⟩ : BufTy).Contents (Elt Ideal))
    (b1 : (⟨Cert.KernelIdeal.S256, .f32⟩ : BufTy).Contents (Elt Ideal)) :
    Cert.Spec.gcnG1 (kAgg (kXws X1 W1 E1) E1) (kXws X1 W1 E1) (kDis E1) (kB b1) = GRef X1 E1 W1 b1 := by
  unfold GRef
  rw [gcnG1_def]
  exact (congrArg
      (fun (G1 : (⟨2, ![100000, 256]⟩ : Shape).Idx → EReal) =>
        fun y => max (G1 y) Cert.Spec.zeroF32 + G1 y)
      (GcnBranch.branch_eq X1 W1 E1 b1)).trans
    (relu_add_self (HRef X1 E1 W1 b1))

end GcnLayer

end
-- ==== Proof.RefLink.lean ====
/-
  The reference's layer expressions, as defined for the comparison with the kernel, ARE the values the
  reference program's own operations compute: each definition's body is the text of the corresponding
  operation's value, so every equation holds by unfolding.
-/
import proofs.«149613_j7086696039015_2_alg».proof.Proof.GcnLayer
import proofs.«149613_j7086696039015_2_alg».proof.Proof.RefReadP

noncomputable section

namespace RefLink

open Idealize.ShloMosaic Idealize.SL.Sem
open Cert.ReferenceIdeal Cert.ReferenceIdeal.Gen Cert.ReferenceIdeal.HeadR Cert.ReferenceIdeal.ReadP

/-! ## The first branch (arguments 0, 2, 4, 5) -/

/-- The sources are the program's first edge row. -/
theorem row0_v1 (E : (⟨S2x600000, .i32⟩ : BufTy).Contents (Elt Ideal)) : rRow0 E = val_main_v1 (F := Ideal) E := rfl
/-- The targets are the program's second edge row. -/
theorem row1_v3 (E : (⟨S2x600000, .i32⟩ : BufTy).Contents (Elt Ideal)) : rRow1 E = val_main_v3 (F := Ideal) E := rfl
/-- The product is the program's. -/
theorem xw_v8 (X : (⟨S100000x512, .f32⟩ : BufTy).Contents (Elt Ideal)) (W : (⟨S512x256, .f32⟩ : BufTy).Contents (Elt Ideal)) : rXW X W = val_main_v8 (F := Ideal) X W := rfl
/-- The extended sources are the program's. -/
theorem cat0_v10 (E : (⟨S2x600000, .i32⟩ : BufTy).Contents (Elt Ideal)) : rCat (rRow0 E) = val_main_v10 (F := Ideal) E := rfl
/-- The extended targets are the program's. -/
theorem cat1_v11 (E : (⟨S2x600000, .i32⟩ : BufTy).Contents (Elt Ideal)) : rCat (rRow1 E) = val_main_v11 (F := Ideal) E := rfl
/-- The degree is the program's. -/
theorem deg_v15 (E : (⟨S2x600000, .i32⟩ : BufTy).Contents (Elt Ideal)) : rDeg E = val_main_v15 (F := Ideal) E := rfl
/-- The coefficient is the program's. -/
theorem dis_v21 (E : (⟨S2x600000, .i32⟩ : BufTy).Contents (Elt Ideal)) : rDis E = val_main_v21 (F := Ideal) E := rfl
/-- The normalised extended sources (first use) are the program's. -/
theorem nrm_v26 (E : (⟨S2x600000, .i32⟩ : BufTy).Contents (Elt Ideal)) : rNrm (rCat (rRow0 E)) = val_main_v26 (F := Ideal) E := rfl
/-- The normalised extended targets are the program's. -/
theorem nrm_v33 (E : (⟨S2x600000, .i32⟩ : BufTy).Contents (Elt Ideal)) : rNrm (rCat (rRow1 E)) = val_main_v33 (F := Ideal) E := rfl
/-- The normalised extended sources (second use) are the program's. -/
theorem nrm_v41 (E : (⟨S2x600000, .i32⟩ : BufTy).Contents (Elt Ideal)) : rNrm (rCat (rRow0 E)) = val_main_v41 (F := Ideal) E := rfl
/-- The first branch's output before the activation is the program's. -/
theorem href_v52 (X : (⟨S100000x512, .f32⟩ : BufTy).Contents (Elt Ideal)) (E : (⟨S2x600000, .i32⟩ : BufTy).Contents (Elt Ideal))
    (W : (⟨S512x256, .f32⟩ : BufTy).Contents (Elt Ideal)) (b : (⟨S256, .f32⟩ : BufTy).Contents (Elt Ideal)) :
    HRef X E W b = val_main_v52 (F := Ideal) X E W b := rfl

/-! ## The second branch (arguments 1, 3, 6, 7) -/

/-- The second branch's output before the activation is the program's. -/
theorem href_v98 (X : (⟨S100000x512, .f32⟩ : BufTy).Contents (Elt Ideal)) (E : (⟨S2x600000, .i32⟩ : BufTy).Contents (Elt Ideal))
    (W : (⟨S512x256, .f32⟩ : BufTy).Contents (Elt Ideal)) (b : (⟨S256, .f32⟩ : BufTy).Contents (Elt Ideal)) :
    HRef X E W b = val_main_v98 (F := Ideal) X E W b := rfl

/-! ## The activations and the two results of the layer -/

/-- The first branch's activated output is the program's. -/
theorem relu_v53 (X : (⟨S100000x512, .f32⟩ : BufTy).Contents (Elt Ideal)) (E : (⟨S2x600000, .i32⟩ : BufTy).Contents (Elt Ideal))
    (W : (⟨S512x256, .f32⟩ : BufTy).Contents (Elt Ideal)) (b : (⟨S256, .f32⟩ : BufTy).Contents (Elt Ideal)) :
    rRelu (HRef X E W b) = val_main_v53 (F := Ideal) X E W b := rfl
/-- The second branch's activated output is the program's. -/
theorem relu_v99 (X : (⟨S100000x512, .f32⟩ : BufTy).Contents (Elt Ideal)) (E : (⟨S2x600000, .i32⟩ : BufTy).Contents (Elt Ideal))
    (W : (⟨S512x256, .f32⟩ : BufTy).Contents (Elt Ideal)) (b : (⟨S256, .f32⟩ : BufTy).Contents (Elt Ideal)) :
    rRelu (HRef X E W b) = val_main_v99 (F := Ideal) X E W b := rfl
/-- The first result of the layer is the program's. -/
theorem xref_v100 (X0 : (⟨S100000x512, .f32⟩ : BufTy).Contents (Elt Ideal)) (E0 : (⟨S2x600000, .i32⟩ : BufTy).Contents (Elt Ideal))
    (W0 : (⟨S512x256, .f32⟩ : BufTy).Contents (Elt Ideal)) (b0 : (⟨S256, .f32⟩ : BufTy).Contents (Elt Ideal))
    (X1 : (⟨S100000x512, .f32⟩ : BufTy).Contents (Elt Ideal)) (E1 : (⟨S2x600000, .i32⟩ : BufTy).Contents (Elt Ideal))
    (W1 : (⟨S512x256, .f32⟩ : BufTy).Contents (Elt Ideal)) (b1 : (⟨S256, .f32⟩ : BufTy).Contents (Elt Ideal)) :
    XRef X0 E0 W0 b0 X1 E1 W1 b1 = val_main_v100 (F := Ideal) X0 X1 E0 E1 W0 b0 W1 b1 := rfl
/-- The second result of the layer is the program's. -/
theorem gref_v160 (X1 : (⟨S100000x512, .f32⟩ : BufTy).Contents (Elt Ideal)) (E1 : (⟨S2x600000, .i32⟩ : BufTy).Contents (Elt Ideal))
    (W1 : (⟨S512x256, .f32⟩ : BufTy).Contents (Elt Ideal)) (b1 : (⟨S256, .f32⟩ : BufTy).Contents (Elt Ideal)) :
    GRef X1 E1 W1 b1 = val_main_v160 (F := Ideal) X1 E1 W1 b1 := rfl

end RefLink

end
-- ==== Proof.ChainHeadEq.lean ====
/- The kernel program's two first-layer outputs, at the boundary after the third region, are the reference program's
   expressions of the launch arrays: the frame walk (`Head.head_kernel`) followed by the layer identity
   (`GcnLayer.x0_eq`, `GcnLayer.g1_eq`), then the reference's own stage values (`RefLink.xref_v100`, `RefLink.gref_v160`). -/
import proofs.«149613_j7086696039015_2_alg».proof.Proof.ChainHead
import proofs.«149613_j7086696039015_2_alg».proof.Proof.GcnLayer
import proofs.«149613_j7086696039015_2_alg».proof.Proof.RefLink

noncomputable section

namespace Cert.KernelIdeal.Head

open Idealize.ShloMosaic Idealize.ShloMosaic.TcCoe Idealize.SL.Sem
open Cert.KernelIdeal Cert.KernelIdeal.Gen
open Cert.ReferenceIdeal.HeadR

variable (m : (ℓ : Loc nD τ sig) → Buf (Elt Ideal) ℓ) (ρ : Dev nD → PrngReg)

/-- At the boundary after the third region the two output arrays hold the reference's first-layer expressions of
    the launch arrays: the sum of the two clamped branches, and the second branch clamped plus itself. -/
theorem head_eq_ref (c : Dev nD) :
    W5 m ρ c (Proc.devRef .tc main_v48_0)
        = XRef (m ((c : Thread nD τ).loc main_arg0)) (m ((c : Thread nD τ).loc main_arg2)) (m ((c : Thread nD τ).loc main_arg4)) (m ((c : Thread nD τ).loc main_arg5))
            (m ((c : Thread nD τ).loc main_arg1)) (m ((c : Thread nD τ).loc main_arg3)) (m ((c : Thread nD τ).loc main_arg6)) (m ((c : Thread nD τ).loc main_arg7))
    ∧ W5 m ρ c (Proc.devRef .tc main_v48_1)
        = GRef (m ((c : Thread nD τ).loc main_arg1)) (m ((c : Thread nD τ).loc main_arg3)) (m ((c : Thread nD τ).loc main_arg6)) (m ((c : Thread nD τ).loc main_arg7)) :=
  ⟨(head_kernel m ρ c).1.trans
      (GcnLayer.x0_eq (m ((c : Thread nD τ).loc main_arg0)) (m ((c : Thread nD τ).loc main_arg4)) (m ((c : Thread nD τ).loc main_arg2)) (m ((c : Thread nD τ).loc main_arg5))
        (m ((c : Thread nD τ).loc main_arg1)) (m ((c : Thread nD τ).loc main_arg6)) (m ((c : Thread nD τ).loc main_arg3)) (m ((c : Thread nD τ).loc main_arg7))),
    (head_kernel m ρ c).2.trans
      (GcnLayer.g1_eq (m ((c : Thread nD τ).loc main_arg1)) (m ((c : Thread nD τ).loc main_arg6)) (m ((c : Thread nD τ).loc main_arg3)) (m ((c : Thread nD τ).loc main_arg7)))⟩

/-- The same against the reference program's stage values: the first output is its value `%100`, the second its
    value `%160`, of the launch arrays. -/
theorem head_eq (c : Dev nD) :
    W5 m ρ c (Proc.devRef .tc main_v48_0)
        = Cert.ReferenceIdeal.ReadP.val_main_v100 (F := Ideal) (m ((c : Thread nD τ).loc main_arg0)) (m ((c : Thread nD τ).loc main_arg1))
            (m ((c : Thread nD τ).loc main_arg2)) (m ((c : Thread nD τ).loc main_arg3)) (m ((c : Thread nD τ).loc main_arg4)) (m ((c : Thread nD τ).loc main_arg5))
            (m ((c : Thread nD τ).loc main_arg6)) (m ((c : Thread nD τ).loc main_arg7))
    ∧ W5 m ρ c (Proc.devRef .tc main_v48_1)
        = Cert.ReferenceIdeal.ReadP.val_main_v160 (F := Ideal) (m ((c : Thread nD τ).loc main_arg1)) (m ((c : Thread nD τ).loc main_arg3))
            (m ((c : Thread nD τ).loc main_arg6)) (m ((c : Thread nD τ).loc main_arg7)) :=
  ⟨(head_eq_ref m ρ c).1.trans
      (RefLink.xref_v100 (m ((c : Thread nD τ).loc main_arg0)) (m ((c : Thread nD τ).loc main_arg2)) (m ((c : Thread nD τ).loc main_arg4)) (m ((c : Thread nD τ).loc main_arg5))
        (m ((c : Thread nD τ).loc main_arg1)) (m ((c : Thread nD τ).loc main_arg3)) (m ((c : Thread nD τ).loc main_arg6)) (m ((c : Thread nD τ).loc main_arg7))),
    (head_eq_ref m ρ c).2.trans
      (RefLink.gref_v160 (m ((c : Thread nD τ).loc main_arg1)) (m ((c : Thread nD τ).loc main_arg3)) (m ((c : Thread nD τ).loc main_arg6)) (m ((c : Thread nD τ).loc main_arg7)))⟩

end Cert.KernelIdeal.Head

end
-- ==== Proof.ChainFrame.lean ====
/-
  The kernel program's buffer contents read back through its segments: an argument is as launched at every
  boundary; the edge index vectors are the slices of their arguments wherever they are read; the second
  graph's feature array is unchanged by the first head.
-/
import proofs.«149613_j7086696039015_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## The arguments at the inner boundaries -/

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W5_main_arg8 m ρ c

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W5_main_arg9 m ρ c

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W5_main_arg10 m ρ c

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W5_main_arg11 m ρ c

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W5_main_arg12 m ρ c

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W5_main_arg13 m ρ c

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W5_main_arg14 m ρ c

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W5_main_arg15 m ρ c

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := W5_main_arg16 m ρ c

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := W5_main_arg17 m ρ c

theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := W5_of_ne m ρ c main_arg18 (by decide)
    _ = W3 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := W5_main_arg18 m ρ c

theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := W5_of_ne m ρ c main_arg19 (by decide)
    _ = W3 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := W5_main_arg19 m ρ c

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = m ((c : Thread nD τ).loc main_arg11) := W6_main_arg11 m ρ c

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W7_main_arg11 m ρ c

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = m ((c : Thread nD τ).loc main_arg12) := W6_main_arg12 m ρ c

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W7_main_arg12 m ρ c

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = m ((c : Thread nD τ).loc main_arg13) := W6_main_arg13 m ρ c

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W7_main_arg13 m ρ c

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := (W7_arr m ρ c 5).trans (((dat3 (V6 m ρ) c).arrAt_in 5 rfl _).trans (A_eq3 (V6 m ρ) c 5))
    _ = m ((c : Thread nD τ).loc main_arg14) := W6_main_arg14 m ρ c

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := W7_main_arg14 m ρ c

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = m ((c : Thread nD τ).loc main_arg15) := W6_main_arg15 m ρ c

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := W7_main_arg15 m ρ c

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := W7_of_ne m ρ c main_arg16 (by decide)
    _ = m ((c : Thread nD τ).loc main_arg16) := W6_main_arg16 m ρ c

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := W7_main_arg16 m ρ c

theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := W7_of_ne m ρ c main_arg17 (by decide)
    _ = m ((c : Thread nD τ).loc main_arg17) := W6_main_arg17 m ρ c

theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := W7_main_arg17 m ρ c

theorem W7_main_arg18 (c : Dev nD) : W7 m ρ c (Proc.devRef .tc main_arg18) = m ((c : Thread nD τ).loc main_arg18) :=
  calc W7 m ρ c (Proc.devRef .tc main_arg18)
    _ = W6 m ρ c (Proc.devRef .tc main_arg18) := (W7_arr m ρ c 9).trans (((dat3 (V6 m ρ) c).arrAt_in 9 rfl _).trans (A_eq3 (V6 m ρ) c 9))
    _ = m ((c : Thread nD τ).loc main_arg18) := W6_main_arg18 m ρ c

theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := W7_main_arg18 m ρ c

theorem W7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := W7_of_ne m ρ c main_arg19 (by decide)
    _ = m ((c : Thread nD τ).loc main_arg19) := W6_main_arg19 m ρ c

theorem W8_main_arg19 (c : Dev nD) : W8 m ρ c (Proc.devRef .tc main_arg19) = m ((c : Thread nD τ).loc main_arg19) :=
  calc W8 m ρ c (Proc.devRef .tc main_arg19)
    _ = W7 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := W7_main_arg19 m ρ c

/-! ## The edge index vectors and the two feature arrays -/

/-- The first graph's source indices, where the first head's mean reads them: row 0 of the edge list. -/
theorem W5_main_v1 (c : Dev nD) : W5 m ρ c (Proc.devRef .tc main_v1)
    = shapeCast S600000 (extractStridedSlice S1x600000 ![0, 0] (m ((c : Thread nD τ).loc main_arg2)) slices_S2x600000_S1x600000_0_0) shapeCasts_S1x600000_S600000 :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
    _ = W1 m ρ c (Proc.devRef .tc main_v1) := W2_of_ne m ρ c main_v1 (by decide)
    _ = shapeCast S600000 (extractStridedSlice S1x600000 ![0, 0] (m ((c : Thread nD τ).loc main_arg2)) slices_S2x600000_S1x600000_0_0) shapeCasts_S1x600000_S600000 := by
          show StableHlo.after hostOps0 (W0 m ρ c) (Proc.devRef .tc main_v1) = _
          after_results
          rfl

/-- The first graph's destination indices: row 1 of the edge list. -/
theorem W5_main_v3 (c : Dev nD) : W5 m ρ c (Proc.devRef .tc main_v3)
    = shapeCast S600000 (extractStridedSlice S1x600000 ![1, 0] (m ((c : Thread nD τ).loc main_arg2)) slices_S2x600000_S1x600000_1_0) shapeCasts_S1x600000_S600000 :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)
    _ = shapeCast S600000 (extractStridedSlice S1x600000 ![1, 0] (m ((c : Thread nD τ).loc main_arg2)) slices_S2x600000_S1x600000_1_0) shapeCasts_S1x600000_S600000 := by
          show StableHlo.after hostOps0 (W0 m ρ c) (Proc.devRef .tc main_v3) = _
          after_results
          rfl

/-- The second graph's source indices, where the second head's mean reads them. -/
theorem W7_main_v5 (c : Dev nD) : W7 m ρ c (Proc.devRef .tc main_v5)
    = shapeCast S600000 (extractStridedSlice S1x600000 ![0, 0] (m ((c : Thread nD τ).loc main_arg3)) slices_S2x600000_S1x600000_0_0) shapeCasts_S1x600000_S600000 :=
  calc W7 m ρ c (Proc.devRef .tc main_v5)
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := W5_of_ne m ρ c main_v5 (by decide)
    _ = W3 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v5) := W3_of_ne m ρ c main_v5 (by decide)
    _ = W1 m ρ c (Proc.devRef .tc main_v5) := W2_of_ne m ρ c main_v5 (by decide)
    _ = shapeCast S600000 (extractStridedSlice S1x600000 ![0, 0] (m ((c : Thread nD τ).loc main_arg3)) slices_S2x600000_S1x600000_0_0) shapeCasts_S1x600000_S600000 := by
          show StableHlo.after hostOps0 (W0 m ρ c) (Proc.devRef .tc main_v5) = _
          after_results
          rfl

/-- The second graph's destination indices. -/
theorem W7_main_v7 (c : Dev nD) : W7 m ρ c (Proc.devRef .tc main_v7)
    = shapeCast S600000 (extractStridedSlice S1x600000 ![1, 0] (m ((c : Thread nD τ).loc main_arg3)) slices_S2x600000_S1x600000_1_0) shapeCasts_S1x600000_S600000 :=
  calc W7 m ρ c (Proc.devRef .tc main_v7)
    _ = W6 m ρ c (Proc.devRef .tc main_v7) := W7_of_ne m ρ c main_v7 (by decide)
    _ = W5 m ρ c (Proc.devRef .tc main_v7) := StableHlo.after_of_forall_not_mem (b := Proc.devRef .tc main_v7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7) := W5_of_ne m ρ c main_v7 (by decide)
    _ = W3 m ρ c (Proc.devRef .tc main_v7) := StableHlo.after_of_forall_not_mem (b := Proc.devRef .tc main_v7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v7) := W3_of_ne m ρ c main_v7 (by decide)
    _ = W1 m ρ c (Proc.devRef .tc main_v7) := W2_of_ne m ρ c main_v7 (by decide)
    _ = shapeCast S600000 (extractStridedSlice S1x600000 ![1, 0] (m ((c : Thread nD τ).loc main_arg3)) slices_S2x600000_S1x600000_1_0) shapeCasts_S1x600000_S600000 := by
          show StableHlo.after hostOps0 (W0 m ρ c) (Proc.devRef .tc main_v7) = _
          after_results
          rfl

/-- The first head's host operations do not write the first graph's feature array. -/
theorem W6_main_v48_0 (c : Dev nD) : W6 m ρ c (Proc.devRef .tc main_v48_0) = W5 m ρ c (Proc.devRef .tc main_v48_0) :=
  StableHlo.after_of_forall_not_mem (b := Proc.devRef .tc main_v48_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Neither the first head nor its host operations write the second graph's feature array. -/
theorem W7_main_v48_1 (c : Dev nD) : W7 m ρ c (Proc.devRef .tc main_v48_1) = W5 m ρ c (Proc.devRef .tc main_v48_1) :=
  calc W7 m ρ c (Proc.devRef .tc main_v48_1)
    _ = W6 m ρ c (Proc.devRef .tc main_v48_1) := W7_of_ne m ρ c main_v48_1 (by decide)
    _ = W5 m ρ c (Proc.devRef .tc main_v48_1) := StableHlo.after_of_forall_not_mem (b := Proc.devRef .tc main_v48_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second head's host operations do not write it either. -/
theorem W8_main_v48_1 (c : Dev nD) : W8 m ρ c (Proc.devRef .tc main_v48_1) = W5 m ρ c (Proc.devRef .tc main_v48_1) :=
  calc W8 m ρ c (Proc.devRef .tc main_v48_1)
    _ = W7 m ρ c (Proc.devRef .tc main_v48_1) := StableHlo.after_of_forall_not_mem (b := Proc.devRef .tc main_v48_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v48_1) := W7_main_v48_1 m ρ c

/-! ## The biases, the scale and the shift as the one-row arrays the two heads take -/

/-- The first head's one-row array %68: argument 9 reshaped. -/
theorem W6_main_v68 (c : Dev nD) : W6 m ρ c (Proc.devRef .tc main_v68)
    = shapeCast S1x128 (m ((c : Thread nD τ).loc main_arg9)) shapeCasts_S128_S1x128 := by
  show StableHlo.after hostOps3 (W5 m ρ c) (Proc.devRef .tc main_v68) = _
  after_results
  rw [W5_main_arg9 m ρ c]
  rfl

/-- The first head's one-row array %69: argument 15 reshaped. -/
theorem W6_main_v69 (c : Dev nD) : W6 m ρ c (Proc.devRef .tc main_v69)
    = shapeCast S1x128 (m ((c : Thread nD τ).loc main_arg15)) shapeCasts_S128_S1x128 := by
  show StableHlo.after hostOps3 (W5 m ρ c) (Proc.devRef .tc main_v69) = _
  after_results
  rw [W5_main_arg15 m ρ c]
  rfl

/-- The first head's one-row array %70: argument 16 reshaped. -/
theorem W6_main_v70 (c : Dev nD) : W6 m ρ c (Proc.devRef .tc main_v70)
    = shapeCast S1x128 (m ((c : Thread nD τ).loc main_arg16)) shapeCasts_S128_S1x128 := by
  show StableHlo.after hostOps3 (W5 m ρ c) (Proc.devRef .tc main_v70) = _
  after_results
  rw [W5_main_arg16 m ρ c]
  rfl

/-- The first head's one-row array %71: argument 17 reshaped. -/
theorem W6_main_v71 (c : Dev nD) : W6 m ρ c (Proc.devRef .tc main_v71)
    = shapeCast S1x128 (m ((c : Thread nD τ).loc main_arg17)) shapeCasts_S128_S1x128 := by
  show StableHlo.after hostOps3 (W5 m ρ c) (Proc.devRef .tc main_v71) = _
  after_results
  rw [W5_main_arg17 m ρ c]
  rfl

/-- The first head's output bias as a 1×1 array. -/
theorem W6_main_v72 (c : Dev nD) : W6 m ρ c (Proc.devRef .tc main_v72)
    = shapeCast S1x1 (m ((c : Thread nD τ).loc main_arg19)) shapeCasts_S1_S1x1 := by
  show StableHlo.after hostOps3 (W5 m ρ c) (Proc.devRef .tc main_v72) = _
  after_results
  rw [W5_main_arg19 m ρ c]
  rfl

/-- The second head's one-row array %94: argument 12 reshaped. -/
theorem W8_main_v94 (c : Dev nD) : W8 m ρ c (Proc.devRef .tc main_v94)
    = shapeCast S1x128 (m ((c : Thread nD τ).loc main_arg12)) shapeCasts_S128_S1x128 := by
  show StableHlo.after hostOps4 (W7 m ρ c) (Proc.devRef .tc main_v94) = _
  after_results
  rw [W7_main_arg12 m ρ c]
  rfl

/-- The second head's one-row array %95: argument 15 reshaped. -/
theorem W8_main_v95 (c : Dev nD) : W8 m ρ c (Proc.devRef .tc main_v95)
    = shapeCast S1x128 (m ((c : Thread nD τ).loc main_arg15)) shapeCasts_S128_S1x128 := by
  show StableHlo.after hostOps4 (W7 m ρ c) (Proc.devRef .tc main_v95) = _
  after_results
  rw [W7_main_arg15 m ρ c]
  rfl

/-- The second head's one-row array %96: argument 16 reshaped. -/
theorem W8_main_v96 (c : Dev nD) : W8 m ρ c (Proc.devRef .tc main_v96)
    = shapeCast S1x128 (m ((c : Thread nD τ).loc main_arg16)) shapeCasts_S128_S1x128 := by
  show StableHlo.after hostOps4 (W7 m ρ c) (Proc.devRef .tc main_v96) = _
  after_results
  rw [W7_main_arg16 m ρ c]
  rfl

/-- The second head's one-row array %97: argument 17 reshaped. -/
theorem W8_main_v97 (c : Dev nD) : W8 m ρ c (Proc.devRef .tc main_v97)
    = shapeCast S1x128 (m ((c : Thread nD τ).loc main_arg17)) shapeCasts_S128_S1x128 := by
  show StableHlo.after hostOps4 (W7 m ρ c) (Proc.devRef .tc main_v97) = _
  after_results
  rw [W7_main_arg17 m ρ c]
  rfl

/-- The second head's output bias as a 1×1 array. -/
theorem W8_main_v98 (c : Dev nD) : W8 m ρ c (Proc.devRef .tc main_v98)
    = shapeCast S1x1 (m ((c : Thread nD τ).loc main_arg19)) shapeCasts_S1_S1x1 := by
  show StableHlo.after hostOps4 (W7 m ρ c) (Proc.devRef .tc main_v98) = _
  after_results
  rw [W7_main_arg19 m ρ c]
  rfl

end Cert.KernelIdeal.Chain
-- ==== Proof.SpecSage.lean ====
/- The per-row specification of the fused SAGE combine + ReLU + LayerNorm MLP head, on the extended reals.

   One node row is processed independently of every other: with `mean` and `x` the row's two feature
   vectors (256 entries each), the row's result is the scalar

     sage_k = max (Σ_l mean_l · Wl_{l,k} + bl_k + Σ_l x_l · Wr_{l,k}) 0          (k < 128)
     h_q    = Σ_k sage_k · Wm1_{k,q} + bm1_q                                        (q < 128)
     mu     = (Σ_q h_q) / 128
     var    = (Σ_q (h_q - mu) · (h_q - mu)) / 128
     hn_q   = (h_q - mu) · rsqrt (var + eps) · lnw_q + lnb_q
     out    = Σ_q hn_q · Wm2_q + bm2

   with the quotient, the reciprocal square root and the three literals (the zero of the ReLU, 128 and
   eps, as f32 words) those of the ideal instance. Every sum is a plain finite sum over the feature
   axis; the association of the additions is the one written here. -/
import Idealize.ShloMosaic.PureOps.Ideal
import Idealize.ShloMosaic.Lib.ValueIdx
import Mathlib

noncomputable section

namespace Cert.Spec

open Idealize.ShloMosaic
open scoped BigOperators

/-- The SAGE combination of one row, after the ReLU: the two 256-term products with the bias added
    between them, clamped below at the f32 zero. -/
def sageRow (mean x : Fin 256 → EReal) (wl wr : Fin 256 → Fin 128 → EReal) (bl : Fin 128 → EReal) :
    Fin 128 → EReal :=
  fun k => max ((∑ l : Fin 256, mean l * wl l k) + bl k + ∑ l : Fin 256, x l * wr l k)
    (Ideal.ofBits .f32 0x00000000#32)

/-- The first linear layer of the head on one row: a 128-term product plus the bias. -/
def lin1Row (s : Fin 128 → EReal) (wm1 : Fin 128 → Fin 128 → EReal) (bm1 : Fin 128 → EReal) :
    Fin 128 → EReal :=
  fun q => (∑ k : Fin 128, s k * wm1 k q) + bm1 q

/-- The row's mean over its 128 features: the sum divided by the f32 literal 128. -/
def muRow (h : Fin 128 → EReal) : EReal :=
  Ideal.div (∑ q : Fin 128, h q) (Ideal.ofBits .f32 0x43000000#32)

/-- The row's (biased) variance: the sum of the squared deviations divided by the f32 literal 128. -/
def varRow (h : Fin 128 → EReal) : EReal :=
  Ideal.div (∑ q : Fin 128, (h q - muRow h) * (h q - muRow h)) (Ideal.ofBits .f32 0x43000000#32)

/-- The layer normalisation of one row: centred, scaled by the reciprocal square root of the variance
    plus the f32 literal eps (0x3727C5AC), then the affine map by `lnw`, `lnb`. -/
def lnRow (h lnw lnb : Fin 128 → EReal) : Fin 128 → EReal :=
  fun q => (h q - muRow h) * Ideal.rsqrt (varRow h + Ideal.ofBits .f32 0x3727C5AC#32) * lnw q + lnb q

/-- The last linear layer (one output feature): a 128-term product plus the bias. -/
def lin2Row (hn wm2 : Fin 128 → EReal) (bm2 : EReal) : EReal :=
  (∑ q : Fin 128, hn q * wm2 q) + bm2

/-- The whole row: arguments in the order the kernel takes its operands
    (mean, x, Wl, bl, Wr, Wm1, bm1, ln_w, ln_b, Wm2, bm2). -/
def headRow (mean x : Fin 256 → EReal) (wl : Fin 256 → Fin 128 → EReal) (bl : Fin 128 → EReal)
    (wr : Fin 256 → Fin 128 → EReal) (wm1 : Fin 128 → Fin 128 → EReal) (bm1 lnw lnb wm2 : Fin 128 → EReal)
    (bm2 : EReal) : EReal :=
  lin2Row (lnRow (lin1Row (sageRow mean x wl wr bl) wm1 bm1) lnw lnb) wm2 bm2

/-- The whole array of results, over any number `n` of node rows: row `y 0` of the result is `headRow` of
    row `y 0` of `MEAN` and of `X` and of the weight arrays (the biases and the affine pair as one-row
    arrays, the last layer's weights as a one-column array, its bias as a 1×1 array). -/
def headArr {n : Nat} (MEAN X : (⟨2, ![n, 256]⟩ : Shape).Idx → EReal)
    (WL : (⟨2, ![256, 128]⟩ : Shape).Idx → EReal) (BL : (⟨2, ![1, 128]⟩ : Shape).Idx → EReal)
    (WR : (⟨2, ![256, 128]⟩ : Shape).Idx → EReal) (WM1 : (⟨2, ![128, 128]⟩ : Shape).Idx → EReal)
    (BM1 LNW LNB : (⟨2, ![1, 128]⟩ : Shape).Idx → EReal) (WM2 : (⟨2, ![128, 1]⟩ : Shape).Idx → EReal)
    (BM2 : (⟨2, ![1, 1]⟩ : Shape).Idx → EReal) : (⟨2, ![n, 1]⟩ : Shape).Idx → EReal :=
  fun y => headRow (fun l => MEAN (ValueIdx.ix2 (y 0) l)) (fun l => X (ValueIdx.ix2 (y 0) l))
    (fun l k => WL (ValueIdx.ix2 l k)) (fun k => BL (ValueIdx.ix2 (0 : Fin 1) k))
    (fun l k => WR (ValueIdx.ix2 l k)) (fun k q => WM1 (ValueIdx.ix2 k q))
    (fun q => BM1 (ValueIdx.ix2 (0 : Fin 1) q)) (fun q => LNW (ValueIdx.ix2 (0 : Fin 1) q))
    (fun q => LNB (ValueIdx.ix2 (0 : Fin 1) q)) (fun q => WM2 (ValueIdx.ix2 q (0 : Fin 1)))
    (BM2 (ValueIdx.ix2 (0 : Fin 1) (0 : Fin 1)))

end Cert.Spec
-- ==== Proof.RowOps.lean ====
/- General lemmas, at the ideal instance, reading a kernel's row-wise operations at an index with explicit
   coordinates: the plain product of an m×k by a k×n block as a sum over the contracted coordinate; a lane sum
   (a reduction over the last axis of a two-axis block); the keepdims column forms of the layout operations
   ([a] viewed [a,1]; a column [a,1] spread over [a,b]). Nothing here mentions a program. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib

noncomputable section

namespace Cert.RowOps

open Idealize.ShloMosaic Idealize.ShloMosaic.ValueIdx
open scoped BigOperators

variable {α : Type}

/-- The matrix unit's product of an m×k block by a k×n block onto a zero accumulator, read at (a, b): the sum
    over the contracted coordinate of the products of the entries (whatever proof the dimension numbers carry). -/
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 _ k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The source index of a last-axis reduction of a two-axis block over row p with coordinate q inserted. -/
theorem lift_row {a b : Nat} (h : (⟨2, ![a, b]⟩ : Shape).Reduces [(1 : Fin 2)] ⟨1, ![a]⟩) (p : Fin a) (q : Fin b) :
    h.lift (ix1 p) q = ix2 p q := by
  funext c; apply Fin.ext
  show h.liftVal (ix1 p) q.val c = (ix2 p q c).val
  unfold Shape.Reduces.liftVal
  match c with
  | ⟨0, _⟩ => simp
  | ⟨1, _⟩ => simp

/-- A float sum over the last axis of an [a, b] block, read at row p: the sum of the row's b entries. -/
theorem laneSum_apply {a b : Nat} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ q : Fin b, src (ix2 p q) :=
  (Ideal.multiReduction_add_single src acc h hφ hacc (ix1 p)).trans
    (Finset.sum_congr rfl fun q _ => congrArg src (lift_row h p q))

/-- An [a] array viewed [a, 1] reads, at (p, u), the operand at p, whatever the unit coordinate u. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread over [a, b] reads, at (p, q), the column's entry of row p. -/
theorem broadcastTo_a1_ab_apply {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.RowOps
-- ==== Proof.KRegion3.lean ====
/- Region 3 of the kernel program (the fused SAGE combine + ReLU + LayerNorm MLP head, one grid point per
   block of 1000 node rows): the array its output window ends holding is `Spec.headArr` of the eleven arrays the
   region finds in its input windows.

   The body's five payloads are read at an index with explicit coordinates: the three products as sums over the
   contracted coordinate, the two lane sums as sums over the 128 features, the column and row broadcasts at their
   one entry; every format change is the identity on the extended reals. That makes the block a point leaves in
   the output window `Spec.headArr` of the point's input blocks. A point's two moving blocks are rows
   1000 t … 1000 t + 999 of their arrays and the nine others are their whole arrays, so the block is the
   restriction of `Spec.headArr` of the arrays; the 100 blocks tile the 100000 rows (row r is in block r / 1000). -/
import proofs.«149613_j7086696039015_2_alg».proof.Proof.Gen.KernelIdeal.Frame
import proofs.«149613_j7086696039015_2_alg».proof.Proof.SpecSage
import proofs.«149613_j7086696039015_2_alg».proof.Proof.RowOps
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.R3

open Cert.KernelIdeal

theorem hz : (![0, 0] : Fin 2 → Nat) = fun _ => 0 := funext fun a => by fin_cases a <;> rfl

/-! ## The payloads at an index -/

section Payloads

variable (v0 v3 : Vec Ideal S1000x256 .f32) (v6 v8 : Vec Ideal S256x128 .f32) (v11 : Vec Ideal S1x128 .f32)
  (v20 : Vec Ideal S128x128 .f32) (v23 : Vec Ideal S1x128 .f32)

/-- Row `p` of the block after the SAGE combination and the ReLU. -/
abbrev sageOf (p : Fin 1000) : Fin 128 → EReal :=
  Spec.sageRow (fun l => v0 (ix2 p l)) (fun l => v3 (ix2 p l)) (fun l k => v6 (ix2 l k)) (fun l k => v8 (ix2 l k))
    (fun k => v11 (ix2 (0 : Fin 1) k))

/-- Row `p` after the head's first linear layer. -/
abbrev hOf (p : Fin 1000) : Fin 128 → EReal :=
  Spec.lin1Row (sageOf v0 v3 v6 v8 v11 p) (fun k q => v20 (ix2 k q)) (fun q => v23 (ix2 (0 : Fin 1) q))

/-- The first payload (the first linear layer's output) at (p, q). -/
theorem pay2_apply (p : Fin 1000) (q : Fin 128) :
    Gen.k3_pay2 (F := Ideal) v0 v3 v6 v8 v11 v20 v23 (ix2 p q) = hOf v0 v3 v6 v8 v11 v20 v23 p q := by
  unfold Gen.k3_pay2
  show FloatOps.matmul _ none _ _ _ (ix2 p q) + broadcastTo S1000x128 _ _ (ix2 p q) = _
  refine congrArg₂ (· + ·) ?_ ?_
  · refine (RowOps.matmul_plain_apply _ none _ _ p q).trans (Finset.sum_congr rfl fun k _ => ?_)
    refine congrArg₂ (· * ·) ?_ rfl
    show max (FloatOps.matmul _ none _ _ _ (ix2 p k) + broadcastTo S1000x128 _ _ (ix2 p k)
      + FloatOps.matmul _ none _ _ _ (ix2 p k)) (Ideal.ofBits .f32 0x00000000#32) = _
    refine congrArg₂ max (congrArg₂ (· + ·) (congrArg₂ (· + ·) ?_ ?_) ?_) rfl
    · refine (RowOps.matmul_plain_apply _ none _ _ p k).trans (Finset.sum_congr rfl fun l _ => ?_)
      exact congrArg₂ (· * ·) (congrFun (shapeCast_self v0 _) _) rfl
    · exact (broadcastTo_1b_ab_apply _ _ p k).trans (congrFun (shapeCast_self v11 _) _)
    · refine (RowOps.matmul_plain_apply _ none _ _ p k).trans (Finset.sum_congr rfl fun l _ => ?_)
      exact congrArg₂ (· * ·) (congrFun (shapeCast_self v3 _) _) rfl
  · exact (broadcastTo_1b_ab_apply _ _ p q).trans (congrFun (shapeCast_self v23 _) _)

/-- The second payload (the row's mean, kept as a column) at row p. -/
theorem pay3_apply (p : Fin 1000) :
    Gen.k3_pay3 (F := Ideal) v0 v3 v6 v8 v11 v20 v23 (ix2 p (0 : Fin 1)) = Spec.muRow (hOf v0 v3 v6 v8 v11 v20 v23 p) := by
  unfold Gen.k3_pay3
  show Ideal.div (shapeCast S1000x1 _ _ (ix2 p (0 : Fin 1))) (Ideal.ofBits .f32 0x43000000#32) = _
  unfold Spec.muRow
  refine congrArg₂ Ideal.div ?_ rfl
  refine (RowOps.shapeCast_a_a1_apply _ _ p (0 : Fin 1)).trans ?_
  refine (RowOps.laneSum_apply _ _ _ _ _ p).trans (Finset.sum_congr rfl fun q _ => ?_)
  exact pay2_apply v0 v3 v6 v8 v11 v20 v23 p q

/-- The third payload (the row's sum of squared deviations, kept as a column) at row p. -/
theorem pay4_apply (p : Fin 1000) :
    Gen.k3_pay4 (F := Ideal) v0 v3 v6 v8 v11 v20 v23 (ix2 p (0 : Fin 1))
      = ∑ q : Fin 128, (hOf v0 v3 v6 v8 v11 v20 v23 p q - Spec.muRow (hOf v0 v3 v6 v8 v11 v20 v23 p))
          * (hOf v0 v3 v6 v8 v11 v20 v23 p q - Spec.muRow (hOf v0 v3 v6 v8 v11 v20 v23 p)) := by
  unfold Gen.k3_pay4
  refine (RowOps.shapeCast_a_a1_apply _ _ p (0 : Fin 1)).trans ?_
  refine (RowOps.laneSum_apply _ _ _ _ _ p).trans (Finset.sum_congr rfl fun q _ => ?_)
  have e : Gen.k3_pay2 (F := Ideal) v0 v3 v6 v8 v11 v20 v23 (ix2 p q)
        - broadcastTo S1000x128 (Gen.k3_pay3 (F := Ideal) v0 v3 v6 v8 v11 v20 v23) Gen.broadcasts_S1000x1_S1000x128 (ix2 p q)
      = hOf v0 v3 v6 v8 v11 v20 v23 p q - Spec.muRow (hOf v0 v3 v6 v8 v11 v20 v23 p) :=
    congrArg₂ (· - ·) (pay2_apply v0 v3 v6 v8 v11 v20 v23 p q)
      ((RowOps.broadcastTo_a1_ab_apply _ _ p q).trans (pay3_apply v0 v3 v6 v8 v11 v20 v23 p))
  exact congrArg₂ (· * ·) e e

/-- The fourth payload is the literal 128 in every entry. -/
theorem pay5_apply (p : Fin 1000) :
    Gen.k3_pay5 (F := Ideal) (ix2 p (0 : Fin 1)) = Ideal.ofBits .f32 0x43000000#32 := rfl

end Payloads

section Store

variable (v26 : FVec Ideal S1000x128 .f32) (v30 v35 v36 : FVec Ideal S1000x1 .f32) (v45 v49 : Vec Ideal S1x128 .f32)
  (v54 : Vec Ideal S128x1 .f32) (v57 : Vec Ideal S1x1 .f32)

/-- The stored payload at row p, from the four values the first part hands on: the normalisation, the affine
    map, the last product and its bias. -/
theorem pay1_apply (p : Fin 1000) :
    Gen.k3_pay1 (F := Ideal) v26 v30 v35 v36 v45 v49 v54 v57 (ix2 p (0 : Fin 1))
      = (∑ q : Fin 128, ((v26 (ix2 p q) - v30 (ix2 p (0 : Fin 1)))
            * Ideal.rsqrt (Ideal.div (v35 (ix2 p (0 : Fin 1))) (v36 (ix2 p (0 : Fin 1)))
                + Ideal.ofBits .f32 0x3727C5AC#32)
            * v45 (ix2 (0 : Fin 1) q) + v49 (ix2 (0 : Fin 1) q)) * v54 (ix2 q (0 : Fin 1)))
        + v57 (ix2 (0 : Fin 1) (0 : Fin 1)) := by
  unfold Gen.k3_pay1
  show FloatOps.matmul _ none _ _ _ (ix2 p (0 : Fin 1)) + broadcastTo S1000x1 _ _ (ix2 p (0 : Fin 1)) = _
  refine congrArg₂ (· + ·) ?_ ?_
  · refine (RowOps.matmul_plain_apply _ none _ _ p (0 : Fin 1)).trans (Finset.sum_congr rfl fun q _ => ?_)
    refine congrArg₂ (· * ·) ?_ rfl
    show (v26 (ix2 p q) - broadcastTo S1000x128 v30 _ (ix2 p q)) * broadcastTo S1000x128 _ _ (ix2 p q)
        * broadcastTo S1000x128 _ _ (ix2 p q) + broadcastTo S1000x128 _ _ (ix2 p q) = _
    refine congrArg₂ (· + ·) (congrArg₂ (· * ·) (congrArg₂ (· * ·) (congrArg₂ (· - ·) rfl ?_) ?_) ?_) ?_
    · exact RowOps.broadcastTo_a1_ab_apply _ _ p q
    · exact RowOps.broadcastTo_a1_ab_apply _ _ p q
    · exact (broadcastTo_1b_ab_apply _ _ p q).trans (congrFun (shapeCast_self v45 _) _)
    · exact (broadcastTo_1b_ab_apply _ _ p q).trans (congrFun (shapeCast_self v49 _) _)
  · exact (broadcastTo_1b_ab_apply _ _ p (0 : Fin 1)).trans (congrFun (shapeCast_self v57 _) _)

end Store

/-- What a point leaves in the output window's buffer is `Spec.headArr` of its eleven input blocks. -/
theorem out_apply (x0 x1 : Vec Ideal S1000x256 .f32) (x2 : Vec Ideal S256x128 .f32) (x3 : Vec Ideal S1x128 .f32)
    (x4 : Vec Ideal S256x128 .f32) (x5 : Vec Ideal S128x128 .f32) (x6 x7 x8 : Vec Ideal S1x128 .f32)
    (x9 : Vec Ideal S128x1 .f32) (x10 : Vec Ideal S1x1 .f32) (p : Fin 1000) :
    Gen.out3_11 (F := Ideal) x0 x1 x2 x3 x4 x5 x6 x7 x8 x9 x10 (ix2 p (0 : Fin 1))
      = Spec.headArr (n := 1000) x0 x1 x2 x3 x4 x5 x6 x7 x8 x9 x10 (ix2 p (0 : Fin 1)) := by
  unfold Gen.out3_11
  rw [View.canon_unit_zero hz]
  simp only [View.ld_unit_zero (S := S1000x256) hz, View.ld_unit_zero (S := S256x128) hz,
    View.ld_unit_zero (S := S1x128) hz, View.ld_unit_zero (S := S128x128) hz, View.ld_unit_zero (S := S128x1) hz,
    View.ld_unit_zero (S := S1x1) hz]
  refine (pay1_apply _ _ _ _ x7 x8 x9 x10 p).trans ?_
  rw [pay3_apply x0 x1 x2 x4 x3 x5 x6 p, pay4_apply x0 x1 x2 x4 x3 x5 x6 p, pay5_apply p]
  simp only [pay2_apply x0 x1 x2 x4 x3 x5 x6 p]
  rfl

/-! ## From blocks to the array -/

section Region

variable (V : (c : Dev nD) → (b : Ref sig .tc) → Buf (Elt Ideal) ((c : Thread nD τ).loc b))

/-- The printed index maps, decided over the grid: the two node-row windows and the output window are at block
    `t` of the row axis at point `t`, every other window at its one block. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = t.val
    ∧ win3_11.index t (1 : Fin 2) = 0 :=
  (by decide +kernel : ∀ t : Fin grid3.N, _)

/-- Window 0's block at point `t` is rows `1000 t … 1000 t + 999` of its array. -/
theorem read0 (c : Dev nD) (t : Fin cfg3.N) (p : Fin 1000) (l : Fin 256) (r : Fin 100000)
    (hr : r.val = t.val * 1000 + p.val) :
    Gen.iblk3 (F := Ideal) V c 0 t (ix2 p l) = (V c (Pipeline.arrRef spec3 0) : S100000x256.Idx → EReal) (ix2 r l) := by
  obtain ⟨e0, e1, e2, e3, e4, e5, e6, e7, e8, e9, e10, e11, e12, e13, e14, e15, e16, e17, e18, e19, e20, e21, e22, e23⟩ := idx_facts t
  show (V c (Pipeline.arrRef spec3 0) : S100000x256.Idx → EReal) (((cfg3.win 0).blk t).view.emb (ix2 p l)) = _
  congr 1
  funext a
  apply Fin.ext
  match a with
  | ⟨0, _⟩ => show win3_0.index t (0 : Fin 2) * 1000 + 1 * p.val = r.val; omega
  | ⟨1, _⟩ => show win3_0.index t (1 : Fin 2) * 256 + 1 * l.val = l.val; omega

/-- Window 1's block at point `t` is rows `1000 t … 1000 t + 999` of its array. -/
theorem read1 (c : Dev nD) (t : Fin cfg3.N) (p : Fin 1000) (l : Fin 256) (r : Fin 100000)
    (hr : r.val = t.val * 1000 + p.val) :
    Gen.iblk3 (F := Ideal) V c 1 t (ix2 p l) = (V c (Pipeline.arrRef spec3 1) : S100000x256.Idx → EReal) (ix2 r l) := by
  obtain ⟨e0, e1, e2, e3, e4, e5, e6, e7, e8, e9, e10, e11, e12, e13, e14, e15, e16, e17, e18, e19, e20, e21, e22, e23⟩ := idx_facts t
  show (V c (Pipeline.arrRef spec3 1) : S100000x256.Idx → EReal) (((cfg3.win 1).blk t).view.emb (ix2 p l)) = _
  congr 1
  funext a
  apply Fin.ext
  match a with
  | ⟨0, _⟩ => show win3_1.index t (0 : Fin 2) * 1000 + 1 * p.val = r.val; omega
  | ⟨1, _⟩ => show win3_1.index t (1 : Fin 2) * 256 + 1 * l.val = l.val; omega

/-- Window 2 is one whole block: at every point it is its array. -/
theorem read2 (c : Dev nD) (t : Fin cfg3.N) (a' : Fin 256) (b' : Fin 128) :
    Gen.iblk3 (F := Ideal) V c 2 t (ix2 a' b') = (V c (Pipeline.arrRef spec3 2) : S256x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 2) : S256x128.Idx → EReal) (((cfg3.win 2).blk t).view.emb (ix2 a' b')) = _
  congr 1
  funext a
  apply Fin.ext
  match a with
  | ⟨0, _⟩ => show win3_2.index t (0 : Fin 2) * 256 + 1 * a'.val = a'.val; omega
  | ⟨1, _⟩ => show win3_2.index t (1 : Fin 2) * 128 + 1 * b'.val = b'.val; omega

/-- Window 3 is one whole block: at every point it is its array. -/
theorem read3 (c : Dev nD) (t : Fin cfg3.N) (a' : Fin 1) (b' : Fin 128) :
    Gen.iblk3 (F := Ideal) V c 3 t (ix2 a' b') = (V c (Pipeline.arrRef spec3 3) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 3) : S1x128.Idx → EReal) (((cfg3.win 3).blk t).view.emb (ix2 a' b')) = _
  congr 1
  funext a
  apply Fin.ext
  match a with
  | ⟨0, _⟩ => show win3_3.index t (0 : Fin 2) * 1 + 1 * a'.val = a'.val; omega
  | ⟨1, _⟩ => show win3_3.index t (1 : Fin 2) * 128 + 1 * b'.val = b'.val; omega

/-- Window 4 is one whole block: at every point it is its array. -/
theorem read4 (c : Dev nD) (t : Fin cfg3.N) (a' : Fin 256) (b' : Fin 128) :
    Gen.iblk3 (F := Ideal) V c 4 t (ix2 a' b') = (V c (Pipeline.arrRef spec3 4) : S256x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 4) : S256x128.Idx → EReal) (((cfg3.win 4).blk t).view.emb (ix2 a' b')) = _
  congr 1
  funext a
  apply Fin.ext
  match a with
  | ⟨0, _⟩ => show win3_4.index t (0 : Fin 2) * 256 + 1 * a'.val = a'.val; omega
  | ⟨1, _⟩ => show win3_4.index t (1 : Fin 2) * 128 + 1 * b'.val = b'.val; omega

/-- Window 5 is one whole block: at every point it is its array. -/
theorem read5 (c : Dev nD) (t : Fin cfg3.N) (a' : Fin 128) (b' : Fin 128) :
    Gen.iblk3 (F := Ideal) V c 5 t (ix2 a' b') = (V c (Pipeline.arrRef spec3 5) : S128x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 5) : S128x128.Idx → EReal) (((cfg3.win 5).blk t).view.emb (ix2 a' b')) = _
  congr 1
  funext a
  apply Fin.ext
  match a with
  | ⟨0, _⟩ => show win3_5.index t (0 : Fin 2) * 128 + 1 * a'.val = a'.val; omega
  | ⟨1, _⟩ => show win3_5.index t (1 : Fin 2) * 128 + 1 * b'.val = b'.val; omega

/-- Window 6 is one whole block: at every point it is its array. -/
theorem read6 (c : Dev nD) (t : Fin cfg3.N) (a' : Fin 1) (b' : Fin 128) :
    Gen.iblk3 (F := Ideal) V c 6 t (ix2 a' b') = (V c (Pipeline.arrRef spec3 6) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 6) : S1x128.Idx → EReal) (((cfg3.win 6).blk t).view.emb (ix2 a' b')) = _
  congr 1
  funext a
  apply Fin.ext
  match a with
  | ⟨0, _⟩ => show win3_6.index t (0 : Fin 2) * 1 + 1 * a'.val = a'.val; omega
  | ⟨1, _⟩ => show win3_6.index t (1 : Fin 2) * 128 + 1 * b'.val = b'.val; omega

/-- Window 7 is one whole block: at every point it is its array. -/
theorem read7 (c : Dev nD) (t : Fin cfg3.N) (a' : Fin 1) (b' : Fin 128) :
    Gen.iblk3 (F := Ideal) V c 7 t (ix2 a' b') = (V c (Pipeline.arrRef spec3 7) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 7) : S1x128.Idx → EReal) (((cfg3.win 7).blk t).view.emb (ix2 a' b')) = _
  congr 1
  funext a
  apply Fin.ext
  match a with
  | ⟨0, _⟩ => show win3_7.index t (0 : Fin 2) * 1 + 1 * a'.val = a'.val; omega
  | ⟨1, _⟩ => show win3_7.index t (1 : Fin 2) * 128 + 1 * b'.val = b'.val; omega

/-- Window 8 is one whole block: at every point it is its array. -/
theorem read8 (c : Dev nD) (t : Fin cfg3.N) (a' : Fin 1) (b' : Fin 128) :
    Gen.iblk3 (F := Ideal) V c 8 t (ix2 a' b') = (V c (Pipeline.arrRef spec3 8) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 8) : S1x128.Idx → EReal) (((cfg3.win 8).blk t).view.emb (ix2 a' b')) = _
  congr 1
  funext a
  apply Fin.ext
  match a with
  | ⟨0, _⟩ => show win3_8.index t (0 : Fin 2) * 1 + 1 * a'.val = a'.val; omega
  | ⟨1, _⟩ => show win3_8.index t (1 : Fin 2) * 128 + 1 * b'.val = b'.val; omega

/-- Window 9 is one whole block: at every point it is its array. -/
theorem read9 (c : Dev nD) (t : Fin cfg3.N) (a' : Fin 128) (b' : Fin 1) :
    Gen.iblk3 (F := Ideal) V c 9 t (ix2 a' b') = (V c (Pipeline.arrRef spec3 9) : S128x1.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 9) : S128x1.Idx → EReal) (((cfg3.win 9).blk t).view.emb (ix2 a' b')) = _
  congr 1
  funext a
  apply Fin.ext
  match a with
  | ⟨0, _⟩ => show win3_9.index t (0 : Fin 2) * 128 + 1 * a'.val = a'.val; omega
  | ⟨1, _⟩ => show win3_9.index t (1 : Fin 2) * 1 + 1 * b'.val = b'.val; omega

/-- Window 10 is one whole block: at every point it is its array. -/
theorem read10 (c : Dev nD) (t : Fin cfg3.N) (a' : Fin 1) (b' : Fin 1) :
    Gen.iblk3 (F := Ideal) V c 10 t (ix2 a' b') = (V c (Pipeline.arrRef spec3 10) : S1x1.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec3 10) : S1x1.Idx → EReal) (((cfg3.win 10).blk t).view.emb (ix2 a' b')) = _
  congr 1
  funext a
  apply Fin.ext
  match a with
  | ⟨0, _⟩ => show win3_10.index t (0 : Fin 2) * 1 + 1 * a'.val = a'.val; omega
  | ⟨1, _⟩ => show win3_10.index t (1 : Fin 2) * 1 + 1 * b'.val = b'.val; omega

/-- The array the region leaves in its output window, as one function of the arrays it finds in its input windows. -/
abbrev result (c : Dev nD) : S100000x1.Idx → EReal :=
  Spec.headArr (n := 100000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))

/-- WHAT POINT `t` WRITES BACK is block `t` of `result`. -/
theorem flushed_eq (c : Dev nD) (t : Fin cfg3.N) :
    (Gen.dat3 (F := Ideal) V c).flushed 11 t = ((cfg3.win 11).blk t).view.read (Elt Ideal) (result V c) := by
  show (cfg3.win 11).cut (grid3.coords t) ((Gen.dat3 (F := Ideal) V c).after 11 t) = _
  rw [Gen.after3_11]
  funext j
  obtain ⟨p, u, rfl⟩ : ∃ (p : Fin 1000) (u : Fin 1), j = ix2 p u := ⟨j 0, j 1, eq_ix2 j⟩
  obtain rfl : u = 0 := Fin.eq_zero u
  obtain ⟨e0, e1, e2, e3, e4, e5, e6, e7, e8, e9, e10, e11, e12, e13, e14, e15, e16, e17, e18, e19, e20, e21, e22, e23⟩ := idx_facts t
  have hr : t.val * 1000 + p.val < 100000 := by
    have ht : t.val < 100 := by have := t.isLt; have hN : cfg3.N = 100 := Gen.N_3; omega
    have := p.isLt; omega
  refine (out_apply (Gen.iblk3 V c 0 t) (Gen.iblk3 V c 1 t) (Gen.iblk3 V c 2 t) (Gen.iblk3 V c 3 t) (Gen.iblk3 V c 4 t) (Gen.iblk3 V c 5 t) (Gen.iblk3 V c 6 t) (Gen.iblk3 V c 7 t) (Gen.iblk3 V c 8 t) (Gen.iblk3 V c 9 t) (Gen.iblk3 V c 10 t) p).trans ?_
  have hemb : ((cfg3.win 11).blk t).view.emb (ix2 p (0 : Fin 1)) = (ix2 (⟨t.val * 1000 + p.val, hr⟩ : Fin 100000) (0 : Fin 1) : S100000x1.Idx) := by
    funext a
    apply Fin.ext
    match a with
    | ⟨0, _⟩ => show win3_11.index t (0 : Fin 2) * 1000 + 1 * p.val = t.val * 1000 + p.val; omega
    | ⟨1, _⟩ => show win3_11.index t (1 : Fin 2) * 1 + 1 * 0 = 0; omega
  show _ = result V c (((cfg3.win 11).blk t).view.emb (ix2 p (0 : Fin 1)))
  rw [hemb]
  show Spec.headRow _ _ _ _ _ _ _ _ _ _ _ = Spec.headRow _ _ _ _ _ _ _ _ _ _ _
  congr 1
  · funext l; exact read0 V c t p l _ rfl
  · funext l; exact read1 V c t p l _ rfl
  · funext l k; exact read2 V c t l k
  · funext k; exact read3 V c t 0 k
  · funext l k; exact read4 V c t l k
  · funext k q; exact read5 V c t k q
  · funext q; exact read6 V c t 0 q
  · funext q; exact read7 V c t 0 q
  · funext q; exact read8 V c t 0 q
  · funext q; exact read9 V c t q 0
  · exact read10 V c t 0 0

/-- An index of the output array is in point `t`'s block iff each coordinate is in the block's range on its axis. -/
theorem mem_blk (t : Fin cfg3.N) (i : S100000x1.Idx) :
    i ∈ ((cfg3.win 11).blk t).view.set ↔ ∀ a : Fin 2, win3_11.index t a * S1000x1.size a ≤ (i a).val
      ∧ (i a).val < win3_11.index t a * S1000x1.size a + S1000x1.size a := by
  show i ∈ ((View.whole main_v73).slice (win3_11.rect t)).set ↔ _
  rw [View.set_slice_whole, Rect.mem_set_unit]
  exact Iff.rfl

/-- Every row of the output array is in some point's block: row r in block r / 1000. -/
theorem cover (i : S100000x1.Idx) :
    ∃ t : Fin cfg3.N, (cfg3.win 11).flush t = true ∧ i ∈ ((cfg3.win 11).blk t).view.set := by
  have hi0 : (i 0).val < 100000 := (i 0).isLt
  have hi1 : (i 1).val < 1 := (i 1).isLt
  have hN : cfg3.N = 100 := Gen.N_3
  let t : Fin cfg3.N := ⟨(i 0).val / 1000, by rw [hN]; omega⟩
  have htv : t.val = (i 0).val / 1000 := rfl
  obtain ⟨e0, e1, e2, e3, e4, e5, e6, e7, e8, e9, e10, e11, e12, e13, e14, e15, e16, e17, e18, e19, e20, e21, e22, e23⟩ := idx_facts t
  refine ⟨t, Gen.flush3_11 t, ?_⟩
  rw [mem_blk]
  intro a
  match a with
  | ⟨0, _⟩ =>
    show win3_11.index t (0 : Fin 2) * 1000 ≤ (i 0).val ∧ (i 0).val < win3_11.index t (0 : Fin 2) * 1000 + 1000
    omega
  | ⟨1, _⟩ =>
    show win3_11.index t (1 : Fin 2) * 1 ≤ (i 1).val ∧ (i 1).val < win3_11.index t (1 : Fin 2) * 1 + 1
    omega

/-- THE ARRAY the region leaves in its output window: `Spec.headArr` of the arrays in its eleven input windows. -/
theorem final3_11 (c : Dev nD) :
    (Gen.dat3 (F := Ideal) V c).arrAt 11 cfg3.N = Spec.headArr (n := 100000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) :=
  (Gen.dat3 (F := Ideal) V c).arrAt_eq_of_cover 11 (result V c) (fun t _ => flushed_eq V c t) (cover)

end Region

end Cert.KernelIdeal.R3

end
-- ==== Proof.KRegion4.lean ====
/- Region 4 of the kernel program (the fused SAGE combine + ReLU + LayerNorm MLP head, one grid point per
   block of 1000 node rows): the array its output window ends holding is `Spec.headArr` of the eleven arrays the
   region finds in its input windows.

   The body's five payloads are read at an index with explicit coordinates: the three products as sums over the
   contracted coordinate, the two lane sums as sums over the 128 features, the column and row broadcasts at their
   one entry; every format change is the identity on the extended reals. That makes the block a point leaves in
   the output window `Spec.headArr` of the point's input blocks. A point's two moving blocks are rows
   1000 t … 1000 t + 999 of their arrays and the nine others are their whole arrays, so the block is the
   restriction of `Spec.headArr` of the arrays; the 100 blocks tile the 100000 rows (row r is in block r / 1000). -/
import proofs.«149613_j7086696039015_2_alg».proof.Proof.Gen.KernelIdeal.Frame
import proofs.«149613_j7086696039015_2_alg».proof.Proof.SpecSage
import proofs.«149613_j7086696039015_2_alg».proof.Proof.RowOps
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.R4

open Cert.KernelIdeal

theorem hz : (![0, 0] : Fin 2 → Nat) = fun _ => 0 := funext fun a => by fin_cases a <;> rfl

/-! ## The payloads at an index -/

section Payloads

variable (v0 v3 : Vec Ideal S1000x256 .f32) (v6 v8 : Vec Ideal S256x128 .f32) (v11 : Vec Ideal S1x128 .f32)
  (v20 : Vec Ideal S128x128 .f32) (v23 : Vec Ideal S1x128 .f32)

/-- Row `p` of the block after the SAGE combination and the ReLU. -/
abbrev sageOf (p : Fin 1000) : Fin 128 → EReal :=
  Spec.sageRow (fun l => v0 (ix2 p l)) (fun l => v3 (ix2 p l)) (fun l k => v6 (ix2 l k)) (fun l k => v8 (ix2 l k))
    (fun k => v11 (ix2 (0 : Fin 1) k))

/-- Row `p` after the head's first linear layer. -/
abbrev hOf (p : Fin 1000) : Fin 128 → EReal :=
  Spec.lin1Row (sageOf v0 v3 v6 v8 v11 p) (fun k q => v20 (ix2 k q)) (fun q => v23 (ix2 (0 : Fin 1) q))

/-- The first payload (the first linear layer's output) at (p, q). -/
theorem pay2_apply (p : Fin 1000) (q : Fin 128) :
    Gen.k4_pay2 (F := Ideal) v0 v3 v6 v8 v11 v20 v23 (ix2 p q) = hOf v0 v3 v6 v8 v11 v20 v23 p q := by
  unfold Gen.k4_pay2
  show FloatOps.matmul _ none _ _ _ (ix2 p q) + broadcastTo S1000x128 _ _ (ix2 p q) = _
  refine congrArg₂ (· + ·) ?_ ?_
  · refine (RowOps.matmul_plain_apply _ none _ _ p q).trans (Finset.sum_congr rfl fun k _ => ?_)
    refine congrArg₂ (· * ·) ?_ rfl
    show max (FloatOps.matmul _ none _ _ _ (ix2 p k) + broadcastTo S1000x128 _ _ (ix2 p k)
      + FloatOps.matmul _ none _ _ _ (ix2 p k)) (Ideal.ofBits .f32 0x00000000#32) = _
    refine congrArg₂ max (congrArg₂ (· + ·) (congrArg₂ (· + ·) ?_ ?_) ?_) rfl
    · refine (RowOps.matmul_plain_apply _ none _ _ p k).trans (Finset.sum_congr rfl fun l _ => ?_)
      exact congrArg₂ (· * ·) (congrFun (shapeCast_self v0 _) _) rfl
    · exact (broadcastTo_1b_ab_apply _ _ p k).trans (congrFun (shapeCast_self v11 _) _)
    · refine (RowOps.matmul_plain_apply _ none _ _ p k).trans (Finset.sum_congr rfl fun l _ => ?_)
      exact congrArg₂ (· * ·) (congrFun (shapeCast_self v3 _) _) rfl
  · exact (broadcastTo_1b_ab_apply _ _ p q).trans (congrFun (shapeCast_self v23 _) _)

/-- The second payload (the row's mean, kept as a column) at row p. -/
theorem pay3_apply (p : Fin 1000) :
    Gen.k4_pay3 (F := Ideal) v0 v3 v6 v8 v11 v20 v23 (ix2 p (0 : Fin 1)) = Spec.muRow (hOf v0 v3 v6 v8 v11 v20 v23 p) := by
  unfold Gen.k4_pay3
  show Ideal.div (shapeCast S1000x1 _ _ (ix2 p (0 : Fin 1))) (Ideal.ofBits .f32 0x43000000#32) = _
  unfold Spec.muRow
  refine congrArg₂ Ideal.div ?_ rfl
  refine (RowOps.shapeCast_a_a1_apply _ _ p (0 : Fin 1)).trans ?_
  refine (RowOps.laneSum_apply _ _ _ _ _ p).trans (Finset.sum_congr rfl fun q _ => ?_)
  exact pay2_apply v0 v3 v6 v8 v11 v20 v23 p q

/-- The third payload (the row's sum of squared deviations, kept as a column) at row p. -/
theorem pay4_apply (p : Fin 1000) :
    Gen.k4_pay4 (F := Ideal) v0 v3 v6 v8 v11 v20 v23 (ix2 p (0 : Fin 1))
      = ∑ q : Fin 128, (hOf v0 v3 v6 v8 v11 v20 v23 p q - Spec.muRow (hOf v0 v3 v6 v8 v11 v20 v23 p))
          * (hOf v0 v3 v6 v8 v11 v20 v23 p q - Spec.muRow (hOf v0 v3 v6 v8 v11 v20 v23 p)) := by
  unfold Gen.k4_pay4
  refine (RowOps.shapeCast_a_a1_apply _ _ p (0 : Fin 1)).trans ?_
  refine (RowOps.laneSum_apply _ _ _ _ _ p).trans (Finset.sum_congr rfl fun q _ => ?_)
  have e : Gen.k4_pay2 (F := Ideal) v0 v3 v6 v8 v11 v20 v23 (ix2 p q)
        - broadcastTo S1000x128 (Gen.k4_pay3 (F := Ideal) v0 v3 v6 v8 v11 v20 v23) Gen.broadcasts_S1000x1_S1000x128 (ix2 p q)
      = hOf v0 v3 v6 v8 v11 v20 v23 p q - Spec.muRow (hOf v0 v3 v6 v8 v11 v20 v23 p) :=
    congrArg₂ (· - ·) (pay2_apply v0 v3 v6 v8 v11 v20 v23 p q)
      ((RowOps.broadcastTo_a1_ab_apply _ _ p q).trans (pay3_apply v0 v3 v6 v8 v11 v20 v23 p))
  exact congrArg₂ (· * ·) e e

/-- The fourth payload is the literal 128 in every entry. -/
theorem pay5_apply (p : Fin 1000) :
    Gen.k4_pay5 (F := Ideal) (ix2 p (0 : Fin 1)) = Ideal.ofBits .f32 0x43000000#32 := rfl

end Payloads

section Store

variable (v26 : FVec Ideal S1000x128 .f32) (v30 v35 v36 : FVec Ideal S1000x1 .f32) (v45 v49 : Vec Ideal S1x128 .f32)
  (v54 : Vec Ideal S128x1 .f32) (v57 : Vec Ideal S1x1 .f32)

/-- The stored payload at row p, from the four values the first part hands on: the normalisation, the affine
    map, the last product and its bias. -/
theorem pay1_apply (p : Fin 1000) :
    Gen.k4_pay1 (F := Ideal) v26 v30 v35 v36 v45 v49 v54 v57 (ix2 p (0 : Fin 1))
      = (∑ q : Fin 128, ((v26 (ix2 p q) - v30 (ix2 p (0 : Fin 1)))
            * Ideal.rsqrt (Ideal.div (v35 (ix2 p (0 : Fin 1))) (v36 (ix2 p (0 : Fin 1)))
                + Ideal.ofBits .f32 0x3727C5AC#32)
            * v45 (ix2 (0 : Fin 1) q) + v49 (ix2 (0 : Fin 1) q)) * v54 (ix2 q (0 : Fin 1)))
        + v57 (ix2 (0 : Fin 1) (0 : Fin 1)) := by
  unfold Gen.k4_pay1
  show FloatOps.matmul _ none _ _ _ (ix2 p (0 : Fin 1)) + broadcastTo S1000x1 _ _ (ix2 p (0 : Fin 1)) = _
  refine congrArg₂ (· + ·) ?_ ?_
  · refine (RowOps.matmul_plain_apply _ none _ _ p (0 : Fin 1)).trans (Finset.sum_congr rfl fun q _ => ?_)
    refine congrArg₂ (· * ·) ?_ rfl
    show (v26 (ix2 p q) - broadcastTo S1000x128 v30 _ (ix2 p q)) * broadcastTo S1000x128 _ _ (ix2 p q)
        * broadcastTo S1000x128 _ _ (ix2 p q) + broadcastTo S1000x128 _ _ (ix2 p q) = _
    refine congrArg₂ (· + ·) (congrArg₂ (· * ·) (congrArg₂ (· * ·) (congrArg₂ (· - ·) rfl ?_) ?_) ?_) ?_
    · exact RowOps.broadcastTo_a1_ab_apply _ _ p q
    · exact RowOps.broadcastTo_a1_ab_apply _ _ p q
    · exact (broadcastTo_1b_ab_apply _ _ p q).trans (congrFun (shapeCast_self v45 _) _)
    · exact (broadcastTo_1b_ab_apply _ _ p q).trans (congrFun (shapeCast_self v49 _) _)
  · exact (broadcastTo_1b_ab_apply _ _ p (0 : Fin 1)).trans (congrFun (shapeCast_self v57 _) _)

end Store

/-- What a point leaves in the output window's buffer is `Spec.headArr` of its eleven input blocks. -/
theorem out_apply (x0 x1 : Vec Ideal S1000x256 .f32) (x2 : Vec Ideal S256x128 .f32) (x3 : Vec Ideal S1x128 .f32)
    (x4 : Vec Ideal S256x128 .f32) (x5 : Vec Ideal S128x128 .f32) (x6 x7 x8 : Vec Ideal S1x128 .f32)
    (x9 : Vec Ideal S128x1 .f32) (x10 : Vec Ideal S1x1 .f32) (p : Fin 1000) :
    Gen.out4_11 (F := Ideal) x0 x1 x2 x3 x4 x5 x6 x7 x8 x9 x10 (ix2 p (0 : Fin 1))
      = Spec.headArr (n := 1000) x0 x1 x2 x3 x4 x5 x6 x7 x8 x9 x10 (ix2 p (0 : Fin 1)) := by
  unfold Gen.out4_11
  rw [View.canon_unit_zero hz]
  simp only [View.ld_unit_zero (S := S1000x256) hz, View.ld_unit_zero (S := S256x128) hz,
    View.ld_unit_zero (S := S1x128) hz, View.ld_unit_zero (S := S128x128) hz, View.ld_unit_zero (S := S128x1) hz,
    View.ld_unit_zero (S := S1x1) hz]
  refine (pay1_apply _ _ _ _ x7 x8 x9 x10 p).trans ?_
  rw [pay3_apply x0 x1 x2 x4 x3 x5 x6 p, pay4_apply x0 x1 x2 x4 x3 x5 x6 p, pay5_apply p]
  simp only [pay2_apply x0 x1 x2 x4 x3 x5 x6 p]
  rfl

/-! ## From blocks to the array -/

section Region

variable (V : (c : Dev nD) → (b : Ref sig .tc) → Buf (Elt Ideal) ((c : Thread nD τ).loc b))

/-- The printed index maps, decided over the grid: the two node-row windows and the output window are at block
    `t` of the row axis at point `t`, every other window at its one block. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = 0
    ∧ win4_10.index t (1 : Fin 2) = 0
    ∧ win4_11.index t (0 : Fin 2) = t.val
    ∧ win4_11.index t (1 : Fin 2) = 0 :=
  (by decide +kernel : ∀ t : Fin grid4.N, _)

/-- Window 0's block at point `t` is rows `1000 t … 1000 t + 999` of its array. -/
theorem read0 (c : Dev nD) (t : Fin cfg4.N) (p : Fin 1000) (l : Fin 256) (r : Fin 100000)
    (hr : r.val = t.val * 1000 + p.val) :
    Gen.iblk4 (F := Ideal) V c 0 t (ix2 p l) = (V c (Pipeline.arrRef spec4 0) : S100000x256.Idx → EReal) (ix2 r l) := by
  obtain ⟨e0, e1, e2, e3, e4, e5, e6, e7, e8, e9, e10, e11, e12, e13, e14, e15, e16, e17, e18, e19, e20, e21, e22, e23⟩ := idx_facts t
  show (V c (Pipeline.arrRef spec4 0) : S100000x256.Idx → EReal) (((cfg4.win 0).blk t).view.emb (ix2 p l)) = _
  congr 1
  funext a
  apply Fin.ext
  match a with
  | ⟨0, _⟩ => show win4_0.index t (0 : Fin 2) * 1000 + 1 * p.val = r.val; omega
  | ⟨1, _⟩ => show win4_0.index t (1 : Fin 2) * 256 + 1 * l.val = l.val; omega

/-- Window 1's block at point `t` is rows `1000 t … 1000 t + 999` of its array. -/
theorem read1 (c : Dev nD) (t : Fin cfg4.N) (p : Fin 1000) (l : Fin 256) (r : Fin 100000)
    (hr : r.val = t.val * 1000 + p.val) :
    Gen.iblk4 (F := Ideal) V c 1 t (ix2 p l) = (V c (Pipeline.arrRef spec4 1) : S100000x256.Idx → EReal) (ix2 r l) := by
  obtain ⟨e0, e1, e2, e3, e4, e5, e6, e7, e8, e9, e10, e11, e12, e13, e14, e15, e16, e17, e18, e19, e20, e21, e22, e23⟩ := idx_facts t
  show (V c (Pipeline.arrRef spec4 1) : S100000x256.Idx → EReal) (((cfg4.win 1).blk t).view.emb (ix2 p l)) = _
  congr 1
  funext a
  apply Fin.ext
  match a with
  | ⟨0, _⟩ => show win4_1.index t (0 : Fin 2) * 1000 + 1 * p.val = r.val; omega
  | ⟨1, _⟩ => show win4_1.index t (1 : Fin 2) * 256 + 1 * l.val = l.val; omega

/-- Window 2 is one whole block: at every point it is its array. -/
theorem read2 (c : Dev nD) (t : Fin cfg4.N) (a' : Fin 256) (b' : Fin 128) :
    Gen.iblk4 (F := Ideal) V c 2 t (ix2 a' b') = (V c (Pipeline.arrRef spec4 2) : S256x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 2) : S256x128.Idx → EReal) (((cfg4.win 2).blk t).view.emb (ix2 a' b')) = _
  congr 1
  funext a
  apply Fin.ext
  match a with
  | ⟨0, _⟩ => show win4_2.index t (0 : Fin 2) * 256 + 1 * a'.val = a'.val; omega
  | ⟨1, _⟩ => show win4_2.index t (1 : Fin 2) * 128 + 1 * b'.val = b'.val; omega

/-- Window 3 is one whole block: at every point it is its array. -/
theorem read3 (c : Dev nD) (t : Fin cfg4.N) (a' : Fin 1) (b' : Fin 128) :
    Gen.iblk4 (F := Ideal) V c 3 t (ix2 a' b') = (V c (Pipeline.arrRef spec4 3) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 3) : S1x128.Idx → EReal) (((cfg4.win 3).blk t).view.emb (ix2 a' b')) = _
  congr 1
  funext a
  apply Fin.ext
  match a with
  | ⟨0, _⟩ => show win4_3.index t (0 : Fin 2) * 1 + 1 * a'.val = a'.val; omega
  | ⟨1, _⟩ => show win4_3.index t (1 : Fin 2) * 128 + 1 * b'.val = b'.val; omega

/-- Window 4 is one whole block: at every point it is its array. -/
theorem read4 (c : Dev nD) (t : Fin cfg4.N) (a' : Fin 256) (b' : Fin 128) :
    Gen.iblk4 (F := Ideal) V c 4 t (ix2 a' b') = (V c (Pipeline.arrRef spec4 4) : S256x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 4) : S256x128.Idx → EReal) (((cfg4.win 4).blk t).view.emb (ix2 a' b')) = _
  congr 1
  funext a
  apply Fin.ext
  match a with
  | ⟨0, _⟩ => show win4_4.index t (0 : Fin 2) * 256 + 1 * a'.val = a'.val; omega
  | ⟨1, _⟩ => show win4_4.index t (1 : Fin 2) * 128 + 1 * b'.val = b'.val; omega

/-- Window 5 is one whole block: at every point it is its array. -/
theorem read5 (c : Dev nD) (t : Fin cfg4.N) (a' : Fin 128) (b' : Fin 128) :
    Gen.iblk4 (F := Ideal) V c 5 t (ix2 a' b') = (V c (Pipeline.arrRef spec4 5) : S128x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 5) : S128x128.Idx → EReal) (((cfg4.win 5).blk t).view.emb (ix2 a' b')) = _
  congr 1
  funext a
  apply Fin.ext
  match a with
  | ⟨0, _⟩ => show win4_5.index t (0 : Fin 2) * 128 + 1 * a'.val = a'.val; omega
  | ⟨1, _⟩ => show win4_5.index t (1 : Fin 2) * 128 + 1 * b'.val = b'.val; omega

/-- Window 6 is one whole block: at every point it is its array. -/
theorem read6 (c : Dev nD) (t : Fin cfg4.N) (a' : Fin 1) (b' : Fin 128) :
    Gen.iblk4 (F := Ideal) V c 6 t (ix2 a' b') = (V c (Pipeline.arrRef spec4 6) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 6) : S1x128.Idx → EReal) (((cfg4.win 6).blk t).view.emb (ix2 a' b')) = _
  congr 1
  funext a
  apply Fin.ext
  match a with
  | ⟨0, _⟩ => show win4_6.index t (0 : Fin 2) * 1 + 1 * a'.val = a'.val; omega
  | ⟨1, _⟩ => show win4_6.index t (1 : Fin 2) * 128 + 1 * b'.val = b'.val; omega

/-- Window 7 is one whole block: at every point it is its array. -/
theorem read7 (c : Dev nD) (t : Fin cfg4.N) (a' : Fin 1) (b' : Fin 128) :
    Gen.iblk4 (F := Ideal) V c 7 t (ix2 a' b') = (V c (Pipeline.arrRef spec4 7) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 7) : S1x128.Idx → EReal) (((cfg4.win 7).blk t).view.emb (ix2 a' b')) = _
  congr 1
  funext a
  apply Fin.ext
  match a with
  | ⟨0, _⟩ => show win4_7.index t (0 : Fin 2) * 1 + 1 * a'.val = a'.val; omega
  | ⟨1, _⟩ => show win4_7.index t (1 : Fin 2) * 128 + 1 * b'.val = b'.val; omega

/-- Window 8 is one whole block: at every point it is its array. -/
theorem read8 (c : Dev nD) (t : Fin cfg4.N) (a' : Fin 1) (b' : Fin 128) :
    Gen.iblk4 (F := Ideal) V c 8 t (ix2 a' b') = (V c (Pipeline.arrRef spec4 8) : S1x128.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 8) : S1x128.Idx → EReal) (((cfg4.win 8).blk t).view.emb (ix2 a' b')) = _
  congr 1
  funext a
  apply Fin.ext
  match a with
  | ⟨0, _⟩ => show win4_8.index t (0 : Fin 2) * 1 + 1 * a'.val = a'.val; omega
  | ⟨1, _⟩ => show win4_8.index t (1 : Fin 2) * 128 + 1 * b'.val = b'.val; omega

/-- Window 9 is one whole block: at every point it is its array. -/
theorem read9 (c : Dev nD) (t : Fin cfg4.N) (a' : Fin 128) (b' : Fin 1) :
    Gen.iblk4 (F := Ideal) V c 9 t (ix2 a' b') = (V c (Pipeline.arrRef spec4 9) : S128x1.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 9) : S128x1.Idx → EReal) (((cfg4.win 9).blk t).view.emb (ix2 a' b')) = _
  congr 1
  funext a
  apply Fin.ext
  match a with
  | ⟨0, _⟩ => show win4_9.index t (0 : Fin 2) * 128 + 1 * a'.val = a'.val; omega
  | ⟨1, _⟩ => show win4_9.index t (1 : Fin 2) * 1 + 1 * b'.val = b'.val; omega

/-- Window 10 is one whole block: at every point it is its array. -/
theorem read10 (c : Dev nD) (t : Fin cfg4.N) (a' : Fin 1) (b' : Fin 1) :
    Gen.iblk4 (F := Ideal) V c 10 t (ix2 a' b') = (V c (Pipeline.arrRef spec4 10) : S1x1.Idx → EReal) (ix2 a' b') := by
  obtain ⟨e0, e1, e2, e3, e4, e5, e6, e7, e8, e9, e10, e11, e12, e13, e14, e15, e16, e17, e18, e19, e20, e21, e22, e23⟩ := idx_facts t
  show (V c (Pipeline.arrRef spec4 10) : S1x1.Idx → EReal) (((cfg4.win 10).blk t).view.emb (ix2 a' b')) = _
  congr 1
  funext a
  apply Fin.ext
  match a with
  | ⟨0, _⟩ => show win4_10.index t (0 : Fin 2) * 1 + 1 * a'.val = a'.val; omega
  | ⟨1, _⟩ => show win4_10.index t (1 : Fin 2) * 1 + 1 * b'.val = b'.val; omega

/-- The array the region leaves in its output window, as one function of the arrays it finds in its input windows. -/
abbrev result (c : Dev nD) : S100000x1.Idx → EReal :=
  Spec.headArr (n := 100000) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10))

/-- WHAT POINT `t` WRITES BACK is block `t` of `result`. -/
theorem flushed_eq (c : Dev nD) (t : Fin cfg4.N) :
    (Gen.dat4 (F := Ideal) V c).flushed 11 t = ((cfg4.win 11).blk t).view.read (Elt Ideal) (result V c) := by
  show (cfg4.win 11).cut (grid4.coords t) ((Gen.dat4 (F := Ideal) V c).after 11 t) = _
  rw [Gen.after4_11]
  funext j
  obtain ⟨p, u, rfl⟩ : ∃ (p : Fin 1000) (u : Fin 1), j = ix2 p u := ⟨j 0, j 1, eq_ix2 j⟩
  obtain rfl : u = 0 := Fin.eq_zero u
  obtain ⟨e0, e1, e2, e3, e4, e5, e6, e7, e8, e9, e10, e11, e12, e13, e14, e15, e16, e17, e18, e19, e20, e21, e22, e23⟩ := idx_facts t
  have hr : t.val * 1000 + p.val < 100000 := by
    have ht : t.val < 100 := by have := t.isLt; have hN : cfg4.N = 100 := Gen.N_4; omega
    have := p.isLt; omega
  refine (out_apply (Gen.iblk4 V c 0 t) (Gen.iblk4 V c 1 t) (Gen.iblk4 V c 2 t) (Gen.iblk4 V c 3 t) (Gen.iblk4 V c 4 t) (Gen.iblk4 V c 5 t) (Gen.iblk4 V c 6 t) (Gen.iblk4 V c 7 t) (Gen.iblk4 V c 8 t) (Gen.iblk4 V c 9 t) (Gen.iblk4 V c 10 t) p).trans ?_
  have hemb : ((cfg4.win 11).blk t).view.emb (ix2 p (0 : Fin 1)) = (ix2 (⟨t.val * 1000 + p.val, hr⟩ : Fin 100000) (0 : Fin 1) : S100000x1.Idx) := by
    funext a
    apply Fin.ext
    match a with
    | ⟨0, _⟩ => show win4_11.index t (0 : Fin 2) * 1000 + 1 * p.val = t.val * 1000 + p.val; omega
    | ⟨1, _⟩ => show win4_11.index t (1 : Fin 2) * 1 + 1 * 0 = 0; omega
  show _ = result V c (((cfg4.win 11).blk t).view.emb (ix2 p (0 : Fin 1)))
  rw [hemb]
  show Spec.headRow _ _ _ _ _ _ _ _ _ _ _ = Spec.headRow _ _ _ _ _ _ _ _ _ _ _
  congr 1
  · funext l; exact read0 V c t p l _ rfl
  · funext l; exact read1 V c t p l _ rfl
  · funext l k; exact read2 V c t l k
  · funext k; exact read3 V c t 0 k
  · funext l k; exact read4 V c t l k
  · funext k q; exact read5 V c t k q
  · funext q; exact read6 V c t 0 q
  · funext q; exact read7 V c t 0 q
  · funext q; exact read8 V c t 0 q
  · funext q; exact read9 V c t q 0
  · exact read10 V c t 0 0

/-- An index of the output array is in point `t`'s block iff each coordinate is in the block's range on its axis. -/
theorem mem_blk (t : Fin cfg4.N) (i : S100000x1.Idx) :
    i ∈ ((cfg4.win 11).blk t).view.set ↔ ∀ a : Fin 2, win4_11.index t a * S1000x1.size a ≤ (i a).val
      ∧ (i a).val < win4_11.index t a * S1000x1.size a + S1000x1.size a := by
  show i ∈ ((View.whole main_v99).slice (win4_11.rect t)).set ↔ _
  rw [View.set_slice_whole, Rect.mem_set_unit]
  exact Iff.rfl

/-- Every row of the output array is in some point's block: row r in block r / 1000. -/
theorem cover (i : S100000x1.Idx) :
    ∃ t : Fin cfg4.N, (cfg4.win 11).flush t = true ∧ i ∈ ((cfg4.win 11).blk t).view.set := by
  have hi0 : (i 0).val < 100000 := (i 0).isLt
  have hi1 : (i 1).val < 1 := (i 1).isLt
  have hN : cfg4.N = 100 := Gen.N_4
  let t : Fin cfg4.N := ⟨(i 0).val / 1000, by rw [hN]; omega⟩
  have htv : t.val = (i 0).val / 1000 := rfl
  obtain ⟨e0, e1, e2, e3, e4, e5, e6, e7, e8, e9, e10, e11, e12, e13, e14, e15, e16, e17, e18, e19, e20, e21, e22, e23⟩ := idx_facts t
  refine ⟨t, Gen.flush4_11 t, ?_⟩
  rw [mem_blk]
  intro a
  match a with
  | ⟨0, _⟩ =>
    show win4_11.index t (0 : Fin 2) * 1000 ≤ (i 0).val ∧ (i 0).val < win4_11.index t (0 : Fin 2) * 1000 + 1000
    omega
  | ⟨1, _⟩ =>
    show win4_11.index t (1 : Fin 2) * 1 ≤ (i 1).val ∧ (i 1).val < win4_11.index t (1 : Fin 2) * 1 + 1
    omega

/-- THE ARRAY the region leaves in its output window: `Spec.headArr` of the arrays in its eleven input windows. -/
theorem final4_11 (c : Dev nD) :
    (Gen.dat4 (F := Ideal) V c).arrAt 11 cfg4.N = Spec.headArr (n := 100000) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) :=
  (Gen.dat4 (F := Ideal) V c).arrAt_eq_of_cover 11 (result V c) (fun t _ => flushed_eq V c t) (cover)

end Region

end Cert.KernelIdeal.R4

end
-- ==== Proof.ChainTailK.lean ====
/- The second half of the kernel program read back through its segments: from the two feature arrays the
   third region leaves, through the two mean aggregations and the two fused SAGE / LayerNorm heads, to the
   returned 1×1 array.

   The host expressions between the regions are named as functions of their varying inputs (`kMean`: the rows
   gathered at the sources and added up at the targets, divided by the in-degree count clamped below at one;
   `kRow`, `kOne`: a vector viewed as one row, a scalar as a 1×1 array; `kTail`: the mean of the two heads'
   200000 entries as a 1×1 array). Each head region leaves `Spec.headArr` of the arrays it finds in its input
   windows; every other buffer passes a region unchanged, and a host stretch changes only what it writes. -/
import proofs.«149613_j7086696039015_2_alg».proof.Proof.Gen.KernelIdeal.Frame
import proofs.«149613_j7086696039015_2_alg».proof.Proof.KHostDefs
import proofs.«149613_j7086696039015_2_alg».proof.Proof.ChainFrame
import proofs.«149613_j7086696039015_2_alg».proof.Proof.KRegion3
import proofs.«149613_j7086696039015_2_alg».proof.Proof.KRegion4
import proofs.«149613_j7086696039015_2_alg».proof.Proof.SpecSage
import Idealize.ShloMosaic.Lib.StableHlo.Run

set_option maxRecDepth 16384

noncomputable section

namespace Cert.KernelIdeal.Tail

open Idealize.ShloMosaic Idealize.ShloMosaic.TcCoe Idealize.SL.Sem
open Idealize.ShloMosaic.StableHlo
open Cert.KernelIdeal Cert.KernelIdeal.Gen Cert.KernelIdeal.Chain

/-! ## The host expressions of the second half, as functions of their varying inputs -/

/-- An index vector with its negative entries shifted up by the number of nodes. -/
def kNorm (s : (⟨S600000, .i32⟩ : BufTy).Contents (Elt Ideal)) : (⟨S600000, .i32⟩ : BufTy).Contents (Elt Ideal) :=
  select (cmpi .slt s (broadcastInDim S600000 ![] bcast_S_S600000 (constantI S_ 32 0#32)))
    (addi s (broadcastInDim S600000 ![] bcast_S_S600000 (constantI S_ 32 100000#32))) s

/-- The mean aggregation: the rows of `X` gathered at the sources and added up at the targets, each row
    divided by the number of edges into its node, clamped below at one. -/
def kMean (X : (⟨S100000x256, .f32⟩ : BufTy).Contents (Elt Ideal))
    (src dst : (⟨S600000, .i32⟩ : BufTy).Contents (Elt Ideal)) : (⟨S100000x256, .f32⟩ : BufTy).Contents (Elt Ideal) :=
  Host.divf (F := Ideal)
    (Host.scatterAdd (F := Ideal) scatter_S100000x256_S600000x1_S600000x256_1_0_0_1
      (broadcastInDim S100000x256 ![] bcast_S_S100000x256 (constant (F := Ideal) S_ .f32 0x00000000#32))
      (broadcastInDim S600000x1 ![0] bcast_S600000_S600000x1_0 dst)
      (Host.gather gather_S100000x256_S600000x1_S600000x256_1_0_n_n_0_1_1256 X
        (broadcastInDim S600000x1 ![0] bcast_S600000_S600000x1_0 (kNorm src))))
    (broadcastInDim S100000x256 ![0, 1] bcast_S100000x1_S100000x256_0_1
      (broadcastInDim S100000x1 ![0] bcast_S100000_S100000x1_0
        (maximumf
          (Host.scatterAdd (F := Ideal) scatter_S100000_S600000x1_S600000_n_0_0_1
            (broadcastInDim S100000 ![] bcast_S_S100000 (constant (F := Ideal) S_ .f32 0x00000000#32))
            (broadcastInDim S600000x1 ![0] bcast_S600000_S600000x1_0 dst)
            (broadcastInDim S600000 ![] bcast_S_S600000 (constant (F := Ideal) S_ .f32 0x3F800000#32)))
          (broadcastInDim S100000 ![] bcast_S_S100000 (constant (F := Ideal) S_ .f32 0x3F800000#32)))))

/-- A vector of 128 entries as one row. -/
def kRow (b : (⟨S128, .f32⟩ : BufTy).Contents (Elt Ideal)) : (⟨S1x128, .f32⟩ : BufTy).Contents (Elt Ideal) :=
  shapeCast S1x128 b shapeCasts_S128_S1x128

/-- A one-entry vector as a 1×1 array. -/
def kOne (b : (⟨S1, .f32⟩ : BufTy).Contents (Elt Ideal)) : (⟨S1x1, .f32⟩ : BufTy).Contents (Elt Ideal) :=
  shapeCast S1x1 b shapeCasts_S1_S1x1

/-- The mean of the 200000 entries of the two heads' columns, as a 1×1 array. -/
def kTail (u v : (⟨S100000x1, .f32⟩ : BufTy).Contents (Elt Ideal)) : (⟨S1x1, .f32⟩ : BufTy).Contents (Elt Ideal) :=
  broadcastInDim S1x1 ![] bcast_S_S1x1
    (Host.divf (F := Ideal)
      (Host.reduceAdd (F := Ideal)
        (concatenate S200000 0 [⟨S100000, shapeCast S100000 u shapeCasts_S100000x1_S100000⟩,
          ⟨S100000, shapeCast S100000 v shapeCasts_S100000x1_S100000⟩] concatenates_S100000_S100000_S200000_d0)
        (constant (F := Ideal) S_ .f32 0x00000000#32) reducesTo_S200000_S_d0 h_S_)
      (constant (F := Ideal) S_ .f32 0x48435000#32))

/-! ## The buffers read back -/

variable (m : (ℓ : Loc nD τ sig) → Buf (Elt Ideal) ℓ) (ρ : Dev nD → PrngReg)

set_option maxHeartbeats 16000000 in
/-- The first mean aggregation, at the first head's entry. -/
theorem W6_v67 (c : Dev nD) : Gen.W6 (F := Ideal) m ρ c (Proc.devRef .tc main_v67)
    = kMean (Gen.W5 (F := Ideal) m ρ c (Proc.devRef .tc main_v48_0)) (Head.edgeRow0 (m ((c : Thread nD τ).loc main_arg2))) (Head.edgeRow1 (m ((c : Thread nD τ).loc main_arg2))) := by
  dsimp only [W6, hostOps3]
  after_results
  rw [W5_main_v1, W5_main_v3]
  rfl

/-- The first head's column at its exit. -/
theorem W7_v73 (c : Dev nD) : Gen.W7 (F := Ideal) m ρ c (Proc.devRef .tc main_v73) = (Spec.headArr (n := 100000) (kMean (Gen.W5 (F := Ideal) m ρ c (Proc.devRef .tc main_v48_0)) (Head.edgeRow0 (m ((c : Thread nD τ).loc main_arg2))) (Head.edgeRow1 (m ((c : Thread nD τ).loc main_arg2)))) (Gen.W5 (F := Ideal) m ρ c (Proc.devRef .tc main_v48_0)) (m ((c : Thread nD τ).loc main_arg8)) (kRow (m ((c : Thread nD τ).loc main_arg9))) (m ((c : Thread nD τ).loc main_arg10)) (m ((c : Thread nD τ).loc main_arg14)) (kRow (m ((c : Thread nD τ).loc main_arg15))) (kRow (m ((c : Thread nD τ).loc main_arg16))) (kRow (m ((c : Thread nD τ).loc main_arg17))) (m ((c : Thread nD τ).loc main_arg18)) (kOne (m ((c : Thread nD τ).loc main_arg19)))) := by
  refine ((W7_arr m ρ c 11).trans (R3.final3_11 (V6 m ρ) c)).trans ?_
  show Spec.headArr (n := 100000) (Gen.W6 (F := Ideal) m ρ c (Proc.devRef .tc main_v67)) (Gen.W6 (F := Ideal) m ρ c (Proc.devRef .tc main_v48_0))
    (Gen.W6 (F := Ideal) m ρ c (Proc.devRef .tc main_arg8)) (Gen.W6 (F := Ideal) m ρ c (Proc.devRef .tc main_v68))
    (Gen.W6 (F := Ideal) m ρ c (Proc.devRef .tc main_arg10)) (Gen.W6 (F := Ideal) m ρ c (Proc.devRef .tc main_arg14))
    (Gen.W6 (F := Ideal) m ρ c (Proc.devRef .tc main_v69)) (Gen.W6 (F := Ideal) m ρ c (Proc.devRef .tc main_v70))
    (Gen.W6 (F := Ideal) m ρ c (Proc.devRef .tc main_v71)) (Gen.W6 (F := Ideal) m ρ c (Proc.devRef .tc main_arg18))
    (Gen.W6 (F := Ideal) m ρ c (Proc.devRef .tc main_v72)) = _
  rw [W6_v67, W6_main_v48_0, W6_main_arg8, W6_main_v68, W6_main_arg10, W6_main_arg14, W6_main_v69, W6_main_v70,
    W6_main_v71, W6_main_arg18, W6_main_v72]
  rfl

/-- The first head's column, as a vector, at the second head's entry. -/
theorem W8_v74 (c : Dev nD) : Gen.W8 (F := Ideal) m ρ c (Proc.devRef .tc main_v74)
    = shapeCast S100000 (Gen.W7 (F := Ideal) m ρ c (Proc.devRef .tc main_v73)) shapeCasts_S100000x1_S100000 := by
  dsimp only [W8, hostOps4]
  after_results
  rfl

set_option maxHeartbeats 16000000 in
/-- The second mean aggregation, at the second head's entry. -/
theorem W8_v93 (c : Dev nD) : Gen.W8 (F := Ideal) m ρ c (Proc.devRef .tc main_v93)
    = kMean (Gen.W5 (F := Ideal) m ρ c (Proc.devRef .tc main_v48_1)) (Head.edgeRow0 (m ((c : Thread nD τ).loc main_arg3))) (Head.edgeRow1 (m ((c : Thread nD τ).loc main_arg3))) := by
  dsimp only [W8, hostOps4]
  after_results
  rw [W7_main_v5, W7_main_v7, W7_main_v48_1]
  rfl

/-- The second head's column at its exit. -/
theorem W9_v99 (c : Dev nD) : Gen.W9 (F := Ideal) m ρ c (Proc.devRef .tc main_v99) = (Spec.headArr (n := 100000) (kMean (Gen.W5 (F := Ideal) m ρ c (Proc.devRef .tc main_v48_1)) (Head.edgeRow0 (m ((c : Thread nD τ).loc main_arg3))) (Head.edgeRow1 (m ((c : Thread nD τ).loc main_arg3)))) (Gen.W5 (F := Ideal) m ρ c (Proc.devRef .tc main_v48_1)) (m ((c : Thread nD τ).loc main_arg11)) (kRow (m ((c : Thread nD τ).loc main_arg12))) (m ((c : Thread nD τ).loc main_arg13)) (m ((c : Thread nD τ).loc main_arg14)) (kRow (m ((c : Thread nD τ).loc main_arg15))) (kRow (m ((c : Thread nD τ).loc main_arg16))) (kRow (m ((c : Thread nD τ).loc main_arg17))) (m ((c : Thread nD τ).loc main_arg18)) (kOne (m ((c : Thread nD τ).loc main_arg19)))) := by
  refine ((W9_arr m ρ c 11).trans (R4.final4_11 (V8 m ρ) c)).trans ?_
  show Spec.headArr (n := 100000) (Gen.W8 (F := Ideal) m ρ c (Proc.devRef .tc main_v93)) (Gen.W8 (F := Ideal) m ρ c (Proc.devRef .tc main_v48_1))
    (Gen.W8 (F := Ideal) m ρ c (Proc.devRef .tc main_arg11)) (Gen.W8 (F := Ideal) m ρ c (Proc.devRef .tc main_v94))
    (Gen.W8 (F := Ideal) m ρ c (Proc.devRef .tc main_arg13)) (Gen.W8 (F := Ideal) m ρ c (Proc.devRef .tc main_arg14))
    (Gen.W8 (F := Ideal) m ρ c (Proc.devRef .tc main_v95)) (Gen.W8 (F := Ideal) m ρ c (Proc.devRef .tc main_v96))
    (Gen.W8 (F := Ideal) m ρ c (Proc.devRef .tc main_v97)) (Gen.W8 (F := Ideal) m ρ c (Proc.devRef .tc main_arg18))
    (Gen.W8 (F := Ideal) m ρ c (Proc.devRef .tc main_v98)) = _
  rw [W8_v93, W8_main_v48_1, W8_main_arg11, W8_main_v94, W8_main_arg13, W8_main_arg14, W8_main_v95, W8_main_v96,
    W8_main_v97, W8_main_arg18, W8_main_v98]
  rfl

/-- The second head does not touch the first head's vector. -/
theorem W9_v74 (c : Dev nD) : Gen.W9 (F := Ideal) m ρ c (Proc.devRef .tc main_v74)
    = shapeCast S100000 (Spec.headArr (n := 100000) (kMean (Gen.W5 (F := Ideal) m ρ c (Proc.devRef .tc main_v48_0)) (Head.edgeRow0 (m ((c : Thread nD τ).loc main_arg2))) (Head.edgeRow1 (m ((c : Thread nD τ).loc main_arg2)))) (Gen.W5 (F := Ideal) m ρ c (Proc.devRef .tc main_v48_0)) (m ((c : Thread nD τ).loc main_arg8)) (kRow (m ((c : Thread nD τ).loc main_arg9))) (m ((c : Thread nD τ).loc main_arg10)) (m ((c : Thread nD τ).loc main_arg14)) (kRow (m ((c : Thread nD τ).loc main_arg15))) (kRow (m ((c : Thread nD τ).loc main_arg16))) (kRow (m ((c : Thread nD τ).loc main_arg17))) (m ((c : Thread nD τ).loc main_arg18)) (kOne (m ((c : Thread nD τ).loc main_arg19)))) shapeCasts_S100000x1_S100000 := by
  rw [W9_of_ne m ρ c main_v74 (by decide), W8_v74, W7_v73]

set_option maxHeartbeats 4000000 in
/-- THE RETURNED ARRAY of the kernel program: the mean of the two heads' columns, each head `Spec.headArr` of
    its mean aggregation, its feature array and the launch weights. -/
theorem tail_kernel (c : Dev nD) : Gen.W10 (F := Ideal) m ρ c (Proc.devRef .tc main_v104)
    = kTail (Spec.headArr (n := 100000) (kMean (Gen.W5 (F := Ideal) m ρ c (Proc.devRef .tc main_v48_0)) (Head.edgeRow0 (m ((c : Thread nD τ).loc main_arg2))) (Head.edgeRow1 (m ((c : Thread nD τ).loc main_arg2)))) (Gen.W5 (F := Ideal) m ρ c (Proc.devRef .tc main_v48_0)) (m ((c : Thread nD τ).loc main_arg8)) (kRow (m ((c : Thread nD τ).loc main_arg9))) (m ((c : Thread nD τ).loc main_arg10)) (m ((c : Thread nD τ).loc main_arg14)) (kRow (m ((c : Thread nD τ).loc main_arg15))) (kRow (m ((c : Thread nD τ).loc main_arg16))) (kRow (m ((c : Thread nD τ).loc main_arg17))) (m ((c : Thread nD τ).loc main_arg18)) (kOne (m ((c : Thread nD τ).loc main_arg19))))
        (Spec.headArr (n := 100000) (kMean (Gen.W5 (F := Ideal) m ρ c (Proc.devRef .tc main_v48_1)) (Head.edgeRow0 (m ((c : Thread nD τ).loc main_arg3))) (Head.edgeRow1 (m ((c : Thread nD τ).loc main_arg3)))) (Gen.W5 (F := Ideal) m ρ c (Proc.devRef .tc main_v48_1)) (m ((c : Thread nD τ).loc main_arg11)) (kRow (m ((c : Thread nD τ).loc main_arg12))) (m ((c : Thread nD τ).loc main_arg13)) (m ((c : Thread nD τ).loc main_arg14)) (kRow (m ((c : Thread nD τ).loc main_arg15))) (kRow (m ((c : Thread nD τ).loc main_arg16))) (kRow (m ((c : Thread nD τ).loc main_arg17))) (m ((c : Thread nD τ).loc main_arg18)) (kOne (m ((c : Thread nD τ).loc main_arg19)))) := by
  dsimp only [W10, hostOps5]
  after_results
  rw [W9_v74, W9_v99]
  rfl

end Cert.KernelIdeal.Tail

end
-- ==== Proof.RefHeadStages.lean ====
/-
  The reference's aggregation layer and head, read stage by stage at an index: each of the two branches
  (statements %120..%159 from the mean %119 and the features %100; statements %180..%219 from %179 and %160)
  as sums, differences and products of the extended reals over literal index types.
-/
import proofs.«149613_j7086696039015_2_alg».proof.Proof.RefReadP

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## Branch a: index equations -/
section Idxa
theorem e120l_a (r : Fin 100000) (j : Fin 128) (k : Fin 256) :
    lidx_main_v120 (ix2 r j) k = ix2 r k :=
  funext fun a => Fin.ext (by match a with | ⟨0, _⟩ => rfl | ⟨1, _⟩ => rfl)
theorem e120r_a (r : Fin 100000) (j : Fin 128) (k : Fin 256) :
    ridx_main_v120 (ix2 r j) k = ix2 k j :=
  funext fun a => Fin.ext (by match a with | ⟨0, _⟩ => rfl | ⟨1, _⟩ => rfl)
theorem e122_a (r : Fin 100000) (j : Fin 128) :
    idx_main_v121 (idx_main_v122 (ix2 r j)) = ix1 j :=
  funext fun a => Fin.ext (by match a with | ⟨0, _⟩ => rfl)
theorem e124l_a (r : Fin 100000) (j : Fin 128) (k : Fin 256) :
    lidx_main_v124 (ix2 r j) k = ix2 r k :=
  funext fun a => Fin.ext (by match a with | ⟨0, _⟩ => rfl | ⟨1, _⟩ => rfl)
theorem e124r_a (r : Fin 100000) (j : Fin 128) (k : Fin 256) :
    ridx_main_v124 (ix2 r j) k = ix2 k j :=
  funext fun a => Fin.ext (by match a with | ⟨0, _⟩ => rfl | ⟨1, _⟩ => rfl)
theorem e127l_a (r : Fin 100000) (j : Fin 128) (k : Fin 128) :
    lidx_main_v127 (ix2 r j) k = ix2 r k :=
  funext fun a => Fin.ext (by match a with | ⟨0, _⟩ => rfl | ⟨1, _⟩ => rfl)
theorem e127r_a (r : Fin 100000) (j : Fin 128) (k : Fin 128) :
    ridx_main_v127 (ix2 r j) k = ix2 k j :=
  funext fun a => Fin.ext (by match a with | ⟨0, _⟩ => rfl | ⟨1, _⟩ => rfl)
theorem e129_a (r : Fin 100000) (j : Fin 128) :
    idx_main_v128 (idx_main_v129 (ix2 r j)) = ix1 j :=
  funext fun a => Fin.ext (by match a with | ⟨0, _⟩ => rfl)
theorem e131_a (r : Fin 100000) (k : Fin 128) :
    idx_main_v131 (ix1 r) k = ix2 r k :=
  funext fun a => Fin.ext (by match a with | ⟨0, _⟩ => rfl | ⟨1, _⟩ => rfl)
theorem e132_a (r : Fin 100000) (c : Fin 1) :
    idx_main_v132 (ix2 r c) = ix1 r :=
  funext fun a => Fin.ext (by match a with | ⟨0, _⟩ => rfl)
theorem e135_a (r : Fin 100000) (j : Fin 128) :
    idx_main_v135 (ix2 r j) = ix2 r (0 : Fin 1) :=
  funext fun a => Fin.ext (by match a with | ⟨0, _⟩ => rfl | ⟨1, _⟩ => rfl)
theorem e138_a (r : Fin 100000) (k : Fin 128) :
    idx_main_v138 (ix1 r) k = ix2 r k :=
  funext fun a => Fin.ext (by match a with | ⟨0, _⟩ => rfl | ⟨1, _⟩ => rfl)
theorem e139_a (r : Fin 100000) (c : Fin 1) :
    idx_main_v139 (ix2 r c) = ix1 r :=
  funext fun a => Fin.ext (by match a with | ⟨0, _⟩ => rfl)
theorem e142_a (r : Fin 100000) (j : Fin 128) :
    idx_main_v142 (ix2 r j) = ix2 r (0 : Fin 1) :=
  funext fun a => Fin.ext (by match a with | ⟨0, _⟩ => rfl | ⟨1, _⟩ => rfl)
theorem e147_a (r : Fin 100000) (j : Fin 128) :
    idx_main_v147 (ix2 r j) = ix2 r (0 : Fin 1) :=
  funext fun a => Fin.ext (by match a with | ⟨0, _⟩ => rfl | ⟨1, _⟩ => rfl)
theorem e150_a (r : Fin 100000) (j : Fin 128) :
    idx_main_v149 (idx_main_v150 (ix2 r j)) = ix1 j :=
  funext fun a => Fin.ext (by match a with | ⟨0, _⟩ => rfl)
theorem e153_a (r : Fin 100000) (j : Fin 128) :
    idx_main_v152 (idx_main_v153 (ix2 r j)) = ix1 j :=
  funext fun a => Fin.ext (by match a with | ⟨0, _⟩ => rfl)
theorem e155l_a (r : Fin 100000) (c : Fin 1) (k : Fin 128) :
    lidx_main_v155 (ix2 r c) k = ix2 r k :=
  funext fun a => Fin.ext (by match a with | ⟨0, _⟩ => rfl | ⟨1, _⟩ => rfl)
theorem e155r_a (r : Fin 100000) (c : Fin 1) (k : Fin 128) :
    ridx_main_v155 (ix2 r c) k = ix2 k c :=
  funext fun a => Fin.ext (by match a with | ⟨0, _⟩ => rfl | ⟨1, _⟩ => rfl)
theorem e157_a (r : Fin 100000) (c : Fin 1) :
    idx_main_v156 (idx_main_v157 (ix2 r c)) = ix1 (0 : Fin 1) :=
  funext fun a => Fin.ext (by match a with | ⟨0, _⟩ => rfl)
theorem e159_a (i : S100000.Idx) :
    idx_main_v159 i = ix2 (i 0) (0 : Fin 1) :=
  funext fun a => Fin.ext (by match a with | ⟨0, _⟩ => exact Nat.div_one _ | ⟨1, _⟩ => rfl)
end Idxa

/-! ## Branch a: the stages at an index -/
section Stagesa
variable (x0 : (⟨S100000x512, .f32⟩ : BufTy).Contents (Elt Ideal)) (x1 : (⟨S100000x512, .f32⟩ : BufTy).Contents (Elt Ideal)) (x2 : (⟨S2x600000, .i32⟩ : BufTy).Contents (Elt Ideal)) (x3 : (⟨S2x600000, .i32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))

/-- The aggregation layer at row `r`, column `j`: the mean's row times the left weights, plus the bias, plus the
    node's own row times the right weights, clamped below at zero. -/
theorem sage_a (r : Fin 100000) (j : Fin 128) :
    val_main_v126 (F := Ideal) x0 x1 x2 x3 x4 x5 x6 x7 x8 x9 x10 (ix2 r j)
      = max ((∑ k : Fin 256, val_main_v119 (F := Ideal) x0 x1 x2 x3 x4 x5 x6 x7 (ix2 r k) * x8 (ix2 k j)) + x9 (ix1 j)
              + ∑ k : Fin 256, val_main_v100 (F := Ideal) x0 x1 x2 x3 x4 x5 x6 x7 (ix2 r k) * x10 (ix2 k j)) (Ideal.ofBits .f32 0x00000000#32) := by
  rw [val_main_v126_apply, val_main_v125_apply, val_main_v123_apply, val_main_v120_apply, val_main_v122_apply, val_main_v121_apply, val_main_v124_apply,
    val_main_call4_v0_apply, val_main_call4_cst_apply]
  simp only [Ideal.addf_def, Ideal.subf_def, Ideal.mulf_def, Ideal.maximumf_def, Ideal.hostDivf_def, Ideal.hostUnary_rsqrt_def, Ideal.ofBits_def, e120l_a, e120r_a, e122_a, e124l_a, e124r_a]

/-- The first dense layer of the head at row `r`, column `j`. -/
theorem lin_a (r : Fin 100000) (j : Fin 128) :
    val_main_v130 (F := Ideal) x0 x1 x2 x3 x4 x5 x6 x7 x8 x9 x10 x14 x15 (ix2 r j)
      = (∑ k : Fin 128, val_main_v126 (F := Ideal) x0 x1 x2 x3 x4 x5 x6 x7 x8 x9 x10 (ix2 r k) * x14 (ix2 k j)) + x15 (ix1 j) := by
  rw [val_main_v130_apply, val_main_v127_apply, val_main_v129_apply, val_main_v128_apply]
  simp only [Ideal.addf_def, Ideal.subf_def, Ideal.mulf_def, Ideal.maximumf_def, Ideal.hostDivf_def, Ideal.hostUnary_rsqrt_def, Ideal.ofBits_def, e127l_a, e127r_a, e129_a]

/-- The row mean of the dense layer's output: the row's sum over the 128 columns divided by 128. -/
theorem mean_a (r : Fin 100000) :
    val_main_v134 (F := Ideal) x0 x1 x2 x3 x4 x5 x6 x7 x8 x9 x10 x14 x15 (ix2 r (0 : Fin 1))
      = Ideal.div (∑ k : Fin 128, val_main_v130 (F := Ideal) x0 x1 x2 x3 x4 x5 x6 x7 x8 x9 x10 x14 x15 (ix2 r k)) (Ideal.ofBits .f32 0x43000000#32) := by
  rw [val_main_v134_apply, val_main_v132_apply, val_main_v131_apply, val_main_v133_apply, val_main_cst_28_apply, val_main_cst_29_apply]
  simp only [Ideal.addf_def, Ideal.subf_def, Ideal.mulf_def, Ideal.maximumf_def, Ideal.hostDivf_def, Ideal.hostUnary_rsqrt_def, Ideal.ofBits_def, Ideal.ofBits_zero_f32, zero_add, e132_a, e131_a]

/-- The centred square at row `r`, column `k`. -/
theorem sq_a (r : Fin 100000) (k : Fin 128) :
    val_main_v137 (F := Ideal) x0 x1 x2 x3 x4 x5 x6 x7 x8 x9 x10 x14 x15 (ix2 r k)
      = (val_main_v130 (F := Ideal) x0 x1 x2 x3 x4 x5 x6 x7 x8 x9 x10 x14 x15 (ix2 r k) - val_main_v134 (F := Ideal) x0 x1 x2 x3 x4 x5 x6 x7 x8 x9 x10 x14 x15 (ix2 r (0 : Fin 1)))
          * (val_main_v130 (F := Ideal) x0 x1 x2 x3 x4 x5 x6 x7 x8 x9 x10 x14 x15 (ix2 r k) - val_main_v134 (F := Ideal) x0 x1 x2 x3 x4 x5 x6 x7 x8 x9 x10 x14 x15 (ix2 r (0 : Fin 1))) := by
  rw [val_main_v137_apply, val_main_v136_apply, val_main_v135_apply]
  simp only [Ideal.addf_def, Ideal.subf_def, Ideal.mulf_def, Ideal.maximumf_def, Ideal.hostDivf_def, Ideal.hostUnary_rsqrt_def, Ideal.ofBits_def, e135_a]

/-- The row variance: the sum of the centred squares divided by 128. -/
theorem var_a (r : Fin 100000) :
    val_main_v141 (F := Ideal) x0 x1 x2 x3 x4 x5 x6 x7 x8 x9 x10 x14 x15 (ix2 r (0 : Fin 1))
      = Ideal.div (∑ k : Fin 128, (val_main_v130 (F := Ideal) x0 x1 x2 x3 x4 x5 x6 x7 x8 x9 x10 x14 x15 (ix2 r k) - val_main_v134 (F := Ideal) x0 x1 x2 x3 x4 x5 x6 x7 x8 x9 x10 x14 x15 (ix2 r (0 : Fin 1)))
          * (val_main_v130 (F := Ideal) x0 x1 x2 x3 x4 x5 x6 x7 x8 x9 x10 x14 x15 (ix2 r k) - val_main_v134 (F := Ideal) x0 x1 x2 x3 x4 x5 x6 x7 x8 x9 x10 x14 x15 (ix2 r (0 : Fin 1)))) (Ideal.ofBits .f32 0x43000000#32) := by
  rw [val_main_v141_apply, val_main_v139_apply, val_main_v138_apply, val_main_v140_apply, val_main_cst_30_apply, val_main_cst_31_apply]
  simp only [Ideal.addf_def, Ideal.subf_def, Ideal.mulf_def, Ideal.maximumf_def, Ideal.hostDivf_def, Ideal.hostUnary_rsqrt_def, Ideal.ofBits_def, Ideal.ofBits_zero_f32, zero_add, e139_a, e138_a, sq_a]

/-- The normalized, scaled and shifted row at column `j`. -/
theorem ln_a (r : Fin 100000) (j : Fin 128) :
    val_main_v154 (F := Ideal) x0 x1 x2 x3 x4 x5 x6 x7 x8 x9 x10 x14 x15 x16 x17 (ix2 r j)
      = (val_main_v130 (F := Ideal) x0 x1 x2 x3 x4 x5 x6 x7 x8 x9 x10 x14 x15 (ix2 r j) - val_main_v134 (F := Ideal) x0 x1 x2 x3 x4 x5 x6 x7 x8 x9 x10 x14 x15 (ix2 r (0 : Fin 1)))
          * Ideal.rsqrt (val_main_v141 (F := Ideal) x0 x1 x2 x3 x4 x5 x6 x7 x8 x9 x10 x14 x15 (ix2 r (0 : Fin 1)) + Ideal.ofBits .f32 0x3727C5AC#32)
          * x16 (ix1 j) + x17 (ix1 j) := by
  rw [val_main_v154_apply, val_main_v151_apply, val_main_v148_apply, val_main_v143_apply, val_main_v142_apply, val_main_v147_apply, val_main_v146_apply, val_main_v145_apply, val_main_v144_apply, val_main_cst_32_apply,
    val_main_v150_apply, val_main_v149_apply, val_main_v153_apply, val_main_v152_apply]
  simp only [Ideal.addf_def, Ideal.subf_def, Ideal.mulf_def, Ideal.maximumf_def, Ideal.hostDivf_def, Ideal.hostUnary_rsqrt_def, Ideal.ofBits_def, e142_a, e147_a, e150_a, e153_a]

/-- The head's output at node `i`: the normalized row times the output column, plus the output bias. -/
theorem out_a (i : S100000.Idx) :
    val_main_v159 (F := Ideal) x0 x1 x2 x3 x4 x5 x6 x7 x8 x9 x10 x14 x15 x16 x17 x18 x19 i
      = (∑ k : Fin 128, val_main_v154 (F := Ideal) x0 x1 x2 x3 x4 x5 x6 x7 x8 x9 x10 x14 x15 x16 x17 (ix2 (i 0) k) * x18 (ix2 k (0 : Fin 1))) + x19 (ix1 (0 : Fin 1)) := by
  rw [val_main_v159_apply, val_main_v158_apply, val_main_v155_apply, val_main_v157_apply, val_main_v156_apply]
  simp only [Ideal.addf_def, Ideal.subf_def, Ideal.mulf_def, Ideal.maximumf_def, Ideal.hostDivf_def, Ideal.hostUnary_rsqrt_def, Ideal.ofBits_def, e159_a, e155l_a (i 0), e155r_a (i 0), e157_a (i 0)]
  exact congrArg₂ (· + ·)
    (Finset.sum_congr rfl fun k _ => congrArg₂ (· * ·) (congrArg _ (e155l_a (i 0) 0 k)) rfl)
    (congrArg x19 (e157_a (i 0) 0))

end Stagesa

/-! ## Branch b: index equations -/
section Idxb
theorem e120l_b (r : Fin 100000) (j : Fin 128) (k : Fin 256) :
    lidx_main_v180 (ix2 r j) k = ix2 r k :=
  funext fun a => Fin.ext (by match a with | ⟨0, _⟩ => rfl | ⟨1, _⟩ => rfl)
theorem e120r_b (r : Fin 100000) (j : Fin 128) (k : Fin 256) :
    ridx_main_v180 (ix2 r j) k = ix2 k j :=
  funext fun a => Fin.ext (by match a with | ⟨0, _⟩ => rfl | ⟨1, _⟩ => rfl)
theorem e122_b (r : Fin 100000) (j : Fin 128) :
    idx_main_v181 (idx_main_v182 (ix2 r j)) = ix1 j :=
  funext fun a => Fin.ext (by match a with | ⟨0, _⟩ => rfl)
theorem e124l_b (r : Fin 100000) (j : Fin 128) (k : Fin 256) :
    lidx_main_v184 (ix2 r j) k = ix2 r k :=
  funext fun a => Fin.ext (by match a with | ⟨0, _⟩ => rfl | ⟨1, _⟩ => rfl)
theorem e124r_b (r : Fin 100000) (j : Fin 128) (k : Fin 256) :
    ridx_main_v184 (ix2 r j) k = ix2 k j :=
  funext fun a => Fin.ext (by match a with | ⟨0, _⟩ => rfl | ⟨1, _⟩ => rfl)
theorem e127l_b (r : Fin 100000) (j : Fin 128) (k : Fin 128) :
    lidx_main_v187 (ix2 r j) k = ix2 r k :=
  funext fun a => Fin.ext (by match a with | ⟨0, _⟩ => rfl | ⟨1, _⟩ => rfl)
theorem e127r_b (r : Fin 100000) (j : Fin 128) (k : Fin 128) :
    ridx_main_v187 (ix2 r j) k = ix2 k j :=
  funext fun a => Fin.ext (by match a with | ⟨0, _⟩ => rfl | ⟨1, _⟩ => rfl)
theorem e129_b (r : Fin 100000) (j : Fin 128) :
    idx_main_v188 (idx_main_v189 (ix2 r j)) = ix1 j :=
  funext fun a => Fin.ext (by match a with | ⟨0, _⟩ => rfl)
theorem e131_b (r : Fin 100000) (k : Fin 128) :
    idx_main_v191 (ix1 r) k = ix2 r k :=
  funext fun a => Fin.ext (by match a with | ⟨0, _⟩ => rfl | ⟨1, _⟩ => rfl)
theorem e132_b (r : Fin 100000) (c : Fin 1) :
    idx_main_v192 (ix2 r c) = ix1 r :=
  funext fun a => Fin.ext (by match a with | ⟨0, _⟩ => rfl)
theorem e135_b (r : Fin 100000) (j : Fin 128) :
    idx_main_v195 (ix2 r j) = ix2 r (0 : Fin 1) :=
  funext fun a => Fin.ext (by match a with | ⟨0, _⟩ => rfl | ⟨1, _⟩ => rfl)
theorem e138_b (r : Fin 100000) (k : Fin 128) :
    idx_main_v198 (ix1 r) k = ix2 r k :=
  funext fun a => Fin.ext (by match a with | ⟨0, _⟩ => rfl | ⟨1, _⟩ => rfl)
theorem e139_b (r : Fin 100000) (c : Fin 1) :
    idx_main_v199 (ix2 r c) = ix1 r :=
  funext fun a => Fin.ext (by match a with | ⟨0, _⟩ => rfl)
theorem e142_b (r : Fin 100000) (j : Fin 128) :
    idx_main_v202 (ix2 r j) = ix2 r (0 : Fin 1) :=
  funext fun a => Fin.ext (by match a with | ⟨0, _⟩ => rfl | ⟨1, _⟩ => rfl)
theorem e147_b (r : Fin 100000) (j : Fin 128) :
    idx_main_v207 (ix2 r j) = ix2 r (0 : Fin 1) :=
  funext fun a => Fin.ext (by match a with | ⟨0, _⟩ => rfl | ⟨1, _⟩ => rfl)
theorem e150_b (r : Fin 100000) (j : Fin 128) :
    idx_main_v209 (idx_main_v210 (ix2 r j)) = ix1 j :=
  funext fun a => Fin.ext (by match a with | ⟨0, _⟩ => rfl)
theorem e153_b (r : Fin 100000) (j : Fin 128) :
    idx_main_v212 (idx_main_v213 (ix2 r j)) = ix1 j :=
  funext fun a => Fin.ext (by match a with | ⟨0, _⟩ => rfl)
theorem e155l_b (r : Fin 100000) (c : Fin 1) (k : Fin 128) :
    lidx_main_v215 (ix2 r c) k = ix2 r k :=
  funext fun a => Fin.ext (by match a with | ⟨0, _⟩ => rfl | ⟨1, _⟩ => rfl)
theorem e155r_b (r : Fin 100000) (c : Fin 1) (k : Fin 128) :
    ridx_main_v215 (ix2 r c) k = ix2 k c :=
  funext fun a => Fin.ext (by match a with | ⟨0, _⟩ => rfl | ⟨1, _⟩ => rfl)
theorem e157_b (r : Fin 100000) (c : Fin 1) :
    idx_main_v216 (idx_main_v217 (ix2 r c)) = ix1 (0 : Fin 1) :=
  funext fun a => Fin.ext (by match a with | ⟨0, _⟩ => rfl)
theorem e159_b (i : S100000.Idx) :
    idx_main_v219 i = ix2 (i 0) (0 : Fin 1) :=
  funext fun a => Fin.ext (by match a with | ⟨0, _⟩ => exact Nat.div_one _ | ⟨1, _⟩ => rfl)
end Idxb

/-! ## Branch b: the stages at an index -/
section Stagesb
variable (x1 : (⟨S100000x512, .f32⟩ : BufTy).Contents (Elt Ideal)) (x3 : (⟨S2x600000, .i32⟩ : BufTy).Contents (Elt Ideal)) (x6 : (⟨S512x256, .f32⟩ : BufTy).Contents (Elt Ideal)) (x7 : (⟨S256, .f32⟩ : BufTy).Contents (Elt Ideal)) (x11 : (⟨S256x128, .f32⟩ : BufTy).Contents (Elt Ideal)) (x12 : (⟨S128, .f32⟩ : BufTy).Contents (Elt Ideal)) (x13 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))

/-- The aggregation layer at row `r`, column `j`: the mean's row times the left weights, plus the bias, plus the
    node's own row times the right weights, clamped below at zero. -/
theorem sage_b (r : Fin 100000) (j : Fin 128) :
    val_main_v186 (F := Ideal) x1 x3 x6 x7 x11 x12 x13 (ix2 r j)
      = max ((∑ k : Fin 256, val_main_v179 (F := Ideal) x1 x3 x6 x7 (ix2 r k) * x11 (ix2 k j)) + x12 (ix1 j)
              + ∑ k : Fin 256, val_main_v160 (F := Ideal) x1 x3 x6 x7 (ix2 r k) * x13 (ix2 k j)) (Ideal.ofBits .f32 0x00000000#32) := by
  rw [val_main_v186_apply, val_main_v185_apply, val_main_v183_apply, val_main_v180_apply, val_main_v182_apply, val_main_v181_apply, val_main_v184_apply,
    val_main_call5_v0_apply, val_main_call5_cst_apply]
  simp only [Ideal.addf_def, Ideal.subf_def, Ideal.mulf_def, Ideal.maximumf_def, Ideal.hostDivf_def, Ideal.hostUnary_rsqrt_def, Ideal.ofBits_def, e120l_b, e120r_b, e122_b, e124l_b, e124r_b]

/-- The first dense layer of the head at row `r`, column `j`. -/
theorem lin_b (r : Fin 100000) (j : Fin 128) :
    val_main_v190 (F := Ideal) x1 x3 x6 x7 x11 x12 x13 x14 x15 (ix2 r j)
      = (∑ k : Fin 128, val_main_v186 (F := Ideal) x1 x3 x6 x7 x11 x12 x13 (ix2 r k) * x14 (ix2 k j)) + x15 (ix1 j) := by
  rw [val_main_v190_apply, val_main_v187_apply, val_main_v189_apply, val_main_v188_apply]
  simp only [Ideal.addf_def, Ideal.subf_def, Ideal.mulf_def, Ideal.maximumf_def, Ideal.hostDivf_def, Ideal.hostUnary_rsqrt_def, Ideal.ofBits_def, e127l_b, e127r_b, e129_b]

/-- The row mean of the dense layer's output: the row's sum over the 128 columns divided by 128. -/
theorem mean_b (r : Fin 100000) :
    val_main_v194 (F := Ideal) x1 x3 x6 x7 x11 x12 x13 x14 x15 (ix2 r (0 : Fin 1))
      = Ideal.div (∑ k : Fin 128, val_main_v190 (F := Ideal) x1 x3 x6 x7 x11 x12 x13 x14 x15 (ix2 r k)) (Ideal.ofBits .f32 0x43000000#32) := by
  rw [val_main_v194_apply, val_main_v192_apply, val_main_v191_apply, val_main_v193_apply, val_main_cst_39_apply, val_main_cst_40_apply]
  simp only [Ideal.addf_def, Ideal.subf_def, Ideal.mulf_def, Ideal.maximumf_def, Ideal.hostDivf_def, Ideal.hostUnary_rsqrt_def, Ideal.ofBits_def, Ideal.ofBits_zero_f32, zero_add, e132_b, e131_b]

/-- The centred square at row `r`, column `k`. -/
theorem sq_b (r : Fin 100000) (k : Fin 128) :
    val_main_v197 (F := Ideal) x1 x3 x6 x7 x11 x12 x13 x14 x15 (ix2 r k)
      = (val_main_v190 (F := Ideal) x1 x3 x6 x7 x11 x12 x13 x14 x15 (ix2 r k) - val_main_v194 (F := Ideal) x1 x3 x6 x7 x11 x12 x13 x14 x15 (ix2 r (0 : Fin 1)))
          * (val_main_v190 (F := Ideal) x1 x3 x6 x7 x11 x12 x13 x14 x15 (ix2 r k) - val_main_v194 (F := Ideal) x1 x3 x6 x7 x11 x12 x13 x14 x15 (ix2 r (0 : Fin 1))) := by
  rw [val_main_v197_apply, val_main_v196_apply, val_main_v195_apply]
  simp only [Ideal.addf_def, Ideal.subf_def, Ideal.mulf_def, Ideal.maximumf_def, Ideal.hostDivf_def, Ideal.hostUnary_rsqrt_def, Ideal.ofBits_def, e135_b]

/-- The row variance: the sum of the centred squares divided by 128. -/
theorem var_b (r : Fin 100000) :
    val_main_v201 (F := Ideal) x1 x3 x6 x7 x11 x12 x13 x14 x15 (ix2 r (0 : Fin 1))
      = Ideal.div (∑ k : Fin 128, (val_main_v190 (F := Ideal) x1 x3 x6 x7 x11 x12 x13 x14 x15 (ix2 r k) - val_main_v194 (F := Ideal) x1 x3 x6 x7 x11 x12 x13 x14 x15 (ix2 r (0 : Fin 1)))
          * (val_main_v190 (F := Ideal) x1 x3 x6 x7 x11 x12 x13 x14 x15 (ix2 r k) - val_main_v194 (F := Ideal) x1 x3 x6 x7 x11 x12 x13 x14 x15 (ix2 r (0 : Fin 1)))) (Ideal.ofBits .f32 0x43000000#32) := by
  rw [val_main_v201_apply, val_main_v199_apply, val_main_v198_apply, val_main_v200_apply, val_main_cst_41_apply, val_main_cst_42_apply]
  simp only [Ideal.addf_def, Ideal.subf_def, Ideal.mulf_def, Ideal.maximumf_def, Ideal.hostDivf_def, Ideal.hostUnary_rsqrt_def, Ideal.ofBits_def, Ideal.ofBits_zero_f32, zero_add, e139_b, e138_b, sq_b]

/-- The normalized, scaled and shifted row at column `j`. -/
theorem ln_b (r : Fin 100000) (j : Fin 128) :
    val_main_v214 (F := Ideal) x1 x3 x6 x7 x11 x12 x13 x14 x15 x16 x17 (ix2 r j)
      = (val_main_v190 (F := Ideal) x1 x3 x6 x7 x11 x12 x13 x14 x15 (ix2 r j) - val_main_v194 (F := Ideal) x1 x3 x6 x7 x11 x12 x13 x14 x15 (ix2 r (0 : Fin 1)))
          * Ideal.rsqrt (val_main_v201 (F := Ideal) x1 x3 x6 x7 x11 x12 x13 x14 x15 (ix2 r (0 : Fin 1)) + Ideal.ofBits .f32 0x3727C5AC#32)
          * x16 (ix1 j) + x17 (ix1 j) := by
  rw [val_main_v214_apply, val_main_v211_apply, val_main_v208_apply, val_main_v203_apply, val_main_v202_apply, val_main_v207_apply, val_main_v206_apply, val_main_v205_apply, val_main_v204_apply, val_main_cst_43_apply,
    val_main_v210_apply, val_main_v209_apply, val_main_v213_apply, val_main_v212_apply]
  simp only [Ideal.addf_def, Ideal.subf_def, Ideal.mulf_def, Ideal.maximumf_def, Ideal.hostDivf_def, Ideal.hostUnary_rsqrt_def, Ideal.ofBits_def, e142_b, e147_b, e150_b, e153_b]

/-- The head's output at node `i`: the normalized row times the output column, plus the output bias. -/
theorem out_b (i : S100000.Idx) :
    val_main_v219 (F := Ideal) x1 x3 x6 x7 x11 x12 x13 x14 x15 x16 x17 x18 x19 i
      = (∑ k : Fin 128, val_main_v214 (F := Ideal) x1 x3 x6 x7 x11 x12 x13 x14 x15 x16 x17 (ix2 (i 0) k) * x18 (ix2 k (0 : Fin 1))) + x19 (ix1 (0 : Fin 1)) := by
  rw [val_main_v219_apply, val_main_v218_apply, val_main_v215_apply, val_main_v217_apply, val_main_v216_apply]
  simp only [Ideal.addf_def, Ideal.subf_def, Ideal.mulf_def, Ideal.maximumf_def, Ideal.hostDivf_def, Ideal.hostUnary_rsqrt_def, Ideal.ofBits_def, e159_b, e155l_b (i 0), e155r_b (i 0), e157_b (i 0)]
  exact congrArg₂ (· + ·)
    (Finset.sum_congr rfl fun k _ => congrArg₂ (· * ·) (congrArg _ (e155l_b (i 0) 0 k)) rfl)
    (congrArg x19 (e157_b (i 0) 0))

end Stagesb

end Cert.ReferenceIdeal.RefValue
-- ==== Proof.RefHead.lean ====
/-
  The reference's two head branches are the per-row specification: the result %159 (and %219) at node `i` is
  `Spec.headRow` of row `i 0` of the mean %119 (%179) and of the features %100 (%160), with the weights read
  by coordinates.
-/
import proofs.«149613_j7086696039015_2_alg».proof.Proof.RefHeadStages
import proofs.«149613_j7086696039015_2_alg».proof.Proof.SpecSage

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## Branch a: the stages as rows of the specification -/
section Rowsa
variable (x0 : (⟨S100000x512, .f32⟩ : BufTy).Contents (Elt Ideal)) (x1 : (⟨S100000x512, .f32⟩ : BufTy).Contents (Elt Ideal)) (x2 : (⟨S2x600000, .i32⟩ : BufTy).Contents (Elt Ideal)) (x3 : (⟨S2x600000, .i32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))

/-- Row `r` of the aggregation layer is the specification's row. -/
theorem sage_row_a (r : Fin 100000) :
    (fun k : Fin 128 => val_main_v126 (F := Ideal) x0 x1 x2 x3 x4 x5 x6 x7 x8 x9 x10 (ix2 r k))
      = Spec.sageRow (fun l : Fin 256 => val_main_v119 (F := Ideal) x0 x1 x2 x3 x4 x5 x6 x7 (ix2 r l))
          (fun l : Fin 256 => val_main_v100 (F := Ideal) x0 x1 x2 x3 x4 x5 x6 x7 (ix2 r l))
          (fun (l : Fin 256) (k : Fin 128) => x8 (ix2 l k)) (fun (l : Fin 256) (k : Fin 128) => x10 (ix2 l k)) (fun k : Fin 128 => x9 (ix1 k)) :=
  funext fun k => sage_a x0 x1 x2 x3 x4 x5 x6 x7 x8 x9 x10 r k

/-- Row `r` of the first dense layer is the specification's, of the aggregation layer's row. -/
theorem lin_row_a (r : Fin 100000) :
    (fun q : Fin 128 => val_main_v130 (F := Ideal) x0 x1 x2 x3 x4 x5 x6 x7 x8 x9 x10 x14 x15 (ix2 r q))
      = Spec.lin1Row (fun k : Fin 128 => val_main_v126 (F := Ideal) x0 x1 x2 x3 x4 x5 x6 x7 x8 x9 x10 (ix2 r k))
          (fun (k q : Fin 128) => x14 (ix2 k q)) (fun q : Fin 128 => x15 (ix1 q)) :=
  funext fun q => lin_a x0 x1 x2 x3 x4 x5 x6 x7 x8 x9 x10 x14 x15 r q

/-- The row mean is the specification's. -/
theorem mu_row_a (r : Fin 100000) :
    val_main_v134 (F := Ideal) x0 x1 x2 x3 x4 x5 x6 x7 x8 x9 x10 x14 x15 (ix2 r (0 : Fin 1)) = Spec.muRow (fun q : Fin 128 => val_main_v130 (F := Ideal) x0 x1 x2 x3 x4 x5 x6 x7 x8 x9 x10 x14 x15 (ix2 r q)) :=
  mean_a x0 x1 x2 x3 x4 x5 x6 x7 x8 x9 x10 x14 x15 r

/-- The row variance is the specification's. -/
theorem var_row_a (r : Fin 100000) :
    val_main_v141 (F := Ideal) x0 x1 x2 x3 x4 x5 x6 x7 x8 x9 x10 x14 x15 (ix2 r (0 : Fin 1)) = Spec.varRow (fun q : Fin 128 => val_main_v130 (F := Ideal) x0 x1 x2 x3 x4 x5 x6 x7 x8 x9 x10 x14 x15 (ix2 r q)) := by
  rw [var_a, mu_row_a]
  rfl

/-- Row `r` after normalization is the specification's. -/
theorem ln_row_a (r : Fin 100000) :
    (fun q : Fin 128 => val_main_v154 (F := Ideal) x0 x1 x2 x3 x4 x5 x6 x7 x8 x9 x10 x14 x15 x16 x17 (ix2 r q))
      = Spec.lnRow (fun q : Fin 128 => val_main_v130 (F := Ideal) x0 x1 x2 x3 x4 x5 x6 x7 x8 x9 x10 x14 x15 (ix2 r q)) (fun q : Fin 128 => x16 (ix1 q)) (fun q : Fin 128 => x17 (ix1 q)) := by
  funext q
  rw [ln_a, mu_row_a, var_row_a]
  rfl

/-- The branch's result at node `i` is the specification's head of row `i 0`. -/
theorem head_a :
    val_main_v159 (F := Ideal) x0 x1 x2 x3 x4 x5 x6 x7 x8 x9 x10 x14 x15 x16 x17 x18 x19
      = fun i => Spec.headRow (fun l : Fin 256 => val_main_v119 (F := Ideal) x0 x1 x2 x3 x4 x5 x6 x7 (ix2 (i 0) l))
          (fun l : Fin 256 => val_main_v100 (F := Ideal) x0 x1 x2 x3 x4 x5 x6 x7 (ix2 (i 0) l))
          (fun (l : Fin 256) (k : Fin 128) => x8 (ix2 l k)) (fun k : Fin 128 => x9 (ix1 k))
          (fun (l : Fin 256) (k : Fin 128) => x10 (ix2 l k))
          (fun (k q : Fin 128) => x14 (ix2 k q)) (fun q : Fin 128 => x15 (ix1 q))
          (fun q : Fin 128 => x16 (ix1 q)) (fun q : Fin 128 => x17 (ix1 q))
          (fun q : Fin 128 => x18 (ix2 q (0 : Fin 1))) (x19 (ix1 (0 : Fin 1))) := by
  funext i
  have h1 := sage_row_a x0 x1 x2 x3 x4 x5 x6 x7 x8 x9 x10 (i 0)
  have h2 := lin_row_a x0 x1 x2 x3 x4 x5 x6 x7 x8 x9 x10 x14 x15 (i 0)
  have h3 := ln_row_a x0 x1 x2 x3 x4 x5 x6 x7 x8 x9 x10 x14 x15 x16 x17 (i 0)
  rw [h1] at h2
  rw [h2] at h3
  rw [out_a]
  exact congrArg (fun hn : Fin 128 → EReal => Spec.lin2Row hn (fun q : Fin 128 => x18 (ix2 q (0 : Fin 1))) (x19 (ix1 (0 : Fin 1)))) h3

end Rowsa

/-! ## Branch b: the stages as rows of the specification -/
section Rowsb
variable (x1 : (⟨S100000x512, .f32⟩ : BufTy).Contents (Elt Ideal)) (x3 : (⟨S2x600000, .i32⟩ : BufTy).Contents (Elt Ideal)) (x6 : (⟨S512x256, .f32⟩ : BufTy).Contents (Elt Ideal)) (x7 : (⟨S256, .f32⟩ : BufTy).Contents (Elt Ideal)) (x11 : (⟨S256x128, .f32⟩ : BufTy).Contents (Elt Ideal)) (x12 : (⟨S128, .f32⟩ : BufTy).Contents (Elt Ideal)) (x13 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))

/-- Row `r` of the aggregation layer is the specification's row. -/
theorem sage_row_b (r : Fin 100000) :
    (fun k : Fin 128 => val_main_v186 (F := Ideal) x1 x3 x6 x7 x11 x12 x13 (ix2 r k))
      = Spec.sageRow (fun l : Fin 256 => val_main_v179 (F := Ideal) x1 x3 x6 x7 (ix2 r l))
          (fun l : Fin 256 => val_main_v160 (F := Ideal) x1 x3 x6 x7 (ix2 r l))
          (fun (l : Fin 256) (k : Fin 128) => x11 (ix2 l k)) (fun (l : Fin 256) (k : Fin 128) => x13 (ix2 l k)) (fun k : Fin 128 => x12 (ix1 k)) :=
  funext fun k => sage_b x1 x3 x6 x7 x11 x12 x13 r k

/-- Row `r` of the first dense layer is the specification's, of the aggregation layer's row. -/
theorem lin_row_b (r : Fin 100000) :
    (fun q : Fin 128 => val_main_v190 (F := Ideal) x1 x3 x6 x7 x11 x12 x13 x14 x15 (ix2 r q))
      = Spec.lin1Row (fun k : Fin 128 => val_main_v186 (F := Ideal) x1 x3 x6 x7 x11 x12 x13 (ix2 r k))
          (fun (k q : Fin 128) => x14 (ix2 k q)) (fun q : Fin 128 => x15 (ix1 q)) :=
  funext fun q => lin_b x1 x3 x6 x7 x11 x12 x13 x14 x15 r q

/-- The row mean is the specification's. -/
theorem mu_row_b (r : Fin 100000) :
    val_main_v194 (F := Ideal) x1 x3 x6 x7 x11 x12 x13 x14 x15 (ix2 r (0 : Fin 1)) = Spec.muRow (fun q : Fin 128 => val_main_v190 (F := Ideal) x1 x3 x6 x7 x11 x12 x13 x14 x15 (ix2 r q)) :=
  mean_b x1 x3 x6 x7 x11 x12 x13 x14 x15 r

/-- The row variance is the specification's. -/
theorem var_row_b (r : Fin 100000) :
    val_main_v201 (F := Ideal) x1 x3 x6 x7 x11 x12 x13 x14 x15 (ix2 r (0 : Fin 1)) = Spec.varRow (fun q : Fin 128 => val_main_v190 (F := Ideal) x1 x3 x6 x7 x11 x12 x13 x14 x15 (ix2 r q)) := by
  rw [var_b, mu_row_b]
  rfl

/-- Row `r` after normalization is the specification's. -/
theorem ln_row_b (r : Fin 100000) :
    (fun q : Fin 128 => val_main_v214 (F := Ideal) x1 x3 x6 x7 x11 x12 x13 x14 x15 x16 x17 (ix2 r q))
      = Spec.lnRow (fun q : Fin 128 => val_main_v190 (F := Ideal) x1 x3 x6 x7 x11 x12 x13 x14 x15 (ix2 r q)) (fun q : Fin 128 => x16 (ix1 q)) (fun q : Fin 128 => x17 (ix1 q)) := by
  funext q
  rw [ln_b, mu_row_b, var_row_b]
  rfl

/-- The branch's result at node `i` is the specification's head of row `i 0`. -/
theorem head_b :
    val_main_v219 (F := Ideal) x1 x3 x6 x7 x11 x12 x13 x14 x15 x16 x17 x18 x19
      = fun i => Spec.headRow (fun l : Fin 256 => val_main_v179 (F := Ideal) x1 x3 x6 x7 (ix2 (i 0) l))
          (fun l : Fin 256 => val_main_v160 (F := Ideal) x1 x3 x6 x7 (ix2 (i 0) l))
          (fun (l : Fin 256) (k : Fin 128) => x11 (ix2 l k)) (fun k : Fin 128 => x12 (ix1 k))
          (fun (l : Fin 256) (k : Fin 128) => x13 (ix2 l k))
          (fun (k q : Fin 128) => x14 (ix2 k q)) (fun q : Fin 128 => x15 (ix1 q))
          (fun q : Fin 128 => x16 (ix1 q)) (fun q : Fin 128 => x17 (ix1 q))
          (fun q : Fin 128 => x18 (ix2 q (0 : Fin 1))) (x19 (ix1 (0 : Fin 1))) := by
  funext i
  have h1 := sage_row_b x1 x3 x6 x7 x11 x12 x13 (i 0)
  have h2 := lin_row_b x1 x3 x6 x7 x11 x12 x13 x14 x15 (i 0)
  have h3 := ln_row_b x1 x3 x6 x7 x11 x12 x13 x14 x15 x16 x17 (i 0)
  rw [h1] at h2
  rw [h2] at h3
  rw [out_b]
  exact congrArg (fun hn : Fin 128 → EReal => Spec.lin2Row hn (fun q : Fin 128 => x18 (ix2 q (0 : Fin 1))) (x19 (ix1 (0 : Fin 1)))) h3

end Rowsb

end Cert.ReferenceIdeal.RefValue
-- ==== Proof.RefTail.lean ====
/-
  The reference's two neighbour means and its closing average as closed expressions of their inputs, and its two
  head branches as the whole-array specification: what the kernel program's host stretches and regions are
  compared with, operation for operation.
-/
import proofs.«149613_j7086696039015_2_alg».proof.Proof.RefHead

set_option maxRecDepth 16384

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The neighbour mean -/

/-- The mean of the rows `X[src e]` over the edges `e` with `dst e = r`, row by row: gather the source rows (a negative
    index counted from the end), scatter-add them at the destinations, and divide by the number of incoming edges,
    at least one. -/
def meanOf (X : (⟨S100000x256, .f32⟩ : BufTy).Contents (Elt Ideal)) (src dst : (⟨S600000, .i32⟩ : BufTy).Contents (Elt Ideal)) :
    (⟨S100000x256, .f32⟩ : BufTy).Contents (Elt Ideal) :=
  Host.divf (F := Ideal)
    (Host.scatterAdd (F := Ideal) scatter_S100000x256_S600000x1_S600000x256_1_0_0_1
      (broadcastInDim S100000x256 ![] bcast_S_S100000x256 (constant (F := Ideal) S_ .f32 0x00000000#32))
      (broadcastInDim S600000x1 ![0] bcast_S600000_S600000x1_0 dst)
      (Host.gather gather_S100000x256_S600000x1_S600000x256_1_0_n_n_0_1_1256 X
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x256 ![0, 1] bcast_S100000x1_S100000x256_0_1
      (broadcastInDim S100000x1 ![0] bcast_S100000_S100000x1_0
        (maximumf
          (Host.scatterAdd (F := Ideal) scatter_S100000_S600000x1_S600000_n_0_0_1
            (broadcastInDim S100000 ![] bcast_S_S100000 (constant (F := Ideal) S_ .f32 0x00000000#32))
            (broadcastInDim S600000x1 ![0] bcast_S600000_S600000x1_0 dst)
            (broadcastInDim S600000 ![] bcast_S_S600000 (constant (F := Ideal) S_ .f32 0x3F800000#32)))
          (broadcastInDim S100000 ![] bcast_S_S100000 (constant (F := Ideal) S_ .f32 0x3F800000#32)))))

/-- The first branch's mean is the neighbour mean of the first graph's features along its edges. -/
theorem v119_eq (x0 : (⟨S100000x512, .f32⟩ : BufTy).Contents (Elt Ideal)) (x1 : (⟨S100000x512, .f32⟩ : BufTy).Contents (Elt Ideal)) (x2 : (⟨S2x600000, .i32⟩ : BufTy).Contents (Elt Ideal)) (x3 : (⟨S2x600000, .i32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) :
    val_main_v119 (F := Ideal) x0 x1 x2 x3 x4 x5 x6 x7 = meanOf (val_main_v100 (F := Ideal) x0 x1 x2 x3 x4 x5 x6 x7) (val_main_v1 (F := Ideal) x2) (val_main_v3 (F := Ideal) x2) := rfl

/-- The second branch's mean is the neighbour mean of the second graph's features along its edges. -/
theorem v179_eq (x1 : (⟨S100000x512, .f32⟩ : BufTy).Contents (Elt Ideal)) (x3 : (⟨S2x600000, .i32⟩ : BufTy).Contents (Elt Ideal)) (x6 : (⟨S512x256, .f32⟩ : BufTy).Contents (Elt Ideal)) (x7 : (⟨S256, .f32⟩ : BufTy).Contents (Elt Ideal)) :
    val_main_v179 (F := Ideal) x1 x3 x6 x7 = meanOf (val_main_v160 (F := Ideal) x1 x3 x6 x7) (val_main_v5 (F := Ideal) x3) (val_main_v7 (F := Ideal) x3) := rfl

/-! ## The closing average -/

/-- The average of the two branches' 200000 outputs, as a 1×1 array. -/
def tailOf (a b : (⟨S100000, .f32⟩ : BufTy).Contents (Elt Ideal)) : (⟨S1x1, .f32⟩ : BufTy).Contents (Elt Ideal) :=
  broadcastInDim S1x1 ![] bcast_S_S1x1
    (Host.divf (F := Ideal)
      (Host.reduceAdd (F := Ideal)
        (concatenate S200000 0 [⟨S100000, a⟩, ⟨S100000, b⟩] concatenates_S100000_S100000_S200000_d0)
        (constant (F := Ideal) S_ .f32 0x00000000#32) reducesTo_S200000_S_d0 h_S_)
      (constant (F := Ideal) S_ .f32 0x48435000#32))

/-- The reference's result is the closing average of its two branches. -/
theorem v223_eq (x0 : (⟨S100000x512, .f32⟩ : BufTy).Contents (Elt Ideal)) (x1 : (⟨S100000x512, .f32⟩ : BufTy).Contents (Elt Ideal)) (x2 : (⟨S2x600000, .i32⟩ : BufTy).Contents (Elt Ideal)) (x3 : (⟨S2x600000, .i32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S256x128, .f32⟩ : BufTy).Contents (Elt Ideal)) (x12 : (⟨S128, .f32⟩ : BufTy).Contents (Elt Ideal)) (x13 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal)) :
    val_main_v223 (F := Ideal) x0 x1 x2 x3 x4 x5 x6 x7 x8 x9 x10 x11 x12 x13 x14 x15 x16 x17 x18 x19 = tailOf (val_main_v159 (F := Ideal) x0 x1 x2 x3 x4 x5 x6 x7 x8 x9 x10 x14 x15 x16 x17 x18 x19) (val_main_v219 (F := Ideal) x1 x3 x6 x7 x11 x12 x13 x14 x15 x16 x17 x18 x19) := rfl

/-! ## Reshapes of one row or one column at an index -/

/-- A vector read as a one-row array. -/
theorem sc_row_apply {α : Type} (x : S128.Idx → α) (h : S128.ShapeCasts S1x128) (k : Fin 128) :
    shapeCast S1x128 x h (ix2 (0 : Fin 1) k) = x (ix1 k) :=
  shapeCast_apply x h (ix2 (0 : Fin 1) k) (ix1 k) (by
    rewrite [Shape.rowMajor_val_one, Shape.rowMajor_val_two]; show k.val = 0 * 128 + k.val; omega)

/-- A one-element vector read as a 1×1 array. -/
theorem sc_one_apply {α : Type} (x : S1.Idx → α) (h : S1.ShapeCasts S1x1) :
    shapeCast S1x1 x h (ix2 (0 : Fin 1) (0 : Fin 1)) = x (ix1 (0 : Fin 1)) :=
  shapeCast_apply x h (ix2 (0 : Fin 1) (0 : Fin 1)) (ix1 (0 : Fin 1)) (by
    rewrite [Shape.rowMajor_val_one, Shape.rowMajor_val_two]; show 0 = 0 * 1 + 0; omega)

/-- A one-column array read as a vector. -/
theorem sc_col_apply {α : Type} (y : S100000x1.Idx → α) (h : S100000x1.ShapeCasts S100000) (i : S100000.Idx) :
    shapeCast S100000 y h i = y (ix2 (i 0) (0 : Fin 1)) :=
  shapeCast_apply y h i (ix2 (i 0) (0 : Fin 1)) (by
    rewrite [Shape.rowMajor_val_one, Shape.rowMajor_val_two]; show (i 0).val * 1 + 0 = (i 0).val; omega)

/-- The whole-array specification at a row. -/
theorem headArr_at {n : Nat} (MEAN X : (⟨2, ![n, 256]⟩ : Shape).Idx → EReal)
    (WL : (⟨2, ![256, 128]⟩ : Shape).Idx → EReal) (BL : (⟨2, ![1, 128]⟩ : Shape).Idx → EReal)
    (WR : (⟨2, ![256, 128]⟩ : Shape).Idx → EReal) (WM1 : (⟨2, ![128, 128]⟩ : Shape).Idx → EReal)
    (BM1 LNW LNB : (⟨2, ![1, 128]⟩ : Shape).Idx → EReal) (WM2 : (⟨2, ![128, 1]⟩ : Shape).Idx → EReal)
    (BM2 : (⟨2, ![1, 1]⟩ : Shape).Idx → EReal) (r : Fin n) :
    Spec.headArr MEAN X WL BL WR WM1 BM1 LNW LNB WM2 BM2 (ix2 r (0 : Fin 1))
      = Spec.headRow (fun l => MEAN (ix2 r l)) (fun l => X (ix2 r l)) (fun l k => WL (ix2 l k))
          (fun k => BL (ix2 (0 : Fin 1) k)) (fun l k => WR (ix2 l k)) (fun k q => WM1 (ix2 k q))
          (fun q => BM1 (ix2 (0 : Fin 1) q)) (fun q => LNW (ix2 (0 : Fin 1) q)) (fun q => LNB (ix2 (0 : Fin 1) q))
          (fun q => WM2 (ix2 q (0 : Fin 1))) (BM2 (ix2 (0 : Fin 1) (0 : Fin 1))) := rfl

/-! ## The two branches as the whole-array specification -/

/-- The first branch's output vector is the one-column specification array read as a vector, the biases and the
    scale and shift read as one-row arrays. -/
theorem head_a_arr (x0 : (⟨S100000x512, .f32⟩ : BufTy).Contents (Elt Ideal)) (x1 : (⟨S100000x512, .f32⟩ : BufTy).Contents (Elt Ideal)) (x2 : (⟨S2x600000, .i32⟩ : BufTy).Contents (Elt Ideal)) (x3 : (⟨S2x600000, .i32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))
    (h128 : S128.ShapeCasts S1x128) (h1 : S1.ShapeCasts S1x1) (hout : S100000x1.ShapeCasts S100000) :
    val_main_v159 (F := Ideal) x0 x1 x2 x3 x4 x5 x6 x7 x8 x9 x10 x14 x15 x16 x17 x18 x19
      = shapeCast S100000 (Spec.headArr (n := 100000) (val_main_v119 (F := Ideal) x0 x1 x2 x3 x4 x5 x6 x7) (val_main_v100 (F := Ideal) x0 x1 x2 x3 x4 x5 x6 x7) x8 (shapeCast S1x128 x9 h128) x10 x14 (shapeCast S1x128 x15 h128) (shapeCast S1x128 x16 h128) (shapeCast S1x128 x17 h128) x18 (shapeCast S1x1 x19 h1)) hout := by
  rw [head_a]
  funext i
  rw [sc_col_apply]
  refine Eq.trans ?_ (headArr_at _ _ _ _ _ _ _ _ _ _ _ (i 0)).symm
  simp only [sc_row_apply, sc_one_apply]
  rfl

/-- The second branch's output vector, likewise. -/
theorem head_b_arr (x1 : (⟨S100000x512, .f32⟩ : BufTy).Contents (Elt Ideal)) (x3 : (⟨S2x600000, .i32⟩ : BufTy).Contents (Elt Ideal)) (x6 : (⟨S512x256, .f32⟩ : BufTy).Contents (Elt Ideal)) (x7 : (⟨S256, .f32⟩ : BufTy).Contents (Elt Ideal)) (x11 : (⟨S256x128, .f32⟩ : BufTy).Contents (Elt Ideal)) (x12 : (⟨S128, .f32⟩ : BufTy).Contents (Elt Ideal)) (x13 : (⟨S256x128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal))
    (h128 : S128.ShapeCasts S1x128) (h1 : S1.ShapeCasts S1x1) (hout : S100000x1.ShapeCasts S100000) :
    val_main_v219 (F := Ideal) x1 x3 x6 x7 x11 x12 x13 x14 x15 x16 x17 x18 x19
      = shapeCast S100000 (Spec.headArr (n := 100000) (val_main_v179 (F := Ideal) x1 x3 x6 x7) (val_main_v160 (F := Ideal) x1 x3 x6 x7) x11 (shapeCast S1x128 x12 h128) x13 x14 (shapeCast S1x128 x15 h128) (shapeCast S1x128 x16 h128) (shapeCast S1x128 x17 h128) x18 (shapeCast S1x1 x19 h1)) hout := by
  rw [head_b]
  funext i
  rw [sc_col_apply]
  refine Eq.trans ?_ (headArr_at _ _ _ _ _ _ _ _ _ _ _ (i 0)).symm
  simp only [sc_row_apply, sc_one_apply]
  rfl

end Cert.ReferenceIdeal.RefValue
-- ==== Proof.ChainTail.lean ====
/- The kernel program's returned array is the reference's, given that the two feature arrays the third region
   leaves are the reference's two GCN outputs: from there on the two programs spell the same host expressions
   (the neighbour mean, the one-row views of the biases, the closing average) around the same whole-array
   specification of the fused head, so the two sides meet term by term. -/
import proofs.«149613_j7086696039015_2_alg».proof.Proof.ChainTailK
import proofs.«149613_j7086696039015_2_alg».proof.Proof.RefTail

set_option maxRecDepth 16384

noncomputable section

namespace Cert.ChainTail

open Idealize.ShloMosaic Idealize.ShloMosaic.TcCoe Idealize.SL.Sem
open Cert.KernelIdeal

/-! ## The two programs' host expressions are the same terms -/

/-- Row 0 of an edge list is the reference's first source vector. -/
theorem edgeRow0_v1 (E : (⟨S2x600000, .i32⟩ : BufTy).Contents (Elt Ideal)) :
    Head.edgeRow0 E = Cert.ReferenceIdeal.ReadP.val_main_v1 (F := Ideal) E := rfl
/-- Row 1 of an edge list is the reference's first target vector. -/
theorem edgeRow1_v3 (E : (⟨S2x600000, .i32⟩ : BufTy).Contents (Elt Ideal)) :
    Head.edgeRow1 E = Cert.ReferenceIdeal.ReadP.val_main_v3 (F := Ideal) E := rfl
/-- Row 0 of an edge list is the reference's second source vector. -/
theorem edgeRow0_v5 (E : (⟨S2x600000, .i32⟩ : BufTy).Contents (Elt Ideal)) :
    Head.edgeRow0 E = Cert.ReferenceIdeal.ReadP.val_main_v5 (F := Ideal) E := rfl
/-- Row 1 of an edge list is the reference's second target vector. -/
theorem edgeRow1_v7 (E : (⟨S2x600000, .i32⟩ : BufTy).Contents (Elt Ideal)) :
    Head.edgeRow1 E = Cert.ReferenceIdeal.ReadP.val_main_v7 (F := Ideal) E := rfl

/-- The kernel program's mean aggregation is the reference's neighbour mean: the same gather, the same two
    scatter-adds, the same clamp and quotient, with the two programs' own (equal) dimension records. -/
theorem kMean_eq (X : (⟨S100000x256, .f32⟩ : BufTy).Contents (Elt Ideal))
    (s d : (⟨S600000, .i32⟩ : BufTy).Contents (Elt Ideal)) : Tail.kMean X s d = Cert.ReferenceIdeal.RefValue.meanOf X s d := rfl

/-- The kernel program's closing average is the reference's, on the two columns read as vectors. -/
theorem kTail_eq (u v : (⟨S100000x1, .f32⟩ : BufTy).Contents (Elt Ideal))
    (h : Cert.ReferenceIdeal.S100000x1.ShapeCasts Cert.ReferenceIdeal.S100000) :
    Tail.kTail u v = Cert.ReferenceIdeal.RefValue.tailOf (shapeCast Cert.ReferenceIdeal.S100000 u h) (shapeCast Cert.ReferenceIdeal.S100000 v h) := rfl

/-! ## The returned array -/

variable (m : (ℓ : Loc nD τ sig) → Buf (Elt Ideal) ℓ) (ρ : Dev nD → PrngReg)

/-- THE TAIL: if the two feature arrays at the third region's exit are the reference's two GCN outputs, the
    kernel program's returned array is the reference's result. -/
theorem tail_eq (c : Dev nD)
    (hx0 : Gen.W5 (F := Ideal) m ρ c (Proc.devRef .tc main_v48_0) = (Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))))
    (hg1 : Gen.W5 (F := Ideal) m ρ c (Proc.devRef .tc main_v48_1) = (Cert.ReferenceIdeal.ReadP.val_main_v160 (F := Ideal) (m ((c : Thread nD τ).loc main_arg1)) (m ((c : Thread nD τ).loc main_arg3)) (m ((c : Thread nD τ).loc main_arg6)) (m ((c : Thread nD τ).loc main_arg7)))) :
    Gen.W10 (F := Ideal) m ρ c (Proc.devRef .tc main_v104)
      = Cert.ReferenceIdeal.ReadP.val_main_v223 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have h128 : Cert.ReferenceIdeal.S128.ShapeCasts Cert.ReferenceIdeal.S1x128 := by decide
  have h1 : Cert.ReferenceIdeal.S1.ShapeCasts Cert.ReferenceIdeal.S1x1 := by decide
  have hout : Cert.ReferenceIdeal.S100000x1.ShapeCasts Cert.ReferenceIdeal.S100000 := by decide
  rw [Tail.tail_kernel m ρ c, hx0, hg1]
  rw [Cert.ReferenceIdeal.RefValue.v223_eq,
    Cert.ReferenceIdeal.RefValue.head_a_arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) h128 h1 hout,
    Cert.ReferenceIdeal.RefValue.head_b_arr (m ((c : Thread nD τ).loc main_arg1)) (m ((c : Thread nD τ).loc main_arg3)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) h128 h1 hout,
    Cert.ReferenceIdeal.RefValue.v119_eq, Cert.ReferenceIdeal.RefValue.v179_eq]
  rw [kTail_eq _ _ hout, kMean_eq, kMean_eq, edgeRow0_v1, edgeRow1_v3, edgeRow0_v5 (m ((c : Thread nD τ).loc main_arg3)), edgeRow1_v7 (m ((c : Thread nD τ).loc main_arg3))]
  rfl

end Cert.ChainTail

end
-- ==== Proof.lean ====
/-
  The certificate of a two-graph graph-convolution network head: a Pallas program of five grid launches (two scaled
  matrix products, one fused combine of both convolution branches, two fused neighbour-mean / multilayer-perceptron
  heads) among host gathers and scatter-adds, against its plain jnp reference.

  At the ideal instance floats are extended reals and every format change is the identity, so the two programs differ
  in one place only.  The reference scatters, over the real edges AND one appended self-loop per node, the messages
  xw[s] · (dis[s] · dis[d]); the kernel scatters over the real edges only the pre-scaled rows xw[s] · dis[s], and adds
  the self-loop and the factor dis[d] densely: dis_i · (agg_i + xw_i · dis_i).  The node degree counts the self-loop,
  so it is a natural number plus one: its inverse square root dis_i is a non-negative real, and a non-negative finite
  factor distributes over sums of extended reals — no finiteness of the features is needed.  Everything after the
  convolutions (neighbour means, the three matrix products, the layer normalisation, the final mean) is the same
  arithmetic on both sides, the kernel's row blocks of a thousand nodes tiling the node axis.

  The three frames: the two kernel programs' are the generated frame certificates; the reference has no launch, so its
  frame is its run with the result dropped.  The ideal pass rewrote nothing, so `preserves` is `True`.
-/
import proofs.«149613_j7086696039015_2_alg».proof.Defs
import proofs.«149613_j7086696039015_2_alg».proof.Proof.Gen.Kernel
import proofs.«149613_j7086696039015_2_alg».proof.Proof.Gen.Kernel.Frame
import proofs.«149613_j7086696039015_2_alg».proof.Proof.Gen.KernelIdeal
import proofs.«149613_j7086696039015_2_alg».proof.Proof.Gen.KernelIdeal.Frame
import proofs.«149613_j7086696039015_2_alg».proof.Proof.Gen.ReferenceIdeal
import proofs.«149613_j7086696039015_2_alg».proof.Proof.Gen.Pre_finite_inputs
import proofs.«149613_j7086696039015_2_alg».proof.Proof.RefRunThmS
import proofs.«149613_j7086696039015_2_alg».proof.Proof.RefReadP
import proofs.«149613_j7086696039015_2_alg».proof.Proof.KRun
import proofs.«149613_j7086696039015_2_alg».proof.Proof.ChainHeadEq
import proofs.«149613_j7086696039015_2_alg».proof.Proof.ChainTail
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no launch: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueS.run (F := Ideal) m ρ)

/-- Both programs end with one result: the kernel's is the last segment boundary's contents of its result buffer, the
    reference's its last stage of the argument arrays; from memories agreeing on the arguments they are equal. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W10 (F := Ideal) m ρ c (Proc.devRef .tc Cert.KernelIdeal.main_v104),
    Cert.KernelIdeal.RunNamed.run_named (F := Ideal) m ρ, ?_⟩
  refine (θ_run Cert.ReferenceIdeal.defs _ _).mono (fun r h c => ⟨(h c).1.trans ?_, (h c).2⟩)
    (Cert.ReferenceIdeal.ValueS.run (F := Ideal) m' ρ')
  obtain ⟨h0, h1, h2, h3, h4, h5, h6, h7, h8, h9, h10, h11, h12, h13, h14, h15, h16, h17, h18, h19⟩ := hagree c
  rw [Cert.ReferenceIdeal.ReadP.val_main_v223_eq, h0, h1, h2, h3, h4, h5, h6, h7, h8, h9, h10, h11, h12, h13, h14, h15, h16, h17, h18, h19]
  exact (Cert.ChainTail.tail_eq m ρ c (Cert.KernelIdeal.Head.head_eq m ρ c).1 (Cert.KernelIdeal.Head.head_eq m ρ c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
